-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v14_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S18x1024 : Shape := ⟨2, ![18, 1024]⟩
abbrev S50257x1024 : Shape := ⟨2, ![50257, 1024]⟩
abbrev S18x2048 : Shape := ⟨2, ![18, 2048]⟩
abbrev S18 : Shape := ⟨1, ![18]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S18x1024 : S_.BroadcastsInDim S18x1024 (![] : Fin 0 → Fin S18x1024.rank)
  reducesTo_S18x1024_S_d0_1 : S18x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S18x2048 : S_.BroadcastsInDim S18x2048 (![] : Fin 0 → Fin S18x2048.rank)
  reducesTo_S18x2048_S_d0_1 : S18x2048.ReducesTo [0, 1] S_
  bcast_S_S18 : S_.BroadcastsInDim S18 (![] : Fin 0 → Fin S18.rank)
  reducesTo_S18_S_d0 : S18.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  main_v63

def fn_part2 {F : FTy → Type} [FloatOps F] (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg12 main_arg13 main_v48 main_v49 main_v50

def fn_part1 {F : FTy → Type} [FloatOps F] (main_arg5 : FVec F S18 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S18x2048 1) : IVec S_ 1 :=
  let main_c_5 : IVec S_ 1 := constantI S_ 1 1#1
  let main_v17 : IVec S_ 1 := (fun x v => Host.reduce IntOp.andi x v reducesTo_S18x2048_S_d0_1 h_S_) main_v16 main_c_5
  let main_v18 : IVec S_ 1 := andi main_v13 main_v17
  let main_v19 : FVec F S18 .f32 := Host.absf main_arg5
  let main_cst_6 : FVec F S_ .f32 := constant S_ .f32 0x7F800000#32
  let main_v20 : FVec F S18 .f32 := broadcastInDim S18 ![] bcast_S_S18 main_cst_6
  let main_v21 : IVec S18 1 := cmpf .olt main_v19 main_v20
  let main_c_7 : IVec S_ 1 := constantI S_ 1 1#1
  let main_v22 : IVec S_ 1 := (fun x v => Host.reduce IntOp.andi x v reducesTo_S18_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1 32) (main_arg1 : FVec F S1x1x1024 .f32) (main_arg2 : FVec F S18x1024 .f32) (main_arg3 : FVec F S50257x1024 .f32) (main_arg4 : FVec F S18x2048 .f32) (main_arg5 : FVec F S18 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S18x1024 .f32 := Host.absf main_arg2
  let main_cst_0 : FVec F S_ .f32 := constant S_ .f32 0x7F800000#32
  let main_v5 : FVec F S18x1024 .f32 := broadcastInDim S18x1024 ![] bcast_S_S18x1024 main_cst_0
  let main_v6 : IVec S18x1024 1 := cmpf .olt main_v4 main_v5
  let main_c_1 : IVec S_ 1 := constantI S_ 1 1#1
  let main_v7 : IVec S_ 1 := (fun x v => Host.reduce IntOp.andi x v reducesTo_S18x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S18x2048 .f32 := Host.absf main_arg4
  let main_cst_4 : FVec F S_ .f32 := constant S_ .f32 0x7F800000#32
  let main_v15 : FVec F S18x2048 .f32 := broadcastInDim S18x2048 ![] bcast_S_S18x2048 main_cst_4
  let main_v16 : IVec S18x2048 1 := cmpf .olt main_v14 main_v15
  fn_part1 (F := F) main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S18x1024 : Shape := ⟨2, ![18, 1024]⟩
abbrev S50257x1024 : Shape := ⟨2, ![50257, 1024]⟩
abbrev S18x2048 : Shape := ⟨2, ![18, 2048]⟩
abbrev S18 : Shape := ⟨1, ![18]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1024 : Shape := ⟨2, ![1, 1024]⟩
abbrev S1x18 : Shape := ⟨2, ![1, 18]⟩
abbrev S1x3072 : Shape := ⟨2, ![1, 3072]⟩
abbrev S1x2048 : Shape := ⟨2, ![1, 2048]⟩
abbrev S2048x18 : Shape := ⟨2, ![2048, 18]⟩
abbrev S1x1 : Shape := ⟨2, ![1, 1]⟩
abbrev S2048x1024 : Shape := ⟨2, ![2048, 1024]⟩
abbrev S1024x3072 : Shape := ⟨2, ![1024, 3072]⟩
abbrev S1x50257 : Shape := ⟨2, ![1, 50257]⟩
abbrev S4096x1024 : Shape := ⟨2, ![4096, 1024]⟩
abbrev S1x4096 : Shape := ⟨2, ![1, 4096]⟩
abbrev S1024x4096 : Shape := ⟨2, ![1024, 4096]⟩

abbrev nBuf : Space → Nat
  | .hbm => 43
  | .vmem => 24
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S18x1024, .f32⟩
  | .hbm, ⟨3, _⟩ => ⟨S50257x1024, .f32⟩
  | .hbm, ⟨4, _⟩ => ⟨S18x2048, .f32⟩
  | .hbm, ⟨5, _⟩ => ⟨S18, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1x1024, .f32⟩
  | .hbm, ⟨22, _⟩ => ⟨S1x1024, .f32⟩
  | .hbm, ⟨23, _⟩ => ⟨S18x2048, .bf16⟩
  | .hbm, ⟨24, _⟩ => ⟨S1024x2048, .bf16⟩
  | .hbm, ⟨25, _⟩ => ⟨S3072x1024, .bf16⟩
  | .hbm, ⟨26, _⟩ => ⟨S3072x1024, .bf16⟩
  | .hbm, ⟨27, _⟩ => ⟨S1x18, .f32⟩
  | .hbm, ⟨28, _⟩ => ⟨S1x1024, .f32⟩
  | .hbm, ⟨29, _⟩ => ⟨S1x3072, .f32⟩
  | .hbm, ⟨30, _⟩ => ⟨S1x3072, .f32⟩
  | .hbm, ⟨31, _⟩ => ⟨S1x1024, .f32⟩
  | .hbm, ⟨32, _⟩ => ⟨S1x18, .f32⟩
  | .hbm, ⟨33, _⟩ => ⟨S1x50257, .f32⟩
  | .hbm, ⟨34, _⟩ => ⟨S1x50257, .f32⟩
  | .hbm, ⟨35, _⟩ => ⟨S1x1, .f32⟩
  | .hbm, ⟨36, _⟩ => ⟨S1x1, .f32⟩
  | .hbm, ⟨37, _⟩ => ⟨S1x50257, .f32⟩
  | .hbm, ⟨38, _⟩ => ⟨S1x50257, .f32⟩
  | .hbm, ⟨39, _⟩ => ⟨S1x1, .f32⟩
  | .hbm, ⟨40, _⟩ => ⟨S1x50257, .f32⟩
  | .hbm, ⟨41, _⟩ => ⟨S1x50257, .f32⟩
  | .hbm, ⟨42, _⟩ => ⟨S1x1x1024, .f32⟩
  | .local _ .vmem, ⟨0, _⟩ => ⟨S1x1024, .f32⟩
  | .local _ .vmem, ⟨1, _⟩ => ⟨S1x1024, .f32⟩
  | .local _ .vmem, ⟨2, _⟩ => ⟨S18x1024, .f32⟩
  | .local _ .vmem, ⟨3, _⟩ => ⟨S18x2048, .bf16⟩
  | .local _ .vmem, ⟨4, _⟩ => ⟨S1x18, .f32⟩
  | .local _ .vmem, ⟨5, _⟩ => ⟨S1024x2048, .bf16⟩
  | .local _ .vmem, ⟨6, _⟩ => ⟨S1x1024, .f32⟩
  | .local _ .vmem, ⟨7, _⟩ => ⟨S3072x1024, .bf16⟩
  | .local _ .vmem, ⟨8, _⟩ => ⟨S3072x1024, .bf16⟩
  | .local _ .vmem, ⟨9, _⟩ => ⟨S1x3072, .f32⟩
  | .local _ .vmem, ⟨10, _⟩ => ⟨S1x3072, .f32⟩
  | .local _ .vmem, ⟨11, _⟩ => ⟨S1x1024, .f32⟩
  | .local _ .vmem, ⟨12, _⟩ => ⟨S1x18, .f32⟩
  | .local _ .vmem, ⟨13, _⟩ => ⟨S1x1024, .f32⟩
  | .local _ .vmem, ⟨14, _⟩ => ⟨S4096x1024, .f32⟩
  | .local _ .vmem, ⟨15, _⟩ => ⟨S4096x1024, .f32⟩
  | .local _ .vmem, ⟨16, _⟩ => ⟨S1x4096, .f32⟩
  | .local _ .vmem, ⟨17, _⟩ => ⟨S1x4096, .f32⟩
  | .local _ .vmem, ⟨18, _⟩ => ⟨S1x4096, .f32⟩
  | .local _ .vmem, ⟨19, _⟩ => ⟨S1x4096, .f32⟩
  | .local _ .vmem, ⟨20, _⟩ => ⟨S1x1, .f32⟩
  | .local _ .vmem, ⟨21, _⟩ => ⟨S1x1, .f32⟩
  | .local _ .vmem, ⟨22, _⟩ => ⟨S1x1, .f32⟩
  | .local _ .vmem, ⟨23, _⟩ => ⟨S1x1, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_c_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_v15 : Ref sig .tc := ⟨.hbm, 33, rfl⟩
abbrev main_v16_0 : Ref sig .tc := ⟨.hbm, 34, rfl⟩
abbrev main_v16_1 : Ref sig .tc := ⟨.hbm, 35, rfl⟩
abbrev main_v16_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc1_sem0_0 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S18x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S18x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x18 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3072x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x18 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev grid1 : Pipeline.Grid := ⟨1, ![13], ![false]⟩

def k1_cond2 (i : grid1.Coords) : BitVec 1 :=
  let arg0 : BitVec 32 := BitVec.ofNat 32 (i 0).val
  let c12_i32 : BitVec 32 := 12#32
  let v42 : BitVec 1 := Scalar.cmpi .eq arg0 c12_i32
  let v43 : BitVec 32 := Scalar.extui v42
  let c0_i32_19 : BitVec 32 := 0#32
  let v44 : BitVec 1 := Scalar.cmpi .ne v43 c0_i32_19
  v44

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  shapeCasts_S1_S_ : S1.ShapeCasts S_
  sliceFits_S50257x1024_S1x1024 : S50257x1024.Slices (fun _ => 0) S1x1024
  h_S_ : 0 < S_.numel
  shapeCasts_S1x1x1024_S1x1024 : S1x1x1024.ShapeCasts S1x1024
  bitsLt_bf16_f32 : FTy.bits .bf16 < FTy.bits .f32
  shapeCasts_S18_S1x18 : S18.ShapeCasts S1x18
  shapeCasts_S1024_S1x1024 : S1024.ShapeCasts S1x1024
  shapeCasts_S3072_S1x3072 : S3072.ShapeCasts S1x3072
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  concatenates_S1x1024_S1x1024_S1x2048_d1 : Shape.Concatenates [S1x1024, S1x1024] S1x2048 1
  inb_S18x2048_S18x2048_0_0 : ∀ a, (![0, 0] : Fin 2 → Nat) a + S18x2048.size a ≤ S18x2048.size a
  h_S18x2048 : 0 < S18x2048.numel
  shapeCasts_S18x2048_S18x2048 : S18x2048.ShapeCasts S18x2048
  transposes_S18x2048_p1_0_S2048x18 : S18x2048.Transposes [1, 0] S2048x18
  inb_S1x18_S1x18_0_0 : ∀ a, (![0, 0] : Fin 2 → Nat) a + S1x18.size a ≤ S1x18.size a
  h_S1x18 : 0 < S1x18.numel
  shapeCasts_S1x18_S1x18 : S1x18.ShapeCasts S1x18
  reduces_S1x18_S1 : S1x18.Reduces [1] S1
  shapeCasts_S1_S1x1 : S1.ShapeCasts S1x1
  broadcasts_S1x1_S1x18 : S1x1.Broadcasts S1x18
  inb_S18x1024_S18x1024_0_0 : ∀ a, (![0, 0] : Fin 2 → Nat) a + S18x1024.size a ≤ S18x1024.size a
  h_S18x1024 : 0 < S18x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  transposes_S1024x2048_p1_0_S2048x1024 : S1024x2048.Transposes [1, 0] S2048x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  transposes_S3072x1024_p1_0_S1024x3072 : S3072x1024.Transposes [1, 0] S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  slices_S1x3072_o0_0_S1x1024 : S1x3072.Slices ![0, 0] S1x1024
  slices_S1x3072_o0_1024_S1x1024 : S1x3072.Slices ![0, 1024] S1x1024
  slices_S1x3072_o0_2048_S1x1024 : S1x3072.Slices ![0, 2048] S1x1024
  shapeCasts_S50257_S1x50257 : S50257.ShapeCasts S1x50257
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x1024_S4096x1024_0_0 : ∀ a, (![0, 0] : Fin 2 → Nat) a + S4096x1024.size a ≤ S4096x1024.size a
  h_S4096x1024 : 0 < S4096x1024.numel
  transposes_S4096x1024_p1_0_S1024x4096 : S4096x1024.Transposes [1, 0] S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  iota_S1x4096_d1_w32 : S1x4096.Iotas .tc 32 [1]
  reduces_S1x4096_S1 : S1x4096.Reduces [1] S1
  broadcasts_S1x1_S1x4096 : S1x1.Broadcasts S1x4096
  bcast_S1x1_S1x50257_0_1 : S1x1.BroadcastsInDim S1x50257 (![0, 1] : Fin 2 → Fin S1x50257.rank)
  shapeCasts_S1x1024_S1x1x1024 : S1x1024.ShapeCasts S1x1x1024
  dot_S1x2048_S2048x18_S1x18_1_0_0_1_n_n_wf : DotDims.WF S1x2048 S2048x18 S1x18 [1] [0] [0] [1] [] []
  dot_S1x18_S18x1024_S1x1024_1_0_0_1_n_n_wf : DotDims.WF S1x18 S18x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x4096_S1x4096_1_0_0_1_n_n_wf : DotDims.WF S1x1024 S1024x4096 S1x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S18x1024.size a ≤ S18x1024.size a
  hwx0_2 : ∀ i : grid0.Coords, EltTy.bits .f32 = 32 ∨ (Rect.block (s := S18x1024) S18x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S18x2048.size a ≤ S18x2048.size a
  hwx0_3 : ∀ i : grid0.Coords, EltTy.bits .bf16 = 32 ∨ (Rect.block (s := S18x2048) S18x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x18.size a ≤ S1x18.size a
  hwx0_4 : ∀ i : grid0.Coords, EltTy.bits .f32 = 32 ∨ (Rect.block (s := S1x18) S1x18.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .bf16 = 32 ∨ (Rect.block (s := S1024x2048) S1024x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3072x1024.size a ≤ S3072x1024.size a
  hwx0_7 : ∀ i : grid0.Coords, EltTy.bits .bf16 = 32 ∨ (Rect.block (s := S3072x1024) S3072x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3072x1024.size a ≤ S3072x1024.size a
  hwx0_8 : ∀ i : grid0.Coords, EltTy.bits .bf16 = 32 ∨ (Rect.block (s := S3072x1024) S3072x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x3072.size a ≤ S1x3072.size a
  hwx0_9 : ∀ i : grid0.Coords, EltTy.bits .f32 = 32 ∨ (Rect.block (s := S1x3072) S1x3072.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x3072.size a ≤ S1x3072.size a
  hwx0_10 : ∀ i : grid0.Coords, EltTy.bits .f32 = 32 ∨ (Rect.block (s := S1x3072) S1x3072.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x18.size a ≤ S1x18.size a
  hwx0_12 : ∀ i : grid0.Coords, EltTy.bits .f32 = 32 ∨ (Rect.block (s := S1x18) S1x18.size (cc0_transform_12 i) (hinb0_12 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S4096x1024.size a < S50257x1024.size a
  hwx1_1 : ∀ i : grid1.Coords, EltTy.bits .f32 = 32 ∨ (Rect.unit (s := S50257x1024) (fun a => cc1_transform_1 i a * S4096x1024.size a) (fun a => (Pipeline.Clip.of (cc1_transform_1 i a) (S4096x1024.size a) (S50257x1024.size a)).extent (S4096x1024.size a)) fun a => Pipeline.Clip.inb (Pipeline.Clip.ok_of (hstart1_1 i a))).WholeWords (EltTy.packing .f32)
  hwxs1_1 : ∀ i : grid1.Coords, EltTy.bits .f32 = 32 ∨ (Rect.unit (s := S4096x1024) (fun _ => 0) (fun a => (Pipeline.Clip.of (cc1_transform_1 i a) (S4096x1024.size a) (S50257x1024.size a)).extent (S4096x1024.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x4096.size a < S1x50257.size a
  hwx1_2 : ∀ i : grid1.Coords, EltTy.bits .f32 = 32 ∨ (Rect.unit (s := S1x50257) (fun a => cc1_transform_2 i a * S1x4096.size a) (fun a => (Pipeline.Clip.of (cc1_transform_2 i a) (S1x4096.size a) (S1x50257.size a)).extent (S1x4096.size a)) fun a => Pipeline.Clip.inb (Pipeline.Clip.ok_of (hstart1_2 i a))).WholeWords (EltTy.packing .f32)
  hwxs1_2 : ∀ i : grid1.Coords, EltTy.bits .f32 = 32 ∨ (Rect.unit (s := S1x4096) (fun _ => 0) (fun a => (Pipeline.Clip.of (cc1_transform_2 i a) (S1x4096.size a) (S1x50257.size a)).extent (S1x4096.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1x4096.size a < S1x50257.size a
  hwx1_3 : ∀ i : grid1.Coords, EltTy.bits .f32 = 32 ∨ (Rect.unit (s := S1x50257) (fun a => cc1_transform_3 i a * S1x4096.size a) (fun a => (Pipeline.Clip.of (cc1_transform_3 i a) (S1x4096.size a) (S1x50257.size a)).extent (S1x4096.size a)) fun a => Pipeline.Clip.inb (Pipeline.Clip.ok_of (hstart1_3 i a))).WholeWords (EltTy.packing .f32)
  hwxs1_3 : ∀ i : grid1.Coords, EltTy.bits .f32 = 32 ∨ (Rect.unit (s := S1x4096) (fun _ => 0) (fun a => (Pipeline.Clip.of (cc1_transform_3 i a) (S1x4096.size a) (S1x50257.size a)).extent (S1x4096.size a)) fun a => (Nat.zero_add _).trans_le (Pipeline.Clip.extent_le (Pipeline.Clip.ok_of (hstart1_3 i a)))).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)

variable [Facts₀]

def dot_S1x2048_S2048x18_S1x18_1_0_0_1_n_n : DotDims S1x2048 S2048x18 S1x18 where
  lhsContracting := [1]
  rhsContracting := [0]
  lhsNonContracting := [0]
  rhsNonContracting := [1]
  lhsBatch := []
  rhsBatch := []
  wf := dot_S1x2048_S2048x18_S1x18_1_0_0_1_n_n_wf
def dot_S1x18_S18x1024_S1x1024_1_0_0_1_n_n : DotDims S1x18 S18x1024 S1x1024 where
  lhsContracting := [1]
  rhsContracting := [0]
  lhsNonContracting := [0]
  rhsNonContracting := [1]
  lhsBatch := []
  rhsBatch := []
  wf := dot_S1x18_S18x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x4096_S1x4096_1_0_0_1_n_n : DotDims S1x1024 S1024x4096 S1x4096 where
  lhsContracting := [1]
  rhsContracting := [0]
  lhsNonContracting := [0]
  rhsNonContracting := [1]
  lhsBatch := []
  rhsBatch := []
  wf := dot_S1x1024_S1024x4096_S1x4096_1_0_0_1_n_n_wf

abbrev win0_0 : Pipeline.Window sig grid0 :=
  Pipeline.Window.ofSpec (Memref.whole main_v4) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S18x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S18x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x18.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S3072x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S3072x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1x3072.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x3072.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14_0) S1x1024.size cc0_transform_11 reads0_11 true true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14_1) S1x18.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v14_0) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg12) S4096x1024.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v15) S1x4096.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v16_0) S1x4096.size cc1_transform_3 reads1_3 true false 2 stage1_3 sem1_3
    hrank1 hreads1_3 hstart1_3 nbuf1_3 (Memref.isWhole_whole _) hwx1_3 hwxs1_3 hstage1_3

abbrev win1_4 : Pipeline.Window sig grid1 :=
  Pipeline.Window.ofSpec (Memref.whole main_v16_1) S1x1.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16_2) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

class Facts : Prop extends Facts₀ where

variable [Facts]
-- ==== ReferenceIdeal.lean ====
abbrev S1 : Shape := ⟨1, ![1]⟩
abbrev S1x1x1024 : Shape := ⟨3, ![1, 1, 1024]⟩
abbrev S18x1024 : Shape := ⟨2, ![18, 1024]⟩
abbrev S50257x1024 : Shape := ⟨2, ![50257, 1024]⟩
abbrev S18x2048 : Shape := ⟨2, ![18, 2048]⟩
abbrev S18 : Shape := ⟨1, ![18]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1024 : Shape := ⟨2, ![1, 1024]⟩
abbrev S1x2048 : Shape := ⟨2, ![1, 2048]⟩
abbrev S2048x18 : Shape := ⟨2, ![2048, 18]⟩
abbrev S1x18 : Shape := ⟨2, ![1, 18]⟩
abbrev S1x1 : Shape := ⟨2, ![1, 1]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 121
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S18x1024, .f32⟩
  | .hbm, ⟨3, _⟩ => ⟨S50257x1024, .f32⟩
  | .hbm, ⟨4, _⟩ => ⟨S18x2048, .f32⟩
  | .hbm, ⟨5, _⟩ => ⟨S18, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1x1024, .f32⟩
  | .hbm, ⟨32, _⟩ => ⟨S1x2048, .f32⟩
  | .hbm, ⟨33, _⟩ => ⟨S2048x18, .f32⟩
  | .hbm, ⟨34, _⟩ => ⟨S1x18, .f32⟩
  | .hbm, ⟨35, _⟩ => ⟨S1x18, .f32⟩
  | .hbm, ⟨36, _⟩ => ⟨S1x18, .f32⟩
  | .hbm, ⟨37, _⟩ => ⟨S_, .f32⟩
  | .hbm, ⟨38, _⟩ => ⟨S1, .f32⟩
  | .hbm, ⟨39, _⟩ => ⟨S_, .f32⟩
  | .hbm, ⟨40, _⟩ => ⟨S1, .f32⟩
  | .hbm, ⟨41, _⟩ => ⟨S1, .f32⟩
  | .hbm, ⟨42, _⟩ => ⟨S1x1, .f32⟩
  | .hbm, ⟨43, _⟩ => ⟨S1x18, .f32⟩
  | .hbm, ⟨44, _⟩ => ⟨S1x18, .f32⟩
  | .hbm, ⟨45, _⟩ => ⟨S1x18, .f32⟩
  | .hbm, ⟨46, _⟩ => ⟨S_, .f32⟩
  | .hbm, ⟨47, _⟩ => ⟨S1, .f32⟩
  | .hbm, ⟨48, _⟩ => ⟨S1x1, .f32⟩
  | .hbm, ⟨49, _⟩ => ⟨S1x18, .f32⟩
  | .hbm, ⟨50, _⟩ => ⟨S1x18, .f32⟩
  | .hbm, ⟨51, _⟩ => ⟨S1x1024, .f32⟩
  | .hbm, ⟨52, _⟩ => ⟨S1x2048, .f32⟩
  | .hbm, ⟨53, _⟩ => ⟨S2048x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S1024x3072, .f32⟩
  | .hbm, ⟨61, _⟩ => ⟨S1x3072, .f32⟩
  | .hbm, ⟨62, _⟩ => ⟨S1x3072, .f32⟩
  | .hbm, ⟨63, _⟩ => ⟨S1x3072, .f32⟩
  | .hbm, ⟨64, _⟩ => ⟨S1024x3072, .f32⟩
  | .hbm, ⟨65, _⟩ => ⟨S1x3072, .f32⟩
  | .hbm, ⟨66, _⟩ => ⟨S1x3072, .f32⟩
  | .hbm, ⟨67, _⟩ => ⟨S1x3072, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S_, .f32⟩
  | .hbm, ⟨78, _⟩ => ⟨S1x1024, .f32⟩
  | .hbm, ⟨79, _⟩ => ⟨S1x1024, .f32⟩
  | .hbm, ⟨80, _⟩ => ⟨S_, .f32⟩
  | .hbm, ⟨81, _⟩ => ⟨S1x1024, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S_, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S_, .f32⟩
  | .hbm, ⟨96, _⟩ => ⟨S1x1024, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S1x1024, .f32⟩
  | .hbm, ⟨101, _⟩ => ⟨S1024x50257, .f32⟩
  | .hbm, ⟨102, _⟩ => ⟨S1x50257, .f32⟩
  | .hbm, ⟨103, _⟩ => ⟨S1x50257, .f32⟩
  | .hbm, ⟨104, _⟩ => ⟨S1x50257, .f32⟩
  | .hbm, ⟨105, _⟩ => ⟨S_, .f32⟩
  | .hbm, ⟨106, _⟩ => ⟨S1, .f32⟩
  | .hbm, ⟨107, _⟩ => ⟨S_, .f32⟩
  | .hbm, ⟨108, _⟩ => ⟨S1, .f32⟩
  | .hbm, ⟨109, _⟩ => ⟨S1, .f32⟩
  | .hbm, ⟨110, _⟩ => ⟨S1x1, .f32⟩
  | .hbm, ⟨111, _⟩ => ⟨S1x50257, .f32⟩
  | .hbm, ⟨112, _⟩ => ⟨S1x50257, .f32⟩
  | .hbm, ⟨113, _⟩ => ⟨S1x50257, .f32⟩
  | .hbm, ⟨114, _⟩ => ⟨S_, .f32⟩
  | .hbm, ⟨115, _⟩ => ⟨S1, .f32⟩
  | .hbm, ⟨116, _⟩ => ⟨S1x1, .f32⟩
  | .hbm, ⟨117, _⟩ => ⟨S1x1, .f32⟩
  | .hbm, ⟨118, _⟩ => ⟨S1x50257, .f32⟩
  | .hbm, ⟨119, _⟩ => ⟨S1x50257, .f32⟩
  | .hbm, ⟨120, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_c_1 : Ref sig .tc := ⟨.hbm, 20, rfl⟩
abbrev main_c_2 : Ref sig .tc := ⟨.hbm, 21, rfl⟩
abbrev main_v4 : Ref sig .tc := ⟨.hbm, 22, rfl⟩
abbrev main_c_3 : Ref sig .tc := ⟨.hbm, 23, rfl⟩
abbrev main_c_4 : Ref sig .tc := ⟨.hbm, 24, rfl⟩
abbrev main_v5 : Ref sig .tc := ⟨.hbm, 25, rfl⟩
abbrev main_c_5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_cst_6 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_7 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call0_cst : Ref sig .tc := ⟨.hbm, 57, rfl⟩
abbrev main_call0_v0 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call1_cst : Ref sig .tc := ⟨.hbm, 105, rfl⟩
abbrev main_call1_v0 : Ref sig .tc := ⟨.hbm, 106, rfl⟩
abbrev main_call1_cst_0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_call1_v5 : Ref sig .tc := ⟨.hbm, 112, rfl⟩
abbrev main_call1_v6 : Ref sig .tc := ⟨.hbm, 113, rfl⟩
abbrev main_call1_cst_1 : Ref sig .tc := ⟨.hbm, 114, rfl⟩
abbrev main_call1_v7 : Ref sig .tc := ⟨.hbm, 115, rfl⟩
abbrev main_call1_v8 : Ref sig .tc := ⟨.hbm, 116, rfl⟩
abbrev main_call1_v9 : Ref sig .tc := ⟨.hbm, 117, rfl⟩
abbrev main_call1_v10 : Ref sig .tc := ⟨.hbm, 118, rfl⟩
abbrev main_v74 : Ref sig .tc := ⟨.hbm, 119, rfl⟩
abbrev main_v75 : Ref sig .tc := ⟨.hbm, 120, rfl⟩

abbrev nD : Nat := 1
abbrev τ : Topo := Topo.v7x

variable {F : FTy → Type} [FloatOps F]

class Facts₀ : Prop where
  shapeCasts_S1_S_ : S1.ShapeCasts S_
  sliceFits_S50257x1024_S1x1024 : S50257x1024.Slices (fun _ => 0) S1x1024
  h_S_ : 0 < S_.numel
  shapeCasts_S1x1024_S1024 : S1x1024.ShapeCasts S1024
  bcast_S1024_S1x1024_1 : S1024.BroadcastsInDim S1x1024 (![1] : Fin 1 → Fin S1x1024.rank)
  shapeCasts_S1x1x1024_S1x1024 : S1x1x1024.ShapeCasts S1x1024
  concatenates_S1x1024_S1x1024_S1x2048_d1 : Shape.Concatenates [S1x1024, S1x1024] S1x2048 1
  transposes_S18x2048_S2048x18_1_0 : S18x2048.Transposes [1, 0] S2048x18
  bcast_S18_S1x18_1 : S18.BroadcastsInDim S1x18 (![1] : Fin 1 → Fin S1x18.rank)
  reducesTo_S1x18_S1_d1 : S1x18.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x18_0_1 : S1x1.BroadcastsInDim S1x18 (![0, 1] : Fin 2 → Fin S1x18.rank)
  transposes_S1024x2048_S2048x1024_1_0 : S1024x2048.Transposes [1, 0] S2048x1024
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  dot_S1x2048_S2048x18_S1x18_1_0_0_1_n_n_wf : DotDims.WF S1x2048 S2048x18 S1x18 [1] [0] [0] [1] [] []
  dot_S1x18_S18x1024_S1x1024_1_0_0_1_n_n_wf : DotDims.WF S1x18 S18x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def dot_S1x2048_S2048x18_S1x18_1_0_0_1_n_n : DotDims S1x2048 S2048x18 S1x18 where
  lhsContracting := [1]
  rhsContracting := [0]
  lhsNonContracting := [0]
  rhsNonContracting := [1]
  lhsBatch := []
  rhsBatch := []
  wf := dot_S1x2048_S2048x18_S1x18_1_0_0_1_n_n_wf
def dot_S1x18_S18x1024_S1x1024_1_0_0_1_n_n : DotDims S1x18 S18x1024 S1x1024 where
  lhsContracting := [1]
  rhsContracting := [0]
  lhsNonContracting := [0]
  rhsNonContracting := [1]
  lhsBatch := []
  rhsBatch := []
  wf := dot_S1x18_S18x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.RefClaims.lean ====
import proofs.«160432_j12232066859333_1_alg».proof.Defs
import proofs.«160432_j12232066859333_1_alg».proof.Proof.Gen.KernelIdeal

/-!
The idealized kernel differs from the kernel in one constant: the fill of the padded vocabulary columns, the
binary32 word of -1e30, is read as minus infinity (`⊥`) — the neutral element of the running maximum, and the
entry whose exponential is `0`, so that a padded column adds nothing to the running sum.
-/

noncomputable section

open Idealize.ShloMosaic

namespace Cert.Proof.RefClaims

/-- The one rewritten constant: the table gives the fill's name the value `⊥`. -/
theorem preserves : Cert.preserves_Kernel_KernelIdeal :=
  IdealRules.named_const.statement Cert.KernelIdeal.κ "neg_big" .f32 0xF149F2CA#32 ⊥ rfl

end Cert.Proof.RefClaims

end
-- ==== Proof.LibOnlineSoftmax.lean ====
import Mathlib
import Idealize.ShloMosaic.PureOps.Ideal

/-!
# The online softmax on the extended reals

A softmax over a long axis can be computed tile by tile with a running maximum and a running, rescaled
normaliser. This file states those recurrences on the extended reals (the running maximum starts at
`⊥`, the running sum at `0`) for logits that are finite reals, and proves that they compute the plain
softmax:

* the running maximum after tile `n` is a real, the supremum of every entry of tiles `0 … n`;
* the running sum after tile `n` is a positive real, the sum over those entries of `exp (entry - maximum)`;
* an entry's stored exponential, rescaled from its tile's maximum to the last one and divided by the last
  sum, is the softmax quotient.

It also re-indexes a flat axis of `T * R` entries into `T` tiles of `R`, joins the two, and collects the closure
properties of "is a finite real" on the extended reals.
-/

noncomputable section

namespace Cert.OnlineSoftmax

open Idealize.ShloMosaic
open scoped BigOperators

/-! ### Coercion helpers -/

/-- The coercion of the reals into the extended reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The exponential of a difference of two reals. -/
theorem exp_coe_sub (a b : ℝ) :
    Ideal.exp ((a : EReal) - (b : EReal)) = ((Real.exp (a - b) : ℝ) : EReal) := by
  rw [← EReal.coe_sub]; rfl

/-- `x` is a finite real. -/
def IsReal (x : EReal) : Prop := ∃ r : ℝ, x = (r : EReal)

/-! ### The recurrences -/

section Online

variable {R : ℕ} (l : ℕ → Fin R → ℝ)

/-- The maximum of tile `i`. -/
def tmax (i : ℕ) : EReal := Finset.univ.sup fun r : Fin R => ((l i r : ℝ) : EReal)

/-- The running maximum: `⊥` before the first tile, then the larger of itself and each tile's maximum. -/
def mrun : ℕ → EReal
  | 0 => max ⊥ (tmax l 0)
  | i + 1 => max (mrun i) (tmax l (i + 1))

/-- The sum over tile `i` of the exponentials taken against the running maximum at that tile. -/
def tsum (i : ℕ) : EReal := ∑ r : Fin R, Ideal.exp ((l i r : EReal) - mrun l i)

/-- The running sum: `0` before the first tile, then itself rescaled to the new maximum plus the tile's sum. -/
def srun : ℕ → EReal
  | 0 => 0 * Ideal.exp (⊥ - mrun l 0) + tsum l 0
  | i + 1 => srun i * Ideal.exp (mrun l i - mrun l (i + 1)) + tsum l (i + 1)

variable [NeZero R]

/-- A tile's maximum is one of its entries. -/
theorem tmax_eq_coe (i : ℕ) : ∃ r₀ : Fin R, tmax l i = ((l i r₀ : ℝ) : EReal) := by
  obtain ⟨r₀, -, h⟩ := Finset.exists_mem_eq_sup Finset.univ Finset.univ_nonempty
    (fun r : Fin R => ((l i r : ℝ) : EReal))
  exact ⟨r₀, h⟩

theorem isReal_tmax (i : ℕ) : IsReal (tmax l i) := by
  obtain ⟨r₀, h⟩ := tmax_eq_coe l i
  exact ⟨l i r₀, h⟩

/-- (1a) The running maximum is a real. -/
theorem isReal_mrun (n : ℕ) : ∃ μ : ℝ, mrun l n = (μ : EReal) := by
  induction n with
  | zero =>
    rw [mrun, max_bot_left]
    exact isReal_tmax l 0
  | succ n ih =>
    obtain ⟨a, ha⟩ := ih
    obtain ⟨b, hb⟩ := isReal_tmax l (n + 1)
    exact ⟨max a b, by rw [mrun, ha, hb, EReal.coe_strictMono.monotone.map_max]⟩

/-- (1b) The running maximum after tile `n` is the supremum of the maxima of tiles `0 … n`. -/
theorem mrun_eq_sup (n : ℕ) : mrun l n = (Finset.range (n + 1)).sup fun i => tmax l i := by
  induction n with
  | zero => rw [mrun, max_bot_left, Finset.range_one, Finset.sup_singleton]
  | succ n ih => rw [mrun, ih, Finset.range_add_one (n := n + 1), Finset.sup_insert, max_comm]

/-- The running maximum as a real number. -/
def mrunR (n : ℕ) : ℝ := (mrun l n).toReal

theorem mrun_eq_coe (n : ℕ) : mrun l n = ((mrunR l n : ℝ) : EReal) := by
  obtain ⟨a, ha⟩ := isReal_mrun l n
  rw [mrunR, ha, EReal.toReal_coe]

/-- The running sum is the coercion of the real sum of the exponentials against the current maximum. -/
theorem srun_eq_coe (n : ℕ) :
    srun l n
      = ((∑ i ∈ Finset.range (n + 1), ∑ r : Fin R, Real.exp (l i r - mrunR l n) : ℝ) : EReal) := by
  induction n with
  | zero =>
    rw [srun, zero_mul, zero_add, tsum, Finset.sum_range_one, coe_sum]
    refine Finset.sum_congr rfl fun r _ => ?_
    rw [mrun_eq_coe, exp_coe_sub]
  | succ n ih =>
    have ht : tsum l (n + 1)
        = ((∑ r : Fin R, Real.exp (l (n + 1) r - mrunR l (n + 1)) : ℝ) : EReal) := by
      rw [tsum, coe_sum, mrun_eq_coe]
      exact Finset.sum_congr rfl fun r _ => exp_coe_sub _ _
    rw [srun, ih, ht, mrun_eq_coe l n, mrun_eq_coe l (n + 1), exp_coe_sub, ← EReal.coe_mul,
      ← EReal.coe_add]
    congr 1
    rw [Finset.sum_range_succ _ (n + 1), Finset.sum_mul]
    congr 1
    refine Finset.sum_congr rfl fun i _ => ?_
    rw [Finset.sum_mul]
    refine Finset.sum_congr rfl fun r _ => ?_
    rw [← Real.exp_add]
    congr 1
    ring

/-- (2a) The running sum after tile `n` is the sum over every entry of tiles `0 … n` of the exponential
    taken against the running maximum after tile `n`: the rescalings telescope. -/
theorem srun_eq_sum (n : ℕ) :
    srun l n
      = ∑ i ∈ Finset.range (n + 1), ∑ r : Fin R, Ideal.exp ((l i r : EReal) - mrun l n) := by
  rw [srun_eq_coe, coe_sum]
  refine Finset.sum_congr rfl fun i _ => ?_
  rw [coe_sum]
  refine Finset.sum_congr rfl fun r _ => ?_
  rw [mrun_eq_coe l n, exp_coe_sub]

/-- (2b) The running sum is a positive real. -/
theorem srun_pos (n : ℕ) : ∃ σ : ℝ, 0 < σ ∧ srun l n = (σ : EReal) :=
  ⟨_, Finset.sum_pos (fun _ _ => Finset.sum_pos (fun _ _ => Real.exp_pos _) Finset.univ_nonempty)
    ⟨0, Finset.mem_range.2 (Nat.succ_pos n)⟩, srun_eq_coe l n⟩

/-- (3) A stored exponential, rescaled from its own tile's running maximum to the last one and divided by
    the last running sum, is the exponential against the last maximum divided by that sum. -/
theorem rescale (j n : ℕ) (r : Fin R) :
    Ideal.exp ((l j r : EReal) - mrun l j)
        * Ideal.div (Ideal.exp (mrun l j - mrun l n)) (srun l n)
      = Ideal.div (Ideal.exp ((l j r : EReal) - mrun l n)) (srun l n) := by
  obtain ⟨σ, hσ, hs⟩ := srun_pos l n
  obtain ⟨a, ha⟩ := isReal_mrun l j
  obtain ⟨b, hb⟩ := isReal_mrun l n
  rw [hs, Ideal.div_coe hσ.ne', Ideal.div_coe hσ.ne', ha, hb, exp_coe_sub, exp_coe_sub, exp_coe_sub,
    ← EReal.coe_mul, ← EReal.coe_mul, ← EReal.coe_mul]
  congr 1
  rw [← mul_assoc, ← Real.exp_add]
  congr 2
  ring

end Online

/-! ### A flat axis as tiles -/

section Tiles

variable {α : Type*} {N T R : ℕ}

/-- Row `r` of tile `i` lies on the flat axis. -/
theorem flat_lt (hN : N = T * R) {i : ℕ} (hi : i < T) (r : Fin R) : R * i + r.val < N := by
  subst hN
  calc R * i + r.val < R * i + R := Nat.add_lt_add_left r.isLt _
    _ = R * (i + 1) := (Nat.mul_succ R i).symm
    _ ≤ R * T := Nat.mul_le_mul_left R hi
    _ = T * R := Nat.mul_comm R T

/-- Row `r` of tile `i` of a flat array of `T * R` entries: the entry at `R * i + r`; past the last tile, the
    default `d`. -/
def tile (hN : N = T * R) (L : Fin N → α) (d : α) (i : ℕ) (r : Fin R) : α :=
  if h : i < T then L ⟨R * i + r.val, flat_lt hN h r⟩ else d

theorem tile_of_lt (hN : N = T * R) (L : Fin N → α) (d : α) {i : ℕ} (hi : i < T) (r : Fin R) :
    tile hN L d i r = L ⟨R * i + r.val, flat_lt hN hi r⟩ := dif_pos hi

/-- A function applied to a tile entry is the tile entry of the composed array. -/
theorem map_tile {β : Type*} (f : α → β) (hN : N = T * R) (L : Fin N → α) (d : α) (i : ℕ) (r : Fin R) :
    f (tile hN L d i r) = tile hN (fun k => f (L k)) (f d) i r := by
  unfold tile
  split <;> rfl

/-- (4a) The supremum over a flat axis is the supremum over the tiles of the tiles' suprema. -/
theorem sup_tile [SemilatticeSup α] [OrderBot α] (hN : N = T * R) (L : Fin N → α) (d : α) :
    Finset.univ.sup L
      = (Finset.range T).sup fun i => Finset.univ.sup fun r : Fin R => tile hN L d i r := by
  subst hN
  apply le_antisymm
  · refine Finset.sup_le fun k _ => ?_
    have hR : 0 < R := by
      rcases Nat.eq_zero_or_pos R with h | h
      · subst h
        exact absurd k.isLt (by simp)
      · exact h
    have hi : k.val / R < T := Nat.div_lt_of_lt_mul (lt_of_lt_of_eq k.isLt (Nat.mul_comm T R))
    refine Finset.le_sup_of_le (Finset.mem_range.2 hi) ?_
    refine Finset.le_sup_of_le (Finset.mem_univ (⟨k.val % R, Nat.mod_lt _ hR⟩ : Fin R)) (le_of_eq ?_)
    rw [tile_of_lt rfl L d hi]
    congr 1
    exact Fin.ext (Nat.div_add_mod k.val R).symm
  · refine Finset.sup_le fun i hi => Finset.sup_le fun r _ => ?_
    rw [tile_of_lt rfl L d (Finset.mem_range.1 hi)]
    exact Finset.le_sup (Finset.mem_univ _)

/-- (4b) A sum over a flat axis is the sum over the tiles of the tiles' sums. -/
theorem sum_tile {β : Type*} [AddCommMonoid β] (hN : N = T * R) (L : Fin N → α) (d : α) (g : α → β) :
    ∑ k : Fin N, g (L k)
      = ∑ i ∈ Finset.range T, ∑ r : Fin R, g (tile hN L d i r) := by
  subst hN
  rw [Finset.sum_range, ← Equiv.sum_comp finProdFinEquiv fun k => g (L k), Fintype.sum_prod_type]
  refine Finset.sum_congr rfl fun i _ => Finset.sum_congr rfl fun r _ => ?_
  rw [tile_of_lt rfl L d i.isLt]
  congr 2
  exact Fin.ext (Nat.add_comm _ _)

end Tiles

/-! ### The online softmax of a flat axis -/

section Join

variable {N R n : ℕ} [NeZero R] (hN : N = (n + 1) * R) (Lr : Fin N → ℝ)

/-- (5a) Over the tiles of a flat array of reals, the last running maximum is the supremum of the array. -/
theorem mrun_flat :
    mrun (tile hN Lr 0) n = Finset.univ.sup fun k : Fin N => ((Lr k : ℝ) : EReal) := by
  rw [mrun_eq_sup, sup_tile hN (fun k : Fin N => ((Lr k : ℝ) : EReal)) ((0 : ℝ) : EReal)]
  refine Finset.sup_congr rfl fun i _ => Finset.sup_congr rfl fun r _ => ?_
  exact map_tile (fun x : ℝ => (x : EReal)) hN Lr 0 i r

/-- (5b) Over the tiles of a flat array of reals, the last running sum is the softmax normaliser of the
    array. -/
theorem srun_flat :
    srun (tile hN Lr 0) n
      = ∑ k : Fin N, Ideal.exp (((Lr k : ℝ) : EReal)
          - Finset.univ.sup fun k : Fin N => ((Lr k : ℝ) : EReal)) := by
  rw [srun_eq_sum, mrun_flat,
    sum_tile hN (fun k : Fin N => ((Lr k : ℝ) : EReal)) ((0 : ℝ) : EReal)
      (fun x => Ideal.exp (x - Finset.univ.sup fun k : Fin N => ((Lr k : ℝ) : EReal)))]
  refine Finset.sum_congr rfl fun i _ => Finset.sum_congr rfl fun r _ => ?_
  exact congrArg (fun x => Ideal.exp (x - Finset.univ.sup fun k : Fin N => ((Lr k : ℝ) : EReal)))
    (map_tile (fun x : ℝ => (x : EReal)) hN Lr 0 i r)

/-- (5c) The online softmax is the softmax: an entry's stored exponential, rescaled to the last running
    maximum and divided by the last running sum, is the exponential against the supremum of the whole array
    divided by the whole array's normaliser. -/
theorem rescale_flat (j : ℕ) (r : Fin R) :
    Ideal.exp (((tile hN Lr 0 j r : ℝ) : EReal) - mrun (tile hN Lr 0) j)
        * Ideal.div
            (Ideal.exp (mrun (tile hN Lr 0) j - Finset.univ.sup fun k : Fin N => ((Lr k : ℝ) : EReal)))
            (∑ k : Fin N, Ideal.exp (((Lr k : ℝ) : EReal)
              - Finset.univ.sup fun k : Fin N => ((Lr k : ℝ) : EReal)))
      = Ideal.div
          (Ideal.exp (((tile hN Lr 0 j r : ℝ) : EReal)
            - Finset.univ.sup fun k : Fin N => ((Lr k : ℝ) : EReal)))
          (∑ k : Fin N, Ideal.exp (((Lr k : ℝ) : EReal)
            - Finset.univ.sup fun k : Fin N => ((Lr k : ℝ) : EReal))) := by
  have h := rescale (tile hN Lr 0) j n r
  rw [mrun_flat hN Lr, srun_flat hN Lr] at h
  exact h

end Join

/-! ### Finite reals: closure -/

section Closure

theorem isReal_coe (r : ℝ) : IsReal (r : EReal) := ⟨r, rfl⟩

theorem isReal_zero : IsReal 0 := ⟨0, rfl⟩

theorem IsReal.coe_toReal {x : EReal} (hx : IsReal x) : ((x.toReal : ℝ) : EReal) = x := by
  obtain ⟨a, rfl⟩ := hx
  rw [EReal.toReal_coe]

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type*} (s : Finset ι) {f : ι → EReal} (hf : ∀ i ∈ s, IsReal (f i)) :
    IsReal (∑ i ∈ s, f i) := by
  classical
  induction s using Finset.induction_on with
  | empty => exact ⟨0, by simp⟩
  | insert a s ha ih =>
    rw [Finset.sum_insert ha]
    exact (hf a (Finset.mem_insert_self a s)).add
      (ih fun i hi => hf i (Finset.mem_insert_of_mem hi))

theorem isReal_max {x y : EReal} (hx : IsReal x) (hy : IsReal y) : IsReal (max x y) := by
  obtain ⟨a, rfl⟩ := hx
  obtain ⟨b, rfl⟩ := hy
  exact ⟨max a b, (EReal.coe_strictMono.monotone.map_max).symm⟩

theorem IsReal.max_zero {x : EReal} (hx : IsReal x) : IsReal (max x 0) := isReal_max hx isReal_zero

theorem IsReal.exp {x : EReal} (hx : IsReal x) : IsReal (Ideal.exp x) := by
  obtain ⟨a, rfl⟩ := hx
  exact ⟨Real.exp a, rfl⟩

/-- Division by a nonzero real keeps a finite real finite. -/
theorem IsReal.div_coe {x : EReal} (hx : IsReal x) {y : ℝ} (hy : y ≠ 0) :
    IsReal (Ideal.div x (y : EReal)) := by
  rw [Ideal.div_coe hy]
  exact hx.mul (isReal_coe _)

/-- The binary32 word `0x41A00000` denotes the real `20`. -/
theorem ofBits_20 : Ideal.ofBits .f32 0x41A00000#32 = ((20 : ℝ) : EReal) := by
  simp [Ideal.ofBits, Ideal.ieee, -EReal.coe_mul]; norm_num

end Closure

end Cert.OnlineSoftmax

end
-- ==== Proof.LibMaskedOnlineSoftmax.lean ====
import Mathlib
import Idealize.ShloMosaic.PureOps.Ideal
import proofs.«160432_j12232066859333_1_alg».proof.Proof.LibOnlineSoftmax

/-!
# The online softmax over tiles with absent entries

A softmax normaliser over a long axis whose length is not a multiple of the tile width can be computed tile by
tile after padding the last tile: a padded position holds `⊥` (minus infinity), which is neutral for the maximum
and contributes `exp ⊥ = 0` to the sum. This file states the running maximum (from `⊥`) and the rescaled running
sum (from `0`) on the extended reals for tiles whose entries are each either a finite real or `⊥`, every tile
holding at least one finite real, and proves

* the running maximum after tile `n` is a real: the supremum of every entry of tiles `0 … n`;
* the running sum after tile `n` is a positive real: the sum over those entries of `exp (entry - maximum)`, the
  rescalings telescoping and the absent entries contributing nothing.

It then cuts a flat axis of `N` reals into `T` tiles of width `R` with `N ≤ T * R`, the positions past `N` absent,
and shows that when every tile starts inside the axis (`R * i < N` for `i < T`) the last running maximum is the
supremum of the whole axis and the last running sum is its softmax normaliser.
-/

noncomputable section

namespace Cert.MaskedOnlineSoftmax

open Idealize.ShloMosaic Cert.OnlineSoftmax
open scoped BigOperators

/-- The exponential of an absent entry taken against anything is `0`: `⊥ - x = ⊥` and `exp ⊥ = 0`. -/
theorem exp_bot_sub (x : EReal) : Ideal.exp ((⊥ : EReal) - x) = 0 := by
  rw [EReal.bot_sub]; rfl

/-! ### The recurrences -/

section Online

variable {R : ℕ} (l : ℕ → Fin R → EReal)

/-- The maximum of tile `i`. -/
def tmax (i : ℕ) : EReal := Finset.univ.sup fun r : Fin R => l i r

/-- The running maximum: `⊥` before the first tile, then the larger of itself and each tile's maximum. -/
def mrun : ℕ → EReal
  | 0 => max ⊥ (tmax l 0)
  | i + 1 => max (mrun i) (tmax l (i + 1))

/-- The sum over tile `i` of the exponentials taken against the running maximum at that tile. -/
def tsum (i : ℕ) : EReal := ∑ r : Fin R, Ideal.exp (l i r - mrun l i)

/-- The running sum: `0` before the first tile, then itself rescaled to the new maximum plus the tile's sum. -/
def srun : ℕ → EReal
  | 0 => 0 * Ideal.exp (⊥ - mrun l 0) + tsum l 0
  | i + 1 => srun i * Ideal.exp (mrun l i - mrun l (i + 1)) + tsum l (i + 1)

/-- Every entry is absent (`⊥`) or a finite real, and every tile holds a finite real. -/
structure Masked : Prop where
  entry : ∀ i r, l i r = ⊥ ∨ IsReal (l i r)
  some_real : ∀ i, ∃ r, IsReal (l i r)

/-- The running maximum after tile `n` is the supremum of the maxima of tiles `0 … n` (a lattice fact: no
    hypothesis on the entries). -/
theorem mrun_eq_sup (n : ℕ) : mrun l n = (Finset.range (n + 1)).sup fun i => tmax l i := by
  induction n with
  | zero => rw [mrun, max_bot_left, Finset.range_one, Finset.sup_singleton]
  | succ n ih => rw [mrun, ih, Finset.range_add_one (n := n + 1), Finset.sup_insert, max_comm]

/-- An entry's exponential against a real `μ`, as a real number: `0` for an absent entry. -/
def ex (i : ℕ) (r : Fin R) (μ : ℝ) : ℝ := if l i r = ⊥ then 0 else Real.exp ((l i r).toReal - μ)

theorem ex_nonneg (i : ℕ) (r : Fin R) (μ : ℝ) : 0 ≤ ex l i r μ := by
  unfold ex
  split_ifs
  · exact le_rfl
  · exact (Real.exp_pos _).le

/-- The running maximum as a real number. -/
def mrunR (n : ℕ) : ℝ := (mrun l n).toReal

variable {l} (hl : Masked l)
include hl

/-- A tile's maximum is a finite real: it is one of the entries, and not an absent one since some entry is real. -/
theorem isReal_tmax (i : ℕ) : IsReal (tmax l i) := by
  obtain ⟨r₁, a, ha⟩ := hl.some_real i
  obtain ⟨r₀, -, h⟩ := Finset.exists_mem_eq_sup Finset.univ ⟨r₁, Finset.mem_univ r₁⟩ (fun r : Fin R => l i r)
  have h' : tmax l i = l i r₀ := h
  rcases hl.entry i r₀ with hb | hr
  · exfalso
    have hle : l i r₁ ≤ tmax l i := Finset.le_sup (f := fun r : Fin R => l i r) (Finset.mem_univ r₁)
    rw [h', hb, ha] at hle
    exact EReal.coe_ne_bot a (le_bot_iff.mp hle)
  · rw [h']; exact hr

/-- The running maximum is a real. -/
theorem isReal_mrun (n : ℕ) : ∃ μ : ℝ, mrun l n = (μ : EReal) := by
  induction n with
  | zero =>
    rw [mrun, max_bot_left]
    exact isReal_tmax hl 0
  | succ n ih =>
    obtain ⟨a, ha⟩ := ih
    obtain ⟨b, hb⟩ := isReal_tmax hl (n + 1)
    exact ⟨max a b, by rw [mrun, ha, hb, EReal.coe_strictMono.monotone.map_max]⟩

theorem mrun_eq_coe (n : ℕ) : mrun l n = ((mrunR l n : ℝ) : EReal) := by
  obtain ⟨a, ha⟩ := isReal_mrun hl n
  rw [mrunR, ha, EReal.toReal_coe]

/-- An entry's exponential against a real: `0` for an absent entry, the real exponential of the difference
    otherwise. -/
theorem exp_entry_sub (i : ℕ) (r : Fin R) (μ : ℝ) :
    Ideal.exp (l i r - (μ : EReal)) = ((ex l i r μ : ℝ) : EReal) := by
  unfold ex
  rcases hl.entry i r with hb | ⟨a, ha⟩
  · rw [if_pos hb, hb, exp_bot_sub, EReal.coe_zero]
  · rw [if_neg (by rw [ha]; exact EReal.coe_ne_bot a), ha, EReal.toReal_coe, exp_coe_sub]

/-- The running sum is the coercion of the real sum of the exponentials against the current maximum. -/
theorem srun_eq_coe (n : ℕ) :
    srun l n = ((∑ i ∈ Finset.range (n + 1), ∑ r : Fin R, ex l i r (mrunR l n) : ℝ) : EReal) := by
  induction n with
  | zero =>
    rw [srun, zero_mul, zero_add, tsum, Finset.sum_range_one, coe_sum]
    refine Finset.sum_congr rfl fun r _ => ?_
    rw [mrun_eq_coe hl, exp_entry_sub hl]
  | succ n ih =>
    have ht : tsum l (n + 1) = ((∑ r : Fin R, ex l (n + 1) r (mrunR l (n + 1)) : ℝ) : EReal) := by
      rw [tsum, coe_sum, mrun_eq_coe hl]
      exact Finset.sum_congr rfl fun r _ => exp_entry_sub hl _ _ _
    rw [srun, ih, ht, mrun_eq_coe hl n, mrun_eq_coe hl (n + 1), exp_coe_sub, ← EReal.coe_mul,
      ← EReal.coe_add]
    congr 1
    rw [Finset.sum_range_succ _ (n + 1), Finset.sum_mul]
    congr 1
    refine Finset.sum_congr rfl fun i _ => ?_
    rw [Finset.sum_mul]
    refine Finset.sum_congr rfl fun r _ => ?_
    unfold ex
    split_ifs with hb
    · rw [zero_mul]
    · rw [← Real.exp_add]
      congr 1
      ring

/-- The running sum after tile `n` is the sum over every entry of tiles `0 … n` of the exponential taken against
    the running maximum after tile `n`. -/
theorem srun_eq_sum (n : ℕ) :
    srun l n = ∑ i ∈ Finset.range (n + 1), ∑ r : Fin R, Ideal.exp (l i r - mrun l n) := by
  rw [srun_eq_coe hl, coe_sum]
  refine Finset.sum_congr rfl fun i _ => ?_
  rw [coe_sum]
  refine Finset.sum_congr rfl fun r _ => ?_
  rw [mrun_eq_coe hl n, exp_entry_sub hl]

/-- The running sum is a positive real: the first tile's real entry contributes a positive term. -/
theorem srun_pos (n : ℕ) : ∃ σ : ℝ, 0 < σ ∧ srun l n = (σ : EReal) := by
  refine ⟨_, ?_, srun_eq_coe hl n⟩
  obtain ⟨r₁, a, ha⟩ := hl.some_real 0
  have h0 : 0 < ∑ r : Fin R, ex l 0 r (mrunR l n) := by
    refine Finset.sum_pos' (fun r _ => ex_nonneg l 0 r _) ⟨r₁, Finset.mem_univ _, ?_⟩
    unfold ex
    rw [if_neg (by rw [ha]; exact EReal.coe_ne_bot a)]
    exact Real.exp_pos _
  exact lt_of_lt_of_le h0
    (Finset.single_le_sum (f := fun i => ∑ r : Fin R, ex l i r (mrunR l n))
      (fun i _ => Finset.sum_nonneg fun r _ => ex_nonneg l i r _) (Finset.mem_range.2 (Nat.succ_pos n)))

end Online

/-! ### A flat axis as padded tiles -/

section Flat

variable {N R : ℕ} (Lr : Fin N → ℝ) (T : ℕ)

/-- The flat axis continued past its end by absent entries. -/
def pad (k : ℕ) : EReal := if h : k < N then ((Lr ⟨k, h⟩ : ℝ) : EReal) else ⊥

/-- Position `r` of tile `i` of a flat axis of `N` reals cut into `T` tiles of width `R`: the entry at `R * i + r`
    when that lies on the axis, absent when it does not; past the last tile, the real `0`. -/
def mtile (i : ℕ) (r : Fin R) : EReal := if i < T then pad Lr (R * i + r.val) else ((0 : ℝ) : EReal)

/-- The padded tiles are masked tiles when every tile starts on the axis. -/
theorem masked_mtile (hR : 0 < R) (hT : ∀ i, i < T → R * i < N) : Masked (mtile (R := R) Lr T) where
  entry i r := by
    unfold mtile pad
    split_ifs
    · exact Or.inr (isReal_coe _)
    · exact Or.inl rfl
    · exact Or.inr (isReal_coe _)
  some_real i := by
    refine ⟨⟨0, hR⟩, ?_⟩
    unfold mtile pad
    split_ifs with h1 h2
    · exact isReal_coe _
    · exact absurd (by simpa using hT i h1) h2
    · exact isReal_coe _

variable {T}

/-- The supremum over the flat axis is the supremum over the padded tiles. -/
theorem sup_flat (hN : N ≤ T * R) :
    (Finset.range T).sup (fun i => tmax (mtile (R := R) Lr T) i)
      = Finset.univ.sup fun k : Fin N => ((Lr k : ℝ) : EReal) := by
  apply le_antisymm
  · refine Finset.sup_le fun i hi => ?_
    unfold tmax
    refine Finset.sup_le fun r _ => ?_
    rw [mtile, if_pos (Finset.mem_range.1 hi), pad]
    split_ifs with h
    · exact Finset.le_sup (f := fun k : Fin N => ((Lr k : ℝ) : EReal)) (Finset.mem_univ _)
    · exact bot_le
  · refine Finset.sup_le fun k _ => ?_
    have hR : 0 < R := by
      rcases Nat.eq_zero_or_pos R with h | h
      · subst h
        exact absurd (lt_of_lt_of_le k.isLt hN) (by simp)
      · exact h
    have hi : k.val / R < T :=
      Nat.div_lt_of_lt_mul (lt_of_lt_of_le k.isLt (le_of_le_of_eq hN (Nat.mul_comm T R)))
    have hk : R * (k.val / R) + k.val % R = k.val := Nat.div_add_mod k.val R
    refine Finset.le_sup_of_le (Finset.mem_range.2 hi) ?_
    unfold tmax
    refine Finset.le_sup_of_le (Finset.mem_univ (⟨k.val % R, Nat.mod_lt _ hR⟩ : Fin R)) (le_of_eq ?_)
    have hlt : R * (k.val / R) + (⟨k.val % R, Nat.mod_lt _ hR⟩ : Fin R).val < N := by
      show R * (k.val / R) + k.val % R < N
      rw [hk]; exact k.isLt
    rw [mtile, if_pos hi, pad, dif_pos hlt]
    exact congrArg (fun j : Fin N => ((Lr j : ℝ) : EReal)) (Fin.ext hk.symm)

/-- A sum over the flat axis of a function that vanishes at the absent entry is the sum over the padded tiles. -/
theorem sum_flat (hN : N ≤ T * R) (g : EReal → EReal) (hg : g ⊥ = 0) :
    ∑ k : Fin N, g ((Lr k : ℝ) : EReal)
      = ∑ i ∈ Finset.range T, ∑ r : Fin R, g (mtile (R := R) Lr T i r) := by
  have h1 : ∑ k : Fin N, g ((Lr k : ℝ) : EReal) = ∑ k ∈ Finset.range N, g (pad Lr k) := by
    rw [Finset.sum_range]
    refine Finset.sum_congr rfl fun k _ => ?_
    rw [pad, dif_pos k.isLt]
  have h2 : ∑ k ∈ Finset.range N, g (pad Lr k) = ∑ k ∈ Finset.range (T * R), g (pad Lr k) :=
    Finset.sum_subset (Finset.range_mono hN) fun k _ hk => by
      rw [pad, dif_neg (fun h => hk (Finset.mem_range.2 h)), hg]
  have h3 : ∑ k ∈ Finset.range (T * R), g (pad Lr k) = ∑ k : Fin (T * R), g (pad Lr k.val) :=
    Finset.sum_range _
  refine h1.trans (h2.trans (h3.trans
    ((sum_tile (rfl : T * R = T * R) (fun k : Fin (T * R) => pad Lr k.val) ⊥ g).trans ?_)))
  refine Finset.sum_congr rfl fun i hi => Finset.sum_congr rfl fun r _ => ?_
  rw [tile_of_lt rfl _ _ (Finset.mem_range.1 hi), mtile, if_pos (Finset.mem_range.1 hi)]

variable {n : ℕ} (hn : n + 1 = T) (hR : 0 < R) (hT : ∀ i, i < T → R * i < N) (hN : N ≤ T * R)
include hn hR hT hN

/-- Over the padded tiles of a flat axis of reals, the last running maximum is the supremum of the axis. -/
theorem mrun_flat :
    mrun (mtile (R := R) Lr T) n = Finset.univ.sup fun k : Fin N => ((Lr k : ℝ) : EReal) := by
  rw [mrun_eq_sup, hn]
  exact sup_flat Lr hN

/-- Over the padded tiles of a flat axis of reals, the last running sum is the softmax normaliser of the axis:
    the sum over the axis of the exponentials taken against its supremum. -/
theorem srun_flat :
    srun (mtile (R := R) Lr T) n
      = ∑ k : Fin N, Ideal.exp (((Lr k : ℝ) : EReal)
          - Finset.univ.sup fun k : Fin N => ((Lr k : ℝ) : EReal)) := by
  rw [srun_eq_sum (masked_mtile Lr T hR hT), mrun_flat Lr hn hR hT hN, hn]
  exact (sum_flat Lr hN
    (fun x => Ideal.exp (x - Finset.univ.sup fun k : Fin N => ((Lr k : ℝ) : EReal)))
    (exp_bot_sub _)).symm

/-- The last running sum is a positive real. -/
theorem srun_flat_pos : ∃ σ : ℝ, 0 < σ ∧ srun (mtile (R := R) Lr T) n = (σ : EReal) :=
  srun_pos (masked_mtile Lr T hR hT) n

/-- The last running maximum is a real. -/
theorem mrun_flat_real : ∃ μ : ℝ, mrun (mtile (R := R) Lr T) n = (μ : EReal) :=
  isReal_mrun (masked_mtile Lr T hR hT) n

end Flat

end Cert.MaskedOnlineSoftmax

end
-- ==== Proof.KI.TileRuns.lean ====
import proofs.«160432_j12232066859333_1_alg».proof.Proof.Gen.KernelIdeal.Launch
import proofs.«160432_j12232066859333_1_alg».proof.Proof.Gen.KernelIdeal.Skeleton
import proofs.«160432_j12232066859333_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
The vocabulary projection's kernel body, one tile of 4096 columns per grid point, in its three control cases:

* the first tile: the two carried cells (running maximum, running sum) are reset to minus infinity and zero first;
* a middle tile: the cells are read as the tile before left them;
* the last tile: as a middle tile, and the cells are then copied into the two one-by-one results.

In every case the tile's masked logits are stored whole and the two cells are overwritten by the new running
maximum and the rescaled running sum. Each case is a triple on whole staging buffers; what each written buffer ends
holding is the list of the body's stores into it (last first), found by running the body.
-/

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two conditions, from the grid coordinate -/

/-- "This is the first tile". -/
abbrev isFirst (i : grid1.Coords) : Prop := (Scalar.cmpi .ne (Scalar.extui (Scalar.cmpi .eq (BitVec.ofNat 32 (i 0).val) 0#32)) 0#32) = 1#1
theorem isFirst_iff : ∀ t : Fin cfg1.N, isFirst (grid1.coords t) ↔ t.val % 13 = 0 :=
  (by decide +kernel : ∀ t : Fin grid1.N, isFirst (grid1.coords t) ↔ t.val % 13 = 0)

/-- "This is the last tile". -/
abbrev isLast (i : grid1.Coords) : Prop := k1_cond2 i = 1#1
theorem isLast_iff : ∀ t : Fin cfg1.N, isLast (grid1.coords t) ↔ t.val % 13 = 12 :=
  (by decide +kernel : ∀ t : Fin grid1.N, isLast (grid1.coords t) ↔ t.val % 13 = 12)

/-! ## The body, case by case -/

set_option maxHeartbeats 4000000 in
/-- The first tile: the cells at anything, the two one-by-one results handed back untouched. -/
noncomputable def runA (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : isFirst i) (hc1 : ¬isLast i)
    (x : Vec F S1x1024 .f32) (W : Vec F S4096x1024 .f32) (b : Vec F S1x4096 .f32) :
    Σ' (L4 : List (View.Piece (Elt F) S1x4096 .f32)) (LS0 : List (View.Piece (Elt F) S1x1 .f32)), { LS1 : List (View.Piece (Elt F) S1x1 .f32) //
      ∀ (xi5 xi6 : Vec F S1x1 .f32) (E : Set ℕ) (K : PUnit → sProp 𝕄),
        iprop(owns (c : Thread nD τ) arg1 fullShare x ∗ owns (c : Thread nD τ) arg2 fullShare W ∗ owns (c : Thread nD τ) arg3 fullShare b ∗ (∃ d, owns (c : Thread nD τ) arg4 fullShare d) ∗ owns (c : Thread nD τ) arg5 fullShare xi5 ∗ owns (c : Thread nD τ) arg6 fullShare xi6 ∗ (∃ d, owns (c : Thread nD τ) arg7 fullShare d) ∗ (∃ d, owns (c : Thread nD τ) arg8 fullShare d)
            ∗ (iprop(owns (c : Thread nD τ) arg1 fullShare x ∗ owns (c : Thread nD τ) arg2 fullShare W ∗ owns (c : Thread nD τ) arg3 fullShare b ∗ (∃ f, arg4.view.loc (c : Thread nD τ) ↦[arg4.view.set]{fullShare} arg4.view.writes (Elt F) f L4) ∗ owns (c : Thread nD τ) arg5 fullShare xi5 ∗ owns (c : Thread nD τ) arg6 fullShare xi6 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8) K } := by
  refine ⟨?_, ?_, ?_, fun xi5 xi6 E K => ?run⟩
  case run =>
    simp only [cc1_kernel_eq_skeleton]; unfold cc1_kernel_skel
    simp only [k1_part1_eq_skeleton]
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, Hk⟩
    obtain rfl := harg1.eq_unread hf1; obtain rfl := harg2.eq_unread hf2; obtain rfl := harg3.eq_unread hf3; obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact H8

set_option maxHeartbeats 4000000 in
/-- A middle tile: the cells at what the tile before left, the two one-by-one results handed back untouched. -/
noncomputable def runB (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬isFirst i) (hc1 : ¬isLast i)
    (x : Vec F S1x1024 .f32) (W : Vec F S4096x1024 .f32) (b : Vec F S1x4096 .f32) (xs0 xs1 : Vec F S1x1 .f32) :
    Σ' (L4 : List (View.Piece (Elt F) S1x4096 .f32)) (LS0 : List (View.Piece (Elt F) S1x1 .f32)), { LS1 : List (View.Piece (Elt F) S1x1 .f32) //
      ∀ (xi5 xi6 : Vec F S1x1 .f32) (E : Set ℕ) (K : PUnit → sProp 𝕄),
        iprop(owns (c : Thread nD τ) arg1 fullShare x ∗ owns (c : Thread nD τ) arg2 fullShare W ∗ owns (c : Thread nD τ) arg3 fullShare b ∗ (∃ d, owns (c : Thread nD τ) arg4 fullShare d) ∗ owns (c : Thread nD τ) arg5 fullShare xi5 ∗ owns (c : Thread nD τ) arg6 fullShare xi6 ∗ owns (c : Thread nD τ) arg7 fullShare xs0 ∗ owns (c : Thread nD τ) arg8 fullShare xs1
            ∗ (iprop(owns (c : Thread nD τ) arg1 fullShare x ∗ owns (c : Thread nD τ) arg2 fullShare W ∗ owns (c : Thread nD τ) arg3 fullShare b ∗ (∃ f, arg4.view.loc (c : Thread nD τ) ↦[arg4.view.set]{fullShare} arg4.view.writes (Elt F) f L4) ∗ owns (c : Thread nD τ) arg5 fullShare xi5 ∗ owns (c : Thread nD τ) arg6 fullShare xi6 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8) K } := by
  refine ⟨?_, ?_, ?_, fun xi5 xi6 E K => ?run⟩
  case run =>
    simp only [cc1_kernel_eq_skeleton]; unfold cc1_kernel_skel
    simp only [k1_part1_eq_skeleton]
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg5.eq_unread hf5; obtain rfl := harg6.eq_unread hf6; obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact H8

set_option maxHeartbeats 4000000 in
/-- The last tile: the cells at what the tile before left; the two one-by-one results written. -/
noncomputable def runC (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬isFirst i) (hc1 : isLast i)
    (x : Vec F S1x1024 .f32) (W : Vec F S4096x1024 .f32) (b : Vec F S1x4096 .f32) (xs0 xs1 : Vec F S1x1 .f32) :
    Σ' (L4 : List (View.Piece (Elt F) S1x4096 .f32)) (L5 : List (View.Piece (Elt F) S1x1 .f32)) (L6 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg1 fullShare x ∗ owns (c : Thread nD τ) arg2 fullShare W ∗ owns (c : Thread nD τ) arg3 fullShare b ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x ∗ owns (c : Thread nD τ) arg2 fullShare W ∗ owns (c : Thread nD τ) arg3 fullShare b ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc1_kernel_eq_skeleton]; unfold cc1_kernel_skel
    simp only [k1_part1_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3; obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

end Cert.KernelIdeal.Tile

end
-- ==== Proof.KI.TilePieces.lean ====
import proofs.«160432_j12232066859333_1_alg».proof.Proof.KI.TileRuns
import Idealize.ShloMosaic.Lib.Pipeline.Value

/-!
What each case of the vocabulary projection's body leaves in the buffers it writes, as the body's arithmetic on the
loaded operands: the tile's masked logits; the new running maximum and the rescaled running sum in the two carried
cells (computed from the cells as read — the reset values at the first tile); and, at the last tile, the two cells
copied into the one-by-one results. Every store covers its whole buffer, so the last store into a buffer decides.
-/

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.Sem

variable {F : FTy → Type} [FloatOps F] [Named F]

theorem hz : (![0, 0] : Fin 2 → Nat) = fun _ => 0 := funext fun a => by fin_cases a <;> rfl

/-! ### A middle tile -/

theorem logits_B (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬isFirst i) (hc1 : ¬isLast i) (x : Vec F S1x1024 .f32) (W : Vec F S4096x1024 .f32) (b : Vec F S1x4096 .f32) (xs0 xs1 : Vec F S1x1 .f32) :
    View.canon (runB c i arg1 harg1 arg2 harg2 arg3 harg3 arg4 harg4 arg5 harg5 arg6 harg6 arg7 harg7 arg8 harg8 hc0 hc1 x W b xs0 xs1).1 = k1_pay5 i x W b := by
  unfold runB
  dsimp only
  sl_unfold_run_names
  first
    | rw [View.canon_unit_zero hz]
    | rw [View.canon_cons_unit_zero hz]
  simp only [View.readAt_eq_ld, harg1.read_unread, harg2.read_unread, harg3.read_unread, harg7.read_unread, harg8.read_unread, View.ld_unit_zero (S := S1x1024) hz, View.ld_unit_zero (S := S4096x1024) hz, View.ld_unit_zero (S := S1x4096) hz, View.ld_unit_zero (S := S1x1) hz]
  all_goals (repeat rw [View.readCov_unit_zero _ hz])

theorem max_B (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬isFirst i) (hc1 : ¬isLast i) (x : Vec F S1x1024 .f32) (W : Vec F S4096x1024 .f32) (b : Vec F S1x4096 .f32) (xs0 xs1 : Vec F S1x1 .f32) :
    View.canon (runB c i arg1 harg1 arg2 harg2 arg3 harg3 arg4 harg4 arg5 harg5 arg6 harg6 arg7 harg7 arg8 harg8 hc0 hc1 x W b xs0 xs1).2.1 = k1_pay1 (k1_pay6 i x W b xs0) := by
  unfold runB
  dsimp only
  sl_unfold_run_names
  first
    | rw [View.canon_unit_zero hz]
    | rw [View.canon_cons_unit_zero hz]
  simp only [View.readAt_eq_ld, harg1.read_unread, harg2.read_unread, harg3.read_unread, harg7.read_unread, harg8.read_unread, View.ld_unit_zero (S := S1x1024) hz, View.ld_unit_zero (S := S4096x1024) hz, View.ld_unit_zero (S := S1x4096) hz, View.ld_unit_zero (S := S1x1) hz]
  all_goals (repeat rw [View.readCov_unit_zero _ hz])

theorem sum_B (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬isFirst i) (hc1 : ¬isLast i) (x : Vec F S1x1024 .f32) (W : Vec F S4096x1024 .f32) (b : Vec F S1x4096 .f32) (xs0 xs1 : Vec F S1x1 .f32) :
    View.canon (runB c i arg1 harg1 arg2 harg2 arg3 harg3 arg4 harg4 arg5 harg5 arg6 harg6 arg7 harg7 arg8 harg8 hc0 hc1 x W b xs0 xs1).2.2.1 = k1_pay2 (k1_pay7 i x W b xs0 xs1) := by
  unfold runB
  dsimp only
  sl_unfold_run_names
  first
    | rw [View.canon_unit_zero hz]
    | rw [View.canon_cons_unit_zero hz]
  simp only [View.readAt_eq_ld, harg1.read_unread, harg2.read_unread, harg3.read_unread, harg7.read_unread, harg8.read_unread, View.ld_unit_zero (S := S1x1024) hz, View.ld_unit_zero (S := S4096x1024) hz, View.ld_unit_zero (S := S1x4096) hz, View.ld_unit_zero (S := S1x1) hz]
  all_goals (repeat rw [View.readCov_unit_zero _ hz])

/-! ### The first tile -/

theorem logits_A (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : isFirst i) (hc1 : ¬isLast i) (x : Vec F S1x1024 .f32) (W : Vec F S4096x1024 .f32) (b : Vec F S1x4096 .f32) :
    View.canon (runA c i arg1 harg1 arg2 harg2 arg3 harg3 arg4 harg4 arg5 harg5 arg6 harg6 arg7 harg7 arg8 harg8 hc0 hc1 x W b).1 = k1_pay5 i x W b := by
  unfold runA
  dsimp only
  sl_unfold_run_names
  first
    | rw [View.canon_unit_zero hz]
    | rw [View.canon_cons_unit_zero hz]
  simp only [View.readAt_eq_ld, harg1.read_unread, harg2.read_unread, harg3.read_unread, harg7.read_unread, harg8.read_unread, View.ld_unit_zero (S := S1x1024) hz, View.ld_unit_zero (S := S4096x1024) hz, View.ld_unit_zero (S := S1x4096) hz, View.ld_unit_zero (S := S1x1) hz]
  all_goals (repeat rw [View.readCov_unit_zero _ hz])

theorem max_A (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : isFirst i) (hc1 : ¬isLast i) (x : Vec F S1x1024 .f32) (W : Vec F S4096x1024 .f32) (b : Vec F S1x4096 .f32) :
    View.canon (runA c i arg1 harg1 arg2 harg2 arg3 harg3 arg4 harg4 arg5 harg5 arg6 harg6 arg7 harg7 arg8 harg8 hc0 hc1 x W b).2.1 = k1_pay1 (k1_pay6 i x W b (k1_pay3 (F := F))) := by
  unfold runA
  dsimp only
  sl_unfold_run_names
  first
    | rw [View.canon_unit_zero hz]
    | rw [View.canon_cons_unit_zero hz]
  simp only [View.readAt_eq_ld, harg1.read_unread, harg2.read_unread, harg3.read_unread, harg7.read_unread, harg8.read_unread, View.ld_unit_zero (S := S1x1024) hz, View.ld_unit_zero (S := S4096x1024) hz, View.ld_unit_zero (S := S1x4096) hz, View.ld_unit_zero (S := S1x1) hz]
  all_goals (repeat rw [View.readCov_unit_zero _ hz])

theorem sum_A (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : isFirst i) (hc1 : ¬isLast i) (x : Vec F S1x1024 .f32) (W : Vec F S4096x1024 .f32) (b : Vec F S1x4096 .f32) :
    View.canon (runA c i arg1 harg1 arg2 harg2 arg3 harg3 arg4 harg4 arg5 harg5 arg6 harg6 arg7 harg7 arg8 harg8 hc0 hc1 x W b).2.2.1 = k1_pay2 (k1_pay7 i x W b (k1_pay3 (F := F)) (k1_pay4 (F := F))) := by
  unfold runA
  dsimp only
  sl_unfold_run_names
  first
    | rw [View.canon_unit_zero hz]
    | rw [View.canon_cons_unit_zero hz]
  simp only [View.readAt_eq_ld, harg1.read_unread, harg2.read_unread, harg3.read_unread, harg7.read_unread, harg8.read_unread, View.ld_unit_zero (S := S1x1024) hz, View.ld_unit_zero (S := S4096x1024) hz, View.ld_unit_zero (S := S1x4096) hz, View.ld_unit_zero (S := S1x1) hz]
  all_goals (repeat rw [View.readCov_unit_zero _ hz])

/-! ### The last tile -/

theorem logits_C (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬isFirst i) (hc1 : isLast i) (x : Vec F S1x1024 .f32) (W : Vec F S4096x1024 .f32) (b : Vec F S1x4096 .f32) (xs0 xs1 : Vec F S1x1 .f32) :
    View.canon (runC c i arg1 harg1 arg2 harg2 arg3 harg3 arg4 harg4 arg5 harg5 arg6 harg6 arg7 harg7 arg8 harg8 hc0 hc1 x W b xs0 xs1).1 = k1_pay5 i x W b := by
  unfold runC
  dsimp only
  sl_unfold_run_names
  first
    | rw [View.canon_unit_zero hz]
    | rw [View.canon_cons_unit_zero hz]
  simp only [View.readAt_eq_ld, harg1.read_unread, harg2.read_unread, harg3.read_unread, harg7.read_unread, harg8.read_unread, View.ld_unit_zero (S := S1x1024) hz, View.ld_unit_zero (S := S4096x1024) hz, View.ld_unit_zero (S := S1x4096) hz, View.ld_unit_zero (S := S1x1) hz]
  all_goals (repeat rw [View.readCov_unit_zero _ hz])

theorem max_C (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬isFirst i) (hc1 : isLast i) (x : Vec F S1x1024 .f32) (W : Vec F S4096x1024 .f32) (b : Vec F S1x4096 .f32) (xs0 xs1 : Vec F S1x1 .f32) :
    View.canon (runC c i arg1 harg1 arg2 harg2 arg3 harg3 arg4 harg4 arg5 harg5 arg6 harg6 arg7 harg7 arg8 harg8 hc0 hc1 x W b xs0 xs1).2.2.2.1 = k1_pay1 (k1_pay6 i x W b xs0) := by
  unfold runC
  dsimp only
  sl_unfold_run_names
  first
    | rw [View.canon_unit_zero hz]
    | rw [View.canon_cons_unit_zero hz]
  simp only [View.readAt_eq_ld, harg1.read_unread, harg2.read_unread, harg3.read_unread, harg7.read_unread, harg8.read_unread, View.ld_unit_zero (S := S1x1024) hz, View.ld_unit_zero (S := S4096x1024) hz, View.ld_unit_zero (S := S1x4096) hz, View.ld_unit_zero (S := S1x1) hz]
  all_goals (repeat rw [View.readCov_unit_zero _ hz])

theorem sum_C (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬isFirst i) (hc1 : isLast i) (x : Vec F S1x1024 .f32) (W : Vec F S4096x1024 .f32) (b : Vec F S1x4096 .f32) (xs0 xs1 : Vec F S1x1 .f32) :
    View.canon (runC c i arg1 harg1 arg2 harg2 arg3 harg3 arg4 harg4 arg5 harg5 arg6 harg6 arg7 harg7 arg8 harg8 hc0 hc1 x W b xs0 xs1).2.2.2.2.1 = k1_pay2 (k1_pay7 i x W b xs0 xs1) := by
  unfold runC
  dsimp only
  sl_unfold_run_names
  first
    | rw [View.canon_unit_zero hz]
    | rw [View.canon_cons_unit_zero hz]
  simp only [View.readAt_eq_ld, harg1.read_unread, harg2.read_unread, harg3.read_unread, harg7.read_unread, harg8.read_unread, View.ld_unit_zero (S := S1x1024) hz, View.ld_unit_zero (S := S4096x1024) hz, View.ld_unit_zero (S := S1x4096) hz, View.ld_unit_zero (S := S1x1) hz]
  all_goals (repeat rw [View.readCov_unit_zero _ hz])

theorem outMax_C (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬isFirst i) (hc1 : isLast i) (x : Vec F S1x1024 .f32) (W : Vec F S4096x1024 .f32) (b : Vec F S1x4096 .f32) (xs0 xs1 : Vec F S1x1 .f32) :
    View.canon (runC c i arg1 harg1 arg2 harg2 arg3 harg3 arg4 harg4 arg5 harg5 arg6 harg6 arg7 harg7 arg8 harg8 hc0 hc1 x W b xs0 xs1).2.1 = k1_pay1 (k1_pay6 i x W b xs0) := by
  unfold runC
  dsimp only
  sl_unfold_run_names
  first
    | rw [View.canon_unit_zero hz]
    | rw [View.canon_cons_unit_zero hz]
  simp only [View.readAt_eq_ld, harg1.read_unread, harg2.read_unread, harg3.read_unread, harg7.read_unread, harg8.read_unread, View.ld_unit_zero (S := S1x1024) hz, View.ld_unit_zero (S := S4096x1024) hz, View.ld_unit_zero (S := S1x4096) hz, View.ld_unit_zero (S := S1x1) hz]
  all_goals (repeat rw [View.readCov_unit_zero _ hz])

theorem outSum_C (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬isFirst i) (hc1 : isLast i) (x : Vec F S1x1024 .f32) (W : Vec F S4096x1024 .f32) (b : Vec F S1x4096 .f32) (xs0 xs1 : Vec F S1x1 .f32) :
    View.canon (runC c i arg1 harg1 arg2 harg2 arg3 harg3 arg4 harg4 arg5 harg5 arg6 harg6 arg7 harg7 arg8 harg8 hc0 hc1 x W b xs0 xs1).2.2.1 = k1_pay2 (k1_pay7 i x W b xs0 xs1) := by
  unfold runC
  dsimp only
  sl_unfold_run_names
  first
    | rw [View.canon_unit_zero hz]
    | rw [View.canon_cons_unit_zero hz]
  simp only [View.readAt_eq_ld, harg1.read_unread, harg2.read_unread, harg3.read_unread, harg7.read_unread, harg8.read_unread, View.ld_unit_zero (S := S1x1024) hz, View.ld_unit_zero (S := S4096x1024) hz, View.ld_unit_zero (S := S1x4096) hz, View.ld_unit_zero (S := S1x1) hz]
  all_goals (repeat rw [View.readCov_unit_zero _ hz])

end Cert.KernelIdeal.Tile

end
-- ==== Proof.KI.Tile.VocabMaskWord.lean ====
import Idealize.ShloMosaic.Lib.ValueIdx

/-!
# The column mask of a vocabulary tile, on 32-bit words

Tile `t` of the vocabulary axis holds the columns `4096 * t + c`, `c < 4096`; a column belongs to the vocabulary when
its number is below `50257`. The program takes that number and the comparison on 32-bit words, the comparison signed.
For the thirteen tiles (`t ≤ 12`) the number is below `2 ^ 31`, so the word arithmetic does not wrap, the signed
reading of the word is the number itself, and the comparison of the words is the comparison of the naturals.
-/

namespace Cert.KernelIdeal.Tile

open Idealize.ShloMosaic

/-- The word `t * 4096 + c` is the word of the natural number `4096 * t + c`: nothing wraps below `2 ^ 32`. -/
theorem column_word (t c : Nat) (ht : t ≤ 12) (hc : c < 4096) :
    IntOp.addi (Scalar.muli (BitVec.ofNat 32 t) 4096#32) (BitVec.ofNat 32 c) = BitVec.ofNat 32 (4096 * t + c) := by
  apply BitVec.eq_of_toNat_eq
  simp only [IntOp.addi, Scalar.muli, IntOp.muli, BitVec.toNat_add, BitVec.toNat_mul, BitVec.toNat_ofNat]
  omega

/-- Below `2 ^ 31` the signed comparison of a number's word with the word of `50257` is the comparison of the numbers. -/
theorem slt_vocab_of_lt (n : Nat) (hn : n < 2 ^ 31) :
    IntOp.cmpi .slt (BitVec.ofNat 32 n) 50257#32 = 1#1 ↔ n < 50257 := by
  have h1 : (BitVec.ofNat 32 n).toInt = (n : Int) := by
    rw [BitVec.toInt_eq_toNat_cond]
    simp only [BitVec.toNat_ofNat]
    have : n % 2 ^ 32 = n := Nat.mod_eq_of_lt (by omega)
    rw [this, if_pos (by omega)]
  have h2 : (50257#32 : BitVec 32).toInt = 50257 := by decide
  unfold IntOp.cmpi
  show BitVec.ofBool ((BitVec.ofNat 32 n).slt 50257#32) = 1#1 ↔ _
  rw [BitVec.slt, h1, h2]
  by_cases h : n < 50257
  · simp [h]
  · simp [h]

/-- The mask bit of column `c` of tile `t` is set exactly when the column belongs to the vocabulary. -/
theorem column_mask_iff (t c : Nat) (ht : t ≤ 12) (hc : c < 4096) :
    IntOp.cmpi .slt (IntOp.addi (Scalar.muli (BitVec.ofNat 32 t) 4096#32) (BitVec.ofNat 32 c)) 50257#32 = 1#1
      ↔ 4096 * t + c < 50257 := by
  rw [column_word t c ht hc]
  exact slt_vocab_of_lt _ (by omega)

end Cert.KernelIdeal.Tile
-- ==== Proof.KI.Tile.Logits.lean ====
import proofs.«160432_j12232066859333_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
import proofs.«160432_j12232066859333_1_alg».proof.Proof.KI.Tile.VocabMaskWord

/-!
# The masked logits of one vocabulary tile, read at a column

Tile `t` of the vocabulary projection takes the state row `x` (1024 entries), the tile `W` of the projection
matrix (4096 rows of 1024) and the tile `b` of the bias (4096 entries). Its value at column `c` is the logit of token
`4096 * t + c`, the row `c` of `W` against `x` plus `b c`, when that token exists (`4096 * t + c < 50257`), and
minus infinity when it does not: the fill the program selects there is the named constant that denotes `⊥`.

Read on the extended reals the two changes of float format are the identity, the matrix product into the zero
accumulator is the plain sum over the contracted coordinate (the matrix enters transposed, so column `c` of the
product reads row `c` of `W`), and the mask is the comparison of the column number with `50257`.

Hence the value of the tile does not depend on the rows of `W` and the entries of `b` past the vocabulary.
-/

noncomputable section

namespace Cert.KernelIdeal.Tile

open Idealize.ShloMosaic Idealize.ShloMosaic.ValueIdx Cert.KernelIdeal Cert.KernelIdeal.Gen
open scoped BigOperators

/-- The fill of an absent column denotes minus infinity. -/
theorem neg_big_eq_bot :
    Named.named (F := Ideal) Cert.KernelIdeal.κ "neg_big" (φ := .f32) 0xF149F2CA#32 = (⊥ : EReal) :=
  IdealRules.named_const.ideal_named_scalar _ _ _ _ rfl

/-! ### The product's operand indices, coordinate by coordinate -/

/-- The left operand's row is the output's row. -/
theorem proj_lhs_0 (j : S1x4096.Idx) (q : dot_S1x1024_S1024x4096_S1x4096_1_0_0_1_n_n.contr.Idx) :
    (dot_S1x1024_S1024x4096_S1x4096_1_0_0_1_n_n.lhsIdx j q 0).val = (j 0).val := by
  unfold DotDims.lhsIdx
  rw [dif_neg (show ¬(0 : Fin S1x1024.rank) ∈ dot_S1x1024_S1024x4096_S1x4096_1_0_0_1_n_n.lhsBatch by decide),
    dif_pos (show (0 : Fin S1x1024.rank) ∈ dot_S1x1024_S1024x4096_S1x4096_1_0_0_1_n_n.lhsNonContracting by decide)]
  rfl

/-- The left operand's column is the contracted coordinate. -/
theorem proj_lhs_1 (j : S1x4096.Idx) (q : dot_S1x1024_S1024x4096_S1x4096_1_0_0_1_n_n.contr.Idx) :
    (dot_S1x1024_S1024x4096_S1x4096_1_0_0_1_n_n.lhsIdx j q 1).val = (q ⟨0, by decide⟩).val :=
  dot_S1x1024_S1024x4096_S1x4096_1_0_0_1_n_n.lhsIdx_val_of_single rfl j q

/-- The right operand's row is the contracted coordinate. -/
theorem proj_rhs_0 (j : S1x4096.Idx) (q : dot_S1x1024_S1024x4096_S1x4096_1_0_0_1_n_n.contr.Idx) :
    (dot_S1x1024_S1024x4096_S1x4096_1_0_0_1_n_n.rhsIdx j q 0).val = (q ⟨0, by decide⟩).val :=
  dot_S1x1024_S1024x4096_S1x4096_1_0_0_1_n_n.rhsIdx_val_of_single rfl j q

/-- The right operand's column is the output's column. -/
theorem proj_rhs_1 (j : S1x4096.Idx) (q : dot_S1x1024_S1024x4096_S1x4096_1_0_0_1_n_n.contr.Idx) :
    (dot_S1x1024_S1024x4096_S1x4096_1_0_0_1_n_n.rhsIdx j q 1).val = (j 1).val := by
  unfold DotDims.rhsIdx
  rw [dif_neg (show ¬(1 : Fin S1024x4096.rank) ∈ dot_S1x1024_S1024x4096_S1x4096_1_0_0_1_n_n.rhsBatch by decide),
    dif_pos (show (1 : Fin S1024x4096.rank) ∈ dot_S1x1024_S1024x4096_S1x4096_1_0_0_1_n_n.rhsNonContracting by decide)]
  rfl

/-- The state row against the transposed tile, into the zero accumulator, at column `c`: row `c` of the tile
    against the state. -/
theorem proj_apply (x : Vec Ideal S1x1024 .f32) (W : Vec Ideal S4096x1024 .f32) (c : Fin 4096) :
    matmul (F := Ideal) dot_S1x1024_S1024x4096_S1x4096_1_0_0_1_n_n none
        (truncf .bf16 (shapeCast S1x1024 x shapeCasts_S1x1024_S1x1024) bitsLt_bf16_f32)
        (transpose S1024x4096 [1, 0] (truncf .bf16 W bitsLt_bf16_f32) transposes_S4096x1024_p1_0_S1024x4096)
        (constant (F := Ideal) S1x4096 .f32 0x00000000#32) (ix2 (0 : Fin 1) c)
      = ∑ k : Fin 1024, x (ix2 (0 : Fin 1) k) * W (ix2 c k) := by
  refine (Ideal.matmul_constant_zero_apply dot_S1x1024_S1024x4096_S1x4096_1_0_0_1_n_n none _ _ (ix2 (0 : Fin 1) c)).trans ?_
  rw [← Equiv.sum_comp (contrEquiv1 dot_S1x1024_S1024x4096_S1x4096_1_0_0_1_n_n 1024 rfl rfl).symm]
  refine Finset.sum_congr rfl fun k _ => ?_
  have hk := contrEquiv1_symm_val dot_S1x1024_S1024x4096_S1x4096_1_0_0_1_n_n 1024 rfl rfl k
  have el : dot_S1x1024_S1024x4096_S1x4096_1_0_0_1_n_n.lhsIdx (ix2 (0 : Fin 1) c)
      ((contrEquiv1 dot_S1x1024_S1024x4096_S1x4096_1_0_0_1_n_n 1024 rfl rfl).symm k) = ix2 (0 : Fin 1) k :=
    funext fun a => Fin.ext (by
      match a with
      | ⟨0, _⟩ => exact proj_lhs_0 _ _
      | ⟨1, _⟩ => exact (proj_lhs_1 _ _).trans hk)
  have er : dot_S1x1024_S1024x4096_S1x4096_1_0_0_1_n_n.rhsIdx (ix2 (0 : Fin 1) c)
      ((contrEquiv1 dot_S1x1024_S1024x4096_S1x4096_1_0_0_1_n_n 1024 rfl rfl).symm k) = ix2 k c :=
    funext fun a => Fin.ext (by
      match a with
      | ⟨0, _⟩ => exact (proj_rhs_0 _ _).trans hk
      | ⟨1, _⟩ => exact proj_rhs_1 _ _)
  rw [el, er, transpose_ix2_apply, shapeCast_self]
  rfl

/-! ### The mask -/

/-- The mask bit of column `c` at grid point `i` is set exactly when token `4096 * i + c` exists. -/
theorem mask_apply_iff (i : grid1.Coords) (c : Fin 4096) :
    cmpi .slt (addi (broadcast S1x4096 (Scalar.muli (BitVec.ofNat 32 (i 0).val) 4096#32))
        (iota .tc S1x4096 32 [1] iota_S1x4096_d1_w32)) (broadcast S1x4096 50257#32) (ix2 (0 : Fin 1) c) = 1#1
      ↔ 4096 * (i 0).val + c.val < 50257 := by
  have hiota : iota .tc S1x4096 32 [1] iota_S1x4096_d1_w32 (ix2 (0 : Fin 1) c) = BitVec.ofNat 32 c.val :=
    iota_single_apply _ _ _ _ _ _
  have ht : (i 0).val ≤ 12 := Nat.le_of_lt_succ (i 0).isLt
  show IntOp.cmpi .slt (IntOp.addi (Scalar.muli (BitVec.ofNat 32 (i 0).val) 4096#32)
      (iota .tc S1x4096 32 [1] iota_S1x4096_d1_w32 (ix2 (0 : Fin 1) c))) 50257#32 = 1#1 ↔ _
  rw [hiota]
  exact column_mask_iff _ _ ht c.isLt

/-! ### The tile's value -/

/-- The value of the tile at column `c`: the token's logit where the token exists, minus infinity where not. -/
theorem masked_logits_apply (i : grid1.Coords) (x : Vec Ideal S1x1024 .f32) (W : Vec Ideal S4096x1024 .f32)
    (b : Vec Ideal S1x4096 .f32) (c : Fin 4096) :
    k1_pay5 (F := Ideal) i x W b (ix2 (0 : Fin 1) c)
      = if 4096 * (i 0).val + c.val < 50257 then
          (∑ k : Fin 1024, x (ix2 (0 : Fin 1) k) * W (ix2 c k)) + b (ix2 (0 : Fin 1) c)
        else ⊥ := by
  unfold k1_pay5
  dsimp only
  rw [select_apply]
  by_cases h : 4096 * (i 0).val + c.val < 50257
  · rw [if_pos h, (mask_apply_iff i c).mpr h, select_one, addf_apply, proj_apply, shapeCast_self]
  · rw [if_neg h, eq_zero_of_ne_one (mt (mask_apply_iff i c).mp h), select_zero, broadcast_apply]
    exact neg_big_eq_bot

/-- The tile's value does not depend on the rows of the matrix tile and the entries of the bias tile past the
    vocabulary. -/
theorem masked_logits_congr (i : grid1.Coords) (x : Vec Ideal S1x1024 .f32) (W W' : Vec Ideal S4096x1024 .f32)
    (b b' : Vec Ideal S1x4096 .f32)
    (hW : ∀ (c : Fin 4096) (k : Fin 1024), 4096 * (i 0).val + c.val < 50257 → W (ix2 c k) = W' (ix2 c k))
    (hb : ∀ c : Fin 4096, 4096 * (i 0).val + c.val < 50257 → b (ix2 (0 : Fin 1) c) = b' (ix2 (0 : Fin 1) c)) :
    k1_pay5 (F := Ideal) i x W b = k1_pay5 (F := Ideal) i x W' b' := by
  funext j
  obtain ⟨r, c, rfl⟩ : ∃ (r : Fin 1) (c : Fin 4096), j = ix2 r c := ⟨j 0, j 1, eq_ix2 j⟩
  obtain rfl : r = 0 := Subsingleton.elim _ _
  rw [masked_logits_apply, masked_logits_apply]
  by_cases h : 4096 * (i 0).val + c.val < 50257
  · rw [if_pos h, if_pos h, hb c h]
    exact congrArg (· + b' (ix2 (0 : Fin 1) c)) (Finset.sum_congr rfl fun k _ => by rw [hW c k h])
  · rw [if_neg h, if_neg h]

end Cert.KernelIdeal.Tile

end
-- ==== Proof.KI.Tile.Running.lean ====
import proofs.«160432_j12232066859333_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
import proofs.«160432_j12232066859333_1_alg».proof.Proof.KI.Tile.Logits

/-!
# The running maximum and the running sum of one vocabulary tile

After the masked logits of tile `t` the program folds the tile into two carried cells: the running maximum becomes
the larger of the carried maximum and the tile's maximum (taken from minus infinity over the 4096 columns), and the
running sum becomes the carried sum rescaled by the exponential of the old maximum against the new one, plus the sum
over the 4096 columns of the exponentials of the masked logits against the new maximum. Read on the extended reals
these are exactly one step of the online softmax over tiles with absent entries.

Both are functions of the masked logits alone, so neither depends on the rows of the matrix tile or the entries of
the bias tile past the vocabulary. Last, the cells the program resets at the first tile hold minus infinity and zero,
and the cells it copies out at the last tile are the carried cells unchanged.
-/

noncomputable section

namespace Cert.KernelIdeal.Tile

open Idealize.ShloMosaic Idealize.ShloMosaic.ValueIdx Cert.KernelIdeal Cert.KernelIdeal.Gen
open scoped BigOperators

/-! ### The two lane reductions and the column broadcast, read at an index -/

/-- The reduced row's one index, with column `c` put back, is `(0, c)`. -/
theorem lift_lane (c : Fin 4096) :
    reduces_S1x4096_S1.lift (ix1 (0 : Fin 1)) c = ix2 (0 : Fin 1) c :=
  funext fun a => Fin.ext (by
    match a with
    | ⟨0, _⟩ => rfl
    | ⟨1, _⟩ => rfl)

/-- The word of minus infinity denotes `⊥`. -/
theorem ofBits_neg_inf : Ideal.ofBits .f32 0xFF800000#32 = (⊥ : EReal) := by
  simp [Ideal.ofBits, Ideal.ieee]

/-- A row's maximum from minus infinity is the supremum of its 4096 entries. -/
theorem lane_max_apply (src : FVec Ideal S1x4096 .f32) (hφ : FKind.Formats .f32)
    (hacc : (0xFF800000#32 : BitVec 32) = FKind.maximumf.neutral .f32 hφ) :
    multiReduction (F := Ideal) .maximumf [1] S1 src 0xFF800000#32 reduces_S1x4096_S1 hφ hacc (ix1 (0 : Fin 1))
      = Finset.univ.sup fun c : Fin 4096 => src (ix2 (0 : Fin 1) c) := by
  refine (Ideal.multiReduction_maximumf_single src 0xFF800000#32 reduces_S1x4096_S1 hφ hacc (ix1 (0 : Fin 1))).trans ?_
  have hl : (src ∘ reduces_S1x4096_S1.lift (ix1 (0 : Fin 1))) = fun c : Fin 4096 => src (ix2 (0 : Fin 1) c) :=
    funext fun c => congrArg src (lift_lane c)
  show (Finset.univ : Finset (Fin 4096)).fold max (Ideal.ofBits .f32 0xFF800000#32)
      (src ∘ reduces_S1x4096_S1.lift (ix1 (0 : Fin 1))) = _
  rw [hl, ofBits_neg_inf]
  rfl

/-- A row's sum from zero is the sum of its 4096 entries. -/
theorem lane_sum_apply (src : FVec Ideal S1x4096 .f32) (hφ : FKind.Formats .f32)
    (hacc : (0x00000000#32 : BitVec 32) = FKind.add.neutral .f32 hφ) :
    multiReduction (F := Ideal) .add [1] S1 src 0x00000000#32 reduces_S1x4096_S1 hφ hacc (ix1 (0 : Fin 1))
      = ∑ c : Fin 4096, src (ix2 (0 : Fin 1) c) := by
  refine (Ideal.multiReduction_add_single src 0x00000000#32 reduces_S1x4096_S1 hφ hacc (ix1 (0 : Fin 1))).trans ?_
  exact Finset.sum_congr rfl fun c _ => congrArg src (lift_lane c)

/-- One cell broadcast along a row of 4096 reads the cell at every column. -/
theorem cell_broadcast_apply (v : FVec Ideal S1x1 .f32) (c : Fin 4096) :
    broadcastTo S1x4096 v broadcasts_S1x1_S1x4096 (ix2 (0 : Fin 1) c) = v (ix2 (0 : Fin 1) (0 : Fin 1)) :=
  broadcastTo_apply v broadcasts_S1x1_S1x4096 (ix2 (0 : Fin 1) c) (ix2 (0 : Fin 1) (0 : Fin 1)) fun a => by
    match a with
    | ⟨0, _⟩ => rfl
    | ⟨1, _⟩ => rfl

/-! ### The new running maximum and the new running sum -/

/-- The new running maximum: the larger of the carried maximum and the supremum of the tile's masked logits. -/
theorem running_max_apply (i : grid1.Coords) (x : Vec Ideal S1x1024 .f32) (W : Vec Ideal S4096x1024 .f32)
    (b : Vec Ideal S1x4096 .f32) (mprev : Vec Ideal S1x1 .f32) :
    k1_pay6 (F := Ideal) i x W b mprev (ix2 (0 : Fin 1) (0 : Fin 1))
      = max (mprev (ix2 (0 : Fin 1) (0 : Fin 1)))
          (Finset.univ.sup fun c : Fin 4096 => k1_pay5 (F := Ideal) i x W b (ix2 (0 : Fin 1) c)) := by
  unfold k1_pay6
  dsimp only
  refine (maximumf_apply _ _ _).trans (congrArg (max (mprev (ix2 (0 : Fin 1) (0 : Fin 1)))) ?_)
  refine (shapeCast_a_1a_apply _ shapeCasts_S1_S1x1 (0 : Fin 1) (0 : Fin 1)).trans ?_
  exact lane_max_apply _ _ _

/-- The new running sum: the carried sum rescaled to the new maximum, plus the sum over the tile's columns of the
    exponentials of the masked logits against the new maximum. -/
theorem running_sum_apply (i : grid1.Coords) (x : Vec Ideal S1x1024 .f32) (W : Vec Ideal S4096x1024 .f32)
    (b : Vec Ideal S1x4096 .f32) (mprev lprev : Vec Ideal S1x1 .f32) :
    k1_pay7 (F := Ideal) i x W b mprev lprev (ix2 (0 : Fin 1) (0 : Fin 1))
      = lprev (ix2 (0 : Fin 1) (0 : Fin 1))
            * Ideal.exp (mprev (ix2 (0 : Fin 1) (0 : Fin 1))
                - k1_pay6 (F := Ideal) i x W b mprev (ix2 (0 : Fin 1) (0 : Fin 1)))
          + ∑ c : Fin 4096, Ideal.exp (k1_pay5 (F := Ideal) i x W b (ix2 (0 : Fin 1) c)
                - k1_pay6 (F := Ideal) i x W b mprev (ix2 (0 : Fin 1) (0 : Fin 1))) := by
  unfold k1_pay7
  dsimp only
  refine (addf_apply _ _ _).trans ?_
  refine congrArg₂ (· + ·) rfl ?_
  refine (shapeCast_a_1a_apply _ shapeCasts_S1_S1x1 (0 : Fin 1) (0 : Fin 1)).trans ?_
  refine (lane_sum_apply _ _ _).trans ?_
  refine Finset.sum_congr rfl fun c _ => ?_
  show Ideal.exp (k1_pay5 (F := Ideal) i x W b (ix2 (0 : Fin 1) c)
      - broadcastTo S1x4096 (k1_pay6 (F := Ideal) i x W b mprev) broadcasts_S1x1_S1x4096 (ix2 (0 : Fin 1) c)) = _
  rw [cell_broadcast_apply]

/-! ### Independence from the rows past the vocabulary -/

/-- The new running maximum does not depend on the rows and entries past the vocabulary. -/
theorem running_max_congr (i : grid1.Coords) (x : Vec Ideal S1x1024 .f32) (W W' : Vec Ideal S4096x1024 .f32)
    (b b' : Vec Ideal S1x4096 .f32) (mprev : Vec Ideal S1x1 .f32)
    (hW : ∀ (c : Fin 4096) (k : Fin 1024), 4096 * (i 0).val + c.val < 50257 → W (ix2 c k) = W' (ix2 c k))
    (hb : ∀ c : Fin 4096, 4096 * (i 0).val + c.val < 50257 → b (ix2 (0 : Fin 1) c) = b' (ix2 (0 : Fin 1) c)) :
    k1_pay6 (F := Ideal) i x W b mprev = k1_pay6 (F := Ideal) i x W' b' mprev := by
  unfold k1_pay6
  rw [masked_logits_congr i x W W' b b' hW hb]

/-- The new running sum does not depend on the rows and entries past the vocabulary. -/
theorem running_sum_congr (i : grid1.Coords) (x : Vec Ideal S1x1024 .f32) (W W' : Vec Ideal S4096x1024 .f32)
    (b b' : Vec Ideal S1x4096 .f32) (mprev lprev : Vec Ideal S1x1 .f32)
    (hW : ∀ (c : Fin 4096) (k : Fin 1024), 4096 * (i 0).val + c.val < 50257 → W (ix2 c k) = W' (ix2 c k))
    (hb : ∀ c : Fin 4096, 4096 * (i 0).val + c.val < 50257 → b (ix2 (0 : Fin 1) c) = b' (ix2 (0 : Fin 1) c)) :
    k1_pay7 (F := Ideal) i x W b mprev lprev = k1_pay7 (F := Ideal) i x W' b' mprev lprev := by
  unfold k1_pay7
  rw [masked_logits_congr i x W W' b b' hW hb, running_max_congr i x W W' b b' mprev hW hb]

/-! ### The cells copied out and the cells reset -/

/-- The maximum copied out at the last tile is the carried cell. -/
theorem copied_max (v : FVec Ideal S1x1 .f32) : k1_pay1 (F := Ideal) v = v := by
  unfold k1_pay1
  exact shapeCast_self v _

/-- The sum copied out at the last tile is the carried cell. -/
theorem copied_sum (v : FVec Ideal S1x1 .f32) : k1_pay2 (F := Ideal) v = v := by
  unfold k1_pay2
  exact shapeCast_self v _

/-- The maximum cell is reset to minus infinity. -/
theorem reset_max_apply : k1_pay3 (F := Ideal) (ix2 (0 : Fin 1) (0 : Fin 1)) = (⊥ : EReal) := by
  unfold k1_pay3
  rw [shapeCast_self]
  exact ofBits_neg_inf

/-- The sum cell is reset to zero. -/
theorem reset_sum_apply : k1_pay4 (F := Ideal) (ix2 (0 : Fin 1) (0 : Fin 1)) = (0 : EReal) := by
  unfold k1_pay4
  rw [shapeCast_self]
  exact Ideal.ofBits_zero_f32

end Cert.KernelIdeal.Tile

end
-- ==== Proof.Spec.lean ====
import Mathlib
import Idealize.ShloMosaic.PureOps.Ideal

/-!
# One decoder step of an attention RNN, on the extended reals

Every quantity of the step as a plain function of the argument arrays, index by index, over literal index types:
the embedded row `e` and the hidden state `h` (1024 entries each), the encoder outputs (18 × 1024), the attention
layer (18 × 2048 and 18), the combining layer (1024 × 2048 and 1024), the GRU's input and hidden matrices
(3072 × 1024 each) and biases (3072 each), and the vocabulary projection (50257 × 1024 and 50257).

* attention logits: the concatenation of `e` and `h` against each row of the attention matrix, plus the bias;
  the weights are their softmax (maximum taken from minus infinity, sum from zero);
* the attended context is the weights against the encoder outputs; the combined input is the relu of the
  concatenation of `e` and the context against each row of the combining matrix, plus its bias;
* the GRU gates in the order reset, update, new: `r = σ(gi_r + gh_r)`, `z = σ(gi_z + gh_z)`,
  `n = tanh(gi_n + r · gh_n)`, and the new hidden state `(1 - z) · n + z · h`, with `σ x = 1 / (1 + exp (-x))`;
* the vocabulary logits are the new hidden state against each row of the projection, plus its bias, and the
  log-probabilities are the logits minus their maximum minus the logarithm of the sum of the exponentials of
  those differences.
-/

noncomputable section

namespace Cert.Spec

open Idealize.ShloMosaic
open scoped BigOperators

/-- Two rows of 1024 side by side: a row of 2048. -/
def cat (x y : Fin 1024 → EReal) (k : Fin 2048) : EReal :=
  if hk : k.val < 1024 then x ⟨k.val, hk⟩ else y ⟨k.val - 1024, by have := k.isLt; omega⟩

/-- The logistic function as both programs spell it. -/
def sig (x : EReal) : EReal := Ideal.div 1 (1 + Ideal.exp (-x))

section Step

variable (e h : Fin 1024 → EReal) (enc : Fin 18 → Fin 1024 → EReal)
  (aW : Fin 18 → Fin 2048 → EReal) (ab : Fin 18 → EReal)
  (cW : Fin 1024 → Fin 2048 → EReal) (cb : Fin 1024 → EReal)
  (Wih Whh : Fin 3072 → Fin 1024 → EReal) (bih bhh : Fin 3072 → EReal)

/-- The attention logit of encoder position `j`. -/
def logit (j : Fin 18) : EReal := (∑ k : Fin 2048, cat e h k * aW j k) + ab j

/-- The largest attention logit (from minus infinity). -/
def amax : EReal := Finset.univ.sup fun j : Fin 18 => logit e h aW ab j

/-- The exponential of a logit against the largest. -/
def aexp (j : Fin 18) : EReal := Ideal.exp (logit e h aW ab j - amax e h aW ab)

/-- The attention weight of encoder position `j`: the softmax of the logits. -/
def attn (j : Fin 18) : EReal := Ideal.div (aexp e h aW ab j) (∑ j' : Fin 18, aexp e h aW ab j')

/-- The attended context. -/
def ctx (k : Fin 1024) : EReal := ∑ j : Fin 18, attn e h aW ab j * enc j k

/-- The combined input, after the relu. -/
def comb (r : Fin 1024) : EReal :=
  max ((∑ k : Fin 2048, cat e (ctx e h enc aW ab) k * cW r k) + cb r) 0

/-- The GRU's input-side pre-activations (reset, update, new: 1024 each). -/
def gi (g : Fin 3072) : EReal := (∑ k : Fin 1024, comb e h enc aW ab cW cb k * Wih g k) + bih g

/-- The GRU's hidden-side pre-activations. -/
def gh (g : Fin 3072) : EReal := (∑ k : Fin 1024, h k * Whh g k) + bhh g

/-- Gate `q` (0 reset, 1 update, 2 new) at unit `k`, as an index into the 3072 pre-activations. -/
def gate (q : Fin 3) (k : Fin 1024) : Fin 3072 := ⟨1024 * q.val + k.val, by have := q.isLt; have := k.isLt; omega⟩

/-- The reset gate. -/
def rgate (k : Fin 1024) : EReal :=
  sig (gi e h enc aW ab cW cb Wih bih (gate 0 k) + gh h Whh bhh (gate 0 k))

/-- The update gate. -/
def zgate (k : Fin 1024) : EReal :=
  sig (gi e h enc aW ab cW cb Wih bih (gate 1 k) + gh h Whh bhh (gate 1 k))

/-- The candidate state. -/
def ngate (k : Fin 1024) : EReal :=
  Ideal.tanh (gi e h enc aW ab cW cb Wih bih (gate 2 k)
    + rgate e h enc aW ab cW cb Wih Whh bih bhh k * gh h Whh bhh (gate 2 k))

/-- The new hidden state. -/
def hnew (k : Fin 1024) : EReal :=
  (1 - zgate e h enc aW ab cW cb Wih Whh bih bhh k) * ngate e h enc aW ab cW cb Wih Whh bih bhh k
    + zgate e h enc aW ab cW cb Wih Whh bih bhh k * h k

end Step

section Vocab

variable (x : Fin 1024 → EReal) (oW : Fin 50257 → Fin 1024 → EReal) (ob : Fin 50257 → EReal)

/-- The vocabulary logit of token `v` from the state `x`. -/
def vlogit (v : Fin 50257) : EReal := (∑ k : Fin 1024, x k * oW v k) + ob v

/-- The largest vocabulary logit (from minus infinity). -/
def vmax : EReal := Finset.univ.sup fun v : Fin 50257 => vlogit x oW ob v

/-- The softmax normaliser of the vocabulary logits against their maximum. -/
def vsum : EReal := ∑ v : Fin 50257, Ideal.exp (vlogit x oW ob v - vmax x oW ob)

/-- The log-probability of token `v`. -/
def logprob (v : Fin 50257) : EReal := (vlogit x oW ob v - vmax x oW ob) - Ideal.log (vsum x oW ob)

end Vocab

end Cert.Spec

end
-- ==== Proof.KI.Tile.Cells.lean ====
import proofs.«160432_j12232066859333_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
import proofs.«160432_j12232066859333_1_alg».proof.Proof.KI.Tile.Running
import proofs.«160432_j12232066859333_1_alg».proof.Proof.Spec
import proofs.«160432_j12232066859333_1_alg».proof.Proof.LibMaskedOnlineSoftmax

/-!
# The two carried cells over the thirteen tiles, and what they hold at the end

The vocabulary projection runs its thirteen tiles in order and carries two cells from tile to tile: the running
maximum and the running sum of the masked logits seen so far. This file names the contents of the two cells after
each tile exactly as the program stores them (the reset values before the first tile, then one fold per tile), and
shows that when the tiles of the matrix and of the bias are the tiles of one projection matrix and one bias over
the 50257 tokens, and every entry is a finite real, the cells after the last tile hold the maximum of the
vocabulary logits and the softmax normaliser against it.
-/

noncomputable section

namespace Cert.KernelIdeal.Tile

open Idealize.ShloMosaic Idealize.ShloMosaic.ValueIdx Cert.KernelIdeal Cert.KernelIdeal.Gen
open scoped BigOperators

/-! ### The grid's thirteen points -/

theorem points_eq : grid1.N = 13 := by decide

/-- The tile run at step `n` (steps past the twelfth wrap around; only the first thirteen are used). -/
def tileAt (n : ℕ) : Fin cfg1.N :=
  ⟨n % 13, by show n % 13 < grid1.N; rw [points_eq]; exact Nat.mod_lt _ (by decide)⟩

theorem tileAt_val (n : ℕ) : (tileAt n).val = n % 13 := rfl

theorem tileAt_val_of_lt {n : ℕ} (hn : n < 13) : (tileAt n).val = n := Nat.mod_eq_of_lt hn

/-- The grid has one axis: the coordinate of point `t` is `t`. -/
theorem coords_val : ∀ t : Fin cfg1.N, ((grid1.coords t) 0).val = t.val :=
  (by decide +kernel : ∀ t : Fin grid1.N, ((grid1.coords t) 0).val = t.val)

/-! ### The carried cells, as the program stores them -/

/-- The running-maximum cell after step `n`: before the first tile it reads back the reset value. -/
def cellM (x : Vec Ideal S1x1024 .f32) (Wt : Fin cfg1.N → Vec Ideal S4096x1024 .f32)
    (bt : Fin cfg1.N → Vec Ideal S1x4096 .f32) : ℕ → Vec Ideal S1x1 .f32
  | 0 => k1_pay1 (F := Ideal)
      (k1_pay6 (F := Ideal) (grid1.coords (tileAt 0)) x (Wt (tileAt 0)) (bt (tileAt 0)) (k1_pay3 (F := Ideal)))
  | n + 1 => k1_pay1 (F := Ideal)
      (k1_pay6 (F := Ideal) (grid1.coords (tileAt (n + 1))) x (Wt (tileAt (n + 1))) (bt (tileAt (n + 1)))
        (cellM x Wt bt n))

/-- The running-sum cell after step `n`: before the first tile the two cells read back the reset values. -/
def cellL (x : Vec Ideal S1x1024 .f32) (Wt : Fin cfg1.N → Vec Ideal S4096x1024 .f32)
    (bt : Fin cfg1.N → Vec Ideal S1x4096 .f32) : ℕ → Vec Ideal S1x1 .f32
  | 0 => k1_pay2 (F := Ideal)
      (k1_pay7 (F := Ideal) (grid1.coords (tileAt 0)) x (Wt (tileAt 0)) (bt (tileAt 0)) (k1_pay3 (F := Ideal))
        (k1_pay4 (F := Ideal)))
  | n + 1 => k1_pay2 (F := Ideal)
      (k1_pay7 (F := Ideal) (grid1.coords (tileAt (n + 1))) x (Wt (tileAt (n + 1))) (bt (tileAt (n + 1)))
        (cellM x Wt bt n) (cellL x Wt bt n))

section Unfold

variable (x : Vec Ideal S1x1024 .f32) (Wt : Fin cfg1.N → Vec Ideal S4096x1024 .f32)
  (bt : Fin cfg1.N → Vec Ideal S1x4096 .f32)

theorem cellM_zero : cellM x Wt bt 0 = k1_pay1 (F := Ideal)
    (k1_pay6 (F := Ideal) (grid1.coords (tileAt 0)) x (Wt (tileAt 0)) (bt (tileAt 0)) (k1_pay3 (F := Ideal))) := rfl

theorem cellM_succ (n : ℕ) : cellM x Wt bt (n + 1) = k1_pay1 (F := Ideal)
    (k1_pay6 (F := Ideal) (grid1.coords (tileAt (n + 1))) x (Wt (tileAt (n + 1))) (bt (tileAt (n + 1)))
      (cellM x Wt bt n)) := rfl

theorem cellL_zero : cellL x Wt bt 0 = k1_pay2 (F := Ideal)
    (k1_pay7 (F := Ideal) (grid1.coords (tileAt 0)) x (Wt (tileAt 0)) (bt (tileAt 0)) (k1_pay3 (F := Ideal))
      (k1_pay4 (F := Ideal))) := rfl

theorem cellL_succ (n : ℕ) : cellL x Wt bt (n + 1) = k1_pay2 (F := Ideal)
    (k1_pay7 (F := Ideal) (grid1.coords (tileAt (n + 1))) x (Wt (tileAt (n + 1))) (bt (tileAt (n + 1)))
      (cellM x Wt bt n) (cellL x Wt bt n)) := rfl

end Unfold

/-! ### The tiles of one projection matrix and one bias -/

section Projection

variable (x : Vec Ideal S1x1024 .f32) (Wt : Fin cfg1.N → Vec Ideal S4096x1024 .f32)
  (bt : Fin cfg1.N → Vec Ideal S1x4096 .f32)
  (oW : Fin 50257 → Fin 1024 → EReal) (ob : Fin 50257 → EReal)

/-- When the tiles are the tiles of one projection, a tile's value at column `c` is the vocabulary logit of token
    `4096 * t + c` where that token exists, and minus infinity where not. -/
theorem masked_logits_spec
    (hWt : ∀ (t : Fin cfg1.N) (c : Fin 4096) (k : Fin 1024) (h : 4096 * t.val + c.val < 50257),
      Wt t (ix2 c k) = oW ⟨4096 * t.val + c.val, h⟩ k)
    (hbt : ∀ (t : Fin cfg1.N) (c : Fin 4096) (h : 4096 * t.val + c.val < 50257),
      bt t (ix2 (0 : Fin 1) c) = ob ⟨4096 * t.val + c.val, h⟩)
    (t : Fin cfg1.N) (c : Fin 4096) :
    k1_pay5 (F := Ideal) (grid1.coords t) x (Wt t) (bt t) (ix2 (0 : Fin 1) c)
      = if h : 4096 * t.val + c.val < 50257 then
          Cert.Spec.vlogit (fun k => x (ix2 (0 : Fin 1) k)) oW ob ⟨4096 * t.val + c.val, h⟩
        else ⊥ := by
  rw [masked_logits_apply, coords_val t]
  by_cases h : 4096 * t.val + c.val < 50257
  · rw [if_pos h, dif_pos h, Cert.Spec.vlogit, hbt t c h]
    exact congrArg (· + ob ⟨4096 * t.val + c.val, h⟩) (Finset.sum_congr rfl fun k _ => by rw [hWt t c k h])
  · rw [if_neg h, dif_neg h]

/-- A vocabulary logit of finite reals is a finite real. -/
theorem isReal_vlogit (xs : Fin 1024 → EReal) (hx : ∀ k, Cert.OnlineSoftmax.IsReal (xs k))
    (hW : ∀ v k, Cert.OnlineSoftmax.IsReal (oW v k)) (hb : ∀ v, Cert.OnlineSoftmax.IsReal (ob v)) (v : Fin 50257) :
    Cert.OnlineSoftmax.IsReal (Cert.Spec.vlogit xs oW ob v) := by
  unfold Cert.Spec.vlogit
  exact (Cert.OnlineSoftmax.IsReal.sum _ fun k _ => (hx k).mul (hW v k)).add (hb v)

/-- The vocabulary logits as real numbers. -/
def vlogitR (v : Fin 50257) : ℝ := (Cert.Spec.vlogit (fun k => x (ix2 (0 : Fin 1) k)) oW ob v).toReal

/-- The padded tiles of the vocabulary logits: entry `c` of tile `n` is the logit of token `4096 * n + c`, absent
    past the vocabulary. -/
def vtile : ℕ → Fin 4096 → EReal := Cert.MaskedOnlineSoftmax.mtile (R := 4096) (vlogitR x oW ob) 13

/-- One fold of the running maximum, against the padded tiles. -/
theorem step_max (hpay : ∀ n, n < 13 → ∀ c : Fin 4096,
      k1_pay5 (F := Ideal) (grid1.coords (tileAt n)) x (Wt (tileAt n)) (bt (tileAt n)) (ix2 (0 : Fin 1) c)
        = vtile x oW ob n c)
    {n : ℕ} (hn : n < 13) (mprev : Vec Ideal S1x1 .f32) :
    k1_pay6 (F := Ideal) (grid1.coords (tileAt n)) x (Wt (tileAt n)) (bt (tileAt n)) mprev
        (ix2 (0 : Fin 1) (0 : Fin 1))
      = max (mprev (ix2 (0 : Fin 1) (0 : Fin 1))) (Cert.MaskedOnlineSoftmax.tmax (vtile x oW ob) n) := by
  rw [running_max_apply, Cert.MaskedOnlineSoftmax.tmax]
  exact congrArg (max (mprev (ix2 (0 : Fin 1) (0 : Fin 1)))) (Finset.sup_congr rfl fun c _ => hpay n hn c)

/-- One fold of the running sum, against the padded tiles. -/
theorem step_sum (hpay : ∀ n, n < 13 → ∀ c : Fin 4096,
      k1_pay5 (F := Ideal) (grid1.coords (tileAt n)) x (Wt (tileAt n)) (bt (tileAt n)) (ix2 (0 : Fin 1) c)
        = vtile x oW ob n c)
    {n : ℕ} (hn : n < 13) (mprev lprev : Vec Ideal S1x1 .f32) :
    k1_pay7 (F := Ideal) (grid1.coords (tileAt n)) x (Wt (tileAt n)) (bt (tileAt n)) mprev lprev
        (ix2 (0 : Fin 1) (0 : Fin 1))
      = lprev (ix2 (0 : Fin 1) (0 : Fin 1))
            * Ideal.exp (mprev (ix2 (0 : Fin 1) (0 : Fin 1))
                - max (mprev (ix2 (0 : Fin 1) (0 : Fin 1))) (Cert.MaskedOnlineSoftmax.tmax (vtile x oW ob) n))
          + ∑ c : Fin 4096, Ideal.exp (vtile x oW ob n c
                - max (mprev (ix2 (0 : Fin 1) (0 : Fin 1))) (Cert.MaskedOnlineSoftmax.tmax (vtile x oW ob) n)) := by
  rw [running_sum_apply, step_max x Wt bt oW ob hpay hn mprev]
  exact congrArg _ (Finset.sum_congr rfl fun c _ => by rw [hpay n hn c])

/-- The two cells after step `n` are the running maximum and the running sum of the padded tiles. -/
theorem cells_eq_run (hpay : ∀ n, n < 13 → ∀ c : Fin 4096,
      k1_pay5 (F := Ideal) (grid1.coords (tileAt n)) x (Wt (tileAt n)) (bt (tileAt n)) (ix2 (0 : Fin 1) c)
        = vtile x oW ob n c) :
    ∀ n, n < 13 →
      cellM x Wt bt n (ix2 (0 : Fin 1) (0 : Fin 1)) = Cert.MaskedOnlineSoftmax.mrun (vtile x oW ob) n
      ∧ cellL x Wt bt n (ix2 (0 : Fin 1) (0 : Fin 1)) = Cert.MaskedOnlineSoftmax.srun (vtile x oW ob) n := by
  intro n
  induction n with
  | zero =>
    intro hn
    refine ⟨?_, ?_⟩
    · rw [cellM_zero, copied_max, step_max x Wt bt oW ob hpay hn, reset_max_apply]
      rfl
    · rw [cellL_zero, copied_sum, step_sum x Wt bt oW ob hpay hn, reset_max_apply, reset_sum_apply]
      rfl
  | succ n ih =>
    intro hn
    obtain ⟨hM, hL⟩ := ih (Nat.lt_of_succ_lt hn)
    refine ⟨?_, ?_⟩
    · rw [cellM_succ, copied_max, step_max x Wt bt oW ob hpay hn, hM]
      rfl
    · rw [cellL_succ, copied_sum, step_sum x Wt bt oW ob hpay hn, hM, hL]
      rfl

section Finite

variable
  (hWt : ∀ (t : Fin cfg1.N) (c : Fin 4096) (k : Fin 1024) (h : 4096 * t.val + c.val < 50257),
    Wt t (ix2 c k) = oW ⟨4096 * t.val + c.val, h⟩ k)
  (hbt : ∀ (t : Fin cfg1.N) (c : Fin 4096) (h : 4096 * t.val + c.val < 50257),
    bt t (ix2 (0 : Fin 1) c) = ob ⟨4096 * t.val + c.val, h⟩)
  (hx : ∀ k, Cert.OnlineSoftmax.IsReal (x (ix2 (0 : Fin 1) k)))
  (hW : ∀ v k, Cert.OnlineSoftmax.IsReal (oW v k)) (hb : ∀ v, Cert.OnlineSoftmax.IsReal (ob v))

include hx hW hb in
/-- A vocabulary logit is its real value. -/
theorem coe_vlogitR (v : Fin 50257) :
    ((vlogitR x oW ob v : ℝ) : EReal) = Cert.Spec.vlogit (fun k => x (ix2 (0 : Fin 1) k)) oW ob v :=
  (isReal_vlogit oW ob _ hx hW hb v).coe_toReal

include hWt hbt hx hW hb in
/-- A tile's value is the padded tile of the vocabulary logits. -/
theorem masked_logits_vtile (n : ℕ) (hn : n < 13) (c : Fin 4096) :
    k1_pay5 (F := Ideal) (grid1.coords (tileAt n)) x (Wt (tileAt n)) (bt (tileAt n)) (ix2 (0 : Fin 1) c)
      = vtile x oW ob n c := by
  have e : (tileAt n).val = n := tileAt_val_of_lt hn
  rw [masked_logits_spec x Wt bt oW ob hWt hbt, vtile, Cert.MaskedOnlineSoftmax.mtile, if_pos hn,
    Cert.MaskedOnlineSoftmax.pad]
  by_cases h : 4096 * n + c.val < 50257
  · have h' : 4096 * (tileAt n).val + c.val < 50257 := by rw [e]; exact h
    rw [dif_pos h', dif_pos h, coe_vlogitR x oW ob hx hW hb]
    exact congrArg _ (Fin.ext (by show 4096 * (tileAt n).val + c.val = 4096 * n + c.val; rw [e]))
  · have h' : ¬4096 * (tileAt n).val + c.val < 50257 := by rw [e]; exact h
    rw [dif_neg h', dif_neg h]

include hWt hbt hx hW hb in
/-- After the last tile the maximum cell holds the largest vocabulary logit. -/
theorem cellM_last :
    cellM x Wt bt 12 (ix2 (0 : Fin 1) (0 : Fin 1)) = Cert.Spec.vmax (fun k => x (ix2 (0 : Fin 1) k)) oW ob := by
  rw [(cells_eq_run x Wt bt oW ob (masked_logits_vtile x Wt bt oW ob hWt hbt hx hW hb) 12 (by decide)).1, vtile,
    Cert.MaskedOnlineSoftmax.mrun_flat (vlogitR x oW ob) (n := 12) (T := 13) (R := 4096) rfl (by decide)
      (fun i hi => by omega) (by decide),
    Cert.Spec.vmax]
  exact Finset.sup_congr rfl fun v _ => coe_vlogitR x oW ob hx hW hb v

include hWt hbt hx hW hb in
/-- After the last tile the sum cell holds the softmax normaliser of the vocabulary logits. -/
theorem cellL_last :
    cellL x Wt bt 12 (ix2 (0 : Fin 1) (0 : Fin 1)) = Cert.Spec.vsum (fun k => x (ix2 (0 : Fin 1) k)) oW ob := by
  have hco : (fun k : Fin 50257 => ((vlogitR x oW ob k : ℝ) : EReal))
      = fun v => Cert.Spec.vlogit (fun k => x (ix2 (0 : Fin 1) k)) oW ob v :=
    funext (coe_vlogitR x oW ob hx hW hb)
  rw [(cells_eq_run x Wt bt oW ob (masked_logits_vtile x Wt bt oW ob hWt hbt hx hW hb) 12 (by decide)).2, vtile,
    Cert.MaskedOnlineSoftmax.srun_flat (vlogitR x oW ob) (n := 12) (T := 13) (R := 4096) rfl (by decide)
      (fun i hi => by omega) (by decide),
    Cert.Spec.vsum, Cert.Spec.vmax, hco]
  exact Finset.sum_congr rfl fun v _ => by rw [coe_vlogitR x oW ob hx hW hb v]

include hWt hbt hx hW hb in
/-- The log-probability of a token, written over the two cells after the last tile. -/
theorem logprob_eq_cells (v : Fin 50257) :
    Cert.Spec.logprob (fun k => x (ix2 (0 : Fin 1) k)) oW ob v
      = (Cert.Spec.vlogit (fun k => x (ix2 (0 : Fin 1) k)) oW ob v - cellM x Wt bt 12 (ix2 (0 : Fin 1) (0 : Fin 1)))
          - Ideal.log (cellL x Wt bt 12 (ix2 (0 : Fin 1) (0 : Fin 1))) := by
  rw [cellM_last x Wt bt oW ob hWt hbt hx hW hb, cellL_last x Wt bt oW ob hWt hbt hx hW hb]
  rfl

end Finite

end Projection

end Cert.KernelIdeal.Tile

end
-- ==== Proof.KI.TileRegion.lean ====
import proofs.«160432_j12232066859333_1_alg».proof.Proof.KI.TilePieces
import proofs.«160432_j12232066859333_1_alg».proof.Proof.KI.Tile.Cells

/-!
The vocabulary projection's pipeline at the extended reals: thirteen tiles of 4096 columns, the last one reaching past
the 50257 columns of the projection matrix, the bias and the logits.

A fetched tile of the matrix (or of the bias) holds the array's rows on the part inside the array and words nothing
names past it. The masked logits, and with them the running maximum and the rescaled running sum, do not read those
words: a column past the vocabulary is replaced by the fill before anything looks at it. So what the body leaves is
stated over the tile FILLED OUT WITH ZEROS past the array — one definite function per point — and the body
obligation replaces whatever the fetch left there by that filling.

After tile `t` the two carried cells hold the running maximum and running sum of tiles `0 … t`, by recursion on the
tile; the logits' buffer holds the tile's masked logits; at the last tile the two one-by-one results receive the cells.
-/

set_option maxRecDepth 16384

noncomputable section

namespace Cert.KernelIdeal.Vocab

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

/-- Window `w`'s block at tile `t`, its part inside the array, read off the array as the launch finds it. -/
def iblk (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The state row the launch projects. -/
def xrow (c : Dev nD) (t : Fin cfg1.N) : Vec Ideal S1x1024 .f32 := iblk V c 0 t

/-- Tile `t` of the projection matrix, filled out with zeros past the array. -/
def Wt (c : Dev nD) (t : Fin cfg1.N) : Vec Ideal S4096x1024 .f32 :=
  (cfg1.win 1).fill (cfg1.grid.coords t) (fun _ => Scalar.ofBits (F := Ideal) .f32 0#32) (iblk V c 1 t)

/-- Tile `t` of the bias, filled out with zeros past the array. -/
def bt (c : Dev nD) (t : Fin cfg1.N) : Vec Ideal S1x4096 .f32 :=
  (cfg1.win 2).fill (cfg1.grid.coords t) (fun _ => Scalar.ofBits (F := Ideal) .f32 0#32) (iblk V c 2 t)

/-- The running maximum after tile `n`, and -/
def cellMax (c : Dev nD) (n : ℕ) : Vec Ideal S1x1 .f32 := cellM (xrow V c t1_0) (Wt V c) (bt V c) n
/-- the running sum. -/
def cellSum (c : Dev nD) (n : ℕ) : Vec Ideal S1x1 .f32 := cellL (xrow V c t1_0) (Wt V c) (bt V c) n

/-! ## The invariant between tiles -/

/-- The scratch cells as memrefs. -/
abbrev scMax : Memref sig .tc .vmem S1x1 .f32 := Memref.whole cc1_scratch0
abbrev scSum : Memref sig .tc .vmem S1x1 .f32 := Memref.whole cc1_scratch1

/-- Before the first tile: the scoped rest and the generator register, unconstrained. After tile `n`: the same, the two
    cells at the running maximum and sum of tiles `0 … n`. (The other scoped buffers — the first launch's staging
    buffers — ride along at anything.) -/
def PhiT (c : Dev nD) : ℕ → sProp 𝕄
  | 0 => Pipeline.ΦA spec1 c
  | n + 1 => iprop(iprop((∃ f : Buf (Elt Ideal) ((c : Thread nD τ).loc cc0_stg0_0), ((c : Thread nD τ).loc cc0_stg0_0) ↦{fullShare} f) ∗ (∃ f : Buf (Elt Ideal) ((c : Thread nD τ).loc cc0_stg1_0), ((c : Thread nD τ).loc cc0_stg1_0) ↦{fullShare} f) ∗ (∃ f : Buf (Elt Ideal) ((c : Thread nD τ).loc cc0_stg2_0), ((c : Thread nD τ).loc cc0_stg2_0) ↦{fullShare} f) ∗ (∃ f : Buf (Elt Ideal) ((c : Thread nD τ).loc cc0_stg3_0), ((c : Thread nD τ).loc cc0_stg3_0) ↦{fullShare} f) ∗ (∃ f : Buf (Elt Ideal) ((c : Thread nD τ).loc cc0_stg4_0), ((c : Thread nD τ).loc cc0_stg4_0) ↦{fullShare} f) ∗ (∃ f : Buf (Elt Ideal) ((c : Thread nD τ).loc cc0_stg5_0), ((c : Thread nD τ).loc cc0_stg5_0) ↦{fullShare} f) ∗ (∃ f : Buf (Elt Ideal) ((c : Thread nD τ).loc cc0_stg6_0), ((c : Thread nD τ).loc cc0_stg6_0) ↦{fullShare} f) ∗ (∃ f : Buf (Elt Ideal) ((c : Thread nD τ).loc cc0_stg7_0), ((c : Thread nD τ).loc cc0_stg7_0) ↦{fullShare} f) ∗ (∃ f : Buf (Elt Ideal) ((c : Thread nD τ).loc cc0_stg8_0), ((c : Thread nD τ).loc cc0_stg8_0) ↦{fullShare} f) ∗ (∃ f : Buf (Elt Ideal) ((c : Thread nD τ).loc cc0_stg9_0), ((c : Thread nD τ).loc cc0_stg9_0) ↦{fullShare} f) ∗ (∃ f : Buf (Elt Ideal) ((c : Thread nD τ).loc cc0_stg10_0), ((c : Thread nD τ).loc cc0_stg10_0) ↦{fullShare} f) ∗ (∃ f : Buf (Elt Ideal) ((c : Thread nD τ).loc cc0_stg11_0), ((c : Thread nD τ).loc cc0_stg11_0) ↦{fullShare} f) ∗ (∃ f : Buf (Elt Ideal) ((c : Thread nD τ).loc cc0_stg12_0), ((c : Thread nD τ).loc cc0_stg12_0) ↦{fullShare} f) ∗ owns (c : Thread nD τ) scMax fullShare (cellMax V c n) ∗ owns (c : Thread nD τ) scSum fullShare (cellSum V c n)) ∗ (∃ r, prngReg c r))

/-- The unconstrained invariant, the two cells visible. -/
theorem PhiA_eq (c : Dev nD) :
    (Pipeline.ΦA spec1 c : sProp 𝕄)
      = iprop(iprop((∃ f : Buf (Elt Ideal) ((c : Thread nD τ).loc cc0_stg0_0), ((c : Thread nD τ).loc cc0_stg0_0) ↦{fullShare} f) ∗ (∃ f : Buf (Elt Ideal) ((c : Thread nD τ).loc cc0_stg1_0), ((c : Thread nD τ).loc cc0_stg1_0) ↦{fullShare} f) ∗ (∃ f : Buf (Elt Ideal) ((c : Thread nD τ).loc cc0_stg2_0), ((c : Thread nD τ).loc cc0_stg2_0) ↦{fullShare} f) ∗ (∃ f : Buf (Elt Ideal) ((c : Thread nD τ).loc cc0_stg3_0), ((c : Thread nD τ).loc cc0_stg3_0) ↦{fullShare} f) ∗ (∃ f : Buf (Elt Ideal) ((c : Thread nD τ).loc cc0_stg4_0), ((c : Thread nD τ).loc cc0_stg4_0) ↦{fullShare} f) ∗ (∃ f : Buf (Elt Ideal) ((c : Thread nD τ).loc cc0_stg5_0), ((c : Thread nD τ).loc cc0_stg5_0) ↦{fullShare} f) ∗ (∃ f : Buf (Elt Ideal) ((c : Thread nD τ).loc cc0_stg6_0), ((c : Thread nD τ).loc cc0_stg6_0) ↦{fullShare} f) ∗ (∃ f : Buf (Elt Ideal) ((c : Thread nD τ).loc cc0_stg7_0), ((c : Thread nD τ).loc cc0_stg7_0) ↦{fullShare} f) ∗ (∃ f : Buf (Elt Ideal) ((c : Thread nD τ).loc cc0_stg8_0), ((c : Thread nD τ).loc cc0_stg8_0) ↦{fullShare} f) ∗ (∃ f : Buf (Elt Ideal) ((c : Thread nD τ).loc cc0_stg9_0), ((c : Thread nD τ).loc cc0_stg9_0) ↦{fullShare} f) ∗ (∃ f : Buf (Elt Ideal) ((c : Thread nD τ).loc cc0_stg10_0), ((c : Thread nD τ).loc cc0_stg10_0) ↦{fullShare} f) ∗ (∃ f : Buf (Elt Ideal) ((c : Thread nD τ).loc cc0_stg11_0), ((c : Thread nD τ).loc cc0_stg11_0) ↦{fullShare} f) ∗ (∃ f : Buf (Elt Ideal) ((c : Thread nD τ).loc cc0_stg12_0), ((c : Thread nD τ).loc cc0_stg12_0) ↦{fullShare} f) ∗ (∃ d, owns (c : Thread nD τ) scMax fullShare d) ∗ (∃ d, owns (c : Thread nD τ) scSum fullShare d)) ∗ (∃ r, prngReg c r)) := by
  unfold Pipeline.ΦA; rw [scopedRest1_eq]; simp only [scMax, scSum, owns_whole]; try rfl

theorem PhiT_succ (c : Dev nD) (n : ℕ) :
    PhiT V c (n + 1) = iprop(iprop((∃ f : Buf (Elt Ideal) ((c : Thread nD τ).loc cc0_stg0_0), ((c : Thread nD τ).loc cc0_stg0_0) ↦{fullShare} f) ∗ (∃ f : Buf (Elt Ideal) ((c : Thread nD τ).loc cc0_stg1_0), ((c : Thread nD τ).loc cc0_stg1_0) ↦{fullShare} f) ∗ (∃ f : Buf (Elt Ideal) ((c : Thread nD τ).loc cc0_stg2_0), ((c : Thread nD τ).loc cc0_stg2_0) ↦{fullShare} f) ∗ (∃ f : Buf (Elt Ideal) ((c : Thread nD τ).loc cc0_stg3_0), ((c : Thread nD τ).loc cc0_stg3_0) ↦{fullShare} f) ∗ (∃ f : Buf (Elt Ideal) ((c : Thread nD τ).loc cc0_stg4_0), ((c : Thread nD τ).loc cc0_stg4_0) ↦{fullShare} f) ∗ (∃ f : Buf (Elt Ideal) ((c : Thread nD τ).loc cc0_stg5_0), ((c : Thread nD τ).loc cc0_stg5_0) ↦{fullShare} f) ∗ (∃ f : Buf (Elt Ideal) ((c : Thread nD τ).loc cc0_stg6_0), ((c : Thread nD τ).loc cc0_stg6_0) ↦{fullShare} f) ∗ (∃ f : Buf (Elt Ideal) ((c : Thread nD τ).loc cc0_stg7_0), ((c : Thread nD τ).loc cc0_stg7_0) ↦{fullShare} f) ∗ (∃ f : Buf (Elt Ideal) ((c : Thread nD τ).loc cc0_stg8_0), ((c : Thread nD τ).loc cc0_stg8_0) ↦{fullShare} f) ∗ (∃ f : Buf (Elt Ideal) ((c : Thread nD τ).loc cc0_stg9_0), ((c : Thread nD τ).loc cc0_stg9_0) ↦{fullShare} f) ∗ (∃ f : Buf (Elt Ideal) ((c : Thread nD τ).loc cc0_stg10_0), ((c : Thread nD τ).loc cc0_stg10_0) ↦{fullShare} f) ∗ (∃ f : Buf (Elt Ideal) ((c : Thread nD τ).loc cc0_stg11_0), ((c : Thread nD τ).loc cc0_stg11_0) ↦{fullShare} f) ∗ (∃ f : Buf (Elt Ideal) ((c : Thread nD τ).loc cc0_stg12_0), ((c : Thread nD τ).loc cc0_stg12_0) ↦{fullShare} f) ∗ owns (c : Thread nD τ) scMax fullShare (cellMax V c n) ∗ owns (c : Thread nD τ) scSum fullShare (cellSum V c n)) ∗ (∃ r, prngReg c r)) := rfl

theorem PhiT_pos (c : Dev nD) (n : ℕ) (hn : n ≠ 0) :
    PhiT V c n = iprop(iprop((∃ f : Buf (Elt Ideal) ((c : Thread nD τ).loc cc0_stg0_0), ((c : Thread nD τ).loc cc0_stg0_0) ↦{fullShare} f) ∗ (∃ f : Buf (Elt Ideal) ((c : Thread nD τ).loc cc0_stg1_0), ((c : Thread nD τ).loc cc0_stg1_0) ↦{fullShare} f) ∗ (∃ f : Buf (Elt Ideal) ((c : Thread nD τ).loc cc0_stg2_0), ((c : Thread nD τ).loc cc0_stg2_0) ↦{fullShare} f) ∗ (∃ f : Buf (Elt Ideal) ((c : Thread nD τ).loc cc0_stg3_0), ((c : Thread nD τ).loc cc0_stg3_0) ↦{fullShare} f) ∗ (∃ f : Buf (Elt Ideal) ((c : Thread nD τ).loc cc0_stg4_0), ((c : Thread nD τ).loc cc0_stg4_0) ↦{fullShare} f) ∗ (∃ f : Buf (Elt Ideal) ((c : Thread nD τ).loc cc0_stg5_0), ((c : Thread nD τ).loc cc0_stg5_0) ↦{fullShare} f) ∗ (∃ f : Buf (Elt Ideal) ((c : Thread nD τ).loc cc0_stg6_0), ((c : Thread nD τ).loc cc0_stg6_0) ↦{fullShare} f) ∗ (∃ f : Buf (Elt Ideal) ((c : Thread nD τ).loc cc0_stg7_0), ((c : Thread nD τ).loc cc0_stg7_0) ↦{fullShare} f) ∗ (∃ f : Buf (Elt Ideal) ((c : Thread nD τ).loc cc0_stg8_0), ((c : Thread nD τ).loc cc0_stg8_0) ↦{fullShare} f) ∗ (∃ f : Buf (Elt Ideal) ((c : Thread nD τ).loc cc0_stg9_0), ((c : Thread nD τ).loc cc0_stg9_0) ↦{fullShare} f) ∗ (∃ f : Buf (Elt Ideal) ((c : Thread nD τ).loc cc0_stg10_0), ((c : Thread nD τ).loc cc0_stg10_0) ↦{fullShare} f) ∗ (∃ f : Buf (Elt Ideal) ((c : Thread nD τ).loc cc0_stg11_0), ((c : Thread nD τ).loc cc0_stg11_0) ↦{fullShare} f) ∗ (∃ f : Buf (Elt Ideal) ((c : Thread nD τ).loc cc0_stg12_0), ((c : Thread nD τ).loc cc0_stg12_0) ↦{fullShare} f) ∗ owns (c : Thread nD τ) scMax fullShare (cellMax V c (n - 1)) ∗ owns (c : Thread nD τ) scSum fullShare (cellSum V c (n - 1))) ∗ (∃ r, prngReg c r)) := by
  cases n with
  | zero => exact absurd rfl hn
  | succ n => rfl

/-! ## The proof data -/

/-- The arrays as the launch finds them; after tile `t` the three operands' buffers at their (filled-out) blocks, the
    logits' buffer at the tile's masked logits, the two one-by-one results at the cells; the invariant `PhiT`. -/
def dat (c : Dev nD) : Dat τ (Elt Ideal) Unit ℕ (UR sig nD τ) ℕ cfg1 c where
  A w := V c (Pipeline.arrRef spec1 w)
  after w t := match w with
    | ⟨0, _⟩ => iblk V c 0 t
    | ⟨1, _⟩ => Wt V c t
    | ⟨2, _⟩ => bt V c t
    | ⟨3, _⟩ => k1_pay5 (F := Ideal) (cfg1.grid.coords t) (xrow V c t) (Wt V c t) (bt V c t)
    | ⟨4, _⟩ => cellMax V c t.val
    | ⟨5, _⟩ => cellSum V c t.val
  Φ s := PhiT V c s.val
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = Wt V c t := by dsimp only [dat]
theorem after_2 (c : Dev nD) (t : Fin cfg1.N) : (dat V c).after 2 t = bt V c t := by dsimp only [dat]
theorem after_3 (c : Dev nD) (t : Fin cfg1.N) :
    (dat V c).after 3 t = k1_pay5 (F := Ideal) (cfg1.grid.coords t) (xrow V c t) (Wt V c t) (bt V c t) := by dsimp only [dat]
theorem after_4 (c : Dev nD) (t : Fin cfg1.N) : (dat V c).after 4 t = cellMax V c t.val := by dsimp only [dat]
theorem after_5 (c : Dev nD) (t : Fin cfg1.N) : (dat V c).after 5 t = cellSum V c t.val := by dsimp only [dat]

/-! ## What the body finds in the operands' buffers -/

/-- The state row's buffer holds the row at every tile: fetched at the first, its block never moves. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

/-- The matrix tile's buffer, just fetched: the array's rows inside the array, `d` past it. -/
theorem before_1 (c : Dev nD) (t : Fin cfg1.N) (d) :
    (dat V c).before 1 t d = (cfg1.win 1).fill (cfg1.grid.coords t) d (iblk V c 1 t) := by
  unfold Dat.before; rw [if_pos (fetch1_1 t)]; rfl

/-- The bias tile's buffer likewise. -/
theorem before_2 (c : Dev nD) (t : Fin cfg1.N) (d) :
    (dat V c).before 2 t d = (cfg1.win 2).fill (cfg1.grid.coords t) d (iblk V c 2 t) := by
  unfold Dat.before; rw [if_pos (fetch1_2 t)]; rfl

end Cert.KernelIdeal.Vocab

end
-- ==== Proof.KI.TileObligation.lean ====
import proofs.«160432_j12232066859333_1_alg».proof.Proof.KI.TileRegion

/-!
The vocabulary projection's body obligation, tile by tile: whatever words the clipped fetches left past the array,
the body leaves the masked logits of the tile filled out with zeros, and the cells at the next step of the running
maximum and sum.
-/

set_option maxRecDepth 16384

noncomputable section

namespace Cert.KernelIdeal.Vocab

open Cert.KernelIdeal Cert.KernelIdeal.Gen Cert.KernelIdeal.Tile
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

/-! ## The schedule's facts, decided over the thirteen tiles -/

theorem tiles : cfg1.N = 13 := N_1

theorem idle_max : ∀ t : Fin cfg1.N, ¬isLast (grid1.coords t) → cfg1.idle 4 (grid1.coords t) = true := by decide +kernel
theorem idle_sum : ∀ t : Fin cfg1.N, ¬isLast (grid1.coords t) → cfg1.idle 5 (grid1.coords t) = true := by decide +kernel
theorem kept_max : ∀ t : Fin cfg1.N, ¬isLast (grid1.coords t) → (cfg1.win 4).flush t = false := by decide +kernel
theorem kept_sum : ∀ t : Fin cfg1.N, ¬isLast (grid1.coords t) → (cfg1.win 5).flush t = false := by decide +kernel
theorem live_max : ∀ t : Fin cfg1.N, isLast (grid1.coords t) → cfg1.idle 4 (grid1.coords t) = false := by decide +kernel
theorem live_sum : ∀ t : Fin cfg1.N, isLast (grid1.coords t) → cfg1.idle 5 (grid1.coords t) = false := by decide +kernel

/-- The state row is the same block at every tile. -/
theorem xrow_const (c : Dev nD) (t : Fin cfg1.N) : xrow V c t = xrow V c t1_0 := by
  rcases fin_N1 t with rfl | rfl | rfl | rfl | rfl | rfl | rfl | rfl | rfl | rfl | rfl | rfl | rfl <;> rfl

/-- How much of each tile the clipped transfers move: all 4096 rows or columns, or what is left of the 50257. -/
theorem moved_rows_W : ∀ (t : Fin cfg1.N) (a : Fin (cfg1.win 1).shape.rank),
    (cfg1.win 1).xsize (grid1.coords t) a = if a.val = 0 then min 4096 (50257 - 4096 * t.val) else 1024 := by decide +kernel
theorem moved_cols_b : ∀ (t : Fin cfg1.N) (a : Fin (cfg1.win 2).shape.rank),
    (cfg1.win 2).xsize (grid1.coords t) a = if a.val = 0 then 1 else min 4096 (50257 - 4096 * t.val) := by decide +kernel

/-- A row of the matrix tile inside the vocabulary is one the fetch lands. -/
theorem landed_W : ∀ (t : Fin cfg1.N) (r : Fin 4096) (k : Fin 1024), 4096 * t.val + r.val < 50257 →
    (cfg1.win 1).moved (grid1.coords t) (ix2 r k) = true := by
  intro t r k h
  rw [Pipeline.Window.moved_iff]
  intro a
  rw [moved_rows_W t a]
  obtain ⟨av, ha⟩ := a
  have ha2 : av < 2 := ha
  interval_cases av
  · show r.val < _
    simp only [if_pos]; have := r.isLt; omega
  · show k.val < _
    simp only [Nat.one_ne_zero, if_false]; exact k.isLt

/-- A column of the bias tile inside the vocabulary likewise. -/
theorem landed_b : ∀ (t : Fin cfg1.N) (r : Fin 4096), 4096 * t.val + r.val < 50257 →
    (cfg1.win 2).moved (grid1.coords t) (ix2 (0 : Fin 1) r) = true := by
  intro t r h
  rw [Pipeline.Window.moved_iff]
  intro a
  rw [moved_cols_b t a]
  obtain ⟨av, ha⟩ := a
  have ha2 : av < 2 := ha
  interval_cases av
  · show (0 : ℕ) < _
    simp only [if_pos]; decide
  · show r.val < _
    simp only [Nat.one_ne_zero, if_false]; have := r.isLt; omega

/-- Two fillings of one block agree wherever the fetch lands. -/
theorem fill_agree {G : Pipeline.Grid} {α : Type} (w : Pipeline.Window sig G) (i : G.Coords) (d d' : w.block.Idx → α) (g : (w.xblock i).Idx → α)
    (j : w.block.Idx) (h : w.moved i j = true) : w.fill i d g j = w.fill i d' g j := by
  unfold Pipeline.Window.fill; rw [dif_pos h, dif_pos h]

/-! ## What the body leaves, window by window -/

theorem leaves_0 (c : Dev nD) (t : Fin cfg1.N) :
    (dat V c).leaves 0 t = owns (c : Thread nD τ) (st1_0 t) fullShare ((dat V c).after 0 t) := by
  unfold Dat.leaves; rfl
theorem leaves_1 (c : Dev nD) (t : Fin cfg1.N) :
    (dat V c).leaves 1 t = iprop(∃ d, owns (c : Thread nD τ) (st1_1 t) fullShare ((cfg1.win 1).fill (cfg1.grid.coords t) d ((cfg1.win 1).cut (cfg1.grid.coords t) ((dat V c).after 1 t)))) := by
  unfold Dat.leaves; rfl
theorem leaves_2 (c : Dev nD) (t : Fin cfg1.N) :
    (dat V c).leaves 2 t = iprop(∃ d, owns (c : Thread nD τ) (st1_2 t) fullShare ((cfg1.win 2).fill (cfg1.grid.coords t) d ((cfg1.win 2).cut (cfg1.grid.coords t) ((dat V c).after 2 t)))) := by
  unfold Dat.leaves; rfl
theorem leaves_3 (c : Dev nD) (t : Fin cfg1.N) :
    (dat V c).leaves 3 t = iprop(∃ d, owns (c : Thread nD τ) (st1_3 t) fullShare ((cfg1.win 3).fill (cfg1.grid.coords t) d ((cfg1.win 3).cut (cfg1.grid.coords t) ((dat V c).after 3 t)))) := by
  unfold Dat.leaves; rfl

/-- At the last tile the two one-by-one results are written and flushed. -/
theorem leaves_max_last (c : Dev nD) (t : Fin cfg1.N) (hL : isLast (grid1.coords t)) :
    (dat V c).leaves 4 t = owns (c : Thread nD τ) (st1_4 t) fullShare ((dat V c).after 4 t) := by
  unfold Dat.leaves; rw [live_max t hL]
theorem leaves_sum_last (c : Dev nD) (t : Fin cfg1.N) (hL : isLast (grid1.coords t)) :
    (dat V c).leaves 5 t = owns (c : Thread nD τ) (st1_5 t) fullShare ((dat V c).after 5 t) := by
  unfold Dat.leaves; rw [live_sum t hL]

/-! ## The words past the array do not matter -/

section Canonical

variable (c : Dev nD) (t : Fin cfg1.N)
  (d1 : (cfg1.win 1).block.Idx → Elt Ideal (cfg1.win 1).elt) (d2 : (cfg1.win 2).block.Idx → Elt Ideal (cfg1.win 2).elt)

theorem agree_W : ∀ (r : Fin 4096) (k : Fin 1024), 4096 * ((grid1.coords t) 0).val + r.val < 50257 →
    (((cfg1.win 1).fill (cfg1.grid.coords t) d1 (iblk V c 1 t)) : Vec Ideal S4096x1024 .f32) (ix2 r k) = Wt V c t (ix2 r k) :=
  fun r k h => fill_agree _ _ _ _ _ _ (landed_W t r k (by rw [coords_val] at h; exact h))

theorem agree_b : ∀ (r : Fin 4096), 4096 * ((grid1.coords t) 0).val + r.val < 50257 →
    (((cfg1.win 2).fill (cfg1.grid.coords t) d2 (iblk V c 2 t)) : Vec Ideal S1x4096 .f32) (ix2 (0 : Fin 1) r) = bt V c t (ix2 (0 : Fin 1) r) :=
  fun r h => fill_agree _ _ _ _ _ _ (landed_b t r (by rw [coords_val] at h; exact h))

/-- The tile's masked logits, whatever the fetches left past the array. -/
theorem logits_leaves :
    k1_pay5 (F := Ideal) (grid1.coords t) (iblk V c 0 t) ((cfg1.win 1).fill (cfg1.grid.coords t) d1 (iblk V c 1 t)) ((cfg1.win 2).fill (cfg1.grid.coords t) d2 (iblk V c 2 t)) = (dat V c).after 3 t := by
  rw [after_3]
  exact masked_logits_congr _ _ _ _ _ _ (agree_W V c t d1) (agree_b V c t d2)

theorem tile_eq (hN : t.val < 13) : tileAt t.val = t := Fin.ext (by rw [tileAt_val]; exact Nat.mod_eq_of_lt hN)

/-- The running maximum after a tile that is not the first, -/
theorem max_leaves (hnz : t.val ≠ 0) :
    k1_pay1 (F := Ideal) (k1_pay6 (F := Ideal) (grid1.coords t) (iblk V c 0 t) ((cfg1.win 1).fill (cfg1.grid.coords t) d1 (iblk V c 1 t)) ((cfg1.win 2).fill (cfg1.grid.coords t) d2 (iblk V c 2 t)) (cellMax V c (t.val - 1))) = cellMax V c t.val := by
  have hN : t.val < 13 := lt_of_lt_of_eq t.isLt tiles
  obtain ⟨n, hn⟩ : ∃ n, t.val = n + 1 := ⟨t.val - 1, by omega⟩
  rw [hn, Nat.add_sub_cancel]
  unfold cellMax
  rw [cellM_succ, show tileAt (n + 1) = t from by rw [← hn]; exact tile_eq t hN]
  refine congrArg (k1_pay1 (F := Ideal)) ?_
  rw [show (iblk V c 0 t : Vec Ideal S1x1024 .f32) = xrow V c t1_0 from xrow_const V c t]
  exact running_max_congr _ _ _ _ _ _ _ (agree_W V c t d1) (agree_b V c t d2)

/-- and the running sum. -/
theorem sum_leaves (hnz : t.val ≠ 0) :
    k1_pay2 (F := Ideal) (k1_pay7 (F := Ideal) (grid1.coords t) (iblk V c 0 t) ((cfg1.win 1).fill (cfg1.grid.coords t) d1 (iblk V c 1 t)) ((cfg1.win 2).fill (cfg1.grid.coords t) d2 (iblk V c 2 t)) (cellMax V c (t.val - 1)) (cellSum V c (t.val - 1))) = cellSum V c t.val := by
  have hN : t.val < 13 := lt_of_lt_of_eq t.isLt tiles
  obtain ⟨n, hn⟩ : ∃ n, t.val = n + 1 := ⟨t.val - 1, by omega⟩
  rw [hn, Nat.add_sub_cancel]
  unfold cellSum cellMax
  rw [cellL_succ, show tileAt (n + 1) = t from by rw [← hn]; exact tile_eq t hN]
  refine congrArg (k1_pay2 (F := Ideal)) ?_
  rw [show (iblk V c 0 t : Vec Ideal S1x1024 .f32) = xrow V c t1_0 from xrow_const V c t]
  exact running_sum_congr _ _ _ _ _ _ _ _ (agree_W V c t d1) (agree_b V c t d2)

/-- The same after the first tile, from the reset values. -/
theorem max_leaves_first (hz : t.val = 0) :
    k1_pay1 (F := Ideal) (k1_pay6 (F := Ideal) (grid1.coords t) (iblk V c 0 t) ((cfg1.win 1).fill (cfg1.grid.coords t) d1 (iblk V c 1 t)) ((cfg1.win 2).fill (cfg1.grid.coords t) d2 (iblk V c 2 t)) (k1_pay3 (F := Ideal))) = cellMax V c t.val := by
  rw [hz]
  unfold cellMax
  rw [cellM_zero, show tileAt 0 = t from by rw [← hz]; exact tile_eq t (by omega)]
  refine congrArg (k1_pay1 (F := Ideal)) ?_
  rw [show (iblk V c 0 t : Vec Ideal S1x1024 .f32) = xrow V c t1_0 from xrow_const V c t]
  exact running_max_congr _ _ _ _ _ _ _ (agree_W V c t d1) (agree_b V c t d2)

theorem sum_leaves_first (hz : t.val = 0) :
    k1_pay2 (F := Ideal) (k1_pay7 (F := Ideal) (grid1.coords t) (iblk V c 0 t) ((cfg1.win 1).fill (cfg1.grid.coords t) d1 (iblk V c 1 t)) ((cfg1.win 2).fill (cfg1.grid.coords t) d2 (iblk V c 2 t)) (k1_pay3 (F := Ideal)) (k1_pay4 (F := Ideal))) = cellSum V c t.val := by
  rw [hz]
  unfold cellSum
  rw [cellL_zero, show tileAt 0 = t from by rw [← hz]; exact tile_eq t (by omega)]
  refine congrArg (k1_pay2 (F := Ideal)) ?_
  rw [show (iblk V c 0 t : Vec Ideal S1x1024 .f32) = xrow V c t1_0 from xrow_const V c t]
  exact running_sum_congr _ _ _ _ _ _ _ _ (agree_W V c t d1) (agree_b V c t d2)

end Canonical

/-! ## Every store covers its buffer -/

theorem cover_logits_A (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : isFirst i) (hc1 : ¬isLast i) (x : Vec Ideal S1x1024 .f32) (W : Vec Ideal S4096x1024 .f32) (b : Vec Ideal S1x4096 .f32) (y : S1x4096.Idx) :
    ∃ pc ∈ (runA (F := Ideal) c i arg1 harg1 arg2 harg2 arg3 harg3 arg4 harg4 arg5 harg5 arg6 harg6 arg7 harg7 arg8 harg8 hc0 hc1 x W b).1, y ∈ pc.1.set :=
  View.cover_of_tiledL (runA (F := Ideal) c i arg1 harg1 arg2 harg2 arg3 harg3 arg4 harg4 arg5 harg5 arg6 harg6 arg7 harg7 arg8 harg8 hc0 hc1 x W b).1 S1x4096.size (by sl_kernel_rfl) y
theorem cover_max_A (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : isFirst i) (hc1 : ¬isLast i) (x : Vec Ideal S1x1024 .f32) (W : Vec Ideal S4096x1024 .f32) (b : Vec Ideal S1x4096 .f32) (y : S1x1.Idx) :
    ∃ pc ∈ (runA (F := Ideal) c i arg1 harg1 arg2 harg2 arg3 harg3 arg4 harg4 arg5 harg5 arg6 harg6 arg7 harg7 arg8 harg8 hc0 hc1 x W b).2.1, y ∈ pc.1.set :=
  View.cover_of_tiledL (runA (F := Ideal) c i arg1 harg1 arg2 harg2 arg3 harg3 arg4 harg4 arg5 harg5 arg6 harg6 arg7 harg7 arg8 harg8 hc0 hc1 x W b).2.1 S1x1.size (by sl_kernel_rfl) y
theorem cover_sum_A (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : isFirst i) (hc1 : ¬isLast i) (x : Vec Ideal S1x1024 .f32) (W : Vec Ideal S4096x1024 .f32) (b : Vec Ideal S1x4096 .f32) (y : S1x1.Idx) :
    ∃ pc ∈ (runA (F := Ideal) c i arg1 harg1 arg2 harg2 arg3 harg3 arg4 harg4 arg5 harg5 arg6 harg6 arg7 harg7 arg8 harg8 hc0 hc1 x W b).2.2.1, y ∈ pc.1.set :=
  View.cover_of_tiledL (runA (F := Ideal) c i arg1 harg1 arg2 harg2 arg3 harg3 arg4 harg4 arg5 harg5 arg6 harg6 arg7 harg7 arg8 harg8 hc0 hc1 x W b).2.2.1 S1x1.size (by sl_kernel_rfl) y

theorem cover_logits_B (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬isFirst i) (hc1 : ¬isLast i) (x : Vec Ideal S1x1024 .f32) (W : Vec Ideal S4096x1024 .f32) (b : Vec Ideal S1x4096 .f32) (xs0 xs1 : Vec Ideal S1x1 .f32) (y : S1x4096.Idx) :
    ∃ pc ∈ (runB (F := Ideal) c i arg1 harg1 arg2 harg2 arg3 harg3 arg4 harg4 arg5 harg5 arg6 harg6 arg7 harg7 arg8 harg8 hc0 hc1 x W b xs0 xs1).1, y ∈ pc.1.set :=
  View.cover_of_tiledL (runB (F := Ideal) c i arg1 harg1 arg2 harg2 arg3 harg3 arg4 harg4 arg5 harg5 arg6 harg6 arg7 harg7 arg8 harg8 hc0 hc1 x W b xs0 xs1).1 S1x4096.size (by sl_kernel_rfl) y
theorem cover_max_B (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬isFirst i) (hc1 : ¬isLast i) (x : Vec Ideal S1x1024 .f32) (W : Vec Ideal S4096x1024 .f32) (b : Vec Ideal S1x4096 .f32) (xs0 xs1 : Vec Ideal S1x1 .f32) (y : S1x1.Idx) :
    ∃ pc ∈ (runB (F := Ideal) c i arg1 harg1 arg2 harg2 arg3 harg3 arg4 harg4 arg5 harg5 arg6 harg6 arg7 harg7 arg8 harg8 hc0 hc1 x W b xs0 xs1).2.1, y ∈ pc.1.set :=
  View.cover_of_tiledL (runB (F := Ideal) c i arg1 harg1 arg2 harg2 arg3 harg3 arg4 harg4 arg5 harg5 arg6 harg6 arg7 harg7 arg8 harg8 hc0 hc1 x W b xs0 xs1).2.1 S1x1.size (by sl_kernel_rfl) y
theorem cover_sum_B (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬isFirst i) (hc1 : ¬isLast i) (x : Vec Ideal S1x1024 .f32) (W : Vec Ideal S4096x1024 .f32) (b : Vec Ideal S1x4096 .f32) (xs0 xs1 : Vec Ideal S1x1 .f32) (y : S1x1.Idx) :
    ∃ pc ∈ (runB (F := Ideal) c i arg1 harg1 arg2 harg2 arg3 harg3 arg4 harg4 arg5 harg5 arg6 harg6 arg7 harg7 arg8 harg8 hc0 hc1 x W b xs0 xs1).2.2.1, y ∈ pc.1.set :=
  View.cover_of_tiledL (runB (F := Ideal) c i arg1 harg1 arg2 harg2 arg3 harg3 arg4 harg4 arg5 harg5 arg6 harg6 arg7 harg7 arg8 harg8 hc0 hc1 x W b xs0 xs1).2.2.1 S1x1.size (by sl_kernel_rfl) y

theorem cover_logits_C (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬isFirst i) (hc1 : isLast i) (x : Vec Ideal S1x1024 .f32) (W : Vec Ideal S4096x1024 .f32) (b : Vec Ideal S1x4096 .f32) (xs0 xs1 : Vec Ideal S1x1 .f32) (y : S1x4096.Idx) :
    ∃ pc ∈ (runC (F := Ideal) c i arg1 harg1 arg2 harg2 arg3 harg3 arg4 harg4 arg5 harg5 arg6 harg6 arg7 harg7 arg8 harg8 hc0 hc1 x W b xs0 xs1).1, y ∈ pc.1.set :=
  View.cover_of_tiledL (runC (F := Ideal) c i arg1 harg1 arg2 harg2 arg3 harg3 arg4 harg4 arg5 harg5 arg6 harg6 arg7 harg7 arg8 harg8 hc0 hc1 x W b xs0 xs1).1 S1x4096.size (by sl_kernel_rfl) y
theorem cover_max_C (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬isFirst i) (hc1 : isLast i) (x : Vec Ideal S1x1024 .f32) (W : Vec Ideal S4096x1024 .f32) (b : Vec Ideal S1x4096 .f32) (xs0 xs1 : Vec Ideal S1x1 .f32) (y : S1x1.Idx) :
    ∃ pc ∈ (runC (F := Ideal) c i arg1 harg1 arg2 harg2 arg3 harg3 arg4 harg4 arg5 harg5 arg6 harg6 arg7 harg7 arg8 harg8 hc0 hc1 x W b xs0 xs1).2.2.2.1, y ∈ pc.1.set :=
  View.cover_of_tiledL (runC (F := Ideal) c i arg1 harg1 arg2 harg2 arg3 harg3 arg4 harg4 arg5 harg5 arg6 harg6 arg7 harg7 arg8 harg8 hc0 hc1 x W b xs0 xs1).2.2.2.1 S1x1.size (by sl_kernel_rfl) y
theorem cover_sum_C (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬isFirst i) (hc1 : isLast i) (x : Vec Ideal S1x1024 .f32) (W : Vec Ideal S4096x1024 .f32) (b : Vec Ideal S1x4096 .f32) (xs0 xs1 : Vec Ideal S1x1 .f32) (y : S1x1.Idx) :
    ∃ pc ∈ (runC (F := Ideal) c i arg1 harg1 arg2 harg2 arg3 harg3 arg4 harg4 arg5 harg5 arg6 harg6 arg7 harg7 arg8 harg8 hc0 hc1 x W b xs0 xs1).2.2.2.2.1, y ∈ pc.1.set :=
  View.cover_of_tiledL (runC (F := Ideal) c i arg1 harg1 arg2 harg2 arg3 harg3 arg4 harg4 arg5 harg5 arg6 harg6 arg7 harg7 arg8 harg8 hc0 hc1 x W b xs0 xs1).2.2.2.2.1 S1x1.size (by sl_kernel_rfl) y
theorem cover_outMax_C (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬isFirst i) (hc1 : isLast i) (x : Vec Ideal S1x1024 .f32) (W : Vec Ideal S4096x1024 .f32) (b : Vec Ideal S1x4096 .f32) (xs0 xs1 : Vec Ideal S1x1 .f32) (y : S1x1.Idx) :
    ∃ pc ∈ (runC (F := Ideal) c i arg1 harg1 arg2 harg2 arg3 harg3 arg4 harg4 arg5 harg5 arg6 harg6 arg7 harg7 arg8 harg8 hc0 hc1 x W b xs0 xs1).2.1, y ∈ pc.1.set :=
  View.cover_of_tiledL (runC (F := Ideal) c i arg1 harg1 arg2 harg2 arg3 harg3 arg4 harg4 arg5 harg5 arg6 harg6 arg7 harg7 arg8 harg8 hc0 hc1 x W b xs0 xs1).2.1 S1x1.size (by sl_kernel_rfl) y
theorem cover_outSum_C (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬isFirst i) (hc1 : isLast i) (x : Vec Ideal S1x1024 .f32) (W : Vec Ideal S4096x1024 .f32) (b : Vec Ideal S1x4096 .f32) (xs0 xs1 : Vec Ideal S1x1 .f32) (y : S1x1.Idx) :
    ∃ pc ∈ (runC (F := Ideal) c i arg1 harg1 arg2 harg2 arg3 harg3 arg4 harg4 arg5 harg5 arg6 harg6 arg7 harg7 arg8 harg8 hc0 hc1 x W b xs0 xs1).2.2.1, y ∈ pc.1.set :=
  View.cover_of_tiledL (runC (F := Ideal) c i arg1 harg1 arg2 harg2 arg3 harg3 arg4 harg4 arg5 harg5 arg6 harg6 arg7 harg7 arg8 harg8 hc0 hc1 x W b xs0 xs1).2.2.1 S1x1.size (by sl_kernel_rfl) y

/-! ## The obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

def bodyPost (c : Dev nD) (t : Fin cfg1.N) : sProp 𝕄 :=
  iprop((dat V c).Φ t.succ ∗ (dat V c).owesAt () t.succ
    ∗ (dat V c).leaves 0 t ∗ (dat V c).leaves 1 t ∗ (dat V c).leaves 2 t
    ∗ (dat V c).leaves 3 t ∗ (dat V c).leaves 4 t ∗ (dat V c).leaves 5 t)

set_option maxHeartbeats 8000000 in
theorem sound_body (c : Dev nD) (t : Fin cfg1.N) :
    bodyPre V c t ⊢ wp frame (wpE (defs₀ (F := Ideal)) Variants.none c none) Set.univ (bodyAt1 t) (fun _ => bodyPost V c t) := by
  unfold bodyPre bodyPost bodyAt1
  simp only [before_0, before_1, before_2]
  rw [show (dat V c).owesAt () t.succ = (dat V c).owesAt () t.castSucc from rfl,
    show (dat V c).Φ t.succ = PhiT V c (t.val + 1) from rfl, PhiT_succ,
    show (dat V c).Φ t.castSucc = PhiT V c t.val from by dsimp only [dat]; simp only [Fin.coe_castSucc]]
  rw [leaves_0, leaves_1, leaves_2, leaves_3]
  have hN : t.val < 13 := lt_of_lt_of_eq t.isLt tiles
  by_cases h0 : t.val % 13 = 0
  ·
    have hz : t.val = 0 := by omega
    have hF : isFirst (grid1.coords t) := (isFirst_iff t).mpr h0
    have hL : ¬isLast (grid1.coords t) := fun h => by have := (isLast_iff t).mp h; omega
    rw [Dat.leaves_idle (dat V c) 4 t (idle_max t hL) (kept_max t hL), Dat.leaves_idle (dat V c) 5 t (idle_sum t hL) (kept_sum t hL)]
    rw [show PhiT V c t.val = (Pipeline.ΦA spec1 c : sProp 𝕄) from by rw [hz]; rfl, PhiA_eq]
    iintro ⟨⟨⟨R0, R1, R2, R3, R4, R5, R6, R7, R8, R9, R10, R11, R12, ⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩⟩
    iapply ((runA c (grid1.coords t) _ _ _ _ _ _ _ _ _ _ _ _ _ _ _ _ hF hL (iblk V c 0 t) ((cfg1.win 1).fill (cfg1.grid.coords t) d1 (iblk V c 1 t)) ((cfg1.win 2).fill (cfg1.grid.coords t) d2 (iblk V c 2 t))).2.2.2 ((dat V c).before 4 t d4) ((dat V c).before 5 t d5) Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexists _; iexact HS0
    isplitl [HS1]; · iexists _; iexact HS1
    iintro ⟨H0, H1, H2, ⟨%e3, H3⟩, H4, H5, ⟨%e7, HS0⟩, ⟨%e8, HS1⟩⟩
    isplitl [R0 R1 R2 R3 R4 R5 R6 R7 R8 R9 R10 R11 R12 HS0 HS1 Hg]
    · isplitr [Hg]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [HS0]
        · unfold owns; iexists _; isplitr
          swap; · iexact HS0
          ipureintro
          exact (View.read_writes_eq_canon _ _ _ (cover_max_A _ _ _ _ _ _ _ _ _ _ _ _ _ _ _ _ _ _ _ _ _ _ _ )).trans ((max_A _ _ _ _ _ _ _ _ _ _ _ _ _ _ _ _ _ _ _ _ _ _ _ ).trans (max_leaves_first V c t d1 d2 hz))
        · unfold owns; iexists _; isplitr
          swap; · iexact HS1
          ipureintro
          exact (View.read_writes_eq_canon _ _ _ (cover_sum_A _ _ _ _ _ _ _ _ _ _ _ _ _ _ _ _ _ _ _ _ _ _ _ )).trans ((sum_A _ _ _ _ _ _ _ _ _ _ _ _ _ _ _ _ _ _ _ _ _ _ _ ).trans (sum_leaves_first V c t d1 d2 hz))
      · iexact Hg
    isplitl [Ho]; · iexact Ho
    isplitl [H0]; · rw [after_0]; iexact H0
    isplitl [H1]
    · iexists d1; rw [after_1]; unfold Wt; rw [Window.cut_fill]; iexact H1
    isplitl [H2]
    · iexists d2; rw [after_2]; unfold bt; rw [Window.cut_fill]; iexact H2
    isplitl [H3]
    · iexists ((dat V c).after 3 t); rw [Window.fill_cut]
      unfold owns; iexists _; isplitr
      swap; · iexact H3
      ipureintro
      exact (View.read_writes_eq_canon _ _ _ (cover_logits_A _ _ _ _ _ _ _ _ _ _ _ _ _ _ _ _ _ _ _ _ _ _ _ )).trans ((logits_A _ _ _ _ _ _ _ _ _ _ _ _ _ _ _ _ _ _ _ _ _ _ _ ).trans (logits_leaves V c t d1 d2))
    isplitl [H4]; · iexists d4; iexact H4
    iexists d5; iexact H5
  · by_cases h1 : t.val % 13 = 12
    ·
      have hF : ¬isFirst (grid1.coords t) := fun h => h0 ((isFirst_iff t).mp h)
      have hL : isLast (grid1.coords t) := (isLast_iff t).mpr h1
      have hnz : t.val ≠ 0 := by omega
      rw [leaves_max_last V c t hL, leaves_sum_last V c t hL]
      rw [PhiT_pos V c t.val hnz]
      iintro ⟨⟨⟨R0, R1, R2, R3, R4, R5, R6, R7, R8, R9, R10, R11, R12, HS0, HS1⟩, Hg⟩, Ho, ⟨%d0, H0⟩, ⟨%d1, H1⟩, ⟨%d2, H2⟩, ⟨%d3, H3⟩, ⟨%d4, H4⟩, ⟨%d5, H5⟩⟩
      iapply ((runC c (grid1.coords t) _ _ _ _ _ _ _ _ _ _ _ _ _ _ _ _ hF hL (iblk V c 0 t) ((cfg1.win 1).fill (cfg1.grid.coords t) d1 (iblk V c 1 t)) ((cfg1.win 2).fill (cfg1.grid.coords t) d2 (iblk V c 2 t))
        (cellMax V c (t.val - 1)) (cellSum V c (t.val - 1))).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%e3, H3⟩, ⟨%e5, H4⟩, ⟨%e6, H5⟩, ⟨%e7, HS0⟩, ⟨%e8, HS1⟩⟩
      isplitl [R0 R1 R2 R3 R4 R5 R6 R7 R8 R9 R10 R11 R12 HS0 HS1 Hg]
      · isplitr [Hg]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [HS0]
          · unfold owns; iexists _; isplitr
            swap; · iexact HS0
            ipureintro
            exact (View.read_writes_eq_canon _ _ _ (cover_max_C _ _ _ _ _ _ _ _ _ _ _ _ _ _ _ _ _ _ _ _ _ _ _ _ _)).trans ((max_C _ _ _ _ _ _ _ _ _ _ _ _ _ _ _ _ _ _ _ _ _ _ _ _ _).trans (max_leaves V c t d1 d2 hnz))
          · unfold owns; iexists _; isplitr
            swap; · iexact HS1
            ipureintro
            exact (View.read_writes_eq_canon _ _ _ (cover_sum_C _ _ _ _ _ _ _ _ _ _ _ _ _ _ _ _ _ _ _ _ _ _ _ _ _)).trans ((sum_C _ _ _ _ _ _ _ _ _ _ _ _ _ _ _ _ _ _ _ _ _ _ _ _ _).trans (sum_leaves V c t d1 d2 hnz))
        · iexact Hg
      isplitl [Ho]; · iexact Ho
      isplitl [H0]; · rw [after_0]; iexact H0
      isplitl [H1]
      · iexists d1; rw [after_1]; unfold Wt; rw [Window.cut_fill]; iexact H1
      isplitl [H2]
      · iexists d2; rw [after_2]; unfold bt; rw [Window.cut_fill]; iexact H2
      isplitl [H3]
      · iexists ((dat V c).after 3 t); rw [Window.fill_cut]
        unfold owns; iexists _; isplitr
        swap; · iexact H3
        ipureintro
        exact (View.read_writes_eq_canon _ _ _ (cover_logits_C _ _ _ _ _ _ _ _ _ _ _ _ _ _ _ _ _ _ _ _ _ _ _ _ _)).trans ((logits_C _ _ _ _ _ _ _ _ _ _ _ _ _ _ _ _ _ _ _ _ _ _ _ _ _).trans (logits_leaves V c t d1 d2))
      isplitl [H4]
      · rw [after_4]; unfold owns; iexists _; isplitr
        swap; · iexact H4
        ipureintro
        exact (View.read_writes_eq_canon _ _ _ (cover_outMax_C _ _ _ _ _ _ _ _ _ _ _ _ _ _ _ _ _ _ _ _ _ _ _ _ _)).trans ((outMax_C _ _ _ _ _ _ _ _ _ _ _ _ _ _ _ _ _ _ _ _ _ _ _ _ _).trans (max_leaves V c t d1 d2 hnz))
      rw [after_5]; unfold owns; iexists _; isplitr
      swap; · iexact H5
      ipureintro
      exact (View.read_writes_eq_canon _ _ _ (cover_outSum_C _ _ _ _ _ _ _ _ _ _ _ _ _ _ _ _ _ _ _ _ _ _ _ _ _)).trans ((outSum_C _ _ _ _ _ _ _ _ _ _ _ _ _ _ _ _ _ _ _ _ _ _ _ _ _).trans (sum_leaves V c t d1 d2 hnz))
    ·
      have hF : ¬isFirst (grid1.coords t) := fun h => h0 ((isFirst_iff t).mp h)
      have hL : ¬isLast (grid1.coords t) := fun h => h1 ((isLast_iff t).mp h)
      have hnz : t.val ≠ 0 := by omega
      rw [Dat.leaves_idle (dat V c) 4 t (idle_max t hL) (kept_max t hL), Dat.leaves_idle (dat V c) 5 t (idle_sum t hL) (kept_sum t hL)]
      rw [PhiT_pos V c t.val hnz]
      iintro ⟨⟨⟨R0, R1, R2, R3, R4, R5, R6, R7, R8, R9, R10, R11, R12, HS0, HS1⟩, Hg⟩, Ho, ⟨%d0, H0⟩, ⟨%d1, H1⟩, ⟨%d2, H2⟩, ⟨%d3, H3⟩, ⟨%d4, H4⟩, ⟨%d5, H5⟩⟩
      iapply ((runB c (grid1.coords t) _ _ _ _ _ _ _ _ _ _ _ _ _ _ _ _ hF hL (iblk V c 0 t) ((cfg1.win 1).fill (cfg1.grid.coords t) d1 (iblk V c 1 t)) ((cfg1.win 2).fill (cfg1.grid.coords t) d2 (iblk V c 2 t))
        (cellMax V c (t.val - 1)) (cellSum V c (t.val - 1))).2.2.2 ((dat V c).before 4 t d4) ((dat V c).before 5 t d5) Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%e7, HS0⟩, ⟨%e8, HS1⟩⟩
      isplitl [R0 R1 R2 R3 R4 R5 R6 R7 R8 R9 R10 R11 R12 HS0 HS1 Hg]
      · isplitr [Hg]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [HS0]
          · unfold owns; iexists _; isplitr
            swap; · iexact HS0
            ipureintro
            exact (View.read_writes_eq_canon _ _ _ (cover_max_B _ _ _ _ _ _ _ _ _ _ _ _ _ _ _ _ _ _ _ _ _ _ _ _ _)).trans ((max_B _ _ _ _ _ _ _ _ _ _ _ _ _ _ _ _ _ _ _ _ _ _ _ _ _).trans (max_leaves V c t d1 d2 hnz))
          · unfold owns; iexists _; isplitr
            swap; · iexact HS1
            ipureintro
            exact (View.read_writes_eq_canon _ _ _ (cover_sum_B _ _ _ _ _ _ _ _ _ _ _ _ _ _ _ _ _ _ _ _ _ _ _ _ _)).trans ((sum_B _ _ _ _ _ _ _ _ _ _ _ _ _ _ _ _ _ _ _ _ _ _ _ _ _).trans (sum_leaves V c t d1 d2 hnz))
        · iexact Hg
      isplitl [Ho]; · iexact Ho
      isplitl [H0]; · rw [after_0]; iexact H0
      isplitl [H1]
      · iexists d1; rw [after_1]; unfold Wt; rw [Window.cut_fill]; iexact H1
      isplitl [H2]
      · iexists d2; rw [after_2]; unfold bt; rw [Window.cut_fill]; iexact H2
      isplitl [H3]
      · iexists ((dat V c).after 3 t); rw [Window.fill_cut]
        unfold owns; iexists _; isplitr
        swap; · iexact H3
        ipureintro
        exact (View.read_writes_eq_canon _ _ _ (cover_logits_B _ _ _ _ _ _ _ _ _ _ _ _ _ _ _ _ _ _ _ _ _ _ _ _ _)).trans ((logits_B _ _ _ _ _ _ _ _ _ _ _ _ _ _ _ _ _ _ _ _ _ _ _ _ _).trans (logits_leaves V c t d1 d2))
      isplitl [H4]; · iexists d4; iexact H4
      iexists d5; iexact H5

/-- The loose body obligation, at every tile. -/
theorem body_obligation (c : Dev nD) : BodyObligationLoose (dat V c) (defs₀ (F := Ideal)) Variants.none () Set.univ := fun t => by
  rw [bigSep_W1, bigSep_W1]
  exact sound_body V c t

end Cert.KernelIdeal.Vocab

end
-- ==== Proof.KI.StepBody.lean ====
import proofs.«160432_j12232066859333_1_alg».proof.Proof.Gen.KernelIdeal.Launch
import proofs.«160432_j12232066859333_1_alg».proof.Proof.Gen.KernelIdeal.Skeleton
import proofs.«160432_j12232066859333_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
The recurrent step's kernel body (attention weights, attended context, combined input, one GRU step) as one
triple: run on whole staging buffers holding the eleven operands, it leaves them as they were and stores

* into the new hidden state's buffer the GRU update of the hidden state by the gates computed from the
  combined input, and
* into the attention weights' buffer the softmax of the attention logits,

each as the one whole-buffer store of the body's arithmetic on the loaded operands.
-/

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The whole-buffer rectangles the body loads and stores through -/

abbrev rRow : Rect S1x1024 := Rect.unit (s := S1x1024) ![0, 0] S1x1024.size inb_S1x1024_S1x1024_0_0
abbrev rEnc : Rect S18x1024 := Rect.unit (s := S18x1024) ![0, 0] S18x1024.size inb_S18x1024_S18x1024_0_0
abbrev rAttnW : Rect S18x2048 := Rect.unit (s := S18x2048) ![0, 0] S18x2048.size inb_S18x2048_S18x2048_0_0
abbrev rL : Rect S1x18 := Rect.unit (s := S1x18) ![0, 0] S1x18.size inb_S1x18_S1x18_0_0
abbrev rCombW : Rect S1024x2048 := Rect.unit (s := S1024x2048) ![0, 0] S1024x2048.size inb_S1024x2048_S1024x2048_0_0
abbrev rGruW : Rect S3072x1024 := Rect.unit (s := S3072x1024) ![0, 0] S3072x1024.size inb_S3072x1024_S3072x1024_0_0
abbrev rGruB : Rect S1x3072 := Rect.unit (s := S1x3072) ![0, 0] S1x3072.size inb_S1x3072_S1x3072_0_0

/-! ## What the body stores -/

/-- The new hidden state's buffer after the body: the GRU update, stored whole. Operands in the order the kernel
    takes them: embedded row, hidden state, encoder outputs, attention weight matrix, attention bias, combining
    matrix, combining bias, input-gate matrix, hidden-gate matrix, input-gate bias, hidden-gate bias. -/
def hNew (x0 : Vec F S1x1024 .f32) (x1 : Vec F S1x1024 .f32) (x2 : Vec F S18x1024 .f32) (x3 : Vec F S18x2048 .bf16)
    (x4 : Vec F S1x18 .f32) (x5 : Vec F S1024x2048 .bf16) (x6 : Vec F S1x1024 .f32) (x7 : Vec F S3072x1024 .bf16)
    (x8 : Vec F S3072x1024 .bf16) (x9 : Vec F S1x3072 .f32) (x10 : Vec F S1x3072 .f32) : Vec F S1x1024 .f32 :=
  View.canon [⟨rRow, k0_pay1 (k0_pay3 (View.ld x1 rRow))
    (k0_pay5 (View.ld x0 rRow) (View.ld x1 rRow) (View.ld x3 rAttnW) (View.ld x4 rL) (View.ld x2 rEnc) (View.ld x5 rCombW) (View.ld x6 rRow))
    (k0_pay6 (F := F)) (View.ld x7 rGruW) (View.ld x9 rGruB) (View.ld x8 rGruW) (View.ld x10 rGruB)⟩]

/-- The attention weights' buffer after the body: the softmax of the logits, stored whole. -/
def attnW (x0 : Vec F S1x1024 .f32) (x1 : Vec F S1x1024 .f32) (x3 : Vec F S18x2048 .bf16) (x4 : Vec F S1x18 .f32) :
    Vec F S1x18 .f32 :=
  View.canon [⟨rL, k0_pay4 (View.ld x0 rRow) (View.ld x1 rRow) (View.ld x3 rAttnW) (View.ld x4 rL)⟩]

/-- One whole-buffer store covers the buffer. -/
theorem cover_row (p0 : Vec F S1x1024 .f32) (y : S1x1024.Idx) :
    ∃ pc ∈ ([⟨rRow, p0⟩] : List (View.Piece (Elt F) S1x1024 .f32)), y ∈ pc.1.set :=
  View.cover_of_tiled [⟨rRow, p0⟩] S1x1024.size (by rfl) y

theorem cover_L (p0 : Vec F S1x18 .f32) (y : S1x18.Idx) :
    ∃ pc ∈ ([⟨rL, p0⟩] : List (View.Piece (Elt F) S1x18 .f32)), y ∈ pc.1.set :=
  View.cover_of_tiled [⟨rL, p0⟩] S1x18.size (by rfl) y

/-! ## The body's triple -/

set_option maxHeartbeats 4000000 in
/-- The body on whole staging buffers, the operands' at their contents and the two results' at anything, runs to
    the continuation holding the operands' as they were and each result's at what the body stores. -/
theorem sound_kernel (c : Dev nD) (E : Set ℕ) (i : grid0.Coords)
    (arg1 : Memref sig .tc .vmem S1x1024 .f32) (harg1 : arg1.IsWhole) (arg2 : Memref sig .tc .vmem S1x1024 .f32) (harg2 : arg2.IsWhole)
    (arg3 : Memref sig .tc .vmem S18x1024 .f32) (harg3 : arg3.IsWhole) (arg4 : Memref sig .tc .vmem S18x2048 .bf16) (harg4 : arg4.IsWhole)
    (arg5 : Memref sig .tc .vmem S1x18 .f32) (harg5 : arg5.IsWhole) (arg6 : Memref sig .tc .vmem S1024x2048 .bf16) (harg6 : arg6.IsWhole)
    (arg7 : Memref sig .tc .vmem S1x1024 .f32) (harg7 : arg7.IsWhole) (arg8 : Memref sig .tc .vmem S3072x1024 .bf16) (harg8 : arg8.IsWhole)
    (arg9 : Memref sig .tc .vmem S3072x1024 .bf16) (harg9 : arg9.IsWhole) (arg10 : Memref sig .tc .vmem S1x3072 .f32) (harg10 : arg10.IsWhole)
    (arg11 : Memref sig .tc .vmem S1x3072 .f32) (harg11 : arg11.IsWhole) (arg12 : Memref sig .tc .vmem S1x1024 .f32) (harg12 : arg12.IsWhole)
    (arg13 : Memref sig .tc .vmem S1x18 .f32) (harg13 : arg13.IsWhole)
    (x0 : Vec F S1x1024 .f32) (x1 : Vec F S1x1024 .f32) (x2 : Vec F S18x1024 .f32) (x3 : Vec F S18x2048 .bf16)
    (x4 : Vec F S1x18 .f32) (x5 : Vec F S1024x2048 .bf16) (x6 : Vec F S1x1024 .f32) (x7 : Vec F S3072x1024 .bf16)
    (x8 : Vec F S3072x1024 .bf16) (x9 : Vec F S1x3072 .f32) (x10 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (hNew x0 x1 x2 x3 x4 x5 x6 x7 x8 x9 x10)
            ∗ owns (c : Thread nD τ) arg13 fullShare (attnW x0 x1 x3 x4)) -∗ K ⟨⟩))
      ⊢ wp frame (wpE (defs₀ (F := F)) Variants.none c none) E
          (cc0__rnn_step_kernel i arg1 harg1 arg2 harg2 arg3 harg3 arg4 harg4 arg5 harg5 arg6 harg6 arg7 harg7 arg8 harg8 arg9 harg9 arg10 harg10 arg11 harg11 arg12 harg12 arg13 harg13) K := by
  simp only [cc0__rnn_step_kernel_eq_skeleton]; unfold cc0__rnn_step_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover_row _)
  iexists _; isplitr
  swap; · iexact H12
  ipureintro
  exact View.read_writes_eq_canon _ _ _ (cover_L _)

end Cert.KernelIdeal.Step

end
-- ==== Proof.KI.StepRegion.lean ====
import proofs.«160432_j12232066859333_1_alg».proof.Proof.KI.StepBody

/-!
The recurrent step's pipeline (one grid point; every operand and result a single whole-array block): its proof
data at arbitrary entry contents `V` of the core's buffers, and the body obligation.

After the body each operand's staging buffer holds the operand's block as entered, the new hidden state's buffer
the GRU update and the attention weights' buffer the softmax, both as functions of the operand blocks.
-/

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Operand 0's current staging buffer holds its block at every point, for any proof data whose array is the
    entry contents and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Operand 1's current staging buffer holds its block at every point, for any proof data whose array is the
    entry contents and whose body leaves the block in place. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Operand 2's current staging buffer holds its block at every point, for any proof data whose array is the
    entry contents and whose body leaves the block in place. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Operand 3's current staging buffer holds its block at every point, for any proof data whose array is the
    entry contents and whose body leaves the block in place. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Operand 4's current staging buffer holds its block at every point, for any proof data whose array is the
    entry contents and whose body leaves the block in place. -/
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Operand 5's current staging buffer holds its block at every point, for any proof data whose array is the
    entry contents and whose body leaves the block in place. -/
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Operand 6's current staging buffer holds its block at every point, for any proof data whose array is the
    entry contents and whose body leaves the block in place. -/
theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Operand 7's current staging buffer holds its block at every point, for any proof data whose array is the
    entry contents and whose body leaves the block in place. -/
theorem before_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Operand 8's current staging buffer holds its block at every point, for any proof data whose array is the
    entry contents and whose body leaves the block in place. -/
theorem before_8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Operand 9's current staging buffer holds its block at every point, for any proof data whose array is the
    entry contents and whose body leaves the block in place. -/
theorem before_9_of {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Operand 10's current staging buffer holds its block at every point, for any proof data whose array is the
    entry contents and whose body leaves the block in place. -/
theorem before_10_of {c : Dev nD} (dat : Dat τ (Elt F) Unit ℕ (UR sig nD τ) ℕ cfg0 c) (hA : dat.A 10 = V c (Pipeline.arrRef spec0 10))
    (hafter : ∀ t, dat.after 10 t = iblk V c 10 t) (t : Fin cfg0.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- The proof data: the arrays as the region finds them; after the body each operand's buffer at its block, the two
    results' at what the body stores; the scoped rest and the generator register untouched; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => hNew (iblk V c 0 t) (iblk V c 1 t) (iblk V c 2 t) (iblk V c 3 t) (iblk V c 4 t) (iblk V c 5 t) (iblk V c 6 t) (iblk V c 7 t) (iblk V c 8 t) (iblk V c 9 t) (iblk V c 10 t)
    | ⟨12, _⟩ => attnW (iblk V c 0 t) (iblk V c 1 t) (iblk V c 3 t) (iblk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) : (dat V c).after 10 t = iblk V c 10 t := by dsimp only [dat]
theorem after_11 (c : Dev nD) (t : Fin cfg0.N) : (dat V c).after 11 t = hNew (iblk V c 0 t) (iblk V c 1 t) (iblk V c 2 t) (iblk V c 3 t) (iblk V c 4 t) (iblk V c 5 t) (iblk V c 6 t) (iblk V c 7 t) (iblk V c 8 t) (iblk V c 9 t) (iblk V c 10 t) := by dsimp only [dat]
theorem after_12 (c : Dev nD) (t : Fin cfg0.N) : (dat V c).after 12 t = attnW (iblk V c 0 t) (iblk V c 1 t) (iblk V c 3 t) (iblk V c 4 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d
theorem before_6 (c : Dev nD) (t : Fin cfg0.N) (d) : (dat V c).before 6 t d = iblk V c 6 t :=
  before_6_of V (dat V c) (A_eq V c 6) (after_6 V c) t d
theorem before_7 (c : Dev nD) (t : Fin cfg0.N) (d) : (dat V c).before 7 t d = iblk V c 7 t :=
  before_7_of V (dat V c) (A_eq V c 7) (after_7 V c) t d
theorem before_8 (c : Dev nD) (t : Fin cfg0.N) (d) : (dat V c).before 8 t d = iblk V c 8 t :=
  before_8_of V (dat V c) (A_eq V c 8) (after_8 V c) t d
theorem before_9 (c : Dev nD) (t : Fin cfg0.N) (d) : (dat V c).before 9 t d = iblk V c 9 t :=
  before_9_of V (dat V c) (A_eq V c 9) (after_9 V c) t d
theorem before_10 (c : Dev nD) (t : Fin cfg0.N) (d) : (dat V c).before 10 t d = iblk V c 10 t :=
  before_10_of V (dat V c) (A_eq V c 10) (after_10 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d))
    ∗ (∃ d, owns (c : Thread nD τ) (st0_12 t) fullShare ((dat V c).before 12 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t)
    ∗ owns (c : Thread nD τ) (st0_11 t) fullShare ((dat V c).after 11 t)
    ∗ owns (c : Thread nD τ) (st0_12 t) fullShare ((dat V c).after 12 t))

set_option maxHeartbeats 4000000 in
/-- The body at the point: the operands' buffers hold their blocks, so the body's triple applies; the invariant and
    the core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9, before_10]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body obligation, at every point. -/
theorem body_obligation (c : Dev nD) : BodyObligation (dat (F := F) V c) (defs₀ (F := F)) Variants.none () Set.univ := fun t => by
  rw [bigSep_W0, bigSep_W0]
  exact sound_body V c t

end Cert.KernelIdeal.Step

end
-- ==== Proof.KI.StepSeg.lean ====
import proofs.«160432_j12232066859333_1_alg».proof.Proof.KI.StepRegion
import proofs.«160432_j12232066859333_1_alg».proof.Proof.Gen.KernelIdeal.Regions
import Idealize.ShloMosaic.Lib.Pipeline.RegionsLoop

/-!
The recurrent step's launch as one segment of @main: entered with every unscoped buffer at the contents the first
host stretch leaves, left with the same contents except that the new hidden state's and the attention weights'
arrays hold what the launch's one write-back of each leaves.
-/

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Gen.Outs (F := F))

/-- The contents the launch is entered with, read at the TensorCore's references. -/
abbrev E1 : (c : Dev nD) → (b : Ref sig .tc) → Buf (Elt F) ((c : Thread nD τ).loc b) := fun c b => Gen.V1 m c b
/-- The contents it is left with. -/
abbrev E2 : (c : Dev nD) → (b : Ref sig .tc) → Buf (Elt F) ((c : Thread nD τ).loc b) := fun c b => Gen.V2 m outs c b

/-- What rides beside the buffers through every segment: the generator register at some state and the core's dues,
    at nothing. -/
abbrev R (c : Dev nD) : sProp 𝕄 := iprop((∃ r, prngReg c r) ∗ ∃ W, owes (c : Thread nD τ) (0 : CellTallies nD τ sig Unit) W)

variable (dat1 : (c : Dev nD) → Dat τ (Elt F) Unit ℕ (UR sig nD τ) ℕ cfg1 c)

/-- Both launches' proof data: the step's at its entry contents, the projection's a parameter. -/
def pdats : (p : Fin 2) → (c : Dev nD) → Dat τ (Elt F) Unit ℕ (UR sig nD τ) ℕ (cfgs p) c
  | ⟨0, _⟩ => fun c => dat (E1 m) c
  | ⟨1, _⟩ => fun c => dat1 c

variable (h11 : ∀ c, outs 2 main_v14_0 c = (dat (E1 m) c).arrAt 11 cfg0.N)
  (h12 : ∀ c, outs 2 main_v14_1 c = (dat (E1 m) c).arrAt 12 cfg0.N)

/-- The valuation after the launch at its two result arrays: the unknowns. -/
theorem V2_hidden (c : Dev nD) : Gen.V2 m outs c (Proc.devRef .tc main_v14_0) = outs 2 main_v14_0 c := by
  simp only [Gen.V2]
  rw [Function.update_of_ne (StableHlo.devRef_ne_of_ne (by decide : main_v14_0 ≠ main_v14_1)), Function.update_self]
theorem V2_weights (c : Dev nD) : Gen.V2 m outs c (Proc.devRef .tc main_v14_1) = outs 2 main_v14_1 c := by
  simp only [Gen.V2]
  rw [Function.update_self]

/-! At the exit each of the launch's arrays holds what the pipeline leaves: an operand what it held, -/
theorem hF_0 (c : Dev nD) : (dat (E1 m) c).arrAt 0 cfg0.N = E2 m outs c (Pipeline.arrRef spec0 0) :=
  (((dat (E1 m) c).arrAt_in 0 rfl _).trans (A_eq (E1 m) c 0)).trans (Gen.V2_of m outs c _ (by decide)).symm
theorem hF_1 (c : Dev nD) : (dat (E1 m) c).arrAt 1 cfg0.N = E2 m outs c (Pipeline.arrRef spec0 1) :=
  (((dat (E1 m) c).arrAt_in 1 rfl _).trans (A_eq (E1 m) c 1)).trans (Gen.V2_of m outs c _ (by decide)).symm
theorem hF_2 (c : Dev nD) : (dat (E1 m) c).arrAt 2 cfg0.N = E2 m outs c (Pipeline.arrRef spec0 2) :=
  (((dat (E1 m) c).arrAt_in 2 rfl _).trans (A_eq (E1 m) c 2)).trans (Gen.V2_of m outs c _ (by decide)).symm
theorem hF_3 (c : Dev nD) : (dat (E1 m) c).arrAt 3 cfg0.N = E2 m outs c (Pipeline.arrRef spec0 3) :=
  (((dat (E1 m) c).arrAt_in 3 rfl _).trans (A_eq (E1 m) c 3)).trans (Gen.V2_of m outs c _ (by decide)).symm
theorem hF_4 (c : Dev nD) : (dat (E1 m) c).arrAt 4 cfg0.N = E2 m outs c (Pipeline.arrRef spec0 4) :=
  (((dat (E1 m) c).arrAt_in 4 rfl _).trans (A_eq (E1 m) c 4)).trans (Gen.V2_of m outs c _ (by decide)).symm
theorem hF_5 (c : Dev nD) : (dat (E1 m) c).arrAt 5 cfg0.N = E2 m outs c (Pipeline.arrRef spec0 5) :=
  (((dat (E1 m) c).arrAt_in 5 rfl _).trans (A_eq (E1 m) c 5)).trans (Gen.V2_of m outs c _ (by decide)).symm
theorem hF_6 (c : Dev nD) : (dat (E1 m) c).arrAt 6 cfg0.N = E2 m outs c (Pipeline.arrRef spec0 6) :=
  (((dat (E1 m) c).arrAt_in 6 rfl _).trans (A_eq (E1 m) c 6)).trans (Gen.V2_of m outs c _ (by decide)).symm
theorem hF_7 (c : Dev nD) : (dat (E1 m) c).arrAt 7 cfg0.N = E2 m outs c (Pipeline.arrRef spec0 7) :=
  (((dat (E1 m) c).arrAt_in 7 rfl _).trans (A_eq (E1 m) c 7)).trans (Gen.V2_of m outs c _ (by decide)).symm
theorem hF_8 (c : Dev nD) : (dat (E1 m) c).arrAt 8 cfg0.N = E2 m outs c (Pipeline.arrRef spec0 8) :=
  (((dat (E1 m) c).arrAt_in 8 rfl _).trans (A_eq (E1 m) c 8)).trans (Gen.V2_of m outs c _ (by decide)).symm
theorem hF_9 (c : Dev nD) : (dat (E1 m) c).arrAt 9 cfg0.N = E2 m outs c (Pipeline.arrRef spec0 9) :=
  (((dat (E1 m) c).arrAt_in 9 rfl _).trans (A_eq (E1 m) c 9)).trans (Gen.V2_of m outs c _ (by decide)).symm
theorem hF_10 (c : Dev nD) : (dat (E1 m) c).arrAt 10 cfg0.N = E2 m outs c (Pipeline.arrRef spec0 10) :=
  (((dat (E1 m) c).arrAt_in 10 rfl _).trans (A_eq (E1 m) c 10)).trans (Gen.V2_of m outs c _ (by decide)).symm

include h11 in
/-- the new hidden state's array its write-back, -/
theorem hF_11 (c : Dev nD) : (dat (E1 m) c).arrAt 11 cfg0.N = E2 m outs c (Pipeline.arrRef spec0 11) :=
  (h11 c).symm.trans (V2_hidden m outs c).symm
include h12 in
/-- and the attention weights' array its. -/
theorem hF_12 (c : Dev nD) : (dat (E1 m) c).arrAt 12 cfg0.N = E2 m outs c (Pipeline.arrRef spec0 12) :=
  (h12 c).symm.trans (V2_weights m outs c).symm

include h11 h12 in
theorem hF (c : Dev nD) : ∀ w : Fin cfg0.W, (dat (E1 m) c).arrAt w cfg0.N = E2 m outs c (Pipeline.arrRef spec0 w)
  | ⟨0, _⟩ => hF_0 m outs c
  | ⟨1, _⟩ => hF_1 m outs c
  | ⟨2, _⟩ => hF_2 m outs c
  | ⟨3, _⟩ => hF_3 m outs c
  | ⟨4, _⟩ => hF_4 m outs c
  | ⟨5, _⟩ => hF_5 m outs c
  | ⟨6, _⟩ => hF_6 m outs c
  | ⟨7, _⟩ => hF_7 m outs c
  | ⟨8, _⟩ => hF_8 m outs c
  | ⟨9, _⟩ => hF_9 m outs c
  | ⟨10, _⟩ => hF_10 m outs c
  | ⟨11, _⟩ => hF_11 m outs h11 c
  | ⟨12, _⟩ => hF_12 m outs h12 c

/-- Every other buffer holds what it held at entry. -/
theorem hrest (c : Dev nD) : ∀ b, b ∉ Finset.univ.image (Pipeline.arrRef spec0) → E2 m outs c b = E1 m c b :=
  fun b hb => Gen.V2_of m outs c b (by
    intro hmem
    rcases List.mem_cons.mp hmem with rfl | hmem
    · exact hb (Finset.mem_image.mpr ⟨11, Finset.mem_univ _, rfl⟩)
    · rcases List.mem_cons.mp hmem with rfl | hmem
      · exact hb (Finset.mem_image.mpr ⟨12, Finset.mem_univ _, rfl⟩)
      · exact absurd hmem (List.not_mem_nil))

set_option backward.isDefEq.respectTransparency.types false in
/-- The step's launch over the thread state: its arrays split out of the unscoped buffers and put back at the exit
    contents; the generator register into the invariant and out; nothing owed; no semaphore of the kernel's own. -/
def reg (L : GSem nD τ sig → Finset Unit) (lv : GSem nD τ sig → Unit → ℕ) :
    Pipeline.RegionSeg (pcfgs (F := F)) Gen.adm (pdats m dat1) () defs₀ Variants.none L lv 0 where
  win := launch0.win.to₀
  block_pos := launch0.block_pos
  stage_whole := launch0.stage_whole
  K := PEmpty
  osem k := k.elim
  ho := Pipeline.OwnSemFacts.none _
  hbody c := (body_obligation (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m outs c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m dat1) launch0.win launch0.arr_whole c
      ((pdats m dat1 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m dat1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m dat1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m dat1) ((pdats m dat1 0 c).share_full fun _ => rfl)
      (E1 m c) (E2 m outs c) ((pdats m dat1 0 c).arrAt · cfg0.N) (hF m outs h11 h12 c) (hrest m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Step

end
-- ==== Proof.KI.TileSeg.lean ====
import proofs.«160432_j12232066859333_1_alg».proof.Proof.KI.TileObligation
import proofs.«160432_j12232066859333_1_alg».proof.Proof.KI.StepSeg

/-!
The vocabulary projection's launch as one segment of @main at the extended reals: entered with every unscoped buffer
at the contents the second host stretch leaves, left with the same contents except that the logits' array and the
two one-by-one results hold what the launch's write-backs leave.
-/

set_option maxRecDepth 16384

noncomputable section

namespace Cert.KernelIdeal.Vocab

open Cert.KernelIdeal Cert.KernelIdeal.Gen Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (outs : Gen.Outs (F := Ideal))

/-- The contents the launch is entered with, read at the TensorCore's references, and the contents it is left with. -/
abbrev E3 : (c : Dev nD) → (b : Ref sig .tc) → Buf (Elt Ideal) ((c : Thread nD τ).loc b) := fun c b => Gen.V3 m outs c b
abbrev E4 : (c : Dev nD) → (b : Ref sig .tc) → Buf (Elt Ideal) ((c : Thread nD τ).loc b) := fun c b => Gen.V4 m outs c b

/-- The launch's proof data at its entry contents. -/
abbrev datT (c : Dev nD) : Dat τ (Elt Ideal) Unit ℕ (UR sig nD τ) ℕ cfg1 c := dat (E3 m outs) c

theorem V4_logits (c : Dev nD) : Gen.V4 m outs c (Proc.devRef .tc main_v16_0) = outs 4 main_v16_0 c := by
  simp only [Gen.V4]
  rw [Function.update_of_ne (StableHlo.devRef_ne_of_ne (by decide : main_v16_0 ≠ main_v16_2)),
    Function.update_of_ne (StableHlo.devRef_ne_of_ne (by decide : main_v16_0 ≠ main_v16_1)), Function.update_self]
theorem V4_max (c : Dev nD) : Gen.V4 m outs c (Proc.devRef .tc main_v16_1) = outs 4 main_v16_1 c := by
  simp only [Gen.V4]
  rw [Function.update_of_ne (StableHlo.devRef_ne_of_ne (by decide : main_v16_1 ≠ main_v16_2)), Function.update_self]
theorem V4_sum (c : Dev nD) : Gen.V4 m outs c (Proc.devRef .tc main_v16_2) = outs 4 main_v16_2 c := by
  simp only [Gen.V4]
  rw [Function.update_self]

variable (h3 : ∀ c, outs 4 main_v16_0 c = (datT m outs c).arrAt 3 cfg1.N)
  (h4 : ∀ c, outs 4 main_v16_1 c = (datT m outs c).arrAt 4 cfg1.N)
  (h5 : ∀ c, outs 4 main_v16_2 c = (datT m outs c).arrAt 5 cfg1.N)

theorem hF_0 (c : Dev nD) : (datT m outs c).arrAt 0 cfg1.N = E4 m outs c (Pipeline.arrRef spec1 0) :=
  (((datT m outs c).arrAt_in 0 rfl _).trans (A_eq (E3 m outs) c 0)).trans (Gen.V4_of m outs c _ (by decide)).symm
theorem hF_1 (c : Dev nD) : (datT m outs c).arrAt 1 cfg1.N = E4 m outs c (Pipeline.arrRef spec1 1) :=
  (((datT m outs c).arrAt_in 1 rfl _).trans (A_eq (E3 m outs) c 1)).trans (Gen.V4_of m outs c _ (by decide)).symm
theorem hF_2 (c : Dev nD) : (datT m outs c).arrAt 2 cfg1.N = E4 m outs c (Pipeline.arrRef spec1 2) :=
  (((datT m outs c).arrAt_in 2 rfl _).trans (A_eq (E3 m outs) c 2)).trans (Gen.V4_of m outs c _ (by decide)).symm
include h3 in
theorem hF_3 (c : Dev nD) : (datT m outs c).arrAt 3 cfg1.N = E4 m outs c (Pipeline.arrRef spec1 3) :=
  (h3 c).symm.trans (V4_logits m outs c).symm
include h4 in
theorem hF_4 (c : Dev nD) : (datT m outs c).arrAt 4 cfg1.N = E4 m outs c (Pipeline.arrRef spec1 4) :=
  (h4 c).symm.trans (V4_max m outs c).symm
include h5 in
theorem hF_5 (c : Dev nD) : (datT m outs c).arrAt 5 cfg1.N = E4 m outs c (Pipeline.arrRef spec1 5) :=
  (h5 c).symm.trans (V4_sum m outs c).symm

include h3 h4 h5 in
theorem hF (c : Dev nD) : ∀ w : Fin cfg1.W, (datT m outs c).arrAt w cfg1.N = E4 m outs c (Pipeline.arrRef spec1 w)
  | ⟨0, _⟩ => hF_0 m outs c
  | ⟨1, _⟩ => hF_1 m outs c
  | ⟨2, _⟩ => hF_2 m outs c
  | ⟨3, _⟩ => hF_3 m outs h3 c
  | ⟨4, _⟩ => hF_4 m outs h4 c
  | ⟨5, _⟩ => hF_5 m outs h5 c

theorem hrest (c : Dev nD) : ∀ b, b ∉ Finset.univ.image (Pipeline.arrRef spec1) → E4 m outs c b = E3 m outs c b :=
  fun b hb => Gen.V4_of m outs c b (by
    intro hmem
    rcases List.mem_cons.mp hmem with rfl | hmem
    · exact hb (Finset.mem_image.mpr ⟨3, Finset.mem_univ _, rfl⟩)
    · rcases List.mem_cons.mp hmem with rfl | hmem
      · exact hb (Finset.mem_image.mpr ⟨4, Finset.mem_univ _, rfl⟩)
      · rcases List.mem_cons.mp hmem with rfl | hmem
        · exact hb (Finset.mem_image.mpr ⟨5, Finset.mem_univ _, rfl⟩)
        · exact absurd hmem (List.not_mem_nil))

set_option backward.isDefEq.respectTransparency.types false in
/-- The projection's launch over the thread state. -/
def reg (L : GSem nD τ sig → Finset Unit) (lv : GSem nD τ sig → Unit → ℕ) :
    Pipeline.RegionSeg (pcfgs (F := Ideal)) Gen.adm (Step.pdats m (datT m outs)) () defs₀ Variants.none L lv 1 where
  win := launch1.win.to₀
  block_pos := launch1.block_pos
  stage_whole := launch1.stage_whole
  K := PEmpty
  osem k := k.elim
  ho := Pipeline.OwnSemFacts.none _
  hbody c := body_obligation (E3 m outs) c
  hwaits := Pipeline.hwaits_of_owed_zero _ _ _ _ L lv 1 fun _ _ => rfl
  pre c := iprop(StableHlo.held (c : Thread nD τ) (Pipeline.ucRefs τ sig) (Gen.V3 m outs c) ∗ Step.R c)
  post c := iprop(StableHlo.held (c : Thread nD τ) (Pipeline.ucRefs τ sig) (Gen.V4 m outs c) ∗ Step.R c)
  X c := iprop(∃ r, prngReg c r)
  Y c := iprop(∃ r, prngReg c r)
  Z c := Pipeline.unscopedRest (Ix := Unit) (Name := ℕ) (U := UR sig nD τ) (Lvl := ℕ) spec1 c (E3 m outs c)
  hentry c := by
    rw [Pipeline.ownSems0_none]
    have hsplit := Pipeline.arrays_of_unscopedBufs (p := 1) (pcfgs (F := Ideal)) Gen.adm (Step.pdats m (datT m outs)) launch1.win launch1.arr_whole c
      ((Step.pdats m (datT m outs) 1 c).share_full fun _ => rfl) (E3 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Step.pdats m (datT m outs) 1 c).Φ 0 = Pipeline.ΦA spec1 c from rfl]; unfold Pipeline.ΦA
    iintro ⟨Hp, -, Hr⟩
    isplitl [Hr]; · iexact Hr
    iexact Hp
  hout c := by
    rw [Pipeline.ownSems0_none, show (Step.pdats m (datT m outs) 1 c).Φ (Fin.last _) = PhiT (E3 m outs) c (12 + 1) from rfl, PhiT_succ]
    rw [show (Pipeline.scopedRest (Ix := Unit) (Name := ℕ) (U := UR sig nD τ) (Lvl := ℕ) (Val := Elt Ideal) (Pipeline.pin (pcfgs (F := Ideal)) Gen.adm 1).spec c : sProp 𝕄)
        = Pipeline.scopedRest (Ix := Unit) (Name := ℕ) (U := UR sig nD τ) (Lvl := ℕ) (Val := Elt Ideal) spec1 c from rfl, scopedRest1_eq]
    simp only [scMax, scSum, owns_whole]
    iintro ⟨⟨R0, R1, R2, R3, R4, R5, R6, R7, R8, R9, R10, R11, R12, HS0, HS1⟩, Hp⟩
    isplitl [Hp]; · iexact Hp
    isplitr; · iempintro
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [HS0]; · iexists _; iexact HS0
    iexists _; iexact HS1
  hexit c := by
    have hjoin := Pipeline.unscopedBufs_of_arrays (p := 1) (pcfgs (F := Ideal)) Gen.adm (Ix := Unit) (Name := ℕ) (U := UR sig nD τ) (Lvl := ℕ)
      launch1.win launch1.arr_whole c (Step.pdats m (datT m outs)) ((Step.pdats m (datT m outs) 1 c).share_full fun _ => rfl)
      (E3 m outs c) (E4 m outs c) ((Step.pdats m (datT m outs) 1 c).arrAt · cfg1.N) (hF m outs h3 h4 h5 c) (hrest m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Vocab

end
-- ==== Proof.KI.Run.lean ====
import proofs.«160432_j12232066859333_1_alg».proof.Proof.KI.TileSeg
import proofs.«160432_j12232066859333_1_alg».proof.Proof.KI.RunCond

/-!
The idealized kernel program's run at the extended reals: every weakly fair execution of @main from a memory with
zero counters terminates, and every final memory holds each unscoped buffer at the last valuation — the launch
contents pushed through the first host stretch, the recurrent step's launch, the reshape of the bias, the
projection's launch over its thirteen tiles, and the last host stretch.

What the two launches leave in their result arrays is what their write-backs leave (`Dat.arrAt … N`): the unknowns
of the generated valuations are defined as exactly that, in two stages, since the second launch is entered with what
the first left.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-- Every buffer after the recurrent step's launch: its arrays at what the pipeline leaves, every other as entered. -/
def afterStep (c : Dev nD) : Valuation τ sig (Elt Ideal) :=
  Pipeline.withArrays spec0 c (Gen.V1 m c) fun w => (Step.dat (Step.E1 m) c).arrAt w cfg0.N

/-- The unknowns, first stage: what the first launch leaves. -/
def outsStep : Gen.Outs (F := Ideal) := fun _ r c => afterStep m c (Proc.devRef .tc r)

/-- Every buffer after the projection's launch, entered with what the first stage and the bias reshape leave. -/
def afterVocab (c : Dev nD) : Valuation τ sig (Elt Ideal) :=
  Pipeline.withArrays spec1 c (Gen.V3 m (outsStep m) c) fun w => (Vocab.datT m (outsStep m) c).arrAt w cfg1.N

/-- The unknowns: after the first launch (read at item 2) and after the second (item 4). -/
def outs : Gen.Outs (F := Ideal) := fun J r c => if J = 2 then afterStep m c (Proc.devRef .tc r) else afterVocab m c (Proc.devRef .tc r)

theorem entry_vocab (c : Dev nD) : Gen.V3 m (outs m) c = Gen.V3 m (outsStep m) c := rfl

theorem datT_eq (c : Dev nD) : Vocab.datT m (outs m) c = Vocab.datT m (outsStep m) c := rfl

theorem pin_hidden (c : Dev nD) : outs m 2 main_v14_0 c = (Step.dat (Step.E1 m) c).arrAt 11 cfg0.N := by
  unfold outs afterStep; rw [if_pos rfl]
  exact Pipeline.withArrays_arr spec0 launch0.win.arr_inj c _ _ 11
theorem pin_weights (c : Dev nD) : outs m 2 main_v14_1 c = (Step.dat (Step.E1 m) c).arrAt 12 cfg0.N := by
  unfold outs afterStep; rw [if_pos rfl]
  exact Pipeline.withArrays_arr spec0 launch0.win.arr_inj c _ _ 12
theorem pin_logits (c : Dev nD) : outs m 4 main_v16_0 c = (Vocab.datT m (outs m) c).arrAt 3 cfg1.N := by
  rw [datT_eq]; unfold outs afterVocab; rw [if_neg (by decide)]
  exact Pipeline.withArrays_arr spec1 launch1.win.arr_inj c _ _ 3
theorem pin_max (c : Dev nD) : outs m 4 main_v16_1 c = (Vocab.datT m (outs m) c).arrAt 4 cfg1.N := by
  rw [datT_eq]; unfold outs afterVocab; rw [if_neg (by decide)]
  exact Pipeline.withArrays_arr spec1 launch1.win.arr_inj c _ _ 4
theorem pin_sum (c : Dev nD) : outs m 4 main_v16_2 c = (Vocab.datT m (outs m) c).arrAt 5 cfg1.N := by
  rw [datT_eq]; unfold outs afterVocab; rw [if_neg (by decide)]
  exact Pipeline.withArrays_arr spec1 launch1.win.arr_inj c _ _ 5

abbrev L : GSem nD τ sig → Finset Unit := fun _ => ∅
abbrev lv : GSem nD τ sig → Unit → ℕ := fun _ _ => 0

set_option backward.isDefEq.respectTransparency.types false in
set_option maxHeartbeats 4000000 in
/-- THE RUN. -/
theorem run (ρ : Dev nD → PrngReg) :
    θ_run defs (onTc (τ := τ) (main (F := Ideal))) ⟨m, fun _ => 0, ρ⟩ (fun r => ∀ c : Dev nD,
      ∀ b ∈ Pipeline.ucRefs τ sig, r.2.mem (((c : Thread nD τ)).1, b) = Gen.V5 m (outs m) c b) :=
  GenP.run_cond (F := Ideal) m emb₁ () Variants.none L lv (fun _ _ => rfl) ρ (outs m)
    (Step.pdats m (Vocab.datT m (outs m)))
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Step.R c)
    (hE0 := by
      iintro ⟨H, -⟩
      imodintro
      have hcore : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄)
          ⊢ (Step.R (F := Ideal) c : sProp 𝕄) := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ (fun c : Dev nD => Step.R (F := Ideal) c) : sProp 𝕄) :=
        bigSep_mono fun c _ => hcore c
      iapply hmono
      iexact H)
    (hE2 := fun c => by
      iintro ⟨-, HO⟩
      iexact HO)
    (Step.reg m (outs m) (Vocab.datT m (outs m)) (pin_hidden m) (pin_weights m) L lv)
    (fun c => .rfl) (fun c => .rfl)
    (Vocab.reg m (outs m) (pin_logits m) (pin_max m) (pin_sum m) L lv)
    (fun c => .rfl) (fun c => .rfl)

/-- info: 'Cert.KernelIdeal.Whole.run' depends on axioms: [propext, Classical.choice, Quot.sound] -/
#guard_msgs in #print axioms run

end Cert.KernelIdeal.Whole

end
-- ==== Proof.KI.Claims.lean ====
import proofs.«160432_j12232066859333_1_alg».proof.Defs
import proofs.«160432_j12232066859333_1_alg».proof.Proof.Gen.Pre_finite_inputs
import proofs.«160432_j12232066859333_1_alg».proof.Proof.KI.Run

/-!
The idealized kernel program's frame, read off its run at the extended reals: the run ends with every unscoped
buffer at the last valuation, and no host stretch and no launch writes an argument array, so each of the fourteen
arguments holds its launch contents there.
-/

noncomputable section

namespace Cert.Proof.KernelIdealClaims

open Cert.KernelIdeal Cert.KernelIdeal.Gen
open Idealize.ShloMosaic Idealize.ShloMosaic.TcCoe Idealize.SL.Sem

/-- The idealized kernel program runs to the end, faults nowhere and leaves its argument arrays as launched. -/
theorem frame_ki : Cert.frame_KernelIdeal := fun m ρ _ =>
  (θ_run Cert.KernelIdeal.defs _ _).mono (fun r h c =>
    ⟨(h c (Proc.devRef .tc main_arg0) (Finset.mem_filter.mpr ⟨StableHlo.devRef_mem_tcRefs main_arg0, by decide⟩)).trans (Gen.V5_main_arg0 m (Whole.outs m) c),
      (h c (Proc.devRef .tc main_arg1) (Finset.mem_filter.mpr ⟨StableHlo.devRef_mem_tcRefs main_arg1, by decide⟩)).trans (Gen.V5_main_arg1 m (Whole.outs m) c),
      (h c (Proc.devRef .tc main_arg2) (Finset.mem_filter.mpr ⟨StableHlo.devRef_mem_tcRefs main_arg2, by decide⟩)).trans (Gen.V5_main_arg2 m (Whole.outs m) c),
      (h c (Proc.devRef .tc main_arg3) (Finset.mem_filter.mpr ⟨StableHlo.devRef_mem_tcRefs main_arg3, by decide⟩)).trans (Gen.V5_main_arg3 m (Whole.outs m) c),
      (h c (Proc.devRef .tc main_arg4) (Finset.mem_filter.mpr ⟨StableHlo.devRef_mem_tcRefs main_arg4, by decide⟩)).trans (Gen.V5_main_arg4 m (Whole.outs m) c),
      (h c (Proc.devRef .tc main_arg5) (Finset.mem_filter.mpr ⟨StableHlo.devRef_mem_tcRefs main_arg5, by decide⟩)).trans (Gen.V5_main_arg5 m (Whole.outs m) c),
      (h c (Proc.devRef .tc main_arg6) (Finset.mem_filter.mpr ⟨StableHlo.devRef_mem_tcRefs main_arg6, by decide⟩)).trans (Gen.V5_main_arg6 m (Whole.outs m) c),
      (h c (Proc.devRef .tc main_arg7) (Finset.mem_filter.mpr ⟨StableHlo.devRef_mem_tcRefs main_arg7, by decide⟩)).trans (Gen.V5_main_arg7 m (Whole.outs m) c),
      (h c (Proc.devRef .tc main_arg8) (Finset.mem_filter.mpr ⟨StableHlo.devRef_mem_tcRefs main_arg8, by decide⟩)).trans (Gen.V5_main_arg8 m (Whole.outs m) c),
      (h c (Proc.devRef .tc main_arg9) (Finset.mem_filter.mpr ⟨StableHlo.devRef_mem_tcRefs main_arg9, by decide⟩)).trans (Gen.V5_main_arg9 m (Whole.outs m) c),
      (h c (Proc.devRef .tc main_arg10) (Finset.mem_filter.mpr ⟨StableHlo.devRef_mem_tcRefs main_arg10, by decide⟩)).trans (Gen.V5_main_arg10 m (Whole.outs m) c),
      (h c (Proc.devRef .tc main_arg11) (Finset.mem_filter.mpr ⟨StableHlo.devRef_mem_tcRefs main_arg11, by decide⟩)).trans (Gen.V5_main_arg11 m (Whole.outs m) c),
      (h c (Proc.devRef .tc main_arg12) (Finset.mem_filter.mpr ⟨StableHlo.devRef_mem_tcRefs main_arg12, by decide⟩)).trans (Gen.V5_main_arg12 m (Whole.outs m) c),
      (h c (Proc.devRef .tc main_arg13) (Finset.mem_filter.mpr ⟨StableHlo.devRef_mem_tcRefs main_arg13, by decide⟩)).trans (Gen.V5_main_arg13 m (Whole.outs m) c)⟩) (Cert.KernelIdeal.Whole.run m ρ)

end Cert.Proof.KernelIdealClaims

end
-- ==== Proof.KF.StepBody.lean ====
import proofs.«160432_j12232066859333_1_alg».proof.Proof.Gen.Kernel.Launch
import proofs.«160432_j12232066859333_1_alg».proof.Proof.Gen.Kernel.Skeleton
import proofs.«160432_j12232066859333_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
The recurrent step's kernel body (attention weights, attended context, combined input, one GRU step) as one
triple: run on whole staging buffers holding the eleven operands, it leaves them as they were and stores

* into the new hidden state's buffer the GRU update of the hidden state by the gates computed from the
  combined input, and
* into the attention weights' buffer the softmax of the attention logits,

each as the one whole-buffer store of the body's arithmetic on the loaded operands.
-/

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body loads and stores through -/

abbrev rRow : Rect S1x1024 := Rect.unit (s := S1x1024) ![0, 0] S1x1024.size inb_S1x1024_S1x1024_0_0
abbrev rEnc : Rect S18x1024 := Rect.unit (s := S18x1024) ![0, 0] S18x1024.size inb_S18x1024_S18x1024_0_0
abbrev rAttnW : Rect S18x2048 := Rect.unit (s := S18x2048) ![0, 0] S18x2048.size inb_S18x2048_S18x2048_0_0
abbrev rL : Rect S1x18 := Rect.unit (s := S1x18) ![0, 0] S1x18.size inb_S1x18_S1x18_0_0
abbrev rCombW : Rect S1024x2048 := Rect.unit (s := S1024x2048) ![0, 0] S1024x2048.size inb_S1024x2048_S1024x2048_0_0
abbrev rGruW : Rect S3072x1024 := Rect.unit (s := S3072x1024) ![0, 0] S3072x1024.size inb_S3072x1024_S3072x1024_0_0
abbrev rGruB : Rect S1x3072 := Rect.unit (s := S1x3072) ![0, 0] S1x3072.size inb_S1x3072_S1x3072_0_0

/-! ## What the body stores -/

/-- The new hidden state's buffer after the body: the GRU update, stored whole. Operands in the order the kernel
    takes them: embedded row, hidden state, encoder outputs, attention weight matrix, attention bias, combining
    matrix, combining bias, input-gate matrix, hidden-gate matrix, input-gate bias, hidden-gate bias. -/
def hNew (x0 : Vec F S1x1024 .f32) (x1 : Vec F S1x1024 .f32) (x2 : Vec F S18x1024 .f32) (x3 : Vec F S18x2048 .bf16)
    (x4 : Vec F S1x18 .f32) (x5 : Vec F S1024x2048 .bf16) (x6 : Vec F S1x1024 .f32) (x7 : Vec F S3072x1024 .bf16)
    (x8 : Vec F S3072x1024 .bf16) (x9 : Vec F S1x3072 .f32) (x10 : Vec F S1x3072 .f32) : Vec F S1x1024 .f32 :=
  View.canon [⟨rRow, k0_pay1 (k0_pay3 (View.ld x1 rRow))
    (k0_pay5 (View.ld x0 rRow) (View.ld x1 rRow) (View.ld x3 rAttnW) (View.ld x4 rL) (View.ld x2 rEnc) (View.ld x5 rCombW) (View.ld x6 rRow))
    (k0_pay6 (F := F)) (View.ld x7 rGruW) (View.ld x9 rGruB) (View.ld x8 rGruW) (View.ld x10 rGruB)⟩]

/-- The attention weights' buffer after the body: the softmax of the logits, stored whole. -/
def attnW (x0 : Vec F S1x1024 .f32) (x1 : Vec F S1x1024 .f32) (x3 : Vec F S18x2048 .bf16) (x4 : Vec F S1x18 .f32) :
    Vec F S1x18 .f32 :=
  View.canon [⟨rL, k0_pay4 (View.ld x0 rRow) (View.ld x1 rRow) (View.ld x3 rAttnW) (View.ld x4 rL)⟩]

/-- One whole-buffer store covers the buffer. -/
theorem cover_row (p0 : Vec F S1x1024 .f32) (y : S1x1024.Idx) :
    ∃ pc ∈ ([⟨rRow, p0⟩] : List (View.Piece (Elt F) S1x1024 .f32)), y ∈ pc.1.set :=
  View.cover_of_tiled [⟨rRow, p0⟩] S1x1024.size (by rfl) y

theorem cover_L (p0 : Vec F S1x18 .f32) (y : S1x18.Idx) :
    ∃ pc ∈ ([⟨rL, p0⟩] : List (View.Piece (Elt F) S1x18 .f32)), y ∈ pc.1.set :=
  View.cover_of_tiled [⟨rL, p0⟩] S1x18.size (by rfl) y

/-! ## The body's triple -/

set_option maxHeartbeats 4000000 in
/-- The body on whole staging buffers, the operands' at their contents and the two results' at anything, runs to
    the continuation holding the operands' as they were and each result's at what the body stores. -/
theorem sound_kernel (c : Dev nD) (E : Set ℕ) (i : grid0.Coords)
    (arg1 : Memref sig .tc .vmem S1x1024 .f32) (harg1 : arg1.IsWhole) (arg2 : Memref sig .tc .vmem S1x1024 .f32) (harg2 : arg2.IsWhole)
    (arg3 : Memref sig .tc .vmem S18x1024 .f32) (harg3 : arg3.IsWhole) (arg4 : Memref sig .tc .vmem S18x2048 .bf16) (harg4 : arg4.IsWhole)
    (arg5 : Memref sig .tc .vmem S1x18 .f32) (harg5 : arg5.IsWhole) (arg6 : Memref sig .tc .vmem S1024x2048 .bf16) (harg6 : arg6.IsWhole)
    (arg7 : Memref sig .tc .vmem S1x1024 .f32) (harg7 : arg7.IsWhole) (arg8 : Memref sig .tc .vmem S3072x1024 .bf16) (harg8 : arg8.IsWhole)
    (arg9 : Memref sig .tc .vmem S3072x1024 .bf16) (harg9 : arg9.IsWhole) (arg10 : Memref sig .tc .vmem S1x3072 .f32) (harg10 : arg10.IsWhole)
    (arg11 : Memref sig .tc .vmem S1x3072 .f32) (harg11 : arg11.IsWhole) (arg12 : Memref sig .tc .vmem S1x1024 .f32) (harg12 : arg12.IsWhole)
    (arg13 : Memref sig .tc .vmem S1x18 .f32) (harg13 : arg13.IsWhole)
    (x0 : Vec F S1x1024 .f32) (x1 : Vec F S1x1024 .f32) (x2 : Vec F S18x1024 .f32) (x3 : Vec F S18x2048 .bf16)
    (x4 : Vec F S1x18 .f32) (x5 : Vec F S1024x2048 .bf16) (x6 : Vec F S1x1024 .f32) (x7 : Vec F S3072x1024 .bf16)
    (x8 : Vec F S3072x1024 .bf16) (x9 : Vec F S1x3072 .f32) (x10 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (hNew x0 x1 x2 x3 x4 x5 x6 x7 x8 x9 x10)
            ∗ owns (c : Thread nD τ) arg13 fullShare (attnW x0 x1 x3 x4)) -∗ K ⟨⟩))
      ⊢ wp frame (wpE (defs₀ (F := F)) Variants.none c none) E
          (cc0__rnn_step_kernel i arg1 harg1 arg2 harg2 arg3 harg3 arg4 harg4 arg5 harg5 arg6 harg6 arg7 harg7 arg8 harg8 arg9 harg9 arg10 harg10 arg11 harg11 arg12 harg12 arg13 harg13) K := by
  simp only [cc0__rnn_step_kernel_eq_skeleton]; unfold cc0__rnn_step_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover_row _)
  iexists _; isplitr
  swap; · iexact H12
  ipureintro
  exact View.read_writes_eq_canon _ _ _ (cover_L _)

end Cert.Kernel.Step

end
-- ==== Proof.KF.StepRegion.lean ====
import proofs.«160432_j12232066859333_1_alg».proof.Proof.KF.StepBody

/-!
The recurrent step's pipeline (one grid point; every operand and result a single whole-array block): its proof
data at arbitrary entry contents `V` of the core's buffers, and the body obligation.

After the body each operand's staging buffer holds the operand's block as entered, the new hidden state's buffer
the GRU update and the attention weights' buffer the softmax, both as functions of the operand blocks.
-/

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Operand 0's current staging buffer holds its block at every point, for any proof data whose array is the
    entry contents and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Operand 1's current staging buffer holds its block at every point, for any proof data whose array is the
    entry contents and whose body leaves the block in place. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Operand 2's current staging buffer holds its block at every point, for any proof data whose array is the
    entry contents and whose body leaves the block in place. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Operand 3's current staging buffer holds its block at every point, for any proof data whose array is the
    entry contents and whose body leaves the block in place. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Operand 4's current staging buffer holds its block at every point, for any proof data whose array is the
    entry contents and whose body leaves the block in place. -/
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Operand 5's current staging buffer holds its block at every point, for any proof data whose array is the
    entry contents and whose body leaves the block in place. -/
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Operand 6's current staging buffer holds its block at every point, for any proof data whose array is the
    entry contents and whose body leaves the block in place. -/
theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Operand 7's current staging buffer holds its block at every point, for any proof data whose array is the
    entry contents and whose body leaves the block in place. -/
theorem before_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Operand 8's current staging buffer holds its block at every point, for any proof data whose array is the
    entry contents and whose body leaves the block in place. -/
theorem before_8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Operand 9's current staging buffer holds its block at every point, for any proof data whose array is the
    entry contents and whose body leaves the block in place. -/
theorem before_9_of {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Operand 10's current staging buffer holds its block at every point, for any proof data whose array is the
    entry contents and whose body leaves the block in place. -/
theorem before_10_of {c : Dev nD} (dat : Dat τ (Elt F) Unit ℕ (UR sig nD τ) ℕ cfg0 c) (hA : dat.A 10 = V c (Pipeline.arrRef spec0 10))
    (hafter : ∀ t, dat.after 10 t = iblk V c 10 t) (t : Fin cfg0.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- The proof data: the arrays as the region finds them; after the body each operand's buffer at its block, the two
    results' at what the body stores; the scoped rest and the generator register untouched; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => hNew (iblk V c 0 t) (iblk V c 1 t) (iblk V c 2 t) (iblk V c 3 t) (iblk V c 4 t) (iblk V c 5 t) (iblk V c 6 t) (iblk V c 7 t) (iblk V c 8 t) (iblk V c 9 t) (iblk V c 10 t)
    | ⟨12, _⟩ => attnW (iblk V c 0 t) (iblk V c 1 t) (iblk V c 3 t) (iblk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) : (dat V c).after 10 t = iblk V c 10 t := by dsimp only [dat]
theorem after_11 (c : Dev nD) (t : Fin cfg0.N) : (dat V c).after 11 t = hNew (iblk V c 0 t) (iblk V c 1 t) (iblk V c 2 t) (iblk V c 3 t) (iblk V c 4 t) (iblk V c 5 t) (iblk V c 6 t) (iblk V c 7 t) (iblk V c 8 t) (iblk V c 9 t) (iblk V c 10 t) := by dsimp only [dat]
theorem after_12 (c : Dev nD) (t : Fin cfg0.N) : (dat V c).after 12 t = attnW (iblk V c 0 t) (iblk V c 1 t) (iblk V c 3 t) (iblk V c 4 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d
theorem before_6 (c : Dev nD) (t : Fin cfg0.N) (d) : (dat V c).before 6 t d = iblk V c 6 t :=
  before_6_of V (dat V c) (A_eq V c 6) (after_6 V c) t d
theorem before_7 (c : Dev nD) (t : Fin cfg0.N) (d) : (dat V c).before 7 t d = iblk V c 7 t :=
  before_7_of V (dat V c) (A_eq V c 7) (after_7 V c) t d
theorem before_8 (c : Dev nD) (t : Fin cfg0.N) (d) : (dat V c).before 8 t d = iblk V c 8 t :=
  before_8_of V (dat V c) (A_eq V c 8) (after_8 V c) t d
theorem before_9 (c : Dev nD) (t : Fin cfg0.N) (d) : (dat V c).before 9 t d = iblk V c 9 t :=
  before_9_of V (dat V c) (A_eq V c 9) (after_9 V c) t d
theorem before_10 (c : Dev nD) (t : Fin cfg0.N) (d) : (dat V c).before 10 t d = iblk V c 10 t :=
  before_10_of V (dat V c) (A_eq V c 10) (after_10 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d))
    ∗ (∃ d, owns (c : Thread nD τ) (st0_12 t) fullShare ((dat V c).before 12 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t)
    ∗ owns (c : Thread nD τ) (st0_11 t) fullShare ((dat V c).after 11 t)
    ∗ owns (c : Thread nD τ) (st0_12 t) fullShare ((dat V c).after 12 t))

set_option maxHeartbeats 4000000 in
/-- The body at the point: the operands' buffers hold their blocks, so the body's triple applies; the invariant and
    the core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9, before_10]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body obligation, at every point. -/
theorem body_obligation (c : Dev nD) : BodyObligation (dat (F := F) V c) (defs₀ (F := F)) Variants.none () Set.univ := fun t => by
  rw [bigSep_W0, bigSep_W0]
  exact sound_body V c t

end Cert.Kernel.Step

end
-- ==== Proof.KF.TileRuns.lean ====
import proofs.«160432_j12232066859333_1_alg».proof.Proof.Gen.Kernel.Launch
import proofs.«160432_j12232066859333_1_alg».proof.Proof.Gen.Kernel.Skeleton
import proofs.«160432_j12232066859333_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
The vocabulary projection's kernel body, one tile of 4096 columns per grid point, in its three control cases:

* the first tile: the two carried cells (running maximum, running sum) are reset to minus infinity and zero first;
* a middle tile: the cells are read as the tile before left them;
* the last tile: as a middle tile, and the cells are then copied into the two one-by-one results.

In every case the tile's masked logits are stored whole and the two cells are overwritten by the new running
maximum and the rescaled running sum. Each case is a triple on whole staging buffers; what each written buffer ends
holding is the list of the body's stores into it (last first), found by running the body.
-/

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, from the grid coordinate -/

/-- "This is the first tile". -/
abbrev isFirst (i : grid1.Coords) : Prop := (Scalar.cmpi .ne (Scalar.extui (Scalar.cmpi .eq (BitVec.ofNat 32 (i 0).val) 0#32)) 0#32) = 1#1
theorem isFirst_iff : ∀ t : Fin cfg1.N, isFirst (grid1.coords t) ↔ t.val % 13 = 0 :=
  (by decide +kernel : ∀ t : Fin grid1.N, isFirst (grid1.coords t) ↔ t.val % 13 = 0)

/-- "This is the last tile". -/
abbrev isLast (i : grid1.Coords) : Prop := k1_cond2 i = 1#1
theorem isLast_iff : ∀ t : Fin cfg1.N, isLast (grid1.coords t) ↔ t.val % 13 = 12 :=
  (by decide +kernel : ∀ t : Fin grid1.N, isLast (grid1.coords t) ↔ t.val % 13 = 12)

/-! ## The body, case by case -/

set_option maxHeartbeats 4000000 in
/-- The first tile: the cells at anything, the two one-by-one results handed back untouched. -/
noncomputable def runA (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : isFirst i) (hc1 : ¬isLast i)
    (x : Vec F S1x1024 .f32) (W : Vec F S4096x1024 .f32) (b : Vec F S1x4096 .f32) :
    Σ' (L4 : List (View.Piece (Elt F) S1x4096 .f32)) (LS0 : List (View.Piece (Elt F) S1x1 .f32)), { LS1 : List (View.Piece (Elt F) S1x1 .f32) //
      ∀ (xi5 xi6 : Vec F S1x1 .f32) (E : Set ℕ) (K : PUnit → sProp 𝕄),
        iprop(owns (c : Thread nD τ) arg1 fullShare x ∗ owns (c : Thread nD τ) arg2 fullShare W ∗ owns (c : Thread nD τ) arg3 fullShare b ∗ (∃ d, owns (c : Thread nD τ) arg4 fullShare d) ∗ owns (c : Thread nD τ) arg5 fullShare xi5 ∗ owns (c : Thread nD τ) arg6 fullShare xi6 ∗ (∃ d, owns (c : Thread nD τ) arg7 fullShare d) ∗ (∃ d, owns (c : Thread nD τ) arg8 fullShare d)
            ∗ (iprop(owns (c : Thread nD τ) arg1 fullShare x ∗ owns (c : Thread nD τ) arg2 fullShare W ∗ owns (c : Thread nD τ) arg3 fullShare b ∗ (∃ f, arg4.view.loc (c : Thread nD τ) ↦[arg4.view.set]{fullShare} arg4.view.writes (Elt F) f L4) ∗ owns (c : Thread nD τ) arg5 fullShare xi5 ∗ owns (c : Thread nD τ) arg6 fullShare xi6 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8) K } := by
  refine ⟨?_, ?_, ?_, fun xi5 xi6 E K => ?run⟩
  case run =>
    simp only [cc1_kernel_eq_skeleton]; unfold cc1_kernel_skel
    simp only [k1_part1_eq_skeleton]
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, Hk⟩
    obtain rfl := harg1.eq_unread hf1; obtain rfl := harg2.eq_unread hf2; obtain rfl := harg3.eq_unread hf3; obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact H8

set_option maxHeartbeats 4000000 in
/-- A middle tile: the cells at what the tile before left, the two one-by-one results handed back untouched. -/
noncomputable def runB (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬isFirst i) (hc1 : ¬isLast i)
    (x : Vec F S1x1024 .f32) (W : Vec F S4096x1024 .f32) (b : Vec F S1x4096 .f32) (xs0 xs1 : Vec F S1x1 .f32) :
    Σ' (L4 : List (View.Piece (Elt F) S1x4096 .f32)) (LS0 : List (View.Piece (Elt F) S1x1 .f32)), { LS1 : List (View.Piece (Elt F) S1x1 .f32) //
      ∀ (xi5 xi6 : Vec F S1x1 .f32) (E : Set ℕ) (K : PUnit → sProp 𝕄),
        iprop(owns (c : Thread nD τ) arg1 fullShare x ∗ owns (c : Thread nD τ) arg2 fullShare W ∗ owns (c : Thread nD τ) arg3 fullShare b ∗ (∃ d, owns (c : Thread nD τ) arg4 fullShare d) ∗ owns (c : Thread nD τ) arg5 fullShare xi5 ∗ owns (c : Thread nD τ) arg6 fullShare xi6 ∗ owns (c : Thread nD τ) arg7 fullShare xs0 ∗ owns (c : Thread nD τ) arg8 fullShare xs1
            ∗ (iprop(owns (c : Thread nD τ) arg1 fullShare x ∗ owns (c : Thread nD τ) arg2 fullShare W ∗ owns (c : Thread nD τ) arg3 fullShare b ∗ (∃ f, arg4.view.loc (c : Thread nD τ) ↦[arg4.view.set]{fullShare} arg4.view.writes (Elt F) f L4) ∗ owns (c : Thread nD τ) arg5 fullShare xi5 ∗ owns (c : Thread nD τ) arg6 fullShare xi6 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8) K } := by
  refine ⟨?_, ?_, ?_, fun xi5 xi6 E K => ?run⟩
  case run =>
    simp only [cc1_kernel_eq_skeleton]; unfold cc1_kernel_skel
    simp only [k1_part1_eq_skeleton]
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg5.eq_unread hf5; obtain rfl := harg6.eq_unread hf6; obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact H8

set_option maxHeartbeats 4000000 in
/-- The last tile: the cells at what the tile before left; the two one-by-one results written. -/
noncomputable def runC (c : Dev nD) (i : grid1.Coords) (arg1 : Memref sig .tc .vmem S1x1024 .f32) (harg1 : arg1.IsWhole) (arg2 : Memref sig .tc .vmem S4096x1024 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬isFirst i) (hc1 : isLast i)
    (x : Vec F S1x1024 .f32) (W : Vec F S4096x1024 .f32) (b : Vec F S1x4096 .f32) (xs0 xs1 : Vec F S1x1 .f32) :
    Σ' (L4 : List (View.Piece (Elt F) S1x4096 .f32)) (L5 : List (View.Piece (Elt F) S1x1 .f32)) (L6 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg1 fullShare x ∗ owns (c : Thread nD τ) arg2 fullShare W ∗ owns (c : Thread nD τ) arg3 fullShare b ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x ∗ owns (c : Thread nD τ) arg2 fullShare W ∗ owns (c : Thread nD τ) arg3 fullShare b ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc1_kernel_eq_skeleton]; unfold cc1_kernel_skel
    simp only [k1_part1_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3; obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

end Cert.Kernel.Tile

end
-- ==== Proof.KF.VocabBody.lean ====
import proofs.«160432_j12232066859333_1_alg».proof.Proof.KF.TileRuns

/-!
The vocabulary projection's kernel body, as far as a frame needs it: run on eight whole buffers — the hidden
state's, the weight tile's, the bias tile's, the logits tile's, the two one-cell results' and the two one-cell
scratch cells' —, each at contents nothing is said about, it terminates without a fault and hands the eight buffers
back, again at contents nothing is said about. Each of the body's three control cases is its run with the contents
it names instantiated by whatever the buffers hold and the lists of stores it finds thrown away.
-/

set_option maxRecDepth 16384

noncomputable section

namespace Cert.Kernel.Vocab

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The eight buffers the body is called with, each whole, at the full share, at some contents. -/
def held8 (c : Dev nD)
    (arg1 : Memref sig .tc .vmem S1x1024 .f32) (arg2 : Memref sig .tc .vmem S4096x1024 .f32)
    (arg3 : Memref sig .tc .vmem S1x4096 .f32) (arg4 : Memref sig .tc .vmem S1x4096 .f32)
    (arg5 : Memref sig .tc .vmem S1x1 .f32) (arg6 : Memref sig .tc .vmem S1x1 .f32)
    (arg7 : Memref sig .tc .vmem S1x1 .f32) (arg8 : Memref sig .tc .vmem S1x1 .f32) : sProp 𝕄 :=
  iprop((∃ d, owns (c : Thread nD τ) arg1 fullShare d)
        ∗ (∃ d, owns (c : Thread nD τ) arg2 fullShare d)
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d))

/-- The first tile: the scratch cells are reset, nothing is copied out. -/
theorem sound_first (c : Dev nD) (E : Set ℕ) (i : grid1.Coords)
    (arg1 : Memref sig .tc .vmem S1x1024 .f32) (harg1 : arg1.IsWhole) (arg2 : Memref sig .tc .vmem S4096x1024 .f32) (harg2 : arg2.IsWhole)
    (arg3 : Memref sig .tc .vmem S1x4096 .f32) (harg3 : arg3.IsWhole) (arg4 : Memref sig .tc .vmem S1x4096 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (hc1 : Tile.isFirst i) (hc2 : ¬ Tile.isLast i) (K : PUnit → sProp 𝕄) :
    iprop(held8 c arg1 arg2 arg3 arg4 arg5 arg6 arg7 arg8 ∗ (held8 c arg1 arg2 arg3 arg4 arg5 arg6 arg7 arg8 -∗ K ⟨⟩))
      ⊢ wp frame (wpE (defs₀ (F := F)) Variants.none c none) E
          (cc1_kernel i arg1 harg1 arg2 harg2 arg3 harg3 arg4 harg4 arg5 harg5 arg6 harg6 arg7 harg7 arg8 harg8) K := by
  unfold held8
  iintro ⟨⟨⟨%d1, H1⟩, ⟨%d2, H2⟩, ⟨%d3, H3⟩, H4, ⟨%d5, H5⟩, ⟨%d6, H6⟩, H7, H8⟩, Hk⟩
  iapply ((Tile.runA c i arg1 harg1 arg2 harg2 arg3 harg3 arg4 harg4 arg5 harg5 arg6 harg6 arg7 harg7 arg8 harg8 hc1 hc2 d1 d2 d3).2.2.2 d5 d6 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, ⟨%f4, H4⟩, H5, H6, ⟨%f7, H7⟩, ⟨%f8, H8⟩⟩
  iapply Hk
  isplitl [H1]; · iexists _; iexact H1
  isplitl [H2]; · iexists _; iexact H2
  isplitl [H3]; · iexists _; iexact H3
  isplitl [H4]
  · iexists _; iapply (owns_intro (c : Thread nD τ) arg4 fullShare _); iexact H4
  isplitl [H5]; · iexists _; iexact H5
  isplitl [H6]; · iexists _; iexact H6
  isplitl [H7]
  · iexists _; iapply (owns_intro (c : Thread nD τ) arg7 fullShare _); iexact H7
  iexists _; iapply (owns_intro (c : Thread nD τ) arg8 fullShare _); iexact H8

/-- A middle tile: no reset, nothing copied out. -/
theorem sound_middle (c : Dev nD) (E : Set ℕ) (i : grid1.Coords)
    (arg1 : Memref sig .tc .vmem S1x1024 .f32) (harg1 : arg1.IsWhole) (arg2 : Memref sig .tc .vmem S4096x1024 .f32) (harg2 : arg2.IsWhole)
    (arg3 : Memref sig .tc .vmem S1x4096 .f32) (harg3 : arg3.IsWhole) (arg4 : Memref sig .tc .vmem S1x4096 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (hc1 : ¬ Tile.isFirst i) (hc2 : ¬ Tile.isLast i) (K : PUnit → sProp 𝕄) :
    iprop(held8 c arg1 arg2 arg3 arg4 arg5 arg6 arg7 arg8 ∗ (held8 c arg1 arg2 arg3 arg4 arg5 arg6 arg7 arg8 -∗ K ⟨⟩))
      ⊢ wp frame (wpE (defs₀ (F := F)) Variants.none c none) E
          (cc1_kernel i arg1 harg1 arg2 harg2 arg3 harg3 arg4 harg4 arg5 harg5 arg6 harg6 arg7 harg7 arg8 harg8) K := by
  unfold held8
  iintro ⟨⟨⟨%d1, H1⟩, ⟨%d2, H2⟩, ⟨%d3, H3⟩, H4, ⟨%d5, H5⟩, ⟨%d6, H6⟩, ⟨%d7, H7⟩, ⟨%d8, H8⟩⟩, Hk⟩
  iapply ((Tile.runB c i arg1 harg1 arg2 harg2 arg3 harg3 arg4 harg4 arg5 harg5 arg6 harg6 arg7 harg7 arg8 harg8 hc1 hc2 d1 d2 d3 d7 d8).2.2.2 d5 d6 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, ⟨%f4, H4⟩, H5, H6, ⟨%f7, H7⟩, ⟨%f8, H8⟩⟩
  iapply Hk
  isplitl [H1]; · iexists _; iexact H1
  isplitl [H2]; · iexists _; iexact H2
  isplitl [H3]; · iexists _; iexact H3
  isplitl [H4]
  · iexists _; iapply (owns_intro (c : Thread nD τ) arg4 fullShare _); iexact H4
  isplitl [H5]; · iexists _; iexact H5
  isplitl [H6]; · iexists _; iexact H6
  isplitl [H7]
  · iexists _; iapply (owns_intro (c : Thread nD τ) arg7 fullShare _); iexact H7
  iexists _; iapply (owns_intro (c : Thread nD τ) arg8 fullShare _); iexact H8

/-- The last tile: no reset, the scratch cells are copied into the two one-cell results. -/
theorem sound_last (c : Dev nD) (E : Set ℕ) (i : grid1.Coords)
    (arg1 : Memref sig .tc .vmem S1x1024 .f32) (harg1 : arg1.IsWhole) (arg2 : Memref sig .tc .vmem S4096x1024 .f32) (harg2 : arg2.IsWhole)
    (arg3 : Memref sig .tc .vmem S1x4096 .f32) (harg3 : arg3.IsWhole) (arg4 : Memref sig .tc .vmem S1x4096 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (hc1 : ¬ Tile.isFirst i) (hc2 : Tile.isLast i) (K : PUnit → sProp 𝕄) :
    iprop(held8 c arg1 arg2 arg3 arg4 arg5 arg6 arg7 arg8 ∗ (held8 c arg1 arg2 arg3 arg4 arg5 arg6 arg7 arg8 -∗ K ⟨⟩))
      ⊢ wp frame (wpE (defs₀ (F := F)) Variants.none c none) E
          (cc1_kernel i arg1 harg1 arg2 harg2 arg3 harg3 arg4 harg4 arg5 harg5 arg6 harg6 arg7 harg7 arg8 harg8) K := by
  unfold held8
  iintro ⟨⟨⟨%d1, H1⟩, ⟨%d2, H2⟩, ⟨%d3, H3⟩, H4, H5, H6, ⟨%d7, H7⟩, ⟨%d8, H8⟩⟩, Hk⟩
  iapply ((Tile.runC c i arg1 harg1 arg2 harg2 arg3 harg3 arg4 harg4 arg5 harg5 arg6 harg6 arg7 harg7 arg8 harg8 hc1 hc2 d1 d2 d3 d7 d8).2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, ⟨%f4, H4⟩, ⟨%f5, H5⟩, ⟨%f6, H6⟩, ⟨%f7, H7⟩, ⟨%f8, H8⟩⟩
  iapply Hk
  isplitl [H1]; · iexists _; iexact H1
  isplitl [H2]; · iexists _; iexact H2
  isplitl [H3]; · iexists _; iexact H3
  isplitl [H4]
  · iexists _; iapply (owns_intro (c : Thread nD τ) arg4 fullShare _); iexact H4
  isplitl [H5]
  · iexists _; iapply (owns_intro (c : Thread nD τ) arg5 fullShare _); iexact H5
  isplitl [H6]
  · iexists _; iapply (owns_intro (c : Thread nD τ) arg6 fullShare _); iexact H6
  isplitl [H7]
  · iexists _; iapply (owns_intro (c : Thread nD τ) arg7 fullShare _); iexact H7
  iexists _; iapply (owns_intro (c : Thread nD τ) arg8 fullShare _); iexact H8

end Cert.Kernel.Vocab

end
-- ==== Proof.KF.VocabRegion.lean ====
import proofs.«160432_j12232066859333_1_alg».proof.Proof.KF.VocabBody

/-!
The vocabulary projection's pipeline (thirteen grid points over tiles of 4096 columns, the last tile overhanging
the arrays) with RELATIONAL proof data: the arrays' contents at entry are named, what the body leaves in a staging
buffer is not constrained at all. The invariant between points is the core's scoped buffers that are no staging
buffer — among them the two scratch cells the body carries its running maximum and running sum in — each at some
contents, and the generator register. That is all a claim about the ARGUMENT arrays needs: no window's array is an
argument the pipeline writes.
-/

set_option maxRecDepth 16384

noncomputable section

namespace Cert.Kernel.Vocab

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The relational proof data: the arrays as the region finds them; nothing said of what the body leaves in any
    staging buffer; the scoped rest and the generator register between points; nothing owed. -/
def rdat (c : Dev nD) : RDat τ (Elt F) Unit ℕ (UR sig nD τ) ℕ cfg1 c where
  A w := V c (Pipeline.arrRef spec1 w)
  after _ _ _ _ := True
  Φ _ := Pipeline.ΦA spec1 c
  q _ := fullShare
  owed _ := 0

/-- Which of the body's branches a grid point takes: the first point resets the scratch cells, the last copies
    them out, the others do neither. -/
theorem point_case : ∀ t : Fin grid1.N,
    (Tile.isFirst (grid1.coords t) ∧ ¬ Tile.isLast (grid1.coords t))
    ∨ (¬ Tile.isFirst (grid1.coords t) ∧ ¬ Tile.isLast (grid1.coords t))
    ∨ (¬ Tile.isFirst (grid1.coords t) ∧ Tile.isLast (grid1.coords t)) := by
  decide +kernel

/-- The body's run at any grid coordinate taking one of the three combinations of branches. -/
theorem sound_kernel (c : Dev nD) (E : Set ℕ) (i : grid1.Coords)
    (arg1 : Memref sig .tc .vmem S1x1024 .f32) (harg1 : arg1.IsWhole) (arg2 : Memref sig .tc .vmem S4096x1024 .f32) (harg2 : arg2.IsWhole)
    (arg3 : Memref sig .tc .vmem S1x4096 .f32) (harg3 : arg3.IsWhole) (arg4 : Memref sig .tc .vmem S1x4096 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (hcase : (Tile.isFirst i ∧ ¬ Tile.isLast i) ∨ (¬ Tile.isFirst i ∧ ¬ Tile.isLast i) ∨ (¬ Tile.isFirst i ∧ Tile.isLast i))
    (K : PUnit → sProp 𝕄) :
    iprop(held8 c arg1 arg2 arg3 arg4 arg5 arg6 arg7 arg8 ∗ (held8 c arg1 arg2 arg3 arg4 arg5 arg6 arg7 arg8 -∗ K ⟨⟩))
      ⊢ wp frame (wpE (defs₀ (F := F)) Variants.none c none) E
          (cc1_kernel i arg1 harg1 arg2 harg2 arg3 harg3 arg4 harg4 arg5 harg5 arg6 harg6 arg7 harg7 arg8 harg8) K := by
  rcases hcase with ⟨h1, h2⟩ | ⟨h1, h2⟩ | ⟨h1, h2⟩
  · exact sound_first c E i arg1 harg1 arg2 harg2 arg3 harg3 arg4 harg4 arg5 harg5 arg6 harg6 arg7 harg7 arg8 harg8 h1 h2 K
  · exact sound_middle c E i arg1 harg1 arg2 harg2 arg3 harg3 arg4 harg4 arg5 harg5 arg6 harg6 arg7 harg7 arg8 harg8 h1 h2 K
  · exact sound_last c E i arg1 harg1 arg2 harg2 arg3 harg3 arg4 harg4 arg5 harg5 arg6 harg6 arg7 harg7 arg8 harg8 h1 h2 K

/-- What the body is called with at point `t`, the windows one by one, each buffer at the contents handed over, -/
def bodyPre (c : Dev nD) (t : Fin cfg1.N) (Y : (w : Fin cfg1.W) → (cfg1.win w).block.Idx → Elt F (cfg1.win w).elt) : sProp 𝕄 :=
  iprop((rdat V c).Φ t.castSucc ∗ (rdat V c).owesAt () t.castSucc
    ∗ owns (c : Thread nD τ) (st1_0 t) fullShare (Y 0)
    ∗ owns (c : Thread nD τ) (st1_1 t) fullShare (Y 1)
    ∗ owns (c : Thread nD τ) (st1_2 t) fullShare (Y 2)
    ∗ owns (c : Thread nD τ) (st1_3 t) fullShare (Y 3)
    ∗ owns (c : Thread nD τ) (st1_4 t) fullShare (Y 4)
    ∗ owns (c : Thread nD τ) (st1_5 t) fullShare (Y 5))

/-- and what it returns: each buffer at some contents. -/
def bodyPost (c : Dev nD) (t : Fin cfg1.N) (Y : (w : Fin cfg1.W) → (cfg1.win w).block.Idx → Elt F (cfg1.win w).elt) : sProp 𝕄 :=
  iprop((rdat V c).Φ t.succ ∗ (rdat V c).owesAt () t.succ
    ∗ (∃ X, ⌜(rdat V c).after 0 t (Y 0) X⌝ ∗ owns (c : Thread nD τ) (st1_0 t) fullShare X)
    ∗ (∃ X, ⌜(rdat V c).after 1 t (Y 1) X⌝ ∗ owns (c : Thread nD τ) (st1_1 t) fullShare X)
    ∗ (∃ X, ⌜(rdat V c).after 2 t (Y 2) X⌝ ∗ owns (c : Thread nD τ) (st1_2 t) fullShare X)
    ∗ (∃ X, ⌜(rdat V c).after 3 t (Y 3) X⌝ ∗ owns (c : Thread nD τ) (st1_3 t) fullShare X)
    ∗ (∃ X, ⌜(rdat V c).after 4 t (Y 4) X⌝ ∗ owns (c : Thread nD τ) (st1_4 t) fullShare X)
    ∗ (∃ X, ⌜(rdat V c).after 5 t (Y 5) X⌝ ∗ owns (c : Thread nD τ) (st1_5 t) fullShare X))

set_option maxHeartbeats 4000000 in
/-- The body at the point: the two scratch cells come out of the invariant's scoped rest and go back into it; the
    staging buffers are handed over and taken back at whatever they hold; the core's dues pass through unread. -/
theorem sound_body (c : Dev nD) (t : Fin cfg1.N) (Y : (w : Fin cfg1.W) → (cfg1.win w).block.Idx → Elt F (cfg1.win w).elt) :
    bodyPre V c t Y ⊢ wp frame (wpE (defs₀ (F := F)) Variants.none c none) Set.univ (bodyAt1 t) (fun _ => bodyPost V c t Y) := by
  unfold bodyPre bodyPost bodyAt1
  rw [show (rdat V c).Φ t.succ = Pipeline.ΦA spec1 c from rfl, show (rdat V c).Φ t.castSucc = Pipeline.ΦA spec1 c from rfl,
    show (rdat V c).owesAt () t.succ = (rdat V c).owesAt () t.castSucc from rfl]
  unfold Pipeline.ΦA
  rw [scopedRest1_eq]
  iintro ⟨⟨⟨S0, S1, S2, S3, S4, S5, S6, S7, S8, S9, S10, S11, S12, ⟨%s0, Hs0⟩, ⟨%s1, Hs1⟩⟩, Hp⟩, Ho, H0, H1, H2, H3, H4, H5⟩
  iapply (sound_kernel c Set.univ _ _ _ _ _ _ _ _ _ _ _ _ _ _ _ _ _ (point_case t) _)
  unfold held8
  simp only [owns_whole]
  isplitl [H0 H1 H2 H3 H4 H5 Hs0 Hs1]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [Hs0]; · iexists s0; iexact Hs0
    iexists s1; iexact Hs1
  iintro ⟨⟨%x0, H0⟩, ⟨%x1, H1⟩, ⟨%x2, H2⟩, ⟨%x3, H3⟩, ⟨%x4, H4⟩, ⟨%x5, H5⟩, ⟨%y0, Hs0⟩, ⟨%y1, Hs1⟩⟩
  isplitl [S0 S1 S2 S3 S4 S5 S6 S7 S8 S9 S10 S11 S12 Hs0 Hs1 Hp]
  · isplitr [Hp]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [Hs0]; · iexists _; iexact Hs0
      iexists _; iexact Hs1
    iexact Hp
  isplitl [Ho]; · iexact Ho
  isplitl [H0]
  · iexists x0; isplitr; · ipureintro; trivial
    iexact H0
  isplitl [H1]
  · iexists x1; isplitr; · ipureintro; trivial
    iexact H1
  isplitl [H2]
  · iexists x2; isplitr; · ipureintro; trivial
    iexact H2
  isplitl [H3]
  · iexists x3; isplitr; · ipureintro; trivial
    iexact H3
  isplitl [H4]
  · iexists x4; isplitr; · ipureintro; trivial
    iexact H4
  iexists x5; isplitr; · ipureintro; trivial
  iexact H5

/-- The body obligation of the relational data, at every point: nothing of what the buffers may hold is used. -/
theorem body_obligation (c : Dev nD) : (rdat (F := F) V c).BodyObligation (defs₀ (F := F)) Variants.none () Set.univ := fun t Y _ => by
  rw [bigSep_W1, bigSep_W1]
  exact sound_body V c t Y

end Cert.Kernel.Vocab

end
-- ==== Proof.KF.Frame.lean ====
import proofs.«160432_j12232066859333_1_alg».proof.Proof.KF.StepRegion
import proofs.«160432_j12232066859333_1_alg».proof.Proof.KF.VocabRegion
import proofs.«160432_j12232066859333_1_alg».proof.Proof.Gen.Kernel.Regions
import Idealize.ShloMosaic.Lib.Pipeline.RegionsLoop

/-!
The frame of the whole program: from any memory with zero counters every weakly fair execution of @main
terminates, nothing faulting, with every argument array as launched.

@main is five segments: host operations, the recurrent step's region, one host reshape, the vocabulary projection's
region, five host operations. The step's region is read with EXACT proof data (its new hidden state is the entry
contents of an operand of the second region, and a region's entry contents must be named); the projection's region
with RELATIONAL data that say nothing of what it leaves. So the thread state is a named valuation of the unscoped
buffers up to the second region's entry, and from its exit on SOME valuation that has every argument array as
launched: no host operation writes an argument, a region writes its result windows' arrays only, and no argument
is one.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-! ## The buffers' contents up to the second region's entry -/

/-- At launch. -/
abbrev W0 : Dev nD → Valuation τ sig (Elt F) := fun c => V0 m c
/-- After the first host stretch (the step region's entry). -/
abbrev W1 : Dev nD → Valuation τ sig (Elt F) := fun c => StableHlo.after hostOps0 (W0 m c)
/-- The same read at the TensorCore's references. -/
abbrev U1 : (c : Dev nD) → (b : Ref sig .tc) → Buf (Elt F) ((c : Thread nD τ).loc b) := fun c b => W1 m c b
/-- At the step region's exit: its arrays at what the pipeline leaves, every other buffer as entered. -/
def W2 (c : Dev nD) : Valuation τ sig (Elt F) :=
  Pipeline.withArrays spec0 c (W1 m c) fun w => (Step.dat (U1 m) c).arrAt w cfg0.N
theorem W2_arr (c : Dev nD) (w : Fin cfg0.W) :
    W2 m c (Proc.devRef .tc (Pipeline.arrRef spec0 w)) = (Step.dat (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
/-- After the host reshape (the projection region's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b

/-! ## What an argument array sees -/

/-- The argument arrays. -/
abbrev argL : List (Ref sig .tc) := [main_arg0, main_arg1, main_arg2, main_arg3, main_arg4, main_arg5, main_arg6, main_arg7, main_arg8, main_arg9, main_arg10, main_arg11, main_arg12, main_arg13]

/-- No host stretch writes an argument array, and where a region has one as a window's array the window is an
    operand. -/
theorem argL_quiet : ∀ b ∈ argL,
    (b ∉ hostOps0_W ∧ b ∉ hostOps1_W ∧ b ∉ hostOps2_W)
    ∧ (∀ w : Fin 13, Pipeline.arrRef spec0 w = b → (spec0 w).isOut = false)
    ∧ (∀ w : Fin 6, Pipeline.arrRef spec1 w = b → (spec1 w).isOut = false) := by
  decide

/-- A valuation of the core's buffers that has every argument array as launched. -/
def Keeps (c : Dev nD) (V : Valuation τ sig (Elt F)) : Prop :=
  ∀ b ∈ argL, V (Proc.devRef .tc b) = m ((c : Thread nD τ).loc b)

theorem keeps1 (c : Dev nD) : Keeps m c (W1 m c) := fun b hb =>
  V1_of m c b (argL_quiet b hb).1.1

theorem W2_quiet (c : Dev nD) (b : Ref sig .tc) (hb : ∀ w : Fin 13, Pipeline.arrRef spec0 w = b → (spec0 w).isOut = false) :
    W2 m c (Proc.devRef .tc b) = W1 m c (Proc.devRef .tc b) := by
  by_cases h : ∃ w, Pipeline.arrRef spec0 w = b
  · obtain ⟨w, rfl⟩ := h
    exact (W2_arr m c w).trans (((Step.dat (U1 m) c).arrAt_in w (hb w rfl) _).trans (Step.A_eq (U1 m) c w))
  · exact W2_of_ne m c b fun w e => h ⟨w, e⟩

theorem keeps2 (c : Dev nD) : Keeps m c (W2 m c) := fun b hb =>
  (W2_quiet m c b (argL_quiet b hb).2.1).trans (keeps1 m c b hb)

theorem keeps3 (c : Dev nD) : Keeps m c (W3 m c) := fun b hb =>
  (StableHlo.after_of_writes_sub hostOps1 _ hostOps1_writes (argL_quiet b hb).1.2.1).trans (keeps2 m c b hb)

/-! ## The proof data family and the thread state -/

/-- Every pipeline's proof data, each at its region's entry contents: the step's exact data read relationally,
    the projection's relational data. -/
def rdats : (p : Fin 2) → (c : Dev nD) → RDat τ (Elt F) Unit ℕ (UR sig nD τ) ℕ (Pipeline.pin (pcfgs (F := F)) adm p) c
  | ⟨0, _⟩ => fun c => (Step.dat (U1 m) c).toR
  | ⟨1, _⟩ => fun c => Vocab.rdat (U3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)

/-- A host stretch as a segment from named contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The thread state from the second region's exit on, without the dues: every unscoped buffer at SOME contents
    that have the arguments as launched, the generator register at some state. -/
abbrev Tₙ (c : Dev nD) : sProp 𝕄 :=
  iprop(∃ V : Valuation τ sig (Elt F), ⌜Keeps m c V⌝ ∗ StableHlo.held (c : Thread nD τ) (Pipeline.ucRefs τ sig) V ∗ ∃ r, prngReg c r)
/-- The same beside the dues. -/
abbrev Tx (c : Dev nD) : sProp 𝕄 :=
  iprop(∃ V : Valuation τ sig (Elt F), ⌜Keeps m c V⌝ ∗ StableHlo.held (c : Thread nD τ) (Pipeline.ucRefs τ sig) V ∗ R c)

set_option backward.isDefEq.respectTransparency.types false in
/-- A host stretch that writes no argument array, as a segment from SOME contents that have the arguments as
    launched to some such contents. -/
def hsegEx (ops : List (HloOp τ sig (Elt F))) (hsub : ops.Forall fun op => op.bufs ⊆ StableHlo.tcRefs τ sig)
    (hfresh : ops.Forall fun op => op.fresh = ∅)
    (hkeep : ∀ c V, Keeps m c V → Keeps m c (StableHlo.after ops V)) :
    Pipeline.HostSeg (Name := ℕ) (U := UR sig nD τ) (pcfgs (F := F)) defs₀ 𝒱₀ L lv where
  prog := StableHlo.seq ops
  pre c := iprop(∃ V : Valuation τ sig (Elt F), ⌜Keeps m c V⌝ ∗ StableHlo.held (c : Thread nD τ) (Pipeline.ucRefs τ sig) V ∗ R c)
  post c := iprop(∃ V : Valuation τ sig (Elt F), ⌜Keeps m c V⌝ ∗ StableHlo.held (c : Thread nD τ) (Pipeline.ucRefs τ sig) V ∗ R c)
  run c {β} k K := by
    have hseq := fun V => StableHlo.wp_seq (defs := Pipeline.defs (pcfgs (F := F)) defs₀) (Variants.lift 𝒱₀) none Set.univ c (Pipeline.ucRefs τ sig) k (K := K) ops
      (fun op h => Pipeline.sub_ucRefs op ((List.forall_iff_forall_mem.mp hsub) op h))
      (fun op h => (List.forall_iff_forall_mem.mp hfresh) op h) V
    iintro ⟨Hk, Hbd, ⟨%V, %hV, Hh, HR⟩, -⟩
    iapply (hseq V) $$ [Hbd Hh]
    · isplitl [Hbd] <;> iassumption
    iintro ⟨Hbd, Hh⟩
    iapply Hk
    isplitl [Hbd]; · iexact Hbd
    iexists _; isplitr; · ipureintro; exact hkeep c V hV
    isplitl [Hh]; · iexact Hh
    iexact HR

/-! ## The regions as segments -/

/-- The step pipeline's arrays at what it leaves beside the unscoped rest as entered are the core's unscoped
    buffers at the exit valuation. -/
theorem join0 (c : Dev nD) :
    iprop((bigSep Finset.univ fun w : Fin 13 => (((c.tc : Thread nD τ).loc (Pipeline.arrRef spec0 w)) ↦{fullShare} (Step.dat (U1 m) c).arrAt w cfg0.N : sProp 𝕄))
        ∗ Pipeline.unscopedRest (Ix := Unit) (Name := ℕ) (U := UR sig nD τ) (Lvl := ℕ) spec0 c (U1 m c))
      ⊢ (StableHlo.held (c : Thread nD τ) (Pipeline.ucRefs τ sig) (W2 m c) : sProp 𝕄) := by
  rw [← Pipeline.unscopedBufs_held, Pipeline.unscopedBufs_split cfgs 0 launch0.win.arr_unscoped launch0.win.arr_inj c]
  refine BIClass.sep_mono (Entails.of_eq (bigSep_congr fun w _ => by
    rw [show W2 m c (Proc.devRef .tc (Pipeline.arrRef (cfgs 0).spec w)) = (Step.dat (U1 m) c).arrAt w cfg0.N from W2_arr m c w]; rfl)) (Entails.of_eq ?_)
  unfold Pipeline.unscopedRest
  exact bigSep_congr fun b hb => by
    beta_reduce
    rw [W2_of_ne m c b fun w e => (Finset.mem_sdiff.mp hb).2 (Finset.mem_image.mpr ⟨w, Finset.mem_univ _, e⟩)]

set_option backward.isDefEq.respectTransparency.types false in
/-- The recurrent step's region over the thread state: entered from every unscoped buffer at `W1`, left at `W2`. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (Step.body_obligation (U1 m) c).loose.toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := join0 m c
    rw [show (rdats m 0 c).arraysAt (Pipeline.pin (pcfgs (F := F)) adm 0).N
        = bigSep Finset.univ fun w : Fin 13 => (((c.tc : Thread nD τ).loc (Pipeline.arrRef spec0 w)) ↦{fullShare} (Step.dat (U1 m) c).arrAt w cfg0.N : sProp 𝕄)
      from ((Step.dat (U1 m) c).toR_arraysAt_eq cfg0.N).trans
        (Pipeline.RDat.arrays_eq (pcfgs (F := F)) adm (rdats m) 0 c launch0.arr_whole ((rdats m 0 c).share_full fun _ => rfl) _)]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-- The arrays of the projection's pipeline at contents `A` beside the unscoped rest at `V` are the core's
    unscoped buffers at `V` with the arrays put at `A`. -/
theorem join1 (c : Dev nD) (A : (w : Fin 6) → Buf (Elt F) ((spec1 w).arr.view.loc (c.tc : Thread nD τ))) :
    iprop((bigSep Finset.univ fun w : Fin 6 => (((c.tc : Thread nD τ).loc (Pipeline.arrRef spec1 w)) ↦{fullShare} A w : sProp 𝕄))
        ∗ Pipeline.unscopedRest (Ix := Unit) (Name := ℕ) (U := UR sig nD τ) (Lvl := ℕ) spec1 c (U3 m c))
      ⊢ (StableHlo.held (c : Thread nD τ) (Pipeline.ucRefs τ sig) (Pipeline.withArrays spec1 c (W3 m c) A) : sProp 𝕄) := by
  rw [← Pipeline.unscopedBufs_held, Pipeline.unscopedBufs_split cfgs 1 launch1.win.arr_unscoped launch1.win.arr_inj c]
  refine BIClass.sep_mono (Entails.of_eq (bigSep_congr fun w _ => by
    rw [show Pipeline.withArrays spec1 c (W3 m c) A (Proc.devRef .tc (Pipeline.arrRef (cfgs 1).spec w)) = A w from Pipeline.withArrays_arr spec1 launch1.win.arr_inj c _ _ w]; rfl)) (Entails.of_eq ?_)
  unfold Pipeline.unscopedRest
  exact bigSep_congr fun b hb => by
    beta_reduce
    rw [Pipeline.withArrays_of_ne spec1 c _ _ b fun w e => (Finset.mem_sdiff.mp hb).2 (Finset.mem_image.mpr ⟨w, Finset.mem_univ _, e⟩)]

/-- The valuation the projection's region leaves has the arguments as launched, whatever its result windows hold:
    an argument that is a window's array is an operand's, which the pipeline leaves as entered. -/
theorem keeps4 (c : Dev nD) (A : (w : Fin 6) → Buf (Elt F) ((spec1 w).arr.view.loc (c.tc : Thread nD τ)))
    (hA : ∀ w, (rdats m 1 c).ArrAt w (Pipeline.pin (pcfgs (F := F)) adm 1).N (A w)) :
    Keeps m c (Pipeline.withArrays spec1 c (W3 m c) A) := fun b hb => by
  refine Eq.trans ?_ (keeps3 m c b hb)
  by_cases h : ∃ w, Pipeline.arrRef spec1 w = b
  · obtain ⟨w, rfl⟩ := h
    have hw := hA w
    rw [(rdats m 1 c).ArrAt_in w ((argL_quiet _ hb).2.2 w rfl)] at hw
    exact (Pipeline.withArrays_arr spec1 launch1.win.arr_inj c _ _ w).trans hw
  · exact Pipeline.withArrays_of_ne spec1 c _ _ b fun w e => h ⟨w, e⟩

set_option backward.isDefEq.respectTransparency.types false in
/-- The vocabulary projection's region over the thread state: entered from every unscoped buffer at `W3`, left at
    some contents that have the arguments as launched. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := Vocab.body_obligation (U3 m) c
  hwaits := Pipeline.RDat.hwaits_of_owed_zero _ _ _ _ L lv 1 fun _ _ => rfl
  pre c := iprop(StableHlo.held (c : Thread nD τ) (Pipeline.ucRefs τ sig) (W3 m c) ∗ R c)
  post c := Tx m c
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    unfold Pipeline.RDat.arraysAt
    iintro ⟨Ha, HO, HY, Hrest⟩
    ihave Ha' := (BI.bigSep_exists_pi Finset.univ (fun w G => iprop(⌜(rdats m 1 c).ArrAt w (Pipeline.pin (pcfgs (F := F)) adm 1).N G⌝
        ∗ ((Pipeline.pin (pcfgs (F := F)) adm 1).win w).arr.view.loc (c.tc : Thread nD τ) ↦[((Pipeline.pin (pcfgs (F := F)) adm 1).win w).arr.view.set]{(rdats m 1 c).share w} G))) $$ Ha
    icases Ha' with ⟨%A, Ha⟩
    ihave Ha2 := (BI.bigSep_pure_sep Finset.univ (fun w => (rdats m 1 c).ArrAt w (Pipeline.pin (pcfgs (F := F)) adm 1).N (A w))
        (fun w => ((Pipeline.pin (pcfgs (F := F)) adm 1).win w).arr.view.loc (c.tc : Thread nD τ) ↦[((Pipeline.pin (pcfgs (F := F)) adm 1).win w).arr.view.set]{(rdats m 1 c).share w} A w)) $$ Ha
    icases Ha2 with ⟨%hA', Ha⟩
    imodintro
    iexists Pipeline.withArrays spec1 c (W3 m c) A
    isplitr; · ipureintro; exact keeps4 m c A fun w => hA' w (Finset.mem_univ w)
    isplitl [Ha Hrest]
    · iapply (join1 m c A)
      isplitl [Ha]
      · iapply (Entails.of_eq (bigSep_congr (fun w _ => by rw [(launch1.arr_whole w).set_eq_univ, (rdats m 1 c).share_full (fun _ => rfl) w]; rfl) :
          (bigSep Finset.univ fun w => (((Pipeline.pin (pcfgs (F := F)) adm 1).win w).arr.view.loc (c.tc : Thread nD τ) ↦[((Pipeline.pin (pcfgs (F := F)) adm 1).win w).arr.view.set]{(rdats m 1 c).share w} A w : sProp 𝕄))
            = bigSep Finset.univ fun w : Fin 6 => (((c.tc : Thread nD τ).loc (Pipeline.arrRef spec1 w)) ↦{fullShare} A w : sProp 𝕄)))
        iexact Ha
      iexact Hrest
    isplitl [HY]; · iexact HY
    unfold Pipeline.RDat.owesAt Pipeline.owesWithin
    icases HO with ⟨%W, -, HO⟩; iexists W; iexact HO

/-! ## @main as segments, and the launch -/

theorem keep_hostOps2 (c : Dev nD) (V : Valuation τ sig (Elt F)) (h : Keeps m c V) : Keeps m c (StableHlo.after hostOps2 V) := fun b hb =>
  (StableHlo.after_of_writes_sub hostOps2 _ hostOps2_writes (argL_quiet b hb).1.2.2).trans (h b hb)

/-- @main's five segments in order. -/
abbrev segs : List (Pipeline.RDat.Seg (pcfgs (F := F)) adm (rdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hsegEx m hostOps2 hostOps2_sub hostOps2_fresh (keep_hostOps2 m)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem argL_unscoped : ∀ b ∈ argL, ¬ (Proc.devRef .tc b : DevRef τ sig).isScoped := by decide

variable (ρ : Dev nD → PrngReg)

set_option backward.isDefEq.respectTransparency.types false in
/-- THE FRAME: from any memory with zero counters, every weakly fair execution of @main on the TensorCores
    terminates, nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.RDat.θ_run_regions_kit (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => show (Tx m c ⊢ iprop(Tₙ m c ∗ ∃ W, owes (c.tc : Thread nD τ) (0 : CellTallies nD τ sig Unit) W)) from by
      iintro ⟨%V, %hV, Hh, Hp, HO⟩
      isplitr [HO]
      · iexists V; isplitr; · ipureintro; exact hV
        isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ argL, s.mem ((c.tc : Thread nD τ).loc b) = m ((c.tc : Thread nD τ).loc b))
    (hfin := fun c s' => by
      iintro ⟨⟨%V, %hV, Hh, -⟩, HSI⟩
      unfold StableHlo.held
      ihave Hr := (pointsTo_read_all (Pipeline.ucRefs τ sig) (fun b => (((c : Thread nD τ)).1, b)) V s') $$ [Hh HSI]
      · isplitl [Hh] <;> iassumption
      icases Hr with ⟨%h, HSI⟩
      imodintro
      isplitr
      · ipureintro
        exact fun b hb => (h (Proc.devRef .tc b) (mem_uc b (argL_unscoped b hb))).trans (hV b hb)
      · iexact HSI)
    (hQ := fun s h c =>
      ⟨h c main_arg0 (by decide), h c main_arg1 (by decide), h c main_arg2 (by decide), h c main_arg3 (by decide), h c main_arg4 (by decide), h c main_arg5 (by decide), h c main_arg6 (by decide), h c main_arg7 (by decide), h c main_arg8 (by decide), h c main_arg9 (by decide), h c main_arg10 (by decide), h c main_arg11 (by decide), h c main_arg12 (by decide), h c main_arg13 (by decide)⟩)

end Cert.Kernel.Hand

end
-- ==== Proof.Ref.Stretches.lean ====
import proofs.«160432_j12232066859333_1_alg».proof.Proof.Ref.Stages

/-!
# The reference's operations in eight stretches, each read over named stages

The reference is a straight line of 107 host operations, and what a buffer holds after the line is the fold of the
operations' results over the contents it started from. That fold is read here in eight stretches:
the token id's normalisation (operations 1–14), the dynamic slice that takes the embedded row (15), the attention
weights (16–37), the combining layer and its relu (38–46), the GRU's pre-activations (47–60), its gates and the new state (61–87), the vocabulary logits (88–91), and their
log-softmax with the returned hidden state (92–107). After a stretch the valuation is an arbitrary one about which
only the few buffers later stretches read are known: each at its stage — the value its operation writes as a
function of the argument arrays — and the argument arrays as launched. So each result of @main is its stage of the
fourteen argument arrays, and no operation writes an argument.
-/

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! ## The eight stretches -/

/-- The token id read as a scalar and a negative id counted from the end of the table; the second start index. -/
abbrev opsA : List (HloOp τ sig (Elt F)) :=
  [ reshape main_arg0 main_v0 rfl shapeCasts_S1_S_,
    nullary main_c (constantI S_ 32 0#32),
    binary main_v0 main_c main_v1 (cmpi .slt : (⟨S_, .i32⟩ : BufTy).Contents (Elt F) → (⟨S_, .i32⟩ : BufTy).Contents (Elt F) → (⟨S_, .i1⟩ : BufTy).Contents (Elt F)),
    nullary main_c_0 (constantI S_ 32 50257#32),
    binary main_v0 main_c_0 main_v2 (addi : (⟨S_, .i32⟩ : BufTy).Contents (Elt F) → (⟨S_, .i32⟩ : BufTy).Contents (Elt F) → (⟨S_, .i32⟩ : BufTy).Contents (Elt F)),
    ternary main_v1 main_v2 main_v0 main_v3 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1 (constantI S_ 32 0#32),
    nullary main_c_2 (constantI S_ 32 0#32),
    binary main_c_1 main_c_2 main_v4 (cmpi .slt : (⟨S_, .i32⟩ : BufTy).Contents (Elt F) → (⟨S_, .i32⟩ : BufTy).Contents (Elt F) → (⟨S_, .i1⟩ : BufTy).Contents (Elt F)),
    nullary main_c_3 (constantI S_ 32 0#32),
    nullary main_c_4 (constantI S_ 32 1024#32),
    binary main_c_3 main_c_4 main_v5 (addi : (⟨S_, .i32⟩ : BufTy).Contents (Elt F) → (⟨S_, .i32⟩ : BufTy).Contents (Elt F) → (⟨S_, .i32⟩ : BufTy).Contents (Elt F)),
    nullary main_c_5 (constantI S_ 32 0#32),
    ternary main_v4 main_v5 main_c_5 main_v6 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

/-- The dynamic slice: one row of the embedding table. -/
abbrev opsS : List (HloOp τ sig (Elt F)) :=
  [ unaryIndexed main_arg3 ![main_v3, main_v6] ⟨S_, .i32⟩ main_v7 ((fun x i => Host.dynamicSlice S1x1024 x (fun k => (i k (Shape.Idx.first h_S_)).toInt) sliceFits_S50257x1024_S1x1024) : (⟨S50257x1024, .f32⟩ : BufTy).Contents (Elt F) → (Fin 2 → (⟨S_, .i32⟩ : BufTy).Contents (Elt F)) → (⟨S1x1024, .f32⟩ : BufTy).Contents (Elt F)) ]

/-- The embedded row and the hidden state side by side against the attention matrix, and the softmax of the logits. -/
abbrev opsB : List (HloOp τ sig (Elt F)) :=
  [ reshape main_v7 main_v8 rfl shapeCasts_S1x1024_S1024,
    unary main_v8 main_v9 (broadcastInDim S1x1024 ![1] bcast_S1024_S1x1024_1 : (⟨S1024, .f32⟩ : BufTy).Contents (Elt F) → (⟨S1x1024, .f32⟩ : BufTy).Contents (Elt F)),
    reshape main_arg1 main_v10 rfl shapeCasts_S1x1x1024_S1x1024,
    binary main_v9 main_v10 main_v11 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg4 main_v12 ((transpose S2048x18 [1, 0] · transposes_S18x2048_S2048x18_1_0) : (⟨S18x2048, .f32⟩ : BufTy).Contents (Elt F) → (⟨S2048x18, .f32⟩ : BufTy).Contents (Elt F)),
    binary main_v11 main_v12 main_v13 ((fun l r => Host.dotGeneral dot_S1x2048_S2048x18_S1x18_1_0_0_1_n_n none l r) : (⟨S1x2048, .f32⟩ : BufTy).Contents (Elt F) → (⟨S2048x18, .f32⟩ : BufTy).Contents (Elt F) → (⟨S1x18, .f32⟩ : BufTy).Contents (Elt F)),
    unary main_arg5 main_v14 (broadcastInDim S1x18 ![1] bcast_S18_S1x18_1 : (⟨S18, .f32⟩ : BufTy).Contents (Elt F) → (⟨S1x18, .f32⟩ : BufTy).Contents (Elt F)),
    binary main_v13 main_v14 main_v15 (addf : (⟨S1x18, .f32⟩ : BufTy).Contents (Elt F) → (⟨S1x18, .f32⟩ : BufTy).Contents (Elt F) → (⟨S1x18, .f32⟩ : BufTy).Contents (Elt F)),
    nullary main_cst (constant S_ .f32 0xFF800000#32),
    binary main_v15 main_cst main_v16 ((fun x v => Host.reduce FloatOps.maximumf x v reducesTo_S1x18_S1_d1 h_S_) : (⟨S1x18, .f32⟩ : BufTy).Contents (Elt F) → (⟨S_, .f32⟩ : BufTy).Contents (Elt F) → (⟨S1, .f32⟩ : BufTy).Contents (Elt F)),
    nullary main_cst_6 (constant S_ .f32 0xFF800000#32),
    unary main_cst_6 main_v17 (broadcastInDim S1 ![] bcast_S_S1 : (⟨S_, .f32⟩ : BufTy).Contents (Elt F) → (⟨S1, .f32⟩ : BufTy).Contents (Elt F)),
    binary main_v17 main_v16 main_v18 (maximumf : (⟨S1, .f32⟩ : BufTy).Contents (Elt F) → (⟨S1, .f32⟩ : BufTy).Contents (Elt F) → (⟨S1, .f32⟩ : BufTy).Contents (Elt F)),
    unary main_v18 main_v19 (broadcastInDim S1x1 ![0] bcast_S1_S1x1_0 : (⟨S1, .f32⟩ : BufTy).Contents (Elt F) → (⟨S1x1, .f32⟩ : BufTy).Contents (Elt F)),
    unary main_v19 main_v20 (broadcastInDim S1x18 ![0, 1] bcast_S1x1_S1x18_0_1 : (⟨S1x1, .f32⟩ : BufTy).Contents (Elt F) → (⟨S1x18, .f32⟩ : BufTy).Contents (Elt F)),
    binary main_v15 main_v20 main_v21 (subf : (⟨S1x18, .f32⟩ : BufTy).Contents (Elt F) → (⟨S1x18, .f32⟩ : BufTy).Contents (Elt F) → (⟨S1x18, .f32⟩ : BufTy).Contents (Elt F)),
    unary main_v21 main_v22 (Host.exp : (⟨S1x18, .f32⟩ : BufTy).Contents (Elt F) → (⟨S1x18, .f32⟩ : BufTy).Contents (Elt F)),
    nullary main_cst_7 (constant S_ .f32 0x00000000#32),
    binary main_v22 main_cst_7 main_v23 ((fun x v => Host.reduceAdd x v reducesTo_S1x18_S1_d1 h_S_) : (⟨S1x18, .f32⟩ : BufTy).Contents (Elt F) → (⟨S_, .f32⟩ : BufTy).Contents (Elt F) → (⟨S1, .f32⟩ : BufTy).Contents (Elt F)),
    unary main_v23 main_v24 (broadcastInDim S1x1 ![0] bcast_S1_S1x1_0 : (⟨S1, .f32⟩ : BufTy).Contents (Elt F) → (⟨S1x1, .f32⟩ : BufTy).Contents (Elt F)),
    unary main_v24 main_v25 (broadcastInDim S1x18 ![0, 1] bcast_S1x1_S1x18_0_1 : (⟨S1x1, .f32⟩ : BufTy).Contents (Elt F) → (⟨S1x18, .f32⟩ : BufTy).Contents (Elt F)),
    binary main_v22 main_v25 main_v26 (Host.divf : (⟨S1x18, .f32⟩ : BufTy).Contents (Elt F) → (⟨S1x18, .f32⟩ : BufTy).Contents (Elt F) → (⟨S1x18, .f32⟩ : BufTy).Contents (Elt F)) ]

/-- The attended context, the combining layer and its relu. -/
abbrev opsC : List (HloOp τ sig (Elt F)) :=
  [ binary main_v26 main_arg2 main_v27 ((fun l r => Host.dotGeneral dot_S1x18_S18x1024_S1x1024_1_0_0_1_n_n none l r) : (⟨S1x18, .f32⟩ : BufTy).Contents (Elt F) → (⟨S18x1024, .f32⟩ : BufTy).Contents (Elt F) → (⟨S1x1024, .f32⟩ : BufTy).Contents (Elt F)),
    binary main_v9 main_v27 main_v28 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg6 main_v29 ((transpose S2048x1024 [1, 0] · transposes_S1024x2048_S2048x1024_1_0) : (⟨S1024x2048, .f32⟩ : BufTy).Contents (Elt F) → (⟨S2048x1024, .f32⟩ : BufTy).Contents (Elt F)),
    binary main_v28 main_v29 main_v30 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg7 main_v31 (broadcastInDim S1x1024 ![1] bcast_S1024_S1x1024_1 : (⟨S1024, .f32⟩ : BufTy).Contents (Elt F) → (⟨S1x1024, .f32⟩ : BufTy).Contents (Elt F)),
    binary main_v30 main_v31 main_v32 (addf : (⟨S1x1024, .f32⟩ : BufTy).Contents (Elt F) → (⟨S1x1024, .f32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v32) (TRef.of (T := ⟨S1x1024, .f32⟩) main_call0_v0) (TRef.of (T := ⟨S1x1024, .f32⟩) main_v33) maximumf ]

/-- The GRU's input-side and hidden-side pre-activations, each cut into its reset, update and new thirds. -/
abbrev opsD : List (HloOp τ sig (Elt F)) :=
  [ unary main_arg8 main_v34 ((transpose S1024x3072 [1, 0] · transposes_S3072x1024_S1024x3072_1_0) : (⟨S3072x1024, .f32⟩ : BufTy).Contents (Elt F) → (⟨S1024x3072, .f32⟩ : BufTy).Contents (Elt F)),
    binary main_v33 main_v34 main_v35 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg10 main_v36 (broadcastInDim S1x3072 ![1] bcast_S3072_S1x3072_1 : (⟨S3072, .f32⟩ : BufTy).Contents (Elt F) → (⟨S1x3072, .f32⟩ : BufTy).Contents (Elt F)),
    binary main_v35 main_v36 main_v37 (addf : (⟨S1x3072, .f32⟩ : BufTy).Contents (Elt F) → (⟨S1x3072, .f32⟩ : BufTy).Contents (Elt F) → (⟨S1x3072, .f32⟩ : BufTy).Contents (Elt F)),
    unary main_arg9 main_v38 ((transpose S1024x3072 [1, 0] · transposes_S3072x1024_S1024x3072_1_0) : (⟨S3072x1024, .f32⟩ : BufTy).Contents (Elt F) → (⟨S1024x3072, .f32⟩ : BufTy).Contents (Elt F)),
    binary main_v10 main_v38 main_v39 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg11 main_v40 (broadcastInDim S1x3072 ![1] bcast_S3072_S1x3072_1 : (⟨S3072, .f32⟩ : BufTy).Contents (Elt F) → (⟨S1x3072, .f32⟩ : BufTy).Contents (Elt F)),
    binary main_v39 main_v40 main_v41 (addf : (⟨S1x3072, .f32⟩ : BufTy).Contents (Elt F) → (⟨S1x3072, .f32⟩ : BufTy).Contents (Elt F) → (⟨S1x3072, .f32⟩ : BufTy).Contents (Elt F)),
    unary main_v37 main_v42 ((extractStridedSlice S1x1024 ![0, 0] · slices_S1x3072_S1x1024_0_0) : (⟨S1x3072, .f32⟩ : BufTy).Contents (Elt F) → (⟨S1x1024, .f32⟩ : BufTy).Contents (Elt F)),
    unary main_v37 main_v43 ((extractStridedSlice S1x1024 ![0, 1024] · slices_S1x3072_S1x1024_0_1024) : (⟨S1x3072, .f32⟩ : BufTy).Contents (Elt F) → (⟨S1x1024, .f32⟩ : BufTy).Contents (Elt F)),
    unary main_v37 main_v44 ((extractStridedSlice S1x1024 ![0, 2048] · slices_S1x3072_S1x1024_0_2048) : (⟨S1x3072, .f32⟩ : BufTy).Contents (Elt F) → (⟨S1x1024, .f32⟩ : BufTy).Contents (Elt F)),
    unary main_v41 main_v45 ((extractStridedSlice S1x1024 ![0, 0] · slices_S1x3072_S1x1024_0_0) : (⟨S1x3072, .f32⟩ : BufTy).Contents (Elt F) → (⟨S1x1024, .f32⟩ : BufTy).Contents (Elt F)),
    unary main_v41 main_v46 ((extractStridedSlice S1x1024 ![0, 1024] · slices_S1x3072_S1x1024_0_1024) : (⟨S1x3072, .f32⟩ : BufTy).Contents (Elt F) → (⟨S1x1024, .f32⟩ : BufTy).Contents (Elt F)),
    unary main_v41 main_v47 ((extractStridedSlice S1x1024 ![0, 2048] · slices_S1x3072_S1x1024_0_2048) : (⟨S1x3072, .f32⟩ : BufTy).Contents (Elt F) → (⟨S1x1024, .f32⟩ : BufTy).Contents (Elt F)) ]

/-- The GRU's gates and the new hidden state. -/
abbrev opsG : List (HloOp τ sig (Elt F)) :=
  [ binary main_v42 main_v45 main_v48 (addf : (⟨S1x1024, .f32⟩ : BufTy).Contents (Elt F) → (⟨S1x1024, .f32⟩ : BufTy).Contents (Elt F) → (⟨S1x1024, .f32⟩ : BufTy).Contents (Elt F)),
    unary main_v48 main_v49 (Host.negf : (⟨S1x1024, .f32⟩ : BufTy).Contents (Elt F) → (⟨S1x1024, .f32⟩ : BufTy).Contents (Elt F)),
    unary main_v49 main_v50 (Host.exp : (⟨S1x1024, .f32⟩ : BufTy).Contents (Elt F) → (⟨S1x1024, .f32⟩ : BufTy).Contents (Elt F)),
    nullary main_cst_8 (constant S_ .f32 0x3F800000#32),
    unary main_cst_8 main_v51 (broadcastInDim S1x1024 ![] bcast_S_S1x1024 : (⟨S_, .f32⟩ : BufTy).Contents (Elt F) → (⟨S1x1024, .f32⟩ : BufTy).Contents (Elt F)),
    binary main_v51 main_v50 main_v52 (addf : (⟨S1x1024, .f32⟩ : BufTy).Contents (Elt F) → (⟨S1x1024, .f32⟩ : BufTy).Contents (Elt F) → (⟨S1x1024, .f32⟩ : BufTy).Contents (Elt F)),
    nullary main_cst_9 (constant S_ .f32 0x3F800000#32),
    unary main_cst_9 main_v53 (broadcastInDim S1x1024 ![] bcast_S_S1x1024 : (⟨S_, .f32⟩ : BufTy).Contents (Elt F) → (⟨S1x1024, .f32⟩ : BufTy).Contents (Elt F)),
    binary main_v53 main_v52 main_v54 (Host.divf : (⟨S1x1024, .f32⟩ : BufTy).Contents (Elt F) → (⟨S1x1024, .f32⟩ : BufTy).Contents (Elt F) → (⟨S1x1024, .f32⟩ : BufTy).Contents (Elt F)),
    binary main_v43 main_v46 main_v55 (addf : (⟨S1x1024, .f32⟩ : BufTy).Contents (Elt F) → (⟨S1x1024, .f32⟩ : BufTy).Contents (Elt F) → (⟨S1x1024, .f32⟩ : BufTy).Contents (Elt F)),
    unary main_v55 main_v56 (Host.negf : (⟨S1x1024, .f32⟩ : BufTy).Contents (Elt F) → (⟨S1x1024, .f32⟩ : BufTy).Contents (Elt F)),
    unary main_v56 main_v57 (Host.exp : (⟨S1x1024, .f32⟩ : BufTy).Contents (Elt F) → (⟨S1x1024, .f32⟩ : BufTy).Contents (Elt F)),
    nullary main_cst_10 (constant S_ .f32 0x3F800000#32),
    unary main_cst_10 main_v58 (broadcastInDim S1x1024 ![] bcast_S_S1x1024 : (⟨S_, .f32⟩ : BufTy).Contents (Elt F) → (⟨S1x1024, .f32⟩ : BufTy).Contents (Elt F)),
    binary main_v58 main_v57 main_v59 (addf : (⟨S1x1024, .f32⟩ : BufTy).Contents (Elt F) → (⟨S1x1024, .f32⟩ : BufTy).Contents (Elt F) → (⟨S1x1024, .f32⟩ : BufTy).Contents (Elt F)),
    nullary main_cst_11 (constant S_ .f32 0x3F800000#32),
    unary main_cst_11 main_v60 (broadcastInDim S1x1024 ![] bcast_S_S1x1024 : (⟨S_, .f32⟩ : BufTy).Contents (Elt F) → (⟨S1x1024, .f32⟩ : BufTy).Contents (Elt F)),
    binary main_v60 main_v59 main_v61 (Host.divf : (⟨S1x1024, .f32⟩ : BufTy).Contents (Elt F) → (⟨S1x1024, .f32⟩ : BufTy).Contents (Elt F) → (⟨S1x1024, .f32⟩ : BufTy).Contents (Elt F)),
    binary main_v54 main_v47 main_v62 (mulf : (⟨S1x1024, .f32⟩ : BufTy).Contents (Elt F) → (⟨S1x1024, .f32⟩ : BufTy).Contents (Elt F) → (⟨S1x1024, .f32⟩ : BufTy).Contents (Elt F)),
    binary main_v44 main_v62 main_v63 (addf : (⟨S1x1024, .f32⟩ : BufTy).Contents (Elt F) → (⟨S1x1024, .f32⟩ : BufTy).Contents (Elt F) → (⟨S1x1024, .f32⟩ : BufTy).Contents (Elt F)),
    unary main_v63 main_v64 (Host.tanh : (⟨S1x1024, .f32⟩ : BufTy).Contents (Elt F) → (⟨S1x1024, .f32⟩ : BufTy).Contents (Elt F)),
    nullary main_cst_12 (constant S_ .f32 0x3F800000#32),
    unary main_cst_12 main_v65 (broadcastInDim S1x1024 ![] bcast_S_S1x1024 : (⟨S_, .f32⟩ : BufTy).Contents (Elt F) → (⟨S1x1024, .f32⟩ : BufTy).Contents (Elt F)),
    binary main_v65 main_v61 main_v66 (subf : (⟨S1x1024, .f32⟩ : BufTy).Contents (Elt F) → (⟨S1x1024, .f32⟩ : BufTy).Contents (Elt F) → (⟨S1x1024, .f32⟩ : BufTy).Contents (Elt F)),
    binary main_v66 main_v64 main_v67 (mulf : (⟨S1x1024, .f32⟩ : BufTy).Contents (Elt F) → (⟨S1x1024, .f32⟩ : BufTy).Contents (Elt F) → (⟨S1x1024, .f32⟩ : BufTy).Contents (Elt F)),
    binary main_v61 main_v10 main_v68 (mulf : (⟨S1x1024, .f32⟩ : BufTy).Contents (Elt F) → (⟨S1x1024, .f32⟩ : BufTy).Contents (Elt F) → (⟨S1x1024, .f32⟩ : BufTy).Contents (Elt F)),
    binary main_v67 main_v68 main_v69 (addf : (⟨S1x1024, .f32⟩ : BufTy).Contents (Elt F) → (⟨S1x1024, .f32⟩ : BufTy).Contents (Elt F) → (⟨S1x1024, .f32⟩ : BufTy).Contents (Elt F)) ]

/-- The vocabulary logits. -/
abbrev opsE1 : List (HloOp τ sig (Elt F)) :=
  [ unary main_arg12 main_v70 ((transpose S1024x50257 [1, 0] · transposes_S50257x1024_S1024x50257_1_0) : (⟨S50257x1024, .f32⟩ : BufTy).Contents (Elt F) → (⟨S1024x50257, .f32⟩ : BufTy).Contents (Elt F)),
    binary main_v69 main_v70 main_v71 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg13 main_v72 (broadcastInDim S1x50257 ![1] bcast_S50257_S1x50257_1 : (⟨S50257, .f32⟩ : BufTy).Contents (Elt F) → (⟨S1x50257, .f32⟩ : BufTy).Contents (Elt F)),
    binary main_v71 main_v72 main_v73 (addf : (⟨S1x50257, .f32⟩ : BufTy).Contents (Elt F) → (⟨S1x50257, .f32⟩ : BufTy).Contents (Elt F) → (⟨S1x50257, .f32⟩ : BufTy).Contents (Elt F)) ]

/-- The log-softmax of the logits, and the new hidden state with its leading unit axis. -/
abbrev opsE2 : List (HloOp τ sig (Elt F)) :=
  [ TRef.nullary (TRef.of (T := ⟨S_, .f32⟩) main_call1_cst) (constant S_ .f32 0xFF800000#32),
    TRef.binary (TRef.of (T := ⟨S1x50257, .f32⟩) main_v73) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v73) (TRef.of (T := ⟨S1x50257, .f32⟩) main_call1_v4) (TRef.of (T := ⟨S1x50257, .f32⟩) main_call1_v5) subf,
    TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v74) subf,
    unary main_v69 main_v75 (broadcastInDim S1x1x1024 ![1, 2] bcast_S1x1024_S1x1x1024_1_2 : (⟨S1x1024, .f32⟩ : BufTy).Contents (Elt F) → (⟨S1x1x1024, .f32⟩ : BufTy).Contents (Elt F)) ]

/-! ## The dynamic slice's result with its two index operands named

The library's result lemma for an operation with index operands leaves them under a binder, as a function of the
operand's position; with the two references a literal pair, each is the contents of its own reference. -/

theorem unaryIndexed_pair_result {Val : EltTy → Type} (a i0 i1 : Ref sig .tc) (T : BufTy) (y : Ref sig .tc)
    (f : a.ty.Contents Val → (Fin 2 → T.Contents Val) → y.ty.Contents Val) (hT ha hix hy)
    (V : Valuation τ sig Val) :
    (unaryIndexed (τ := τ) a ![i0, i1] T y f hT ha hix hy).result V (Proc.devRef .tc y)
      = f (V (Proc.devRef .tc a))
          (Fin.cons (cast (congrArg (fun U : BufTy => U.Contents Val) (hT 0)) (V (Proc.devRef .tc i0)))
            (Fin.cons (cast (congrArg (fun U : BufTy => U.Contents Val) (hT 1)) (V (Proc.devRef .tc i1)))
              (fun i => i.elim0))) := by
  rw [unaryIndexed_result]
  congr 1
  funext k
  fin_cases k <;> rfl

/-! ## Each stretch from an arbitrary valuation -/

/-! ## Typed references

The operations of an outlined function are stated over references that carry their tensor type; each moves its
operands' contents from the buffer's type to that type and its result back. At a literal reference the two types are
the same, but telling so takes a look-up in the signature's table; these three facts are by substitution instead. -/

/-- A typed reference's transport of contents from its buffer's type, at a value that is the same at both types. -/
theorem ofBuf_of_heq {Val : EltTy → Type} {T : BufTy} {r : Ref sig .tc} (h : r.ty = T) (a b) (v : r.ty.Contents Val) (v' : T.Contents Val)
    (hv : HEq v v') : (TRef.of (sig := sig) r h a b).ofBuf v = v' := by
  subst h; exact eq_of_heq hv

/-- A typed reference's transport of contents to its buffer's type, at a value that is the same at both types. -/
theorem toBuf_of_heq {Val : EltTy → Type} {T : BufTy} {r : Ref sig .tc} (h : r.ty = T) (a b) (v : T.Contents Val) (v' : r.ty.Contents Val)
    (hv : HEq v v') : (TRef.of (sig := sig) r h a b).toBuf v = v' := by
  subst h; exact eq_of_heq hv

/-- Contents moved to a typed reference's buffer type and back are the contents. -/
theorem ofBuf_toBuf {Val : EltTy → Type} {T : BufTy} (x : TRef sig T) (v : T.Contents Val) : x.ofBuf (x.toBuf v) = v := by
  obtain ⟨r, h, a, b⟩ := x
  subst h
  rfl

/-! ## Each stretch from an arbitrary valuation -/

/-- The fold's remaining reads rewritten one operation at a time: each operation's result at its own result buffer is
    its function's value, and at any other reference what was there. (A rewrite reaches the operands of a
    concatenation, which sit inside a dependent pair where the simplifier does not go.) -/
local macro "results_rw" : tactic =>
  `(tactic| repeat (first
      | rw [nullary_result] | rw [unary_result] | rw [binary_result] | rw [ternary_result] | rw [reshape_result]
      | (rw [nullary_result_ne]; rotate_left; decide) | (rw [unary_result_ne]; rotate_left; decide)
      | (rw [binary_result_ne]; rotate_left; decide) | (rw [ternary_result_ne]; rotate_left; decide)
      | (rw [reshape_result_ne]; rotate_left; decide) | (rw [unaryIndexed_result_ne]; rotate_left; decide)))

/-- After the first stretch: the row index and the column index of the slice are their stages, and the other thirteen
    arguments are as before. -/
theorem stageA (W : Valuation τ sig (Elt F)) :
    after opsA W (Proc.devRef (τ := τ) .tc main_v3) = val_main_v3 (F := F) (W (Proc.devRef (τ := τ) .tc main_arg0))
      ∧ after opsA W (Proc.devRef (τ := τ) .tc main_v6) = val_main_v6 (F := F)
      ∧ after opsA W (Proc.devRef (τ := τ) .tc main_arg1) = W (Proc.devRef (τ := τ) .tc main_arg1)
      ∧ after opsA W (Proc.devRef (τ := τ) .tc main_arg2) = W (Proc.devRef (τ := τ) .tc main_arg2)
      ∧ after opsA W (Proc.devRef (τ := τ) .tc main_arg3) = W (Proc.devRef (τ := τ) .tc main_arg3)
      ∧ after opsA W (Proc.devRef (τ := τ) .tc main_arg4) = W (Proc.devRef (τ := τ) .tc main_arg4)
      ∧ after opsA W (Proc.devRef (τ := τ) .tc main_arg5) = W (Proc.devRef (τ := τ) .tc main_arg5)
      ∧ after opsA W (Proc.devRef (τ := τ) .tc main_arg6) = W (Proc.devRef (τ := τ) .tc main_arg6)
      ∧ after opsA W (Proc.devRef (τ := τ) .tc main_arg7) = W (Proc.devRef (τ := τ) .tc main_arg7)
      ∧ after opsA W (Proc.devRef (τ := τ) .tc main_arg8) = W (Proc.devRef (τ := τ) .tc main_arg8)
      ∧ after opsA W (Proc.devRef (τ := τ) .tc main_arg9) = W (Proc.devRef (τ := τ) .tc main_arg9)
      ∧ after opsA W (Proc.devRef (τ := τ) .tc main_arg10) = W (Proc.devRef (τ := τ) .tc main_arg10)
      ∧ after opsA W (Proc.devRef (τ := τ) .tc main_arg11) = W (Proc.devRef (τ := τ) .tc main_arg11)
      ∧ after opsA W (Proc.devRef (τ := τ) .tc main_arg12) = W (Proc.devRef (τ := τ) .tc main_arg12)
      ∧ after opsA W (Proc.devRef (τ := τ) .tc main_arg13) = W (Proc.devRef (τ := τ) .tc main_arg13) := by
  refine ⟨?_, ?_, ?_, ?_, ?_, ?_, ?_, ?_, ?_, ?_, ?_, ?_, ?_, ?_, ?_⟩ <;> after_results_simp <;> rfl

/-- The slice: from a valuation holding the two start indices and the table, the embedded row's stage. -/
theorem stageS (W : Valuation τ sig (Elt F)) (x0 : (⟨S1, .i32⟩ : BufTy).Contents (Elt F)) (x3 : (⟨S50257x1024, .f32⟩ : BufTy).Contents (Elt F))
    (h3 : W (Proc.devRef (τ := τ) .tc main_v3) = val_main_v3 (F := F) x0) (h6 : W (Proc.devRef (τ := τ) .tc main_v6) = val_main_v6 (F := F)) (a3 : W (Proc.devRef (τ := τ) .tc main_arg3) = x3) :
    after opsS W (Proc.devRef (τ := τ) .tc main_v7) = val_main_v7 (F := F) x0 x3 := by
  simp only [after_cons, after_nil]
  rw [unaryIndexed_pair_result, h3, h6, a3]
  rfl

/-- The slice writes no argument. -/
theorem keptS (W : Valuation τ sig (Elt F)) :
    after opsS W (Proc.devRef (τ := τ) .tc main_arg1) = W (Proc.devRef (τ := τ) .tc main_arg1)
      ∧ after opsS W (Proc.devRef (τ := τ) .tc main_arg2) = W (Proc.devRef (τ := τ) .tc main_arg2)
      ∧ after opsS W (Proc.devRef (τ := τ) .tc main_arg4) = W (Proc.devRef (τ := τ) .tc main_arg4)
      ∧ after opsS W (Proc.devRef (τ := τ) .tc main_arg5) = W (Proc.devRef (τ := τ) .tc main_arg5)
      ∧ after opsS W (Proc.devRef (τ := τ) .tc main_arg6) = W (Proc.devRef (τ := τ) .tc main_arg6)
      ∧ after opsS W (Proc.devRef (τ := τ) .tc main_arg7) = W (Proc.devRef (τ := τ) .tc main_arg7)
      ∧ after opsS W (Proc.devRef (τ := τ) .tc main_arg8) = W (Proc.devRef (τ := τ) .tc main_arg8)
      ∧ after opsS W (Proc.devRef (τ := τ) .tc main_arg9) = W (Proc.devRef (τ := τ) .tc main_arg9)
      ∧ after opsS W (Proc.devRef (τ := τ) .tc main_arg10) = W (Proc.devRef (τ := τ) .tc main_arg10)
      ∧ after opsS W (Proc.devRef (τ := τ) .tc main_arg11) = W (Proc.devRef (τ := τ) .tc main_arg11)
      ∧ after opsS W (Proc.devRef (τ := τ) .tc main_arg12) = W (Proc.devRef (τ := τ) .tc main_arg12)
      ∧ after opsS W (Proc.devRef (τ := τ) .tc main_arg13) = W (Proc.devRef (τ := τ) .tc main_arg13) := by
  refine ⟨?_, ?_, ?_, ?_, ?_, ?_, ?_, ?_, ?_, ?_, ?_, ?_⟩ <;> after_results_simp

set_option maxRecDepth 8192 in
set_option maxHeartbeats 1600000 in
/-- The attention stretch: from the embedded row, the hidden state, the attention matrix and its bias, the embedded
    row as a 1 × 1024 array, the hidden state as one, and the attention weights. -/
theorem stageB (W : Valuation τ sig (Elt F)) (x0 : (⟨S1, .i32⟩ : BufTy).Contents (Elt F)) (x1 : (⟨S1x1x1024, .f32⟩ : BufTy).Contents (Elt F)) (x3 : (⟨S50257x1024, .f32⟩ : BufTy).Contents (Elt F)) (x4 : (⟨S18x2048, .f32⟩ : BufTy).Contents (Elt F)) (x5 : (⟨S18, .f32⟩ : BufTy).Contents (Elt F))
    (h7 : W (Proc.devRef (τ := τ) .tc main_v7) = val_main_v7 (F := F) x0 x3) (a1 : W (Proc.devRef (τ := τ) .tc main_arg1) = x1) (a4 : W (Proc.devRef (τ := τ) .tc main_arg4) = x4) (a5 : W (Proc.devRef (τ := τ) .tc main_arg5) = x5) :
    after opsB W (Proc.devRef (τ := τ) .tc main_v9) = val_main_v9 (F := F) x0 x3
      ∧ after opsB W (Proc.devRef (τ := τ) .tc main_v10) = val_main_v10 (F := F) x1
      ∧ after opsB W (Proc.devRef (τ := τ) .tc main_v26) = val_main_v26 (F := F) x0 x1 x3 x4 x5
      ∧ after opsB W (Proc.devRef (τ := τ) .tc main_arg2) = W (Proc.devRef (τ := τ) .tc main_arg2)
      ∧ after opsB W (Proc.devRef (τ := τ) .tc main_arg6) = W (Proc.devRef (τ := τ) .tc main_arg6)
      ∧ after opsB W (Proc.devRef (τ := τ) .tc main_arg7) = W (Proc.devRef (τ := τ) .tc main_arg7)
      ∧ after opsB W (Proc.devRef (τ := τ) .tc main_arg8) = W (Proc.devRef (τ := τ) .tc main_arg8)
      ∧ after opsB W (Proc.devRef (τ := τ) .tc main_arg9) = W (Proc.devRef (τ := τ) .tc main_arg9)
      ∧ after opsB W (Proc.devRef (τ := τ) .tc main_arg10) = W (Proc.devRef (τ := τ) .tc main_arg10)
      ∧ after opsB W (Proc.devRef (τ := τ) .tc main_arg11) = W (Proc.devRef (τ := τ) .tc main_arg11)
      ∧ after opsB W (Proc.devRef (τ := τ) .tc main_arg12) = W (Proc.devRef (τ := τ) .tc main_arg12)
      ∧ after opsB W (Proc.devRef (τ := τ) .tc main_arg13) = W (Proc.devRef (τ := τ) .tc main_arg13) := by
  refine ⟨?_, ?_, ?_, ?_, ?_, ?_, ?_, ?_, ?_, ?_, ?_, ?_⟩ <;> after_results_simp <;> results_rw <;> (repeat (first | rw [h7] | rw [a1] | rw [a4] | rw [a5])) <;> rfl

set_option maxRecDepth 8192 in
set_option maxHeartbeats 1600000 in
/-- The combining stretch: the attended context, the combining layer and the relu. -/
theorem stageC (W : Valuation τ sig (Elt F)) (x0 : (⟨S1, .i32⟩ : BufTy).Contents (Elt F)) (x1 : (⟨S1x1x1024, .f32⟩ : BufTy).Contents (Elt F)) (x2 : (⟨S18x1024, .f32⟩ : BufTy).Contents (Elt F)) (x3 : (⟨S50257x1024, .f32⟩ : BufTy).Contents (Elt F)) (x4 : (⟨S18x2048, .f32⟩ : BufTy).Contents (Elt F)) (x5 : (⟨S18, .f32⟩ : BufTy).Contents (Elt F)) (x6 : (⟨S1024x2048, .f32⟩ : BufTy).Contents (Elt F)) (x7 : (⟨S1024, .f32⟩ : BufTy).Contents (Elt F))
    (h9 : W (Proc.devRef (τ := τ) .tc main_v9) = val_main_v9 (F := F) x0 x3) (h26 : W (Proc.devRef (τ := τ) .tc main_v26) = val_main_v26 (F := F) x0 x1 x3 x4 x5) (a2 : W (Proc.devRef (τ := τ) .tc main_arg2) = x2) (a6 : W (Proc.devRef (τ := τ) .tc main_arg6) = x6) (a7 : W (Proc.devRef (τ := τ) .tc main_arg7) = x7) :
    after opsC W (Proc.devRef (τ := τ) .tc main_v33) = val_main_v33 (F := F) x0 x1 x2 x3 x4 x5 x6 x7
      ∧ after opsC W (Proc.devRef (τ := τ) .tc main_v10) = W (Proc.devRef (τ := τ) .tc main_v10)
      ∧ after opsC W (Proc.devRef (τ := τ) .tc main_v26) = W (Proc.devRef (τ := τ) .tc main_v26)
      ∧ after opsC W (Proc.devRef (τ := τ) .tc main_arg8) = W (Proc.devRef (τ := τ) .tc main_arg8)
      ∧ after opsC W (Proc.devRef (τ := τ) .tc main_arg9) = W (Proc.devRef (τ := τ) .tc main_arg9)
      ∧ after opsC W (Proc.devRef (τ := τ) .tc main_arg10) = W (Proc.devRef (τ := τ) .tc main_arg10)
      ∧ after opsC W (Proc.devRef (τ := τ) .tc main_arg11) = W (Proc.devRef (τ := τ) .tc main_arg11)
      ∧ after opsC W (Proc.devRef (τ := τ) .tc main_arg12) = W (Proc.devRef (τ := τ) .tc main_arg12)
      ∧ after opsC W (Proc.devRef (τ := τ) .tc main_arg13) = W (Proc.devRef (τ := τ) .tc main_arg13) := by
  refine ⟨?_, ?_, ?_, ?_, ?_, ?_, ?_, ?_, ?_⟩ <;> after_results_simp <;> results_rw <;> (repeat (first | rw [h9] | rw [h26] | rw [a2] | rw [a6] | rw [a7])) <;> rfl

set_option maxRecDepth 8192 in
set_option maxHeartbeats 1600000 in
/-- The GRU's pre-activations: the combined input against the input matrix and the hidden state against the hidden
    matrix, each plus its bias, cut into thirds. -/
theorem stageD (W : Valuation τ sig (Elt F)) (x0 : (⟨S1, .i32⟩ : BufTy).Contents (Elt F)) (x1 : (⟨S1x1x1024, .f32⟩ : BufTy).Contents (Elt F)) (x2 : (⟨S18x1024, .f32⟩ : BufTy).Contents (Elt F)) (x3 : (⟨S50257x1024, .f32⟩ : BufTy).Contents (Elt F)) (x4 : (⟨S18x2048, .f32⟩ : BufTy).Contents (Elt F)) (x5 : (⟨S18, .f32⟩ : BufTy).Contents (Elt F)) (x6 : (⟨S1024x2048, .f32⟩ : BufTy).Contents (Elt F)) (x7 : (⟨S1024, .f32⟩ : BufTy).Contents (Elt F)) (x8 : (⟨S3072x1024, .f32⟩ : BufTy).Contents (Elt F)) (x9 : (⟨S3072x1024, .f32⟩ : BufTy).Contents (Elt F)) (x10 : (⟨S3072, .f32⟩ : BufTy).Contents (Elt F)) (x11 : (⟨S3072, .f32⟩ : BufTy).Contents (Elt F))
    (h33 : W (Proc.devRef (τ := τ) .tc main_v33) = val_main_v33 (F := F) x0 x1 x2 x3 x4 x5 x6 x7) (h10 : W (Proc.devRef (τ := τ) .tc main_v10) = val_main_v10 (F := F) x1) (a8 : W (Proc.devRef (τ := τ) .tc main_arg8) = x8) (a9 : W (Proc.devRef (τ := τ) .tc main_arg9) = x9) (a10 : W (Proc.devRef (τ := τ) .tc main_arg10) = x10) (a11 : W (Proc.devRef (τ := τ) .tc main_arg11) = x11) :
    after opsD W (Proc.devRef (τ := τ) .tc main_v42) = val_main_v42 (F := F) x0 x1 x2 x3 x4 x5 x6 x7 x8 x10
      ∧ after opsD W (Proc.devRef (τ := τ) .tc main_v43) = val_main_v43 (F := F) x0 x1 x2 x3 x4 x5 x6 x7 x8 x10
      ∧ after opsD W (Proc.devRef (τ := τ) .tc main_v44) = val_main_v44 (F := F) x0 x1 x2 x3 x4 x5 x6 x7 x8 x10
      ∧ after opsD W (Proc.devRef (τ := τ) .tc main_v45) = val_main_v45 (F := F) x1 x9 x11
      ∧ after opsD W (Proc.devRef (τ := τ) .tc main_v46) = val_main_v46 (F := F) x1 x9 x11
      ∧ after opsD W (Proc.devRef (τ := τ) .tc main_v47) = val_main_v47 (F := F) x1 x9 x11
      ∧ after opsD W (Proc.devRef (τ := τ) .tc main_v10) = W (Proc.devRef (τ := τ) .tc main_v10)
      ∧ after opsD W (Proc.devRef (τ := τ) .tc main_v26) = W (Proc.devRef (τ := τ) .tc main_v26)
      ∧ after opsD W (Proc.devRef (τ := τ) .tc main_arg12) = W (Proc.devRef (τ := τ) .tc main_arg12)
      ∧ after opsD W (Proc.devRef (τ := τ) .tc main_arg13) = W (Proc.devRef (τ := τ) .tc main_arg13) := by
  refine ⟨?_, ?_, ?_, ?_, ?_, ?_, ?_, ?_, ?_, ?_⟩ <;> after_results_simp <;> results_rw <;> (repeat (first | rw [h33] | rw [h10] | rw [a8] | rw [a9] | rw [a10] | rw [a11])) <;> rfl

set_option maxRecDepth 8192 in
set_option maxHeartbeats 1600000 in
/-- The GRU's gates: the new hidden state from the six thirds and the old state. -/
theorem stageG (W : Valuation τ sig (Elt F)) (x0 : (⟨S1, .i32⟩ : BufTy).Contents (Elt F)) (x1 : (⟨S1x1x1024, .f32⟩ : BufTy).Contents (Elt F)) (x2 : (⟨S18x1024, .f32⟩ : BufTy).Contents (Elt F)) (x3 : (⟨S50257x1024, .f32⟩ : BufTy).Contents (Elt F)) (x4 : (⟨S18x2048, .f32⟩ : BufTy).Contents (Elt F)) (x5 : (⟨S18, .f32⟩ : BufTy).Contents (Elt F)) (x6 : (⟨S1024x2048, .f32⟩ : BufTy).Contents (Elt F)) (x7 : (⟨S1024, .f32⟩ : BufTy).Contents (Elt F)) (x8 : (⟨S3072x1024, .f32⟩ : BufTy).Contents (Elt F)) (x9 : (⟨S3072x1024, .f32⟩ : BufTy).Contents (Elt F)) (x10 : (⟨S3072, .f32⟩ : BufTy).Contents (Elt F)) (x11 : (⟨S3072, .f32⟩ : BufTy).Contents (Elt F))
    (h42 : W (Proc.devRef (τ := τ) .tc main_v42) = val_main_v42 (F := F) x0 x1 x2 x3 x4 x5 x6 x7 x8 x10) (h43 : W (Proc.devRef (τ := τ) .tc main_v43) = val_main_v43 (F := F) x0 x1 x2 x3 x4 x5 x6 x7 x8 x10) (h44 : W (Proc.devRef (τ := τ) .tc main_v44) = val_main_v44 (F := F) x0 x1 x2 x3 x4 x5 x6 x7 x8 x10) (h45 : W (Proc.devRef (τ := τ) .tc main_v45) = val_main_v45 (F := F) x1 x9 x11) (h46 : W (Proc.devRef (τ := τ) .tc main_v46) = val_main_v46 (F := F) x1 x9 x11) (h47 : W (Proc.devRef (τ := τ) .tc main_v47) = val_main_v47 (F := F) x1 x9 x11) (h10 : W (Proc.devRef (τ := τ) .tc main_v10) = val_main_v10 (F := F) x1) :
    after opsG W (Proc.devRef (τ := τ) .tc main_v69) = val_main_v69 (F := F) x0 x1 x2 x3 x4 x5 x6 x7 x8 x9 x10 x11
      ∧ after opsG W (Proc.devRef (τ := τ) .tc main_v26) = W (Proc.devRef (τ := τ) .tc main_v26)
      ∧ after opsG W (Proc.devRef (τ := τ) .tc main_arg12) = W (Proc.devRef (τ := τ) .tc main_arg12)
      ∧ after opsG W (Proc.devRef (τ := τ) .tc main_arg13) = W (Proc.devRef (τ := τ) .tc main_arg13) := by
  refine ⟨?_, ?_, ?_, ?_⟩ <;> after_results_simp <;> results_rw <;> (repeat (first | rw [h42] | rw [h43] | rw [h44] | rw [h45] | rw [h46] | rw [h47] | rw [h10])) <;> rfl

/-- The vocabulary logits: the new hidden state against each row of the projection, plus the bias. -/
theorem stageE1 (W : Valuation τ sig (Elt F)) (x0 : (⟨S1, .i32⟩ : BufTy).Contents (Elt F)) (x1 : (⟨S1x1x1024, .f32⟩ : BufTy).Contents (Elt F)) (x2 : (⟨S18x1024, .f32⟩ : BufTy).Contents (Elt F)) (x3 : (⟨S50257x1024, .f32⟩ : BufTy).Contents (Elt F)) (x4 : (⟨S18x2048, .f32⟩ : BufTy).Contents (Elt F)) (x5 : (⟨S18, .f32⟩ : BufTy).Contents (Elt F)) (x6 : (⟨S1024x2048, .f32⟩ : BufTy).Contents (Elt F)) (x7 : (⟨S1024, .f32⟩ : BufTy).Contents (Elt F)) (x8 : (⟨S3072x1024, .f32⟩ : BufTy).Contents (Elt F)) (x9 : (⟨S3072x1024, .f32⟩ : BufTy).Contents (Elt F)) (x10 : (⟨S3072, .f32⟩ : BufTy).Contents (Elt F)) (x11 : (⟨S3072, .f32⟩ : BufTy).Contents (Elt F)) (x12 : (⟨S50257x1024, .f32⟩ : BufTy).Contents (Elt F)) (x13 : (⟨S50257, .f32⟩ : BufTy).Contents (Elt F))
    (h69 : W (Proc.devRef (τ := τ) .tc main_v69) = val_main_v69 (F := F) x0 x1 x2 x3 x4 x5 x6 x7 x8 x9 x10 x11) (a12 : W (Proc.devRef (τ := τ) .tc main_arg12) = x12) (a13 : W (Proc.devRef (τ := τ) .tc main_arg13) = x13) :
    after opsE1 W (Proc.devRef (τ := τ) .tc main_v73) = val_main_v73 (F := F) x0 x1 x2 x3 x4 x5 x6 x7 x8 x9 x10 x11 x12 x13
      ∧ after opsE1 W (Proc.devRef (τ := τ) .tc main_v69) = W (Proc.devRef (τ := τ) .tc main_v69)
      ∧ after opsE1 W (Proc.devRef (τ := τ) .tc main_v26) = W (Proc.devRef (τ := τ) .tc main_v26) := by
  refine ⟨?_, ?_, ?_⟩
  · after_results_simp
    rw [h69, a12, a13]
    unfold val_main_v73 val_main_v71 val_main_v72 val_main_v70
    rfl
  · after_results_simp
  · after_results_simp

/-- The log-softmax of the logits, and the new hidden state with its leading unit axis. The log-softmax is an outlined
    function: the read of the logits is moved to the tensor type first, the result's move back is taken off, each
    inner move there and back is dropped, and what is left is the stages' composition as written. -/
theorem stageE2 (W : Valuation τ sig (Elt F)) (x0 : (⟨S1, .i32⟩ : BufTy).Contents (Elt F)) (x1 : (⟨S1x1x1024, .f32⟩ : BufTy).Contents (Elt F)) (x2 : (⟨S18x1024, .f32⟩ : BufTy).Contents (Elt F)) (x3 : (⟨S50257x1024, .f32⟩ : BufTy).Contents (Elt F)) (x4 : (⟨S18x2048, .f32⟩ : BufTy).Contents (Elt F)) (x5 : (⟨S18, .f32⟩ : BufTy).Contents (Elt F)) (x6 : (⟨S1024x2048, .f32⟩ : BufTy).Contents (Elt F)) (x7 : (⟨S1024, .f32⟩ : BufTy).Contents (Elt F)) (x8 : (⟨S3072x1024, .f32⟩ : BufTy).Contents (Elt F)) (x9 : (⟨S3072x1024, .f32⟩ : BufTy).Contents (Elt F)) (x10 : (⟨S3072, .f32⟩ : BufTy).Contents (Elt F)) (x11 : (⟨S3072, .f32⟩ : BufTy).Contents (Elt F)) (x12 : (⟨S50257x1024, .f32⟩ : BufTy).Contents (Elt F)) (x13 : (⟨S50257, .f32⟩ : BufTy).Contents (Elt F))
    (h73 : W (Proc.devRef (τ := τ) .tc main_v73) = val_main_v73 (F := F) x0 x1 x2 x3 x4 x5 x6 x7 x8 x9 x10 x11 x12 x13) (h69 : W (Proc.devRef (τ := τ) .tc main_v69) = val_main_v69 (F := F) x0 x1 x2 x3 x4 x5 x6 x7 x8 x9 x10 x11) :
    after opsE2 W (Proc.devRef (τ := τ) .tc main_v74) = val_main_v74 (F := F) x0 x1 x2 x3 x4 x5 x6 x7 x8 x9 x10 x11 x12 x13
      ∧ after opsE2 W (Proc.devRef (τ := τ) .tc main_v75) = val_main_v75 (F := F) x0 x1 x2 x3 x4 x5 x6 x7 x8 x9 x10 x11
      ∧ after opsE2 W (Proc.devRef (τ := τ) .tc main_v26) = W (Proc.devRef (τ := τ) .tc main_v26) := by
  refine ⟨?_, ?_, ?_⟩
  · after_results_simp
    have e73 : (TRef.of (T := ⟨S1x50257, .f32⟩) main_v73).ofBuf (W (Proc.devRef (τ := τ) .tc main_v73)) = val_main_v73 (F := F) x0 x1 x2 x3 x4 x5 x6 x7 x8 x9 x10 x11 x12 x13 := by
      rw [h73]; rfl
    rw [e73]
    refine toBuf_of_heq _ _ _ _ _ (heq_of_eq ?_)
    repeat rw [ofBuf_toBuf]
    unfold val_main_v74 val_main_call1_v10 val_main_call1_v9 val_main_call1_v8 val_main_call1_v7 val_main_call1_cst_1 val_main_call1_v6 val_main_call1_v5 val_main_call1_v4 val_main_call1_v3 val_main_call1_v2 val_main_call1_v1 val_main_call1_cst_0 val_main_call1_v0 val_main_call1_cst
    rfl
  · after_results_simp
    rw [h69]
    unfold val_main_v75
    rfl
  · after_results_simp

/-! ## The eight stretches in a row -/

/-- The whole line. -/
abbrev line : List (HloOp τ sig (Elt F)) := opsA ++ (opsS ++ (opsB ++ (opsC ++ (opsD ++ (opsG ++ (opsE1 ++ opsE2))))))

/-- The three results of the whole line, from any valuation: each is its stage of the argument arrays. -/
theorem after_line (V : Valuation τ sig (Elt F)) :
    after line V (Proc.devRef (τ := τ) .tc main_v74) = val_main_v74 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11)) (V (Proc.devRef (τ := τ) .tc main_arg12)) (V (Proc.devRef (τ := τ) .tc main_arg13))
      ∧ after line V (Proc.devRef (τ := τ) .tc main_v75) = val_main_v75 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) (V (Proc.devRef (τ := τ) .tc main_arg10)) (V (Proc.devRef (τ := τ) .tc main_arg11))
      ∧ after line V (Proc.devRef (τ := τ) .tc main_v26) = val_main_v26 (F := F) (V (Proc.devRef (τ := τ) .tc main_arg0)) (V (Proc.devRef (τ := τ) .tc main_arg1)) (V (Proc.devRef (τ := τ) .tc main_arg3)) (V (Proc.devRef (τ := τ) .tc main_arg4)) (V (Proc.devRef (τ := τ) .tc main_arg5)) := by
  unfold line
  rw [after_append, after_append, after_append, after_append, after_append, after_append, after_append]
  -- the token id's normalisation
  obtain ⟨A3, A6, kA1, kA2, kA3, kA4, kA5, kA6, kA7, kA8, kA9, kA10, kA11, kA12, kA13⟩ := stageA V
  generalize after opsA V = W1 at A3 A6 kA1 kA2 kA3 kA4 kA5 kA6 kA7 kA8 kA9 kA10 kA11 kA12 kA13 ⊢
  -- the slice
  have S7 := stageS W1 _ _ A3 A6 kA3
  obtain ⟨kS1, kS2, kS4, kS5, kS6, kS7, kS8, kS9, kS10, kS11, kS12, kS13⟩ := keptS W1
  have fS1 := kS1.trans kA1
  have fS2 := kS2.trans kA2
  have fS4 := kS4.trans kA4
  have fS5 := kS5.trans kA5
  have fS6 := kS6.trans kA6
  have fS7 := kS7.trans kA7
  have fS8 := kS8.trans kA8
  have fS9 := kS9.trans kA9
  have fS10 := kS10.trans kA10
  have fS11 := kS11.trans kA11
  have fS12 := kS12.trans kA12
  have fS13 := kS13.trans kA13
  generalize after opsS W1 = W2 at S7 fS1 fS2 fS4 fS5 fS6 fS7 fS8 fS9 fS10 fS11 fS12 fS13 ⊢
  -- the attention weights
  obtain ⟨B9, B10, B26, kB2, kB6, kB7, kB8, kB9, kB10, kB11, kB12, kB13⟩ := stageB W2 _ _ _ _ _ S7 fS1 fS4 fS5
  have fB2 := kB2.trans fS2
  have fB6 := kB6.trans fS6
  have fB7 := kB7.trans fS7
  have fB8 := kB8.trans fS8
  have fB9 := kB9.trans fS9
  have fB10 := kB10.trans fS10
  have fB11 := kB11.trans fS11
  have fB12 := kB12.trans fS12
  have fB13 := kB13.trans fS13
  generalize after opsB W2 = W3 at B9 B10 B26 fB2 fB6 fB7 fB8 fB9 fB10 fB11 fB12 fB13 ⊢
  -- the combining layer
  obtain ⟨C33, kCv10, kCv26, kC8, kC9, kC10, kC11, kC12, kC13⟩ := stageC W3 _ _ _ _ _ _ _ _ B9 B26 fB2 fB6 fB7
  have C10 := kCv10.trans B10
  have C26 := kCv26.trans B26
  have fC8 := kC8.trans fB8
  have fC9 := kC9.trans fB9
  have fC10 := kC10.trans fB10
  have fC11 := kC11.trans fB11
  have fC12 := kC12.trans fB12
  have fC13 := kC13.trans fB13
  generalize after opsC W3 = W4 at C33 C10 C26 fC8 fC9 fC10 fC11 fC12 fC13 ⊢
  -- the GRU's pre-activations
  obtain ⟨D42, D43, D44, D45, D46, D47, kDv10, kDv26, kD12, kD13⟩ := stageD W4 _ _ _ _ _ _ _ _ _ _ _ _ C33 C10 fC8 fC9 fC10 fC11
  have D10 := kDv10.trans C10
  have D26 := kDv26.trans C26
  have fD12 := kD12.trans fC12
  have fD13 := kD13.trans fC13
  generalize after opsD W4 = W5 at D42 D43 D44 D45 D46 D47 D10 D26 fD12 fD13 ⊢
  -- the gates
  obtain ⟨G69, kGv26, kG12, kG13⟩ := stageG W5 _ _ _ _ _ _ _ _ _ _ _ _ D42 D43 D44 D45 D46 D47 D10
  have G26 := kGv26.trans D26
  have fG12 := kG12.trans fD12
  have fG13 := kG13.trans fD13
  generalize after opsG W5 = W6 at G69 G26 fG12 fG13 ⊢
  -- the vocabulary logits
  obtain ⟨E73, kEv69, kEv26⟩ := stageE1 W6 _ _ _ _ _ _ _ _ _ _ _ _ _ _ G69 fG12 fG13
  have E69 := kEv69.trans G69
  have E26 := kEv26.trans G26
  generalize after opsE1 W6 = W7 at E73 E69 E26 ⊢
  -- the log-softmax and the returned hidden state
  obtain ⟨L74, L75, kLv26⟩ := stageE2 W7 _ _ _ _ _ _ _ _ _ _ _ _ _ _ E73 E69
  exact ⟨L74, L75, kLv26.trans E26⟩

end Cert.ReferenceIdeal.RefRun

end
-- ==== Proof.Ref.Run.lean ====
import proofs.«160432_j12232066859333_1_alg».proof.Proof.Ref.RunOps
import proofs.«160432_j12232066859333_1_alg».proof.Proof.Ref.Stretches

/-!
# The reference's run

The reference is a straight line of 107 host operations on one device. From any memory with zero counters every
weakly fair execution of it terminates without a fault, and every buffer ends at the fold of the operations' results
over the launch contents. Read at the three result buffers that fold is each result's stage — the value its
operation writes, as a function of the fourteen argument arrays (the seven stretches of the line, each read from an
arbitrary valuation) —, and read at an argument it is the launch contents: no operation writes an argument.
-/

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The 107 operations are the seven stretches in a row. -/
theorem ops_line : (ValueP.ops : List (HloOp τ sig (Elt F))) = line := rfl

/-! ## No operation of the line writes an argument -/

/-- The 107 references the line writes, one per operation, in order. -/
abbrev written : List (Ref sig .tc) :=
  [
    main_v0, main_c, main_v1, main_c_0, main_v2, main_v3, main_c_1, main_c_2, main_v4, main_c_3, main_c_4, main_v5,
    main_c_5, main_v6, main_v7, main_v8, main_v9, main_v10, main_v11, main_v12, main_v13, main_v14, main_v15, main_cst,
    main_v16, main_cst_6, main_v17, main_v18, main_v19, main_v20, main_v21, main_v22, main_cst_7, main_v23, main_v24, main_v25,
    main_v26, main_v27, main_v28, main_v29, main_v30, main_v31, main_v32, main_call0_cst, main_call0_v0, main_v33, main_v34, main_v35,
    main_v36, main_v37, main_v38, main_v39, main_v40, main_v41, main_v42, main_v43, main_v44, main_v45, main_v46, main_v47,
    main_v48, main_v49, main_v50, main_cst_8, main_v51, main_v52, main_cst_9, main_v53, main_v54, main_v55, main_v56, main_v57,
    main_cst_10, main_v58, main_v59, main_cst_11, main_v60, main_v61, main_v62, main_v63, main_v64, main_cst_12, main_v65, main_v66,
    main_v67, main_v68, main_v69, main_v70, main_v71, main_v72, main_v73, main_call1_cst, main_call1_v0, main_call1_cst_0, main_call1_v1, main_call1_v2,
    main_call1_v3, main_call1_v4, main_call1_v5, main_call1_v6, main_call1_cst_1, main_call1_v7, main_call1_v8, main_call1_v9, main_call1_v10, main_v74, main_v75 ]

/-- An operation whose one result reference is in a list writes only references of the list. -/
theorem writes_sub_of_mem {Val : EltTy → Type} {W : List (Ref sig .tc)} {op : HloOp τ sig Val} {y : Ref sig .tc}
    (hw : op.writes = {Proc.devRef (τ := τ) .tc y}) (hy : y ∈ W) :
    op.writes ⊆ (W.map (Proc.devRef (τ := τ) .tc)).toFinset := by
  rw [hw]
  exact Finset.singleton_subset_iff.mpr (List.mem_toFinset.mpr (List.mem_map_of_mem hy))

set_option maxRecDepth 8192 in
/-- Every operation of the line writes a reference of that list. -/
theorem writes_sub : (ValueP.ops : List (HloOp τ sig (Elt F))).Forall fun op =>
    op.writes ⊆ (written.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- No operation of the line writes an argument. -/
theorem args_kept (V : Valuation τ sig (Elt F)) :
    after ValueP.ops V (Proc.devRef (τ := τ) .tc main_arg0) = V (Proc.devRef (τ := τ) .tc main_arg0)
      ∧ after ValueP.ops V (Proc.devRef (τ := τ) .tc main_arg1) = V (Proc.devRef (τ := τ) .tc main_arg1)
      ∧ after ValueP.ops V (Proc.devRef (τ := τ) .tc main_arg2) = V (Proc.devRef (τ := τ) .tc main_arg2)
      ∧ after ValueP.ops V (Proc.devRef (τ := τ) .tc main_arg3) = V (Proc.devRef (τ := τ) .tc main_arg3)
      ∧ after ValueP.ops V (Proc.devRef (τ := τ) .tc main_arg4) = V (Proc.devRef (τ := τ) .tc main_arg4)
      ∧ after ValueP.ops V (Proc.devRef (τ := τ) .tc main_arg5) = V (Proc.devRef (τ := τ) .tc main_arg5)
      ∧ after ValueP.ops V (Proc.devRef (τ := τ) .tc main_arg6) = V (Proc.devRef (τ := τ) .tc main_arg6)
      ∧ after ValueP.ops V (Proc.devRef (τ := τ) .tc main_arg7) = V (Proc.devRef (τ := τ) .tc main_arg7)
      ∧ after ValueP.ops V (Proc.devRef (τ := τ) .tc main_arg8) = V (Proc.devRef (τ := τ) .tc main_arg8)
      ∧ after ValueP.ops V (Proc.devRef (τ := τ) .tc main_arg9) = V (Proc.devRef (τ := τ) .tc main_arg9)
      ∧ after ValueP.ops V (Proc.devRef (τ := τ) .tc main_arg10) = V (Proc.devRef (τ := τ) .tc main_arg10)
      ∧ after ValueP.ops V (Proc.devRef (τ := τ) .tc main_arg11) = V (Proc.devRef (τ := τ) .tc main_arg11)
      ∧ after ValueP.ops V (Proc.devRef (τ := τ) .tc main_arg12) = V (Proc.devRef (τ := τ) .tc main_arg12)
      ∧ after ValueP.ops V (Proc.devRef (τ := τ) .tc main_arg13) = V (Proc.devRef (τ := τ) .tc main_arg13) :=
  ⟨after_of_writes_sub ValueP.ops V writes_sub (by decide),
    after_of_writes_sub ValueP.ops V writes_sub (by decide),
    after_of_writes_sub ValueP.ops V writes_sub (by decide),
    after_of_writes_sub ValueP.ops V writes_sub (by decide),
    after_of_writes_sub ValueP.ops V writes_sub (by decide),
    after_of_writes_sub ValueP.ops V writes_sub (by decide),
    after_of_writes_sub ValueP.ops V writes_sub (by decide),
    after_of_writes_sub ValueP.ops V writes_sub (by decide),
    after_of_writes_sub ValueP.ops V writes_sub (by decide),
    after_of_writes_sub ValueP.ops V writes_sub (by decide),
    after_of_writes_sub ValueP.ops V writes_sub (by decide),
    after_of_writes_sub ValueP.ops V writes_sub (by decide),
    after_of_writes_sub ValueP.ops V writes_sub (by decide),
    after_of_writes_sub ValueP.ops V writes_sub (by decide)⟩

/-- On every device, for any float values, from any memory with zero counters: every weakly fair execution of the
    reference terminates; each of its three results ends at its stage of the fourteen argument arrays as launched, and
    the argument arrays end as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v74) = val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
        ∧ r.2.mem ((c.tc : Thread nD τ).loc main_v75) = val_main_v75 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
        ∧ r.2.mem ((c.tc : Thread nD τ).loc main_v26) = val_main_v26 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)) :=
  (θ_run defs _ _).mono (fun _ h c => by
      obtain ⟨h74, h75, h26⟩ := after_line (F := F) (launchContents m c)
      obtain ⟨k0, k1, k2, k3, k4, k5, k6, k7, k8, k9, k10, k11, k12, k13⟩ := args_kept (F := F) (launchContents m c)
      rw [← ops_line] at h74 h75 h26
      exact ⟨⟨(h c main_v74).trans h74, (h c main_v75).trans h75, (h c main_v26).trans h26⟩,
        (h c main_arg0).trans k0, (h c main_arg1).trans k1, (h c main_arg2).trans k2, (h c main_arg3).trans k3, (h c main_arg4).trans k4, (h c main_arg5).trans k5, (h c main_arg6).trans k6, (h c main_arg7).trans k7, (h c main_arg8).trans k8, (h c main_arg9).trans k9, (h c main_arg10).trans k10, (h c main_arg11).trans k11, (h c main_arg12).trans k12, (h c main_arg13).trans k13⟩)
    (run_seq ValueP.scopedRefs_eq ValueP.scopedSems_eq defs main (fun _ => ValueP.ops) ValueP.main_eq (fun _ => ValueP.ops_sub) m ρ)

end Cert.ReferenceIdeal.RefRun

end
-- ==== Proof.KI.Host.FirstStretch.lean ====
import proofs.«160432_j12232066859333_1_alg».proof.Proof.Gen.KernelIdeal.Regions
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Run

/-!
# The host operations before the first launch, read at an index

Before its first kernel the program prepares the eleven arrays that kernel reads: it takes one row out of the
embedding table (the row the token id names, a negative id counting from the end of the table), drops the leading
unit axis of the previous hidden state, writes four weight matrices in the narrow float format, and turns four bias
vectors into rows. Read on the extended reals a reshape moves an entry to the index with the same row-major
position and a change of float format is the identity, so each of these arrays is, entry by entry, an argument array;
the embedded row is kept as one named slice of the table.
-/

noncomputable section

namespace Cert.KernelIdeal.HostValue

open Idealize.ShloMosaic Idealize.ShloMosaic.TcCoe Idealize.ShloMosaic.ValueIdx Idealize.ShloMosaic.StableHlo
open Cert.KernelIdeal Cert.KernelIdeal.Gen
open scoped BigOperators

variable (m : (ℓ : Loc nD τ sig) → Buf (Elt Ideal) ℓ) (outs : Gen.Outs (F := Ideal)) (c : Dev nD)

/-! ### An operation indexed by two scalar arrays -/

/-- An operation with a literal pair of index operands (a slice at a row and a column taken from two scalar
    arrays): its result with each index operand's contents read at its own reference. -/
theorem unaryIndexed_pair_result {Val : EltTy → Type} (a i0 i1 : Ref sig .tc) (T : BufTy) (y : Ref sig .tc)
    (f : a.ty.Contents Val → (Fin 2 → T.Contents Val) → y.ty.Contents Val) (hT ha hix hy)
    (F : Valuation τ sig Val) :
    (unaryIndexed (τ := τ) a ![i0, i1] T y f hT ha hix hy).result F (Proc.devRef .tc y)
      = f (F (Proc.devRef .tc a))
          (Fin.cons (cast (congrArg (fun U : BufTy => U.Contents Val) (hT 0)) (F (Proc.devRef .tc i0)))
            (Fin.cons (cast (congrArg (fun U : BufTy => U.Contents Val) (hT 1)) (F (Proc.devRef .tc i1)))
              (fun i => i.elim0))) := by
  rw [unaryIndexed_result]
  congr 1
  funext k
  fin_cases k <;> rfl

/-! ### Before the first kernel: the eleven arrays it reads -/

/-- The row of the embedding table the token id selects (a negative id counts from the end of the table): the
    slice of one row of 1024 out of the table at the row the id names and column zero. -/
def embRow : (⟨S1x1024, .f32⟩ : BufTy).Contents (Elt Ideal) :=
  Host.dynamicSlice S1x1024 (m ((c : Thread nD τ).loc main_arg3))
    (fun k => ((![select
          (cmpi .slt (shapeCast S_ (m ((c : Thread nD τ).loc main_arg0)) shapeCasts_S1_S_) (constantI S_ 32 0#32))
          (addi (shapeCast S_ (m ((c : Thread nD τ).loc main_arg0)) shapeCasts_S1_S_) (constantI S_ 32 50257#32))
          (shapeCast S_ (m ((c : Thread nD τ).loc main_arg0)) shapeCasts_S1_S_),
        constantI S_ 32 0#32] : Fin 2 → IVec S_ 32) k (Shape.Idx.first h_S_)).toInt)
    sliceFits_S50257x1024_S1x1024

/-- The embedded row handed to the first kernel. -/
theorem emb_row_eq : V1 m c main_v4 = embRow m c := by
  show StableHlo.after hostOps0 (V0 m c) (Proc.devRef .tc main_v4) = _
  simp only [after_cons, after_nil]
  repeat (first
    | rw [unaryIndexed_pair_result]
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide) | (rw [unaryIndexed_result_ne]; rotate_left; decide))
  rfl

/-- The previous hidden state, its leading unit axis dropped. -/
theorem hidden_in_apply (k : Fin 1024) :
    V1 m c main_v5 (ix2 (0 : Fin 1) k) = m ((c : Thread nD τ).loc main_arg1) (ix3 (0 : Fin 1) (0 : Fin 1) k) := by
  show StableHlo.after hostOps0 (V0 m c) (Proc.devRef .tc main_v5) (ix2 (0 : Fin 1) k) = _
  after_results
  show shapeCast S1x1024 (V0 m c main_arg1) shapeCasts_S1x1x1024_S1x1024 (ix2 (0 : Fin 1) k) = _
  exact shapeCast_1ab_ab_apply _ _ _ _

/-- The encoder outputs reach the first kernel as launched. -/
theorem encoder_kept : V1 m c main_arg2 = m ((c : Thread nD τ).loc main_arg2) :=
  (V1_of m c main_arg2 (by decide)).trans rfl

/-- The attention matrix in the narrow float format: the same numbers. -/
theorem attn_matrix_apply (j : Fin 18) (k : Fin 2048) :
    V1 m c main_v6 (ix2 j k) = m ((c : Thread nD τ).loc main_arg4) (ix2 j k) := by
  show StableHlo.after hostOps0 (V0 m c) (Proc.devRef .tc main_v6) (ix2 j k) = _
  after_results
  rfl

/-- The combining matrix in the narrow float format: the same numbers. -/
theorem comb_matrix_apply (r : Fin 1024) (k : Fin 2048) :
    V1 m c main_v7 (ix2 r k) = m ((c : Thread nD τ).loc main_arg6) (ix2 r k) := by
  show StableHlo.after hostOps0 (V0 m c) (Proc.devRef .tc main_v7) (ix2 r k) = _
  after_results
  rfl

/-- The input-side gate matrix in the narrow float format: the same numbers. -/
theorem gate_in_matrix_apply (g : Fin 3072) (k : Fin 1024) :
    V1 m c main_v8 (ix2 g k) = m ((c : Thread nD τ).loc main_arg8) (ix2 g k) := by
  show StableHlo.after hostOps0 (V0 m c) (Proc.devRef .tc main_v8) (ix2 g k) = _
  after_results
  rfl

/-- The hidden-side gate matrix in the narrow float format: the same numbers. -/
theorem gate_hid_matrix_apply (g : Fin 3072) (k : Fin 1024) :
    V1 m c main_v9 (ix2 g k) = m ((c : Thread nD τ).loc main_arg9) (ix2 g k) := by
  show StableHlo.after hostOps0 (V0 m c) (Proc.devRef .tc main_v9) (ix2 g k) = _
  after_results
  rfl

/-- The attention bias as a row. -/
theorem attn_bias_apply (j : Fin 18) :
    V1 m c main_v10 (ix2 (0 : Fin 1) j) = m ((c : Thread nD τ).loc main_arg5) (ix1 j) := by
  show StableHlo.after hostOps0 (V0 m c) (Proc.devRef .tc main_v10) (ix2 (0 : Fin 1) j) = _
  after_results
  show shapeCast S1x18 (V0 m c main_arg5) shapeCasts_S18_S1x18 (ix2 (0 : Fin 1) j) = _
  exact shapeCast_a_1a_apply _ _ _ _

/-- The combining bias as a row. -/
theorem comb_bias_apply (r : Fin 1024) :
    V1 m c main_v11 (ix2 (0 : Fin 1) r) = m ((c : Thread nD τ).loc main_arg7) (ix1 r) := by
  show StableHlo.after hostOps0 (V0 m c) (Proc.devRef .tc main_v11) (ix2 (0 : Fin 1) r) = _
  after_results
  show shapeCast S1x1024 (V0 m c main_arg7) shapeCasts_S1024_S1x1024 (ix2 (0 : Fin 1) r) = _
  exact shapeCast_a_1a_apply _ _ _ _

/-- The input-side gate bias as a row. -/
theorem gate_in_bias_apply (g : Fin 3072) :
    V1 m c main_v12 (ix2 (0 : Fin 1) g) = m ((c : Thread nD τ).loc main_arg10) (ix1 g) := by
  show StableHlo.after hostOps0 (V0 m c) (Proc.devRef .tc main_v12) (ix2 (0 : Fin 1) g) = _
  after_results
  show shapeCast S1x3072 (V0 m c main_arg10) shapeCasts_S3072_S1x3072 (ix2 (0 : Fin 1) g) = _
  exact shapeCast_a_1a_apply _ _ _ _

/-- The hidden-side gate bias as a row. -/
theorem gate_hid_bias_apply (g : Fin 3072) :
    V1 m c main_v13 (ix2 (0 : Fin 1) g) = m ((c : Thread nD τ).loc main_arg11) (ix1 g) := by
  show StableHlo.after hostOps0 (V0 m c) (Proc.devRef .tc main_v13) (ix2 (0 : Fin 1) g) = _
  after_results
  show shapeCast S1x3072 (V0 m c main_arg11) shapeCasts_S3072_S1x3072 (ix2 (0 : Fin 1) g) = _
  exact shapeCast_a_1a_apply _ _ _ _

end Cert.KernelIdeal.HostValue

end
-- ==== Proof.KI.Host.LaterStretches.lean ====
import proofs.«160432_j12232066859333_1_alg».proof.Proof.Gen.KernelIdeal.Regions
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Run

/-!
# The host operations between and after the two launches, read at an index

Between its two kernels the program reshapes the bias of the vocabulary projection into a row; after the second it
finishes the log-softmax, `(logit - maximum) - log (sum)` entry by entry with the maximum and the sum broadcast from
their cells, and gives the new hidden state its two leading unit axes back. Read on the extended reals a reshape moves
an entry to the index with the same row-major position. This file reads every array those two stretches hand on or
return, at an index, in terms of the arrays that were there before the stretch; what the kernels left is not
assumed to be anything in particular.
-/

noncomputable section

namespace Cert.KernelIdeal.HostValue

open Idealize.ShloMosaic Idealize.ShloMosaic.TcCoe Idealize.ShloMosaic.ValueIdx Idealize.ShloMosaic.StableHlo
open Cert.KernelIdeal Cert.KernelIdeal.Gen
open scoped BigOperators

variable (m : (ℓ : Loc nD τ sig) → Buf (Elt Ideal) ℓ) (outs : Gen.Outs (F := Ideal)) (c : Dev nD)

/-! ### Between the two kernels: the bias as a row -/

/-- The bias of the vocabulary projection, handed to the second kernel as one row. -/
theorem bias_row_apply (v : Fin 50257) :
    V3 m outs c main_v15 (ix2 (0 : Fin 1) v) = m ((c : Thread nD τ).loc main_arg13) (ix1 v) := by
  show StableHlo.after hostOps1 (V2 m outs c) (Proc.devRef .tc main_v15) (ix2 (0 : Fin 1) v) = _
  after_results
  show shapeCast S1x50257 (V2 m outs c main_arg13) shapeCasts_S50257_S1x50257 (ix2 (0 : Fin 1) v) = _
  refine (shapeCast_a_1a_apply _ _ _ _).trans ?_
  rw [V2_of m outs c main_arg13 (by decide), V1_of m c main_arg13 (by decide)]

/-- The new hidden state is handed on as the first kernel left it. -/
theorem hidden_kept : V3 m outs c main_v14_0 = V2 m outs c main_v14_0 :=
  V3_of m outs c main_v14_0 (by decide)

/-- The projection matrix reaches the second kernel as launched. -/
theorem proj_matrix_kept : V3 m outs c main_arg12 = m ((c : Thread nD τ).loc main_arg12) :=
  (V3_of m outs c main_arg12 (by decide)).trans <| (V2_of m outs c main_arg12 (by decide)).trans <|
    (V1_of m c main_arg12 (by decide)).trans rfl

/-! ### After the second kernel: the log-probabilities, and the state reshaped -/

/-- One cell broadcast along the vocabulary row reads the cell at every token. -/
theorem cell_row_apply (x : FVec Ideal S1x1 .f32) (v : Fin 50257) :
    broadcastInDim S1x50257 ![0, 1] bcast_S1x1_S1x50257_0_1 x (ix2 (0 : Fin 1) v) = x (ix2 (0 : Fin 1) (0 : Fin 1)) :=
  broadcastInDim_apply _ bcast_S1x1_S1x50257_0_1 x (ix2 (0 : Fin 1) v) (ix2 (0 : Fin 1) (0 : Fin 1)) fun a => by
    match a with
    | ⟨0, _⟩ => rfl
    | ⟨1, _⟩ => rfl

/-- The returned log-probability of token `v`: its logit less the maximum cell, less the logarithm of the sum cell,
    whatever the second kernel left in its three result arrays (`L` the logits row, `M` the maximum cell, `S` the
    sum cell). -/
theorem logprob_apply (L : S1x50257.Idx → EReal) (M S : S1x1.Idx → EReal)
    (hL : V4 m outs c main_v16_0 = L) (hM : V4 m outs c main_v16_1 = M) (hS : V4 m outs c main_v16_2 = S)
    (v : Fin 50257) :
    V5 m outs c main_v21 (ix2 (0 : Fin 1) v)
      = (L (ix2 (0 : Fin 1) v) - M (ix2 (0 : Fin 1) (0 : Fin 1))) - Ideal.log (S (ix2 (0 : Fin 1) (0 : Fin 1))) := by
  have h21 : V5 m outs c main_v21
      = subf (F := Ideal) (φ := .f32)
          (subf (F := Ideal) (φ := .f32) L (broadcastInDim S1x50257 ![0, 1] bcast_S1x1_S1x50257_0_1 M))
          (broadcastInDim S1x50257 ![0, 1] bcast_S1x1_S1x50257_0_1 (Host.log (F := Ideal) (φ := .f32) S)) := by
    subst hL hM hS
    show StableHlo.after hostOps2 (V4 m outs c) (Proc.devRef .tc main_v21) = _
    after_results
  rw [h21]
  show (L (ix2 (0 : Fin 1) v) - broadcastInDim S1x50257 ![0, 1] bcast_S1x1_S1x50257_0_1 M (ix2 (0 : Fin 1) v))
      - broadcastInDim S1x50257 ![0, 1] bcast_S1x1_S1x50257_0_1 (Host.log (F := Ideal) (φ := .f32) S) (ix2 (0 : Fin 1) v) = _
  rw [cell_row_apply, cell_row_apply]
  rfl

/-- The returned hidden state, with its two leading unit axes, is the state the first kernel left. -/
theorem hidden_out_apply (k : Fin 1024) :
    V5 m outs c main_v22 (ix3 (0 : Fin 1) (0 : Fin 1) k) = V4 m outs c main_v14_0 (ix2 (0 : Fin 1) k) := by
  show StableHlo.after hostOps2 (V4 m outs c) (Proc.devRef .tc main_v22) (ix3 (0 : Fin 1) (0 : Fin 1) k) = _
  after_results
  show shapeCast S1x1x1024 (V4 m outs c main_v14_0) shapeCasts_S1x1024_S1x1x1024 (ix3 (0 : Fin 1) (0 : Fin 1) k) = _
  exact shapeCast_ab_1ab_apply _ _ _ _ _

/-- The attention weights are returned as the first kernel left them. -/
theorem attn_out_kept : V5 m outs c main_v14_1 = V2 m outs c main_v14_1 :=
  (V5_of m outs c main_v14_1 (by decide)).trans <| (V4_of m outs c main_v14_1 (by decide)).trans <|
    V3_of m outs c main_v14_1 (by decide)

/-- The same, one step back only. -/
theorem attn_out_kept_last : V5 m outs c main_v14_1 = V4 m outs c main_v14_1 :=
  V5_of m outs c main_v14_1 (by decide)

end Cert.KernelIdeal.HostValue

end
-- ==== Proof.KI.Step.LibMaxReduce.lean ====
import Idealize.ShloMosaic.PureOps.Ideal.Laws

/-!
# A maximum over one axis as a supremum

A fold of `max` over a finite set, started from `b`, is the larger of `b` and the supremum of the set; so a
`maximumf` reduction over one axis of a vector of extended reals, read at an index, is the larger of the
accumulator's value and the supremum over that axis's coordinates, and the supremum alone when the accumulator is `-∞`.
-/

noncomputable section

namespace Cert.Lib

open Idealize.ShloMosaic

/-- A fold of `max` from `b` over a finite set is `max b` of the supremum of the set. -/
theorem fold_max_eq_max_sup {ι : Type*} (s : Finset ι) (b : EReal) (f : ι → EReal) :
    s.fold max b f = max b (s.sup f) := by
  classical
  induction s using Finset.induction_on with
  | empty => simp
  | insert a s ha ih =>
    rw [Finset.fold_insert ha, Finset.sup_insert, ih, max_left_comm]

/-- A `maximumf` reduction over ONE axis of a vector of extended reals, read at an index `j` of the result: the larger
    of the accumulator's value and the supremum, over the reduced axis's coordinates `k`, of the source at `j` with
    `k` inserted (`Shape.Reduces.lift`). -/
theorem multiReduction_maximumf_single_sup {s t : Shape} {a : Fin s.rank} {φ : FTy} (src : FVec Ideal s φ)
    (acc : BitVec φ.bits) (h : s.Reduces [a] t) (hφ : FKind.Formats φ) (hacc : acc = FKind.maximumf.neutral φ hφ)
    (j : t.Idx) :
    multiReduction .maximumf [a] t src acc h hφ hacc j
      = max (Ideal.ofBits φ acc) (Finset.univ.sup fun k : Fin (s.size a) => src (h.lift j k)) :=
  (Ideal.multiReduction_maximumf_single src acc h hφ hacc j).trans (fold_max_eq_max_sup _ _ _)

/-- The same when the accumulator's value is `-∞` (`hb`): the supremum alone. -/
theorem multiReduction_maximumf_single_sup_of_bot {s t : Shape} {a : Fin s.rank} {φ : FTy} (src : FVec Ideal s φ)
    (acc : BitVec φ.bits) (h : s.Reduces [a] t) (hφ : FKind.Formats φ) (hacc : acc = FKind.maximumf.neutral φ hφ)
    (hb : Ideal.ofBits φ acc = ⊥) (j : t.Idx) :
    multiReduction .maximumf [a] t src acc h hφ hacc j
      = Finset.univ.sup fun k : Fin (s.size a) => src (h.lift j k) := by
  rw [multiReduction_maximumf_single_sup, hb]
  exact max_eq_right bot_le

end Cert.Lib

end
-- ==== Proof.KI.Step.RowOps.lean ====
import proofs.«160432_j12232066859333_1_alg».proof.Proof.Gen.KernelIdeal.Skeleton
import proofs.«160432_j12232066859333_1_alg».proof.Proof.KI.Step.LibMaxReduce
import Idealize.ShloMosaic.PureOps.Ideal.Laws
import Idealize.ShloMosaic.Lib.ValueIdx
import Idealize.ShloMosaic.Lib.Pipeline.Value
import Idealize.ShloMosaic.Lib.ValueLayout

/-!
# A row of 18 extended reals: its maximum, its sum, and a single cell spread over the row

A `[1, 18]` vector reduced along its second axis into a `[1]` vector: the maximum from minus infinity is the
supremum of the row, the sum from zero is the sum of the row. A `[1]` vector viewed `[1, 1]` and broadcast to
`[1, 18]` reads its one cell at every column.
-/

noncomputable section

namespace Cert.KernelIdeal.StepValue

open Idealize.ShloMosaic Idealize.ShloMosaic.ValueIdx
open Cert.KernelIdeal Cert.KernelIdeal.Gen
open scoped BigOperators

/-- The f32 word of minus infinity denotes `⊥`. -/
theorem ofBits_neg_inf_f32 : Ideal.ofBits .f32 0xFF800000#32 = ⊥ := by simp [Ideal.ofBits, Ideal.ieee]

/-- The f32 word of one denotes `1`. -/
theorem ofBits_one_f32 : Ideal.ofBits .f32 0x3F800000#32 = 1 := by
  simp [Ideal.ofBits, Ideal.ieee, -EReal.coe_mul]; norm_num

/-- The index of the row over the reduced vector's one cell with column `k` put back is `(0, k)`. -/
theorem row_lift (h : S1x18.Reduces [1] S1) (k : Fin 18) : h.lift (ix1 (0 : Fin 1)) k = ix2 (0 : Fin 1) k := by
  funext c
  match c with
  | ⟨0, _⟩ => exact Fin.ext rfl
  | ⟨1, _⟩ => exact Fin.ext rfl

/-- The maximum of a row taken from minus infinity is the supremum of the row. -/
theorem rowMax_apply (L : FVec Ideal S1x18 .f32) (h : S1x18.Reduces [1] S1) (hφ : FKind.Formats .f32)
    (hacc : (0xFF800000#32 : BitVec 32) = FKind.maximumf.neutral .f32 hφ) :
    multiReduction .maximumf [1] S1 L 0xFF800000#32 h hφ hacc (ix1 (0 : Fin 1))
      = Finset.univ.sup fun k : Fin 18 => L (ix2 (0 : Fin 1) k) := by
  refine (Cert.Lib.multiReduction_maximumf_single_sup_of_bot L _ h hφ hacc ofBits_neg_inf_f32 (ix1 (0 : Fin 1))).trans ?_
  show (Finset.univ.sup fun k : Fin 18 => L (h.lift (ix1 (0 : Fin 1)) k)) = _
  exact congrArg _ (funext fun k => by rw [row_lift])

/-- The sum of a row taken from zero is the sum of the row. -/
theorem rowSum_apply (L : FVec Ideal S1x18 .f32) (h : S1x18.Reduces [1] S1) (hφ : FKind.Formats .f32)
    (hacc : (0x00000000#32 : BitVec 32) = FKind.add.neutral .f32 hφ) :
    multiReduction .add [1] S1 L 0x00000000#32 h hφ hacc (ix1 (0 : Fin 1)) = ∑ k : Fin 18, L (ix2 (0 : Fin 1) k) := by
  refine (Ideal.multiReduction_add_single L _ h hφ hacc (ix1 (0 : Fin 1))).trans ?_
  show (∑ k : Fin 18, L (h.lift (ix1 (0 : Fin 1)) k)) = _
  exact Finset.sum_congr rfl fun k _ => by rw [row_lift]

/-- One cell, viewed `[1, 1]` and broadcast over the row, reads the cell at every column. -/
theorem spread_apply {α : Type} (x : S1.Idx → α) (hc : S1.ShapeCasts S1x1) (hb : S1x1.Broadcasts S1x18) (j : Fin 18) :
    broadcastTo S1x18 (shapeCast S1x1 x hc) hb (ix2 (0 : Fin 1) j) = x (ix1 (0 : Fin 1)) := by
  refine (broadcastTo_apply _ hb (ix2 (0 : Fin 1) j) (ix2 (0 : Fin 1) (0 : Fin 1)) fun ax => ?_).trans
    (shapeCast_a_1a_apply x hc (0 : Fin 1) (0 : Fin 1))
  match ax with
  | ⟨0, _⟩ => rfl
  | ⟨1, _⟩ => rfl

end Cert.KernelIdeal.StepValue

end
-- ==== Proof.KI.Step.LibConcatColumns.lean ====
/-
  Two rank-2 arrays with the same number of rows, joined along the columns, read at an entry.
-/
import Idealize.ShloMosaic.Lib.Pipeline.Value
import Idealize.ShloMosaic.Lib.ValueIdx

noncomputable section

namespace Cert.Lib

open Idealize.ShloMosaic Idealize.ShloMosaic.ValueIdx

/-- An `[a, b₁]` array and an `[a, b₂]` array concatenated along axis 1 into an `[a, n]` array (`n = b₁ + b₂`), read
    at row `p` and column `j`: the first array at `(p, j)` when `j < b₁`, otherwise the second at `(p, j - b₁)`. -/
theorem concat_columns_apply {α : Type} {a b₁ b₂ n : ℕ} (x₁ : (⟨2, ![a, b₁]⟩ : Shape).Idx → α)
    (x₂ : (⟨2, ![a, b₂]⟩ : Shape).Idx → α)
    (h : Shape.Concatenates [(⟨2, ![a, b₁]⟩ : Shape), (⟨2, ![a, b₂]⟩ : Shape)] (⟨2, ![a, n]⟩ : Shape) 1) (hn : n = b₁ + b₂)
    (p : Fin a) (j : Fin n) :
    concatenate (⟨2, ![a, n]⟩ : Shape) 1 [⟨(⟨2, ![a, b₁]⟩ : Shape), x₁⟩, ⟨(⟨2, ![a, b₂]⟩ : Shape), x₂⟩] h (ix2 p j)
      = if hj : j.val < b₁ then x₁ (ix2 p (⟨j.val, hj⟩ : Fin b₁))
        else x₂ (ix2 p (⟨j.val - b₁, by have := j.isLt; omega⟩ : Fin b₂)) := by
  split
  · next hj =>
    exact concatenate_pair_apply_left 1 x₁ x₂ h (ix2 p j) rfl (ix2 p (⟨j.val, hj⟩ : Fin b₁))
      (fun b => by match b with | ⟨0, _⟩ => rfl | ⟨1, _⟩ => rfl)
  · next hj =>
    exact concatenate_pair_apply_right 1 x₁ x₂ h (ix2 p j) rfl rfl
      (ix2 p (⟨j.val - b₁, by have := j.isLt; omega⟩ : Fin b₂))
      (fun b hb => by
        match b with
        | ⟨0, _⟩ => rfl
        | ⟨1, _⟩ => exact absurd rfl hb)
      (by show j.val - b₁ + b₁ = j.val; omega)

end Cert.Lib

end
-- ==== Proof.KI.Step.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.KI.Step.Attention.lean ====
import proofs.«160432_j12232066859333_1_alg».proof.Proof.Gen.KernelIdeal.Skeleton
import proofs.«160432_j12232066859333_1_alg».proof.Proof.Spec
import proofs.«160432_j12232066859333_1_alg».proof.Proof.KI.Step.RowOps
import proofs.«160432_j12232066859333_1_alg».proof.Proof.KI.Step.LibConcatColumns
import proofs.«160432_j12232066859333_1_alg».proof.Proof.KI.Step.LibPlainMatmul
import Idealize.ShloMosaic.PureOps.Ideal.Laws
import Idealize.ShloMosaic.Lib.ValueIdx
import Idealize.ShloMosaic.Lib.Pipeline.Value
import Idealize.ShloMosaic.Lib.ValueLayout

/-!
# The attention weights the recurrent step stores, entry by entry

The stored row of 18 weights is the softmax of the attention logits: the embedded row and the hidden state side by
side, against each row of the attention matrix, plus the bias; the maximum is taken from minus infinity and the
normaliser from zero. Every change of float format is the identity on the extended reals.
-/

noncomputable section

namespace Cert.KernelIdeal.StepValue

open Idealize.ShloMosaic Idealize.ShloMosaic.ValueIdx
open Cert.KernelIdeal Cert.KernelIdeal.Gen
open scoped BigOperators

/-- A cast of the embedded row to its own shape is the row. -/
theorem pay2_eq (x0 : FVec Ideal S1x1024 .f32) : k0_pay2 (F := Ideal) x0 = x0 := shapeCast_self x0 _

/-- A cast of the hidden row to its own shape is the row. -/
theorem pay3_eq (x1 : FVec Ideal S1x1024 .f32) : k0_pay3 (F := Ideal) x1 = x1 := shapeCast_self x1 _

/-- Two rows of 1024 joined along the columns, at column `k`: the specification's side-by-side row. -/
theorem joined_apply (a b : FVec Ideal S1x1024 .f32) (hc : Shape.Concatenates [S1x1024, S1x1024] S1x2048 1) (k : Fin 2048) :
    concatenate S1x2048 1 [⟨S1x1024, a⟩, ⟨S1x1024, b⟩] hc (ix2 (0 : Fin 1) k)
      = Cert.Spec.cat (fun k => a (ix2 (0 : Fin 1) k)) (fun k => b (ix2 (0 : Fin 1) k)) k := by
  refine (Cert.Lib.concat_columns_apply a b hc rfl (0 : Fin 1) k).trans ?_
  unfold Cert.Spec.cat
  rfl

section Attention

variable (x0 x1 : FVec Ideal S1x1024 .f32) (x3 : FVec Ideal S18x2048 .bf16) (x4 : FVec Ideal S1x18 .f32)

/-- The row of attention logits as the kernel forms it. -/
def logitRow : FVec Ideal S1x18 .f32 :=
  addf (matmul dot_S1x2048_S2048x18_S1x18_1_0_0_1_n_n none
      (truncf .bf16 (concatenate S1x2048 1 [⟨S1x1024, k0_pay2 x0⟩, ⟨S1x1024, k0_pay3 x1⟩]
        concatenates_S1x1024_S1x1024_S1x2048_d1) bitsLt_bf16_f32)
      (transpose S2048x18 [1, 0] (shapeCast S18x2048 x3 shapeCasts_S18x2048_S18x2048) transposes_S18x2048_p1_0_S2048x18)
      (constant S1x18 .f32 0x00000000#32))
    (shapeCast S1x18 x4 shapeCasts_S1x18_S1x18)

/-- The row's maximum from minus infinity, spread back over the row. -/
def rowMaxB (L : FVec Ideal S1x18 .f32) : FVec Ideal S1x18 .f32 :=
  broadcastTo S1x18 (shapeCast S1x1 (maximumf (broadcast S1 (Scalar.ofBits .f32 0xFF800000#32))
    (multiReduction .maximumf [1] S1 L 0xFF800000#32 reduces_S1x18_S1 (.inl rfl) rfl)) shapeCasts_S1_S1x1) broadcasts_S1x1_S1x18

/-- The exponentials of the row against its maximum. -/
def expRow (L : FVec Ideal S1x18 .f32) : FVec Ideal S1x18 .f32 := exp (subf L (rowMaxB L))

/-- The softmax of a row as the kernel forms it. -/
def softmaxRow (L : FVec Ideal S1x18 .f32) : FVec Ideal S1x18 .f32 :=
  divf (expRow L) (broadcastTo S1x18 (shapeCast S1x1
    (multiReduction .add [1] S1 (expRow L) 0x00000000#32 reduces_S1x18_S1 (.inl rfl) rfl) shapeCasts_S1_S1x1) broadcasts_S1x1_S1x18)

/-- The stored attention weights are the softmax of the logit row. -/
theorem pay4_eq : k0_pay4 (F := Ideal) x0 x1 x3 x4 = softmaxRow (logitRow x0 x1 x3 x4) := rfl

theorem rowMaxB_apply (L : FVec Ideal S1x18 .f32) (j : Fin 18) :
    rowMaxB L (ix2 (0 : Fin 1) j) = Finset.univ.sup fun k : Fin 18 => L (ix2 (0 : Fin 1) k) := by
  unfold rowMaxB
  rw [spread_apply]
  show max (Ideal.ofBits .f32 0xFF800000#32) (multiReduction .maximumf [1] S1 L 0xFF800000#32 _ _ _ (ix1 (0 : Fin 1))) = _
  rw [ofBits_neg_inf_f32]
  exact (max_eq_right bot_le).trans (rowMax_apply L _ _ _)

theorem expRow_apply (L : FVec Ideal S1x18 .f32) (j : Fin 18) :
    expRow L (ix2 (0 : Fin 1) j)
      = Ideal.exp (L (ix2 (0 : Fin 1) j) - Finset.univ.sup fun k : Fin 18 => L (ix2 (0 : Fin 1) k)) := by
  show Ideal.exp (L (ix2 (0 : Fin 1) j) - rowMaxB L (ix2 (0 : Fin 1) j)) = _
  rw [rowMaxB_apply]

theorem softmaxRow_apply (L : FVec Ideal S1x18 .f32) (j : Fin 18) :
    softmaxRow L (ix2 (0 : Fin 1) j)
      = Ideal.div (expRow L (ix2 (0 : Fin 1) j)) (∑ k : Fin 18, expRow L (ix2 (0 : Fin 1) k)) := by
  unfold softmaxRow
  show Ideal.div (expRow L (ix2 (0 : Fin 1) j)) (broadcastTo S1x18 _ _ (ix2 (0 : Fin 1) j)) = _
  rw [spread_apply]
  exact congrArg (Ideal.div _) (rowSum_apply (expRow L) _ _ _)

/-- The logit row at encoder position `j` is the specification's logit. -/
theorem logitRow_apply (j : Fin 18) :
    logitRow x0 x1 x3 x4 (ix2 (0 : Fin 1) j)
      = Cert.Spec.logit (fun k => x0 (ix2 (0 : Fin 1) k)) (fun k => x1 (ix2 (0 : Fin 1) k))
          (fun j k => x3 (ix2 j k)) (fun j => x4 (ix2 (0 : Fin 1) j)) j := by
  unfold logitRow Cert.Spec.logit
  rw [pay2_eq, pay3_eq, shapeCast_self, shapeCast_self]
  show matmul (DotDims.plain 1 2048 18) none _ _ (constant (F := Ideal) ⟨2, ![1, 18]⟩ .f32 0x00000000#32) (ix2 (0 : Fin 1) j)
    + x4 (ix2 (0 : Fin 1) j) = _
  rw [Cert.LibPlainMatmul.matmul_zero_apply]
  refine congrArg (· + x4 (ix2 (0 : Fin 1) j)) (Finset.sum_congr rfl fun k _ => ?_)
  rw [transpose_ix2_apply]
  exact congrArg (· * x3 (ix2 j k)) (joined_apply x0 x1 concatenates_S1x1024_S1x1024_S1x2048_d1 k)

/-- (S1) The stored attention weight of encoder position `j`. -/
theorem attn_value (j : Fin 18) :
    k0_pay4 (F := Ideal) x0 x1 x3 x4 (ix2 (0 : Fin 1) j)
      = Cert.Spec.attn (fun k => x0 (ix2 (0 : Fin 1) k)) (fun k => x1 (ix2 (0 : Fin 1) k))
          (fun j k => x3 (ix2 j k)) (fun j => x4 (ix2 (0 : Fin 1) j)) j := by
  rw [pay4_eq, softmaxRow_apply]
  unfold Cert.Spec.attn Cert.Spec.aexp Cert.Spec.amax
  simp only [expRow_apply, logitRow_apply]

end Attention

end Cert.KernelIdeal.StepValue

end
-- ==== Proof.KI.Step.RowAffine.lean ====
import proofs.«160432_j12232066859333_1_alg».proof.Proof.KI.Step.LibPlainMatmul
import Idealize.ShloMosaic.PureOps.Ideal.Laws
import Idealize.ShloMosaic.Lib.ValueIdx
import Idealize.ShloMosaic.Lib.Pipeline.Value
import Idealize.ShloMosaic.Lib.ValueLayout

/-!
# A row against the rows of a matrix, plus a bias

A row of `K` extended reals multiplied into the transpose of an `[N, K]` matrix (accumulated from zero), plus a row of
`N` biases, has at column `c` the entry `(∑ k, v k · W c k) + b c`. Casts of an array to its own shape are the identity.
-/

noncomputable section

namespace Cert.KernelIdeal.StepValue

open Idealize.ShloMosaic Idealize.ShloMosaic.ValueIdx
open scoped BigOperators

/-- A row times the transpose of a matrix, plus a bias row, at a column. -/
theorem rowAffine_apply {K N : ℕ} {φ₁ φ₂ : FTy} (d : DotDims ⟨2, ![1, K]⟩ ⟨2, ![K, N]⟩ ⟨2, ![1, N]⟩)
    (hd : d = DotDims.plain 1 K N) (v : FVec Ideal ⟨2, ![1, K]⟩ φ₁) (W : FVec Ideal ⟨2, ![N, K]⟩ φ₂)
    (b : FVec Ideal ⟨2, ![1, N]⟩ .f32) (hW : (⟨2, ![N, K]⟩ : Shape).ShapeCasts ⟨2, ![N, K]⟩)
    (hT : (⟨2, ![N, K]⟩ : Shape).Transposes [1, 0] ⟨2, ![K, N]⟩) (hb : (⟨2, ![1, N]⟩ : Shape).ShapeCasts ⟨2, ![1, N]⟩)
    (c : Fin N) :
    addf (matmul d none v (transpose ⟨2, ![K, N]⟩ [1, 0] (shapeCast ⟨2, ![N, K]⟩ W hW) hT)
        (constant (F := Ideal) ⟨2, ![1, N]⟩ .f32 0x00000000#32)) (shapeCast ⟨2, ![1, N]⟩ b hb) (ix2 (0 : Fin 1) c)
      = (∑ k : Fin K, v (ix2 (0 : Fin 1) k) * W (ix2 c k)) + b (ix2 (0 : Fin 1) c) := by
  subst hd
  rw [shapeCast_self, shapeCast_self]
  show matmul (DotDims.plain 1 K N) none v _ (constant (F := Ideal) ⟨2, ![1, N]⟩ .f32 0x00000000#32) (ix2 (0 : Fin 1) c)
    + b (ix2 (0 : Fin 1) c) = _
  rw [Cert.LibPlainMatmul.matmul_zero_apply]
  refine congrArg (· + b (ix2 (0 : Fin 1) c)) (Finset.sum_congr rfl fun k _ => ?_)
  rw [transpose_ix2_apply]

end Cert.KernelIdeal.StepValue

end
-- ==== Proof.KI.Step.HiddenState.lean ====
import proofs.«160432_j12232066859333_1_alg».proof.Proof.Gen.KernelIdeal.Skeleton
import proofs.«160432_j12232066859333_1_alg».proof.Proof.Spec
import proofs.«160432_j12232066859333_1_alg».proof.Proof.KI.Step.Attention
import proofs.«160432_j12232066859333_1_alg».proof.Proof.KI.Step.RowAffine
import Idealize.ShloMosaic.PureOps.Ideal.Laws
import Idealize.ShloMosaic.Lib.ValueIdx
import Idealize.ShloMosaic.Lib.Pipeline.Value
import Idealize.ShloMosaic.Lib.ValueLayout

/-!
# The new hidden state the recurrent step stores, entry by entry

The attended context is the attention weights against the encoder outputs; the combined input is the relu of the
embedded row and the context side by side against each row of the combining matrix, plus its bias; the two rows of
3072 gate pre-activations are the combined input and the old hidden state against the rows of the two gate matrices,
plus their biases; the three blocks of 1024 of each are the reset, update and candidate parts, and the new state is
`(1 - z) · n + z · h`.
-/

noncomputable section

namespace Cert.KernelIdeal.StepValue

open Idealize.ShloMosaic Idealize.ShloMosaic.ValueIdx
open Cert.KernelIdeal Cert.KernelIdeal.Gen
open scoped BigOperators

/-- The logistic function of a vector, at an index. -/
theorem logistic_apply {s : Shape} {φ : FTy} (a : FVec Ideal s φ) (i : s.Idx) : logistic a i = Cert.Spec.sig (a i) := rfl

/-- The hyperbolic tangent of a vector, at an index. -/
theorem tanh_apply {s : Shape} {φ : FTy} (a : FVec Ideal s φ) (i : s.Idx) : tanh a i = Ideal.tanh (a i) := rfl

/-- Block `q` of 1024 of a row of 3072, at position `k`: the row at `1024 q + k`. -/
theorem gateSlice_apply (q : Fin 3) (X : FVec Ideal S1x3072 .f32) (h : S1x3072.Slices ![0, 1024 * q.val] S1x1024)
    (k : Fin 1024) :
    extractStridedSlice S1x1024 ![0, 1024 * q.val] X h (ix2 (0 : Fin 1) k) = X (ix2 (0 : Fin 1) (Cert.Spec.gate q k)) :=
  slice2_axis1_apply (1024 * q.val) X h (0 : Fin 1) k (Cert.Spec.gate q k) rfl

section Cell

variable (gi gh : FVec Ideal S1x3072 .f32) (hrow : FVec Ideal S1x1024 .f32)

/-- The GRU update as the kernel forms it from the two rows of pre-activations and the old state. -/
def cell : FVec Ideal S1x1024 .f32 :=
  addf
    (mulf
      (subf (broadcast S1x1024 (Scalar.ofBits .f32 0x3F800000#32))
        (logistic (addf (extractStridedSlice S1x1024 ![0, 1024] gi slices_S1x3072_o0_1024_S1x1024)
          (extractStridedSlice S1x1024 ![0, 1024] gh slices_S1x3072_o0_1024_S1x1024))))
      (tanh (addf (extractStridedSlice S1x1024 ![0, 2048] gi slices_S1x3072_o0_2048_S1x1024)
        (mulf
          (logistic (addf (extractStridedSlice S1x1024 ![0, 0] gi slices_S1x3072_o0_0_S1x1024)
            (extractStridedSlice S1x1024 ![0, 0] gh slices_S1x3072_o0_0_S1x1024)))
          (extractStridedSlice S1x1024 ![0, 2048] gh slices_S1x3072_o0_2048_S1x1024)))))
    (mulf
      (logistic (addf (extractStridedSlice S1x1024 ![0, 1024] gi slices_S1x3072_o0_1024_S1x1024)
        (extractStridedSlice S1x1024 ![0, 1024] gh slices_S1x3072_o0_1024_S1x1024)))
      hrow)

theorem cell_apply (k : Fin 1024) :
    cell gi gh hrow (ix2 (0 : Fin 1) k)
      = (1 - Cert.Spec.sig (gi (ix2 (0 : Fin 1) (Cert.Spec.gate 1 k)) + gh (ix2 (0 : Fin 1) (Cert.Spec.gate 1 k))))
          * Ideal.tanh (gi (ix2 (0 : Fin 1) (Cert.Spec.gate 2 k))
              + Cert.Spec.sig (gi (ix2 (0 : Fin 1) (Cert.Spec.gate 0 k)) + gh (ix2 (0 : Fin 1) (Cert.Spec.gate 0 k)))
                * gh (ix2 (0 : Fin 1) (Cert.Spec.gate 2 k)))
        + Cert.Spec.sig (gi (ix2 (0 : Fin 1) (Cert.Spec.gate 1 k)) + gh (ix2 (0 : Fin 1) (Cert.Spec.gate 1 k)))
          * hrow (ix2 (0 : Fin 1) k) := by
  have s0 : ∀ (X : FVec Ideal S1x3072 .f32) h, extractStridedSlice S1x1024 ![0, 0] X h (ix2 (0 : Fin 1) k)
      = X (ix2 (0 : Fin 1) (Cert.Spec.gate 0 k)) := fun X h => gateSlice_apply 0 X h k
  have s1 : ∀ (X : FVec Ideal S1x3072 .f32) h, extractStridedSlice S1x1024 ![0, 1024] X h (ix2 (0 : Fin 1) k)
      = X (ix2 (0 : Fin 1) (Cert.Spec.gate 1 k)) := fun X h => gateSlice_apply 1 X h k
  have s2 : ∀ (X : FVec Ideal S1x3072 .f32) h, extractStridedSlice S1x1024 ![0, 2048] X h (ix2 (0 : Fin 1) k)
      = X (ix2 (0 : Fin 1) (Cert.Spec.gate 2 k)) := fun X h => gateSlice_apply 2 X h k
  unfold cell
  simp only [addf_apply, mulf_apply, subf_apply, logistic_apply, tanh_apply, broadcast_apply]
  rw [s0, s0, s1, s1, s2, s2]
  show (Ideal.ofBits .f32 0x3F800000#32 - _) * _ + _ = _
  rw [ofBits_one_f32]

end Cell

section Step

variable (x0 x1 : FVec Ideal S1x1024 .f32) (x2 : FVec Ideal S18x1024 .f32) (x3 : FVec Ideal S18x2048 .bf16)
  (x4 : FVec Ideal S1x18 .f32) (x5 : FVec Ideal S1024x2048 .bf16) (x6 : FVec Ideal S1x1024 .f32)
  (x7 x8 : FVec Ideal S3072x1024 .bf16) (x9 x10 : FVec Ideal S1x3072 .f32)

/-- The attended context as the kernel forms it. -/
def ctxRow : FVec Ideal S1x1024 .f32 :=
  matmul dot_S1x18_S18x1024_S1x1024_1_0_0_1_n_n none (truncf .bf16 (k0_pay4 x0 x1 x3 x4) bitsLt_bf16_f32)
    (truncf .bf16 x2 bitsLt_bf16_f32) (constant S1x1024 .f32 0x00000000#32)

theorem ctxRow_apply (k : Fin 1024) :
    ctxRow x0 x1 x2 x3 x4 (ix2 (0 : Fin 1) k)
      = Cert.Spec.ctx (fun k => x0 (ix2 (0 : Fin 1) k)) (fun k => x1 (ix2 (0 : Fin 1) k)) (fun j k => x2 (ix2 j k))
          (fun j k => x3 (ix2 j k)) (fun j => x4 (ix2 (0 : Fin 1) j)) k := by
  unfold ctxRow Cert.Spec.ctx
  show matmul (DotDims.plain 1 18 1024) none _ _ (constant (F := Ideal) ⟨2, ![1, 1024]⟩ .f32 0x00000000#32) (ix2 (0 : Fin 1) k) = _
  rw [Cert.LibPlainMatmul.matmul_zero_apply]
  refine Finset.sum_congr rfl fun j _ => ?_
  exact congrArg (· * x2 (ix2 j k)) (attn_value x0 x1 x3 x4 j)

/-- The combined input before the relu, in terms of the context row. -/
theorem pay5_eq :
    k0_pay5 (F := Ideal) x0 x1 x3 x4 x2 x5 x6
      = addf (matmul dot_S1x2048_S2048x1024_S1x1024_1_0_0_1_n_n none
            (truncf .bf16 (concatenate S1x2048 1 [⟨S1x1024, k0_pay2 x0⟩, ⟨S1x1024, ctxRow x0 x1 x2 x3 x4⟩]
              concatenates_S1x1024_S1x1024_S1x2048_d1) bitsLt_bf16_f32)
            (transpose S2048x1024 [1, 0] (shapeCast S1024x2048 x5 shapeCasts_S1024x2048_S1024x2048)
              transposes_S1024x2048_p1_0_S2048x1024)
            (constant S1x1024 .f32 0x00000000#32))
          (shapeCast S1x1024 x6 shapeCasts_S1x1024_S1x1024) := rfl

theorem pay5_apply (r : Fin 1024) :
    k0_pay5 (F := Ideal) x0 x1 x3 x4 x2 x5 x6 (ix2 (0 : Fin 1) r)
      = (∑ k : Fin 2048, Cert.Spec.cat (fun k => x0 (ix2 (0 : Fin 1) k))
            (Cert.Spec.ctx (fun k => x0 (ix2 (0 : Fin 1) k)) (fun k => x1 (ix2 (0 : Fin 1) k)) (fun j k => x2 (ix2 j k))
              (fun j k => x3 (ix2 j k)) (fun j => x4 (ix2 (0 : Fin 1) j))) k * x5 (ix2 r k))
        + x6 (ix2 (0 : Fin 1) r) := by
  rw [pay5_eq]
  refine (rowAffine_apply _ rfl _ x5 x6 _ _ _ r).trans ?_
  refine congrArg (· + x6 (ix2 (0 : Fin 1) r)) (Finset.sum_congr rfl fun k _ => ?_)
  refine congrArg (· * x5 (ix2 r k)) ?_
  show concatenate S1x2048 1 [⟨S1x1024, k0_pay2 x0⟩, ⟨S1x1024, ctxRow x0 x1 x2 x3 x4⟩]
    concatenates_S1x1024_S1x1024_S1x2048_d1 (ix2 (0 : Fin 1) k) = _
  rw [joined_apply, pay2_eq]
  exact congrArg (fun y => Cert.Spec.cat _ y k) (funext fun k => ctxRow_apply x0 x1 x2 x3 x4 k)

/-- The row of input-side gate pre-activations as the kernel forms it from the combined input before the relu. -/
def giRow (c : FVec Ideal S1x1024 .f32) : FVec Ideal S1x3072 .f32 :=
  addf (matmul dot_S1x1024_S1024x3072_S1x3072_1_0_0_1_n_n none
      (truncf .bf16 (maximumf c k0_pay6) bitsLt_bf16_f32)
      (transpose S1024x3072 [1, 0] (shapeCast S3072x1024 x7 shapeCasts_S3072x1024_S3072x1024)
        transposes_S3072x1024_p1_0_S1024x3072)
      (constant S1x3072 .f32 0x00000000#32))
    (shapeCast S1x3072 x9 shapeCasts_S1x3072_S1x3072)

/-- The row of hidden-side gate pre-activations as the kernel forms it from the old state. -/
def ghRow (hrow : FVec Ideal S1x1024 .f32) : FVec Ideal S1x3072 .f32 :=
  addf (matmul dot_S1x1024_S1024x3072_S1x3072_1_0_0_1_n_n none
      (truncf .bf16 hrow bitsLt_bf16_f32)
      (transpose S1024x3072 [1, 0] (shapeCast S3072x1024 x8 shapeCasts_S3072x1024_S3072x1024)
        transposes_S3072x1024_p1_0_S1024x3072)
      (constant S1x3072 .f32 0x00000000#32))
    (shapeCast S1x3072 x10 shapeCasts_S1x3072_S1x3072)

/-- The stored state is the GRU update of the two rows of pre-activations and the old state. -/
theorem pay1_eq (v3 v36 : FVec Ideal S1x1024 .f32) :
    k0_pay1 (F := Ideal) v3 v36 k0_pay6 x7 x9 x8 x10 = cell (giRow x7 x9 v36) (ghRow x8 x10 v3) v3 := rfl

theorem giRow_apply (g : Fin 3072) :
    giRow x7 x9 (k0_pay5 (F := Ideal) x0 x1 x3 x4 x2 x5 x6) (ix2 (0 : Fin 1) g)
      = Cert.Spec.gi (fun k => x0 (ix2 (0 : Fin 1) k)) (fun k => x1 (ix2 (0 : Fin 1) k)) (fun j k => x2 (ix2 j k))
          (fun j k => x3 (ix2 j k)) (fun j => x4 (ix2 (0 : Fin 1) j)) (fun r k => x5 (ix2 r k))
          (fun r => x6 (ix2 (0 : Fin 1) r)) (fun g k => x7 (ix2 g k)) (fun g => x9 (ix2 (0 : Fin 1) g)) g := by
  unfold giRow Cert.Spec.gi
  refine (rowAffine_apply _ rfl _ x7 x9 _ _ _ g).trans ?_
  refine congrArg (· + x9 (ix2 (0 : Fin 1) g)) (Finset.sum_congr rfl fun k _ => ?_)
  refine congrArg (· * x7 (ix2 g k)) ?_
  show max (k0_pay5 (F := Ideal) x0 x1 x3 x4 x2 x5 x6 (ix2 (0 : Fin 1) k)) (Ideal.ofBits .f32 0x00000000#32) = _
  rw [pay5_apply, Ideal.ofBits_zero_f32]
  rfl

theorem ghRow_apply (g : Fin 3072) :
    ghRow x8 x10 (k0_pay3 (F := Ideal) x1) (ix2 (0 : Fin 1) g)
      = Cert.Spec.gh (fun k => x1 (ix2 (0 : Fin 1) k)) (fun g k => x8 (ix2 g k)) (fun g => x10 (ix2 (0 : Fin 1) g)) g := by
  unfold ghRow Cert.Spec.gh
  rw [pay3_eq]
  exact rowAffine_apply _ rfl _ x8 x10 _ _ _ g

/-- (S2) The stored new hidden state at unit `k`. -/
theorem hnew_value (k : Fin 1024) :
    k0_pay1 (F := Ideal) (k0_pay3 x1) (k0_pay5 x0 x1 x3 x4 x2 x5 x6) k0_pay6 x7 x9 x8 x10 (ix2 (0 : Fin 1) k)
      = Cert.Spec.hnew (fun k => x0 (ix2 (0 : Fin 1) k)) (fun k => x1 (ix2 (0 : Fin 1) k)) (fun j k => x2 (ix2 j k))
          (fun j k => x3 (ix2 j k)) (fun j => x4 (ix2 (0 : Fin 1) j)) (fun r k => x5 (ix2 r k))
          (fun r => x6 (ix2 (0 : Fin 1) r)) (fun g k => x7 (ix2 g k)) (fun g k => x8 (ix2 g k))
          (fun g => x9 (ix2 (0 : Fin 1) g)) (fun g => x10 (ix2 (0 : Fin 1) g)) k := by
  rw [pay1_eq, cell_apply]
  simp only [giRow_apply, ghRow_apply]
  unfold Cert.Spec.hnew Cert.Spec.zgate Cert.Spec.ngate Cert.Spec.rgate
  rw [pay3_eq]

end Step

end Cert.KernelIdeal.StepValue

end
-- ==== Proof.KI.Step.StepArrays.lean ====
import proofs.«160432_j12232066859333_1_alg».proof.Proof.KI.StepRegion
import proofs.«160432_j12232066859333_1_alg».proof.Proof.KI.Step.HiddenState
import Idealize.ShloMosaic.Lib.Pipeline.Value

/-!
# The recurrent step's two result arrays after its launch

The launch has one grid point and every window's block is its whole array. So each operand block the body reads is
the operand's array as the launch finds it, the one write-back of each result window writes the whole array, and
the two result arrays end holding what the body stored: at the extended reals, the specification's new hidden state
and attention weights of the operand arrays.
-/

set_option maxRecDepth 16384

noncomputable section

namespace Cert.KernelIdeal.StepValue

open Cert.KernelIdeal Cert.KernelIdeal.Gen Cert.KernelIdeal.Step
open Idealize.ShloMosaic Idealize.ShloMosaic.TcCoe Idealize.ShloMosaic.ValueIdx
open Idealize.ShloMosaic.Pipeline (Dat)

/-- Two zero offsets, as the body's rectangles spell them. -/
theorem zero_offsets : (![0, 0] : Fin 2 → Nat) = fun _ => 0 := funext fun a => by fin_cases a <;> rfl

section Blocks

variable {F : FTy → Type} [FloatOps F] [Named F]
variable (V : (c : Dev nD) → (b : Ref sig .tc) → Buf (Elt F) ((c : Thread nD τ).loc b))

/-! ## Each operand block is its array -/

/-- Operand 0 (the embedded row): its one block is its whole array. -/
theorem iblk_0 (c : Dev nD) (t : Fin cfg0.N) : (iblk V c 0 t : Vec F S1x1024 .f32) = V c main_v4 := by
  obtain rfl : t = t0_0 := fin_N0 t
  have hz' : (fun a => win0_0.index t0_0 a * main_v4.ty.shape.size a) = fun _ => 0 :=
    funext fun a => by fin_cases a <;> decide
  exact Memref.read_access_unit_zero (Elt F) main_v4 hz' (fun a => by rw [congrFun hz' a]; simp) (V c main_v4)

/-- Operand 1 (the hidden state): its one block is its whole array. -/
theorem iblk_1 (c : Dev nD) (t : Fin cfg0.N) : (iblk V c 1 t : Vec F S1x1024 .f32) = V c main_v5 := by
  obtain rfl : t = t0_0 := fin_N0 t
  have hz' : (fun a => win0_1.index t0_0 a * main_v5.ty.shape.size a) = fun _ => 0 :=
    funext fun a => by fin_cases a <;> decide
  exact Memref.read_access_unit_zero (Elt F) main_v5 hz' (fun a => by rw [congrFun hz' a]; simp) (V c main_v5)

/-- Operand 2 (the encoder outputs): its one block is its whole array. -/
theorem iblk_2 (c : Dev nD) (t : Fin cfg0.N) : (iblk V c 2 t : Vec F S18x1024 .f32) = V c main_arg2 := by
  obtain rfl : t = t0_0 := fin_N0 t
  have hz' : (fun a => win0_2.index t0_0 a * main_arg2.ty.shape.size a) = fun _ => 0 :=
    funext fun a => by fin_cases a <;> decide
  exact Memref.read_access_unit_zero (Elt F) main_arg2 hz' (fun a => by rw [congrFun hz' a]; simp) (V c main_arg2)

/-- Operand 3 (the attention matrix): its one block is its whole array. -/
theorem iblk_3 (c : Dev nD) (t : Fin cfg0.N) : (iblk V c 3 t : Vec F S18x2048 .bf16) = V c main_v6 := by
  obtain rfl : t = t0_0 := fin_N0 t
  have hz' : (fun a => win0_3.index t0_0 a * main_v6.ty.shape.size a) = fun _ => 0 :=
    funext fun a => by fin_cases a <;> decide
  exact Memref.read_access_unit_zero (Elt F) main_v6 hz' (fun a => by rw [congrFun hz' a]; simp) (V c main_v6)

/-- Operand 4 (the attention bias): its one block is its whole array. -/
theorem iblk_4 (c : Dev nD) (t : Fin cfg0.N) : (iblk V c 4 t : Vec F S1x18 .f32) = V c main_v10 := by
  obtain rfl : t = t0_0 := fin_N0 t
  have hz' : (fun a => win0_4.index t0_0 a * main_v10.ty.shape.size a) = fun _ => 0 :=
    funext fun a => by fin_cases a <;> decide
  exact Memref.read_access_unit_zero (Elt F) main_v10 hz' (fun a => by rw [congrFun hz' a]; simp) (V c main_v10)

/-- Operand 5 (the combining matrix): its one block is its whole array. -/
theorem iblk_5 (c : Dev nD) (t : Fin cfg0.N) : (iblk V c 5 t : Vec F S1024x2048 .bf16) = V c main_v7 := by
  obtain rfl : t = t0_0 := fin_N0 t
  have hz' : (fun a => win0_5.index t0_0 a * main_v7.ty.shape.size a) = fun _ => 0 :=
    funext fun a => by fin_cases a <;> decide
  exact Memref.read_access_unit_zero (Elt F) main_v7 hz' (fun a => by rw [congrFun hz' a]; simp) (V c main_v7)

/-- Operand 6 (the combining bias): its one block is its whole array. -/
theorem iblk_6 (c : Dev nD) (t : Fin cfg0.N) : (iblk V c 6 t : Vec F S1x1024 .f32) = V c main_v11 := by
  obtain rfl : t = t0_0 := fin_N0 t
  have hz' : (fun a => win0_6.index t0_0 a * main_v11.ty.shape.size a) = fun _ => 0 :=
    funext fun a => by fin_cases a <;> decide
  exact Memref.read_access_unit_zero (Elt F) main_v11 hz' (fun a => by rw [congrFun hz' a]; simp) (V c main_v11)

/-- Operand 7 (the input-side gate matrix): its one block is its whole array. -/
theorem iblk_7 (c : Dev nD) (t : Fin cfg0.N) : (iblk V c 7 t : Vec F S3072x1024 .bf16) = V c main_v8 := by
  obtain rfl : t = t0_0 := fin_N0 t
  have hz' : (fun a => win0_7.index t0_0 a * main_v8.ty.shape.size a) = fun _ => 0 :=
    funext fun a => by fin_cases a <;> decide
  exact Memref.read_access_unit_zero (Elt F) main_v8 hz' (fun a => by rw [congrFun hz' a]; simp) (V c main_v8)

/-- Operand 8 (the hidden-side gate matrix): its one block is its whole array. -/
theorem iblk_8 (c : Dev nD) (t : Fin cfg0.N) : (iblk V c 8 t : Vec F S3072x1024 .bf16) = V c main_v9 := by
  obtain rfl : t = t0_0 := fin_N0 t
  have hz' : (fun a => win0_8.index t0_0 a * main_v9.ty.shape.size a) = fun _ => 0 :=
    funext fun a => by fin_cases a <;> decide
  exact Memref.read_access_unit_zero (Elt F) main_v9 hz' (fun a => by rw [congrFun hz' a]; simp) (V c main_v9)

/-- Operand 9 (the input-side gate bias): its one block is its whole array. -/
theorem iblk_9 (c : Dev nD) (t : Fin cfg0.N) : (iblk V c 9 t : Vec F S1x3072 .f32) = V c main_v12 := by
  obtain rfl : t = t0_0 := fin_N0 t
  have hz' : (fun a => win0_9.index t0_0 a * main_v12.ty.shape.size a) = fun _ => 0 :=
    funext fun a => by fin_cases a <;> decide
  exact Memref.read_access_unit_zero (Elt F) main_v12 hz' (fun a => by rw [congrFun hz' a]; simp) (V c main_v12)

/-- Operand 10 (the hidden-side gate bias): its one block is its whole array. -/
theorem iblk_10 (c : Dev nD) (t : Fin cfg0.N) : (iblk V c 10 t : Vec F S1x3072 .f32) = V c main_v13 := by
  obtain rfl : t = t0_0 := fin_N0 t
  have hz' : (fun a => win0_10.index t0_0 a * main_v13.ty.shape.size a) = fun _ => 0 :=
    funext fun a => by fin_cases a <;> decide
  exact Memref.read_access_unit_zero (Elt F) main_v13 hz' (fun a => by rw [congrFun hz' a]; simp) (V c main_v13)

/-! ## Each result array ends at what the body stored -/

/-- The one write-back of result window 11 (the new hidden state) writes what the body left: the block is the whole array. -/
theorem flushed_11 (c : Dev nD) (t : Fin cfg0.N) (hf : (cfg0.win 11).flush t = true) :
    (dat V c).flushed 11 t = ((cfg0.win 11).blk t).view.read (Elt F) ((dat V c).after 11 t0_0) := by
  obtain rfl : t = t0_0 := fin_N0 t
  show (cfg0.win 11).cut (grid0.coords t0_0) ((dat V c).after 11 t0_0) = _
  have hz' : (fun a => win0_11.index t0_0 a * main_v14_0.ty.shape.size a) = fun _ => 0 :=
    funext fun a => by fin_cases a <;> decide
  exact (Memref.read_access_unit_zero (Elt F) main_v14_0 hz' (fun a => by rw [congrFun hz' a]; simp)
    ((dat V c).after 11 t0_0)).symm

/-- So the new hidden state' array ends holding what the body stored at the one point. -/
theorem final_11 (c : Dev nD) : (dat V c).arrAt 11 cfg0.N = (dat V c).after 11 t0_0 :=
  (dat V c).arrAt_eq_of_cover 11 ((dat V c).after 11 t0_0) (flushed_11 V c) fun i =>
    ⟨t0_0, flush0_11 t0_0, by
      show i ∈ ((View.whole main_v14_0).slice (win0_11.rect t0_0)).set
      rw [View.set_slice_whole, Rect.mem_set_unit]
      intro a
      have h0 : (i 0 : Nat) < 1 := (i 0).isLt
      have h1 : (i 1 : Nat) < 1024 := (i 1).isLt
      match a with
      | ⟨0, _⟩ =>
        show win0_11.index t0_0 0 * win0_11.size 0 ≤ (i 0 : Nat)
          ∧ (i 0 : Nat) < win0_11.index t0_0 0 * win0_11.size 0 + win0_11.xsize (grid0.coords t0_0) 0
        rw [show win0_11.index t0_0 0 * win0_11.size 0 = 0 from by decide +kernel,
          show win0_11.xsize (grid0.coords t0_0) 0 = 1 from by decide +kernel]; omega
      | ⟨1, _⟩ =>
        show win0_11.index t0_0 1 * win0_11.size 1 ≤ (i 1 : Nat)
          ∧ (i 1 : Nat) < win0_11.index t0_0 1 * win0_11.size 1 + win0_11.xsize (grid0.coords t0_0) 1
        rw [show win0_11.index t0_0 1 * win0_11.size 1 = 0 from by decide +kernel,
          show win0_11.xsize (grid0.coords t0_0) 1 = 1024 from by decide +kernel]; omega⟩

/-- The one write-back of result window 12 (the attention weights) writes what the body left: the block is the whole array. -/
theorem flushed_12 (c : Dev nD) (t : Fin cfg0.N) (hf : (cfg0.win 12).flush t = true) :
    (dat V c).flushed 12 t = ((cfg0.win 12).blk t).view.read (Elt F) ((dat V c).after 12 t0_0) := by
  obtain rfl : t = t0_0 := fin_N0 t
  show (cfg0.win 12).cut (grid0.coords t0_0) ((dat V c).after 12 t0_0) = _
  have hz' : (fun a => win0_12.index t0_0 a * main_v14_1.ty.shape.size a) = fun _ => 0 :=
    funext fun a => by fin_cases a <;> decide
  exact (Memref.read_access_unit_zero (Elt F) main_v14_1 hz' (fun a => by rw [congrFun hz' a]; simp)
    ((dat V c).after 12 t0_0)).symm

/-- So the attention weights' array ends holding what the body stored at the one point. -/
theorem final_12 (c : Dev nD) : (dat V c).arrAt 12 cfg0.N = (dat V c).after 12 t0_0 :=
  (dat V c).arrAt_eq_of_cover 12 ((dat V c).after 12 t0_0) (flushed_12 V c) fun i =>
    ⟨t0_0, flush0_12 t0_0, by
      show i ∈ ((View.whole main_v14_1).slice (win0_12.rect t0_0)).set
      rw [View.set_slice_whole, Rect.mem_set_unit]
      intro a
      have h0 : (i 0 : Nat) < 1 := (i 0).isLt
      have h1 : (i 1 : Nat) < 18 := (i 1).isLt
      match a with
      | ⟨0, _⟩ =>
        show win0_12.index t0_0 0 * win0_12.size 0 ≤ (i 0 : Nat)
          ∧ (i 0 : Nat) < win0_12.index t0_0 0 * win0_12.size 0 + win0_12.xsize (grid0.coords t0_0) 0
        rw [show win0_12.index t0_0 0 * win0_12.size 0 = 0 from by decide +kernel,
          show win0_12.xsize (grid0.coords t0_0) 0 = 1 from by decide +kernel]; omega
      | ⟨1, _⟩ =>
        show win0_12.index t0_0 1 * win0_12.size 1 ≤ (i 1 : Nat)
          ∧ (i 1 : Nat) < win0_12.index t0_0 1 * win0_12.size 1 + win0_12.xsize (grid0.coords t0_0) 1
        rw [show win0_12.index t0_0 1 * win0_12.size 1 = 0 from by decide +kernel,
          show win0_12.xsize (grid0.coords t0_0) 1 = 18 from by decide +kernel]; omega⟩

/-- The new hidden state's array after the launch, in terms of the operand arrays. -/
theorem hidden_array_eq (c : Dev nD) :
    (dat V c).arrAt 11 cfg0.N = hNew (V c main_v4) (V c main_v5) (V c main_arg2) (V c main_v6) (V c main_v10) (V c main_v7)
      (V c main_v11) (V c main_v8) (V c main_v9) (V c main_v12) (V c main_v13) := by
  rw [final_11, after_11, iblk_0, iblk_1, iblk_2, iblk_3, iblk_4, iblk_5, iblk_6, iblk_7, iblk_8, iblk_9, iblk_10]

/-- The attention weights' array after the launch, in terms of the operand arrays. -/
theorem attn_array_eq (c : Dev nD) :
    (dat V c).arrAt 12 cfg0.N = attnW (V c main_v4) (V c main_v5) (V c main_v6) (V c main_v10) := by
  rw [final_12, after_12, iblk_0, iblk_1, iblk_3, iblk_4]

end Blocks

/-! ## What the body stores, at the extended reals -/

section Stored

variable (x0 x1 : FVec Ideal S1x1024 .f32) (x2 : FVec Ideal S18x1024 .f32) (x3 : FVec Ideal S18x2048 .bf16)
  (x4 : FVec Ideal S1x18 .f32) (x5 : FVec Ideal S1024x2048 .bf16) (x6 : FVec Ideal S1x1024 .f32)
  (x7 x8 : FVec Ideal S3072x1024 .bf16) (x9 x10 : FVec Ideal S1x3072 .f32)

/-- The stored new hidden state is the GRU payload of the operands themselves: every whole-buffer load reads the
    buffer and the one whole-buffer store leaves its payload. -/
theorem hNew_eq :
    hNew (F := Ideal) x0 x1 x2 x3 x4 x5 x6 x7 x8 x9 x10
      = k0_pay1 (F := Ideal) (k0_pay3 x1) (k0_pay5 x0 x1 x3 x4 x2 x5 x6) k0_pay6 x7 x9 x8 x10 := by
  unfold hNew
  rw [View.canon_unit_zero zero_offsets]
  simp only [View.ld_unit_zero (S := S1x1024) zero_offsets, View.ld_unit_zero (S := S18x1024) zero_offsets,
    View.ld_unit_zero (S := S18x2048) zero_offsets, View.ld_unit_zero (S := S1x18) zero_offsets,
    View.ld_unit_zero (S := S1024x2048) zero_offsets, View.ld_unit_zero (S := S3072x1024) zero_offsets,
    View.ld_unit_zero (S := S1x3072) zero_offsets]

/-- The stored attention weights are the softmax payload of the operands themselves. -/
theorem attnW_eq : attnW (F := Ideal) x0 x1 x3 x4 = k0_pay4 (F := Ideal) x0 x1 x3 x4 := by
  unfold attnW
  rw [View.canon_unit_zero zero_offsets]
  simp only [View.ld_unit_zero (S := S1x1024) zero_offsets, View.ld_unit_zero (S := S18x2048) zero_offsets,
    View.ld_unit_zero (S := S1x18) zero_offsets]

end Stored

/-! ## The two result arrays as the specification's functions of the operand arrays -/

section Targets

variable (V : (c : Dev nD) → (b : Ref sig .tc) → Buf (Elt Ideal) ((c : Thread nD τ).loc b))

/-- The new hidden state's array after the launch, at unit `k`. -/
theorem hidden_array (c : Dev nD) (k : Fin 1024) :
    ((dat (F := Ideal) V c).arrAt 11 cfg0.N : FVec Ideal S1x1024 .f32) (ix2 (0 : Fin 1) k)
      = Cert.Spec.hnew (fun k => (V c main_v4 : FVec Ideal S1x1024 .f32) (ix2 (0 : Fin 1) k))
          (fun k => (V c main_v5 : FVec Ideal S1x1024 .f32) (ix2 (0 : Fin 1) k))
          (fun j k => (V c main_arg2 : FVec Ideal S18x1024 .f32) (ix2 j k))
          (fun j k => (V c main_v6 : FVec Ideal S18x2048 .bf16) (ix2 j k))
          (fun j => (V c main_v10 : FVec Ideal S1x18 .f32) (ix2 (0 : Fin 1) j))
          (fun r k => (V c main_v7 : FVec Ideal S1024x2048 .bf16) (ix2 r k))
          (fun r => (V c main_v11 : FVec Ideal S1x1024 .f32) (ix2 (0 : Fin 1) r))
          (fun g k => (V c main_v8 : FVec Ideal S3072x1024 .bf16) (ix2 g k))
          (fun g k => (V c main_v9 : FVec Ideal S3072x1024 .bf16) (ix2 g k))
          (fun g => (V c main_v12 : FVec Ideal S1x3072 .f32) (ix2 (0 : Fin 1) g))
          (fun g => (V c main_v13 : FVec Ideal S1x3072 .f32) (ix2 (0 : Fin 1) g)) k := by
  rw [hidden_array_eq, hNew_eq]
  exact hnew_value _ _ _ _ _ _ _ _ _ _ _ k

/-- The attention weights' array after the launch, at encoder position `j`. -/
theorem attn_array (c : Dev nD) (j : Fin 18) :
    ((dat (F := Ideal) V c).arrAt 12 cfg0.N : FVec Ideal S1x18 .f32) (ix2 (0 : Fin 1) j)
      = Cert.Spec.attn (fun k => (V c main_v4 : FVec Ideal S1x1024 .f32) (ix2 (0 : Fin 1) k))
          (fun k => (V c main_v5 : FVec Ideal S1x1024 .f32) (ix2 (0 : Fin 1) k))
          (fun j k => (V c main_v6 : FVec Ideal S18x2048 .bf16) (ix2 j k))
          (fun j => (V c main_v10 : FVec Ideal S1x18 .f32) (ix2 (0 : Fin 1) j)) j := by
  rw [attn_array_eq, attnW_eq]
  exact attn_value _ _ _ _ j

end Targets

end Cert.KernelIdeal.StepValue

end
-- ==== Proof.Fin.SpecReal.lean ====
import proofs.«160432_j12232066859333_1_alg».proof.Proof.Spec
import proofs.«160432_j12232066859333_1_alg».proof.Proof.LibOnlineSoftmax

/-!
# The decoder step keeps finite reals finite

When every argument entry is a finite real, so is every quantity of the step: the attention logits, their maximum
(a supremum over eighteen reals), the exponentials against it and their sum, which is a positive real, so the
attention weights; the attended context; the combined input; the gate pre-activations; the logistic of a real
(`1 + exp (-y)` is a positive real) and the hyperbolic tangent of a real; the three gates and the new hidden state;
and every vocabulary logit.
-/

noncomputable section

namespace Cert.SpecReal

open Idealize.ShloMosaic
open Cert.OnlineSoftmax (IsReal isReal_coe isReal_zero isReal_max)
open Cert.Spec
open scoped BigOperators

theorem isReal_one : IsReal 1 := ⟨1, EReal.coe_one.symm⟩

/-- Two rows of reals side by side are a row of reals. -/
theorem isReal_cat {x y : Fin 1024 → EReal} (hx : ∀ k, IsReal (x k)) (hy : ∀ k, IsReal (y k)) (k : Fin 2048) :
    IsReal (cat x y k) := by
  unfold cat
  split
  · exact hx _
  · exact hy _

/-- The logistic of a real is a real: `1 + exp (-y)` is a positive real. -/
theorem isReal_sig {y : EReal} (hy : IsReal y) : IsReal (sig y) := by
  obtain ⟨a, rfl⟩ := hy
  have h1 : (1 : EReal) + Ideal.exp (-(a : EReal)) = ((1 + Real.exp (-a) : ℝ) : EReal) := by
    rw [← EReal.coe_neg, Ideal.exp_coe, EReal.coe_add, EReal.coe_one]
  unfold sig
  rw [h1]
  exact isReal_one.div_coe (by positivity)

/-- The hyperbolic tangent of a real is a real. -/
theorem isReal_tanh {y : EReal} (hy : IsReal y) : IsReal (Ideal.tanh y) := by
  obtain ⟨a, rfl⟩ := hy
  exact ⟨Real.tanh a, rfl⟩

section Attention

variable {e h : Fin 1024 → EReal} {aW : Fin 18 → Fin 2048 → EReal} {ab : Fin 18 → EReal}
variable (he : ∀ k, IsReal (e k)) (hh : ∀ k, IsReal (h k)) (haW : ∀ j k, IsReal (aW j k)) (hab : ∀ j, IsReal (ab j))
include he hh haW hab

theorem isReal_logit (j : Fin 18) : IsReal (logit e h aW ab j) :=
  (IsReal.sum _ fun k _ => (isReal_cat he hh k).mul (haW j k)).add (hab j)

/-- The largest logit is one of the logits, so a real. -/
theorem isReal_amax : IsReal (amax e h aW ab) := by
  obtain ⟨j₀, -, hj⟩ := Finset.exists_mem_eq_sup Finset.univ Finset.univ_nonempty
    (fun j : Fin 18 => logit e h aW ab j)
  unfold amax
  rw [hj]
  exact isReal_logit he hh haW hab j₀

theorem isReal_aexp (j : Fin 18) : IsReal (aexp e h aW ab j) :=
  ((isReal_logit he hh haW hab j).sub (isReal_amax he hh haW hab)).exp

/-- The softmax normaliser of the logits is a positive real. -/
theorem asum_pos : ∃ σ : ℝ, 0 < σ ∧ (∑ j' : Fin 18, aexp e h aW ab j') = (σ : EReal) := by
  choose L hL using fun j => isReal_logit he hh haW hab j
  obtain ⟨μ, hμ⟩ := isReal_amax he hh haW hab
  refine ⟨∑ j : Fin 18, Real.exp (L j - μ), Finset.sum_pos (fun _ _ => Real.exp_pos _) Finset.univ_nonempty, ?_⟩
  rw [Cert.OnlineSoftmax.coe_sum]
  refine Finset.sum_congr rfl fun j _ => ?_
  unfold aexp
  rw [hL j, hμ, Cert.OnlineSoftmax.exp_coe_sub]

theorem isReal_attn (j : Fin 18) : IsReal (attn e h aW ab j) := by
  obtain ⟨σ, hσ, hs⟩ := asum_pos he hh haW hab
  unfold attn
  rw [hs]
  exact (isReal_aexp he hh haW hab j).div_coe hσ.ne'

end Attention

section Hidden

variable {h : Fin 1024 → EReal} {Whh : Fin 3072 → Fin 1024 → EReal} {bhh : Fin 3072 → EReal}
variable (hh : ∀ k, IsReal (h k)) (hWhh : ∀ g k, IsReal (Whh g k)) (hbhh : ∀ g, IsReal (bhh g))
include hh hWhh hbhh

theorem isReal_gh (g : Fin 3072) : IsReal (gh h Whh bhh g) :=
  (IsReal.sum _ fun k _ => (hh k).mul (hWhh g k)).add (hbhh g)

end Hidden

section Step

variable {e h : Fin 1024 → EReal} {enc : Fin 18 → Fin 1024 → EReal}
  {aW : Fin 18 → Fin 2048 → EReal} {ab : Fin 18 → EReal}
  {cW : Fin 1024 → Fin 2048 → EReal} {cb : Fin 1024 → EReal}
  {Wih Whh : Fin 3072 → Fin 1024 → EReal} {bih bhh : Fin 3072 → EReal}
variable (he : ∀ k, IsReal (e k)) (hh : ∀ k, IsReal (h k)) (henc : ∀ j k, IsReal (enc j k))
  (haW : ∀ j k, IsReal (aW j k)) (hab : ∀ j, IsReal (ab j))
include he hh henc haW hab

theorem isReal_ctx (k : Fin 1024) : IsReal (ctx e h enc aW ab k) :=
  IsReal.sum _ fun j _ => (isReal_attn he hh haW hab j).mul (henc j k)

variable (hcW : ∀ r k, IsReal (cW r k)) (hcb : ∀ r, IsReal (cb r))
include hcW hcb

theorem isReal_comb (r : Fin 1024) : IsReal (comb e h enc aW ab cW cb r) :=
  ((IsReal.sum _ fun k _ => (isReal_cat he (isReal_ctx he hh henc haW hab) k).mul (hcW r k)).add (hcb r)).max_zero

variable (hWih : ∀ g k, IsReal (Wih g k)) (hbih : ∀ g, IsReal (bih g))
include hWih hbih

theorem isReal_gi (g : Fin 3072) : IsReal (gi e h enc aW ab cW cb Wih bih g) :=
  (IsReal.sum _ fun k _ => (isReal_comb he hh henc haW hab hcW hcb k).mul (hWih g k)).add (hbih g)

variable (hWhh : ∀ g k, IsReal (Whh g k)) (hbhh : ∀ g, IsReal (bhh g))
include hWhh hbhh

theorem isReal_rgate (k : Fin 1024) : IsReal (rgate e h enc aW ab cW cb Wih Whh bih bhh k) :=
  isReal_sig ((isReal_gi he hh henc haW hab hcW hcb hWih hbih _).add (isReal_gh hh hWhh hbhh _))

theorem isReal_zgate (k : Fin 1024) : IsReal (zgate e h enc aW ab cW cb Wih Whh bih bhh k) :=
  isReal_sig ((isReal_gi he hh henc haW hab hcW hcb hWih hbih _).add (isReal_gh hh hWhh hbhh _))

theorem isReal_ngate (k : Fin 1024) : IsReal (ngate e h enc aW ab cW cb Wih Whh bih bhh k) :=
  isReal_tanh ((isReal_gi he hh henc haW hab hcW hcb hWih hbih _).add
    ((isReal_rgate he hh henc haW hab hcW hcb hWih hbih hWhh hbhh k).mul (isReal_gh hh hWhh hbhh _)))

/-- The new hidden state is a row of finite reals. -/
theorem isReal_hnew (k : Fin 1024) : IsReal (hnew e h enc aW ab cW cb Wih Whh bih bhh k) :=
  ((isReal_one.sub (isReal_zgate he hh henc haW hab hcW hcb hWih hbih hWhh hbhh k)).mul
      (isReal_ngate he hh henc haW hab hcW hcb hWih hbih hWhh hbhh k)).add
    ((isReal_zgate he hh henc haW hab hcW hcb hWih hbih hWhh hbhh k).mul (hh k))

end Step

section Vocab

variable {x : Fin 1024 → EReal} {oW : Fin 50257 → Fin 1024 → EReal} {ob : Fin 50257 → EReal}

/-- Every vocabulary logit of a real state against a real projection is a real. -/
theorem isReal_vlogit (hx : ∀ k, IsReal (x k)) (hoW : ∀ v k, IsReal (oW v k)) (hob : ∀ v, IsReal (ob v))
    (v : Fin 50257) : IsReal (vlogit x oW ob v) :=
  (IsReal.sum _ fun k _ => (hx k).mul (hoW v k)).add (hob v)

end Vocab

end Cert.SpecReal

end
-- ==== Proof.Fin.FiniteArgs.lean ====
import proofs.«160432_j12232066859333_1_alg».proof.Defs
import proofs.«160432_j12232066859333_1_alg».proof.Proof.LibOnlineSoftmax
import Idealize.ShloMosaic.Lib.ReduceAll
import Idealize.ShloMosaic.Lib.ValueIdx

/-!
# The precondition says every float argument entry is a finite real

The precondition compares the magnitude of every entry of each of the thirteen float arguments with plus infinity and
takes the conjunction of all the comparisons. When that conjunction is one, each comparison is one; an extended real
whose magnitude `max x (-x)` is below `⊤` is neither `⊥` nor `⊤`, so it is a real.
-/

noncomputable section

namespace Cert.FiniteArgs

open Idealize.ShloMosaic Idealize.ShloMosaic.ValueIdx
open Cert.OnlineSoftmax (IsReal)
open Cert.Pre_finite_inputs

/-- The scalar shape has one index. -/
instance : Subsingleton S_.Idx := ⟨fun _ _ => funext fun d => d.elim0⟩

/-- The f32 word of plus infinity denotes `⊤`. -/
theorem ofBits_pos_inf_f32 : Ideal.ofBits .f32 0x7F800000#32 = ⊤ := by simp [Ideal.ofBits, Ideal.ieee]

/-- An extended real whose magnitude compares below plus infinity is a finite real. -/
theorem isReal_of_abs_lt_top {x : EReal}
    (h : Ideal.cmp .olt (max x (-x)) (Ideal.ofBits .f32 0x7F800000#32) = 1#1) : IsReal x := by
  rw [ofBits_pos_inf_f32] at h
  induction x using EReal.rec with
  | bot => simp [Ideal.cmp] at h
  | top => simp [Ideal.cmp] at h
  | coe r => exact ⟨r, rfl⟩

/-- When the conjunction over a whole array of "magnitude below plus infinity" is one, every entry is a finite real. -/
theorem all_real {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
        (cmpf .olt (Host.absf a) (broadcastInDim s ![] hb (constant (F := Ideal) S_ .f32 0x7F800000#32)))
        (constantI S_ 1 1#1) hr hu ix0 = 1#1) (i : s.Idx) : IsReal (a i) :=
  isReal_of_abs_lt_top (Host.reduce_andi_all _ _ hr hu ix0 h i)

/-- The printed precondition, all ones, makes every entry of every float argument a finite real. -/
theorem args_real [Cert.Pre_finite_inputs.Facts] (a0 : IVec S1 32) (a1 : FVec Ideal S1x1x1024 .f32) (a2 : FVec Ideal S18x1024 .f32) (a3 : FVec Ideal S50257x1024 .f32) (a4 : FVec Ideal S18x2048 .f32) (a5 : FVec Ideal S18 .f32) (a6 : FVec Ideal S1024x2048 .f32) (a7 : FVec Ideal S1024 .f32) (a8 : FVec Ideal S3072x1024 .f32) (a9 : FVec Ideal S3072x1024 .f32) (a10 : FVec Ideal S3072 .f32) (a11 : FVec Ideal S3072 .f32) (a12 : FVec Ideal S50257x1024 .f32) (a13 : FVec Ideal S50257 .f32)
    (h : fn (F := Ideal) a0 a1 a2 a3 a4 a5 a6 a7 a8 a9 a10 a11 a12 a13 = fun _ => 1#1) :
    (∀ i, IsReal (a1 i))
      ∧ (∀ i, IsReal (a2 i))
      ∧ (∀ i, IsReal (a3 i))
      ∧ (∀ i, IsReal (a4 i))
      ∧ (∀ i, IsReal (a5 i))
      ∧ (∀ i, IsReal (a6 i))
      ∧ (∀ i, IsReal (a7 i))
      ∧ (∀ i, IsReal (a8 i))
      ∧ (∀ i, IsReal (a9 i))
      ∧ (∀ i, IsReal (a10 i))
      ∧ (∀ i, IsReal (a11 i))
      ∧ (∀ i, IsReal (a12 i))
      ∧ (∀ i, IsReal (a13 i)) := by
  have h0 : fn (F := Ideal) a0 a1 a2 a3 a4 a5 a6 a7 a8 a9 a10 a11 a12 a13 ix0 = 1#1 := congrFun h ix0
  dsimp only [fn, fn_part1, fn_part2, fn_part3, andi] at h0
  obtain ⟨h0, h13⟩ := IntOp.andi_eq_one.1 h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  exact ⟨all_real a1 _ _ _ h1,
    all_real a2 _ _ _ h2,
    all_real a3 _ _ _ h3,
    all_real a4 _ _ _ h4,
    all_real a5 _ _ _ h5,
    all_real a6 _ _ _ h6,
    all_real a7 _ _ _ h7,
    all_real a8 _ _ _ h8,
    all_real a9 _ _ _ h9,
    all_real a10 _ _ _ h10,
    all_real a11 _ _ _ h11,
    all_real a12 _ _ _ h12,
    all_real a13 _ _ _ h13⟩

/-- Under the kernel program's precondition every entry of each float argument buffer is a finite real. -/
theorem finite_args [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i : Cert.KernelIdeal.S1x1x1024.Idx, IsReal ((m ((c.tc : Thread Cert.KernelIdeal.nD Cert.KernelIdeal.τ).loc Cert.KernelIdeal.main_arg1) : FVec Ideal Cert.KernelIdeal.S1x1x1024 .f32) i))
      ∧ (∀ i : Cert.KernelIdeal.S18x1024.Idx, IsReal ((m ((c.tc : Thread Cert.KernelIdeal.nD Cert.KernelIdeal.τ).loc Cert.KernelIdeal.main_arg2) : FVec Ideal Cert.KernelIdeal.S18x1024 .f32) i))
      ∧ (∀ i : Cert.KernelIdeal.S50257x1024.Idx, IsReal ((m ((c.tc : Thread Cert.KernelIdeal.nD Cert.KernelIdeal.τ).loc Cert.KernelIdeal.main_arg3) : FVec Ideal Cert.KernelIdeal.S50257x1024 .f32) i))
      ∧ (∀ i : Cert.KernelIdeal.S18x2048.Idx, IsReal ((m ((c.tc : Thread Cert.KernelIdeal.nD Cert.KernelIdeal.τ).loc Cert.KernelIdeal.main_arg4) : FVec Ideal Cert.KernelIdeal.S18x2048 .f32) i))
      ∧ (∀ i : Cert.KernelIdeal.S18.Idx, IsReal ((m ((c.tc : Thread Cert.KernelIdeal.nD Cert.KernelIdeal.τ).loc Cert.KernelIdeal.main_arg5) : FVec Ideal Cert.KernelIdeal.S18 .f32) i))
      ∧ (∀ i : Cert.KernelIdeal.S1024x2048.Idx, IsReal ((m ((c.tc : Thread Cert.KernelIdeal.nD Cert.KernelIdeal.τ).loc Cert.KernelIdeal.main_arg6) : FVec Ideal Cert.KernelIdeal.S1024x2048 .f32) i))
      ∧ (∀ i : Cert.KernelIdeal.S1024.Idx, IsReal ((m ((c.tc : Thread Cert.KernelIdeal.nD Cert.KernelIdeal.τ).loc Cert.KernelIdeal.main_arg7) : FVec Ideal Cert.KernelIdeal.S1024 .f32) i))
      ∧ (∀ i : Cert.KernelIdeal.S3072x1024.Idx, IsReal ((m ((c.tc : Thread Cert.KernelIdeal.nD Cert.KernelIdeal.τ).loc Cert.KernelIdeal.main_arg8) : FVec Ideal Cert.KernelIdeal.S3072x1024 .f32) i))
      ∧ (∀ i : Cert.KernelIdeal.S3072x1024.Idx, IsReal ((m ((c.tc : Thread Cert.KernelIdeal.nD Cert.KernelIdeal.τ).loc Cert.KernelIdeal.main_arg9) : FVec Ideal Cert.KernelIdeal.S3072x1024 .f32) i))
      ∧ (∀ i : Cert.KernelIdeal.S3072.Idx, IsReal ((m ((c.tc : Thread Cert.KernelIdeal.nD Cert.KernelIdeal.τ).loc Cert.KernelIdeal.main_arg10) : FVec Ideal Cert.KernelIdeal.S3072 .f32) i))
      ∧ (∀ i : Cert.KernelIdeal.S3072.Idx, IsReal ((m ((c.tc : Thread Cert.KernelIdeal.nD Cert.KernelIdeal.τ).loc Cert.KernelIdeal.main_arg11) : FVec Ideal Cert.KernelIdeal.S3072 .f32) i))
      ∧ (∀ i : Cert.KernelIdeal.S50257x1024.Idx, IsReal ((m ((c.tc : Thread Cert.KernelIdeal.nD Cert.KernelIdeal.τ).loc Cert.KernelIdeal.main_arg12) : FVec Ideal Cert.KernelIdeal.S50257x1024 .f32) i))
      ∧ (∀ i : Cert.KernelIdeal.S50257.Idx, IsReal ((m ((c.tc : Thread Cert.KernelIdeal.nD Cert.KernelIdeal.τ).loc Cert.KernelIdeal.main_arg13) : FVec Ideal Cert.KernelIdeal.S50257 .f32) i)) :=
  args_real _ _ _ _ _ _ _ _ _ _ _ _ _ _ (hpre c)

end Cert.FiniteArgs

end
-- ==== Proof.KI.KernelValue.lean ====
import proofs.«160432_j12232066859333_1_alg».proof.Proof.KI.Host.FirstStretch
import proofs.«160432_j12232066859333_1_alg».proof.Proof.KI.Host.LaterStretches
import proofs.«160432_j12232066859333_1_alg».proof.Proof.KI.Step.StepArrays
import proofs.«160432_j12232066859333_1_alg».proof.Proof.KI.StepSeg
import proofs.«160432_j12232066859333_1_alg».proof.Proof.Fin.SpecReal
import proofs.«160432_j12232066859333_1_alg».proof.Proof.Fin.FiniteArgs
import proofs.«160432_j12232066859333_1_alg».proof.Proof.Gen.Pre_finite_inputs
import proofs.«160432_j12232066859333_1_alg».proof.Proof.Spec

/-!
# The program's three results as the specification's functions of the launch memory

The program returns the log-probabilities over the vocabulary, the new hidden state and the attention weights. This
file names the thirteen functions of the launch memory the specification is applied to (the embedded row, the
previous hidden state, the encoder outputs, and the ten weight arrays as rows and matrices over their natural
index types), and reads the three results at an index: the attention weights and the new hidden state are the
specification's, through the first kernel's two result arrays and the host operations around it; the
log-probabilities are the specification's log-softmax of the new hidden state's vocabulary logits, once the second
kernel's three result arrays are known to hold those logits, their maximum and their normaliser. Under the
precondition every one of the thirteen functions, and hence the new hidden state, is finite.
-/

noncomputable section

namespace Cert.KernelIdeal.KernelValue

open Idealize.ShloMosaic Idealize.ShloMosaic.TcCoe Idealize.ShloMosaic.ValueIdx
open Cert.KernelIdeal Cert.KernelIdeal.Gen
open Cert.OnlineSoftmax (IsReal)
open scoped BigOperators

variable (m : (ℓ : Loc nD τ sig) → Buf (Elt Ideal) ℓ) (c : Dev nD)

/-! ### The specification's arguments, as functions of the launch memory -/

/-- The embedded row of the token. -/
abbrev embedded : Fin 1024 → EReal := fun k => HostValue.embRow m c (ix2 (0 : Fin 1) k)
/-- The previous hidden state. -/
abbrev hidden : Fin 1024 → EReal := fun k =>
  (m ((c : Thread nD τ).loc main_arg1) : FVec Ideal S1x1x1024 .f32) (ix3 (0 : Fin 1) (0 : Fin 1) k)
/-- The encoder outputs. -/
abbrev encoder : Fin 18 → Fin 1024 → EReal := fun j k =>
  (m ((c : Thread nD τ).loc main_arg2) : FVec Ideal S18x1024 .f32) (ix2 j k)
/-- The attention layer's matrix and bias. -/
abbrev attnW : Fin 18 → Fin 2048 → EReal := fun j k =>
  (m ((c : Thread nD τ).loc main_arg4) : FVec Ideal S18x2048 .f32) (ix2 j k)
abbrev attnB : Fin 18 → EReal := fun j => (m ((c : Thread nD τ).loc main_arg5) : FVec Ideal S18 .f32) (ix1 j)
/-- The combining layer's matrix and bias. -/
abbrev combW : Fin 1024 → Fin 2048 → EReal := fun r k =>
  (m ((c : Thread nD τ).loc main_arg6) : FVec Ideal S1024x2048 .f32) (ix2 r k)
abbrev combB : Fin 1024 → EReal := fun r => (m ((c : Thread nD τ).loc main_arg7) : FVec Ideal S1024 .f32) (ix1 r)
/-- The GRU's input-side and hidden-side matrices and biases. -/
abbrev gateWih : Fin 3072 → Fin 1024 → EReal := fun g k =>
  (m ((c : Thread nD τ).loc main_arg8) : FVec Ideal S3072x1024 .f32) (ix2 g k)
abbrev gateWhh : Fin 3072 → Fin 1024 → EReal := fun g k =>
  (m ((c : Thread nD τ).loc main_arg9) : FVec Ideal S3072x1024 .f32) (ix2 g k)
abbrev gateBih : Fin 3072 → EReal := fun g => (m ((c : Thread nD τ).loc main_arg10) : FVec Ideal S3072 .f32) (ix1 g)
abbrev gateBhh : Fin 3072 → EReal := fun g => (m ((c : Thread nD τ).loc main_arg11) : FVec Ideal S3072 .f32) (ix1 g)
/-- The vocabulary projection's matrix and bias. -/
abbrev projW : Fin 50257 → Fin 1024 → EReal := fun v k =>
  (m ((c : Thread nD τ).loc main_arg12) : FVec Ideal S50257x1024 .f32) (ix2 v k)
abbrev projB : Fin 50257 → EReal := fun v => (m ((c : Thread nD τ).loc main_arg13) : FVec Ideal S50257 .f32) (ix1 v)

/-- The specification's new hidden state of those arguments. -/
abbrev newHidden : Fin 1024 → EReal :=
  Cert.Spec.hnew (embedded m c) (hidden m c) (encoder m c) (attnW m c) (attnB m c) (combW m c) (combB m c)
    (gateWih m c) (gateWhh m c) (gateBih m c) (gateBhh m c)

/-! ### The first kernel's operand arrays are those functions -/

theorem step_embedded :
    (fun k => (Step.E1 m c main_v4 : FVec Ideal S1x1024 .f32) (ix2 (0 : Fin 1) k)) = embedded m c :=
  funext fun k => congrFun (HostValue.emb_row_eq m c) (ix2 (0 : Fin 1) k)
theorem step_hidden :
    (fun k => (Step.E1 m c main_v5 : FVec Ideal S1x1024 .f32) (ix2 (0 : Fin 1) k)) = hidden m c :=
  funext fun k => HostValue.hidden_in_apply m c k
theorem step_encoder :
    (fun j k => (Step.E1 m c main_arg2 : FVec Ideal S18x1024 .f32) (ix2 j k)) = encoder m c :=
  funext fun j => funext fun k => congrFun (HostValue.encoder_kept m c) (ix2 j k)
theorem step_attnW :
    (fun j k => (Step.E1 m c main_v6 : FVec Ideal S18x2048 .bf16) (ix2 j k)) = attnW m c :=
  funext fun j => funext fun k => HostValue.attn_matrix_apply m c j k
theorem step_attnB :
    (fun j => (Step.E1 m c main_v10 : FVec Ideal S1x18 .f32) (ix2 (0 : Fin 1) j)) = attnB m c :=
  funext fun j => HostValue.attn_bias_apply m c j
theorem step_combW :
    (fun r k => (Step.E1 m c main_v7 : FVec Ideal S1024x2048 .bf16) (ix2 r k)) = combW m c :=
  funext fun r => funext fun k => HostValue.comb_matrix_apply m c r k
theorem step_combB :
    (fun r => (Step.E1 m c main_v11 : FVec Ideal S1x1024 .f32) (ix2 (0 : Fin 1) r)) = combB m c :=
  funext fun r => HostValue.comb_bias_apply m c r
theorem step_gateWih :
    (fun g k => (Step.E1 m c main_v8 : FVec Ideal S3072x1024 .bf16) (ix2 g k)) = gateWih m c :=
  funext fun g => funext fun k => HostValue.gate_in_matrix_apply m c g k
theorem step_gateWhh :
    (fun g k => (Step.E1 m c main_v9 : FVec Ideal S3072x1024 .bf16) (ix2 g k)) = gateWhh m c :=
  funext fun g => funext fun k => HostValue.gate_hid_matrix_apply m c g k
theorem step_gateBih :
    (fun g => (Step.E1 m c main_v12 : FVec Ideal S1x3072 .f32) (ix2 (0 : Fin 1) g)) = gateBih m c :=
  funext fun g => HostValue.gate_in_bias_apply m c g
theorem step_gateBhh :
    (fun g => (Step.E1 m c main_v13 : FVec Ideal S1x3072 .f32) (ix2 (0 : Fin 1) g)) = gateBhh m c :=
  funext fun g => HostValue.gate_hid_bias_apply m c g

/-- The first kernel's new-hidden-state array is the specification's new hidden state. -/
theorem step_hidden_array (k : Fin 1024) :
    ((Step.dat (F := Ideal) (Step.E1 m) c).arrAt 11 cfg0.N : FVec Ideal S1x1024 .f32) (ix2 (0 : Fin 1) k)
      = newHidden m c k := by
  refine (StepValue.hidden_array (Step.E1 m) c k).trans ?_
  rw [step_embedded, step_hidden, step_encoder, step_attnW, step_attnB, step_combW, step_combB, step_gateWih,
    step_gateWhh, step_gateBih, step_gateBhh]

/-- The first kernel's attention-weights array is the specification's attention weights. -/
theorem step_attn_array (j : Fin 18) :
    ((Step.dat (F := Ideal) (Step.E1 m) c).arrAt 12 cfg0.N : FVec Ideal S1x18 .f32) (ix2 (0 : Fin 1) j)
      = Cert.Spec.attn (embedded m c) (hidden m c) (attnW m c) (attnB m c) j := by
  refine (StepValue.attn_array (Step.E1 m) c j).trans ?_
  rw [step_embedded, step_hidden, step_attnW, step_attnB]

/-! ### The attention weights and the new hidden state, as returned -/

section Results

variable (outs : Gen.Outs (F := Ideal))

/-- The returned attention weights are the specification's. -/
theorem attn_result (h12 : ∀ c, outs 2 main_v14_1 c = (Step.dat (F := Ideal) (Step.E1 m) c).arrAt 12 cfg0.N)
    (j : Fin 18) :
    (V5 m outs c main_v14_1 : FVec Ideal S1x18 .f32) (ix2 (0 : Fin 1) j)
      = Cert.Spec.attn (embedded m c) (hidden m c) (attnW m c) (attnB m c) j := by
  have e1 : V5 m outs c main_v14_1 = (Step.dat (F := Ideal) (Step.E1 m) c).arrAt 12 cfg0.N :=
    (HostValue.attn_out_kept m outs c).trans ((Step.V2_weights m outs c).trans (h12 c))
  rw [e1]
  exact step_attn_array m c j

/-- What the first kernel leaves as the new hidden state reaches the end of the program unchanged. -/
theorem hidden_carried (h11 : ∀ c, outs 2 main_v14_0 c = (Step.dat (F := Ideal) (Step.E1 m) c).arrAt 11 cfg0.N) :
    V4 m outs c main_v14_0 = (Step.dat (F := Ideal) (Step.E1 m) c).arrAt 11 cfg0.N :=
  (V4_of m outs c main_v14_0 (by decide)).trans ((V3_of m outs c main_v14_0 (by decide)).trans
    ((Step.V2_hidden m outs c).trans (h11 c)))

/-- The returned hidden state is the specification's new hidden state. -/
theorem hidden_result (h11 : ∀ c, outs 2 main_v14_0 c = (Step.dat (F := Ideal) (Step.E1 m) c).arrAt 11 cfg0.N)
    (k : Fin 1024) :
    (V5 m outs c main_v22 : FVec Ideal S1x1x1024 .f32) (ix3 (0 : Fin 1) (0 : Fin 1) k) = newHidden m c k := by
  refine (HostValue.hidden_out_apply m outs c k).trans ?_
  rw [hidden_carried m c outs h11]
  exact step_hidden_array m c k

/-! ### What the second kernel is entered with -/

/-- The state row the second kernel reads. -/
abbrev vocabX : Fin 1024 → EReal := fun k => (V3 m outs c main_v14_0 : FVec Ideal S1x1024 .f32) (ix2 (0 : Fin 1) k)
/-- The projection matrix the second kernel reads. -/
abbrev vocabW : Fin 50257 → Fin 1024 → EReal := fun v k =>
  (V3 m outs c main_arg12 : FVec Ideal S50257x1024 .f32) (ix2 v k)
/-- The bias row the second kernel reads. -/
abbrev vocabB : Fin 50257 → EReal := fun v => (V3 m outs c main_v15 : FVec Ideal S1x50257 .f32) (ix2 (0 : Fin 1) v)

/-- The state row the second kernel reads is the specification's new hidden state. -/
theorem vocabX_eq (h11 : ∀ c, outs 2 main_v14_0 c = (Step.dat (F := Ideal) (Step.E1 m) c).arrAt 11 cfg0.N) :
    vocabX m c outs = newHidden m c := by
  funext k
  have e1 : V3 m outs c main_v14_0 = (Step.dat (F := Ideal) (Step.E1 m) c).arrAt 11 cfg0.N :=
    (V3_of m outs c main_v14_0 (by decide)).trans ((Step.V2_hidden m outs c).trans (h11 c))
  show (V3 m outs c main_v14_0 : FVec Ideal S1x1024 .f32) (ix2 (0 : Fin 1) k) = _
  rw [e1]
  exact step_hidden_array m c k

/-- The projection matrix the second kernel reads is the argument. -/
theorem vocabW_eq : vocabW m c outs = projW m c :=
  funext fun v => funext fun k => congrFun (HostValue.proj_matrix_kept m outs c) (ix2 v k)

/-- The bias row the second kernel reads is the argument. -/
theorem vocabB_eq : vocabB m c outs = projB m c :=
  funext fun v => HostValue.bias_row_apply m outs c v

/-! ### The log-probabilities, as returned -/

/-- The returned log-probabilities are the specification's log-softmax of the new hidden state's vocabulary logits,
    once the second kernel's three result arrays hold those logits, their maximum and their normaliser. -/
theorem logprob_result (h11 : ∀ c, outs 2 main_v14_0 c = (Step.dat (F := Ideal) (Step.E1 m) c).arrAt 11 cfg0.N)
    (hlogit : ∀ v : Fin 50257, (V4 m outs c main_v16_0 : FVec Ideal S1x50257 .f32) (ix2 (0 : Fin 1) v)
      = Cert.Spec.vlogit (vocabX m c outs) (vocabW m c outs) (vocabB m c outs) v)
    (hmax : (V4 m outs c main_v16_1 : FVec Ideal S1x1 .f32) (ix2 (0 : Fin 1) (0 : Fin 1))
      = Cert.Spec.vmax (vocabX m c outs) (vocabW m c outs) (vocabB m c outs))
    (hsum : (V4 m outs c main_v16_2 : FVec Ideal S1x1 .f32) (ix2 (0 : Fin 1) (0 : Fin 1))
      = Cert.Spec.vsum (vocabX m c outs) (vocabW m c outs) (vocabB m c outs))
    (v : Fin 50257) :
    (V5 m outs c main_v21 : FVec Ideal S1x50257 .f32) (ix2 (0 : Fin 1) v)
      = Cert.Spec.logprob (newHidden m c) (projW m c) (projB m c) v := by
  refine (HostValue.logprob_apply m outs c _ _ _ rfl rfl rfl v).trans ?_
  rw [hlogit v, hmax, hsum, vocabX_eq m c outs h11, vocabW_eq m c outs, vocabB_eq m c outs]
  rfl

end Results

/-! ### Under the precondition everything is finite -/

section Finite

variable (hpre : Cert.Pre_KernelIdeal m)

/-- Every entry of the embedded row is an entry of the embedding table. -/
theorem embedded_mem (k : Fin 1024) : ∃ i : S50257x1024.Idx,
    embedded m c k = (m ((c : Thread nD τ).loc main_arg3) : FVec Ideal S50257x1024 .f32) i := by
  unfold embedded HostValue.embRow Host.dynamicSlice extractStridedSlice
  exact ⟨_, rfl⟩

include hpre in
theorem embedded_real (k : Fin 1024) : IsReal (embedded m c k) := by
  obtain ⟨i, hi⟩ := embedded_mem m c k
  rw [hi]
  exact (Cert.FiniteArgs.finite_args m hpre c).2.2.1 i

include hpre in
theorem hidden_real (k : Fin 1024) : IsReal (hidden m c k) := (Cert.FiniteArgs.finite_args m hpre c).1 _
include hpre in
theorem encoder_real (j : Fin 18) (k : Fin 1024) : IsReal (encoder m c j k) :=
  (Cert.FiniteArgs.finite_args m hpre c).2.1 _
include hpre in
theorem attnW_real (j : Fin 18) (k : Fin 2048) : IsReal (attnW m c j k) :=
  (Cert.FiniteArgs.finite_args m hpre c).2.2.2.1 _
include hpre in
theorem attnB_real (j : Fin 18) : IsReal (attnB m c j) := (Cert.FiniteArgs.finite_args m hpre c).2.2.2.2.1 _
include hpre in
theorem combW_real (r : Fin 1024) (k : Fin 2048) : IsReal (combW m c r k) :=
  (Cert.FiniteArgs.finite_args m hpre c).2.2.2.2.2.1 _
include hpre in
theorem combB_real (r : Fin 1024) : IsReal (combB m c r) := (Cert.FiniteArgs.finite_args m hpre c).2.2.2.2.2.2.1 _
include hpre in
theorem gateWih_real (g : Fin 3072) (k : Fin 1024) : IsReal (gateWih m c g k) :=
  (Cert.FiniteArgs.finite_args m hpre c).2.2.2.2.2.2.2.1 _
include hpre in
theorem gateWhh_real (g : Fin 3072) (k : Fin 1024) : IsReal (gateWhh m c g k) :=
  (Cert.FiniteArgs.finite_args m hpre c).2.2.2.2.2.2.2.2.1 _
include hpre in
theorem gateBih_real (g : Fin 3072) : IsReal (gateBih m c g) :=
  (Cert.FiniteArgs.finite_args m hpre c).2.2.2.2.2.2.2.2.2.1 _
include hpre in
theorem gateBhh_real (g : Fin 3072) : IsReal (gateBhh m c g) :=
  (Cert.FiniteArgs.finite_args m hpre c).2.2.2.2.2.2.2.2.2.2.1 _
include hpre in
theorem projW_real (v : Fin 50257) (k : Fin 1024) : IsReal (projW m c v k) :=
  (Cert.FiniteArgs.finite_args m hpre c).2.2.2.2.2.2.2.2.2.2.2.1 _
include hpre in
theorem projB_real (v : Fin 50257) : IsReal (projB m c v) :=
  (Cert.FiniteArgs.finite_args m hpre c).2.2.2.2.2.2.2.2.2.2.2.2 _

include hpre in
/-- The specification's new hidden state is finite. -/
theorem newHidden_real (k : Fin 1024) : IsReal (newHidden m c k) :=
  Cert.SpecReal.isReal_hnew (embedded_real m c hpre) (hidden_real m c hpre) (encoder_real m c hpre)
    (attnW_real m c hpre) (attnB_real m c hpre) (combW_real m c hpre) (combB_real m c hpre)
    (gateWih_real m c hpre) (gateBih_real m c hpre) (gateWhh_real m c hpre) (gateBhh_real m c hpre) k

end Finite

end Cert.KernelIdeal.KernelValue

end
-- ==== Proof.KI.Tile.VocabArrays.lean ====
import proofs.«160432_j12232066859333_1_alg».proof.Proof.KI.TileObligation
import Idealize.ShloMosaic.Lib.Pipeline.Value

/-!
# The vocabulary projection's result arrays after its launch

Thirteen tiles of 4096 columns over the 50257 columns of the projection. The state row's block is its whole array; a
row of the matrix tile (a column of the bias tile) that lies inside the vocabulary is that row of the projection
matrix (that entry of the bias). The two one-by-one results are written back once, at the last tile, with the two
carried cells. The logits array is written back tile by tile, the last write-back cut at the array's end, and column
`v` is covered by tile `v / 4096`: so the logits array holds every vocabulary logit, and the two results the largest
logit and the softmax normaliser against it.
-/

set_option maxRecDepth 16384

noncomputable section

namespace Cert.KernelIdeal.VocabValue

open Cert.KernelIdeal Cert.KernelIdeal.Gen Cert.KernelIdeal.Tile Cert.KernelIdeal.Vocab
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The schedule's index maps, decided over the thirteen tiles -/

/-- The matrix tile moves down the rows with the tile number; -/
theorem index_W : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
/-- the bias tile and -/
theorem index_b : ∀ t : Fin cfg1.N, win1_2.index t (0 : Fin 2) = 0 ∧ win1_2.index t (1 : Fin 2) = t.val :=
  (by decide +kernel : ∀ t : Fin grid1.N, win1_2.index t (0 : Fin 2) = 0 ∧ win1_2.index t (1 : Fin 2) = t.val)
/-- the logits tile move along the columns with it. -/
theorem index_logits : ∀ t : Fin cfg1.N, win1_3.index t (0 : Fin 2) = 0 ∧ win1_3.index t (1 : Fin 2) = t.val :=
  (by decide +kernel : ∀ t : Fin grid1.N, win1_3.index t (0 : Fin 2) = 0 ∧ win1_3.index t (1 : Fin 2) = t.val)
/-- How much of each logits tile is written back: all 4096 columns, or what is left of the 50257. -/
theorem moved_cols_logits : ∀ (t : Fin cfg1.N) (a : Fin (cfg1.win 3).shape.rank),
    (cfg1.win 3).xsize (grid1.coords t) a = if a.val = 0 then 1 else min 4096 (50257 - 4096 * t.val) := by decide +kernel

/-! ## The operand blocks read at an index -/

/-- The state row's block is its whole array, at every tile. -/
theorem xrow_eq (c : Dev nD) (t : Fin cfg1.N) : xrow V c t = V c main_v14_0 := by
  rw [xrow_const]
  unfold xrow iblk
  have hz' : (fun a => win1_0.index t1_0 a * main_v14_0.ty.shape.size a) = fun _ => 0 :=
    funext fun a => by fin_cases a <;> decide
  exact Memref.read_access_unit_zero (Elt Ideal) main_v14_0 hz' (fun a => by rw [congrFun hz' a]; simp) (V c main_v14_0)

/-- A row of the matrix tile inside the vocabulary is that row of the projection matrix. -/
theorem Wt_apply (c : Dev nD) (t : Fin cfg1.N) (r : Fin 4096) (k : Fin 1024) (h : 4096 * t.val + r.val < 50257) :
    Wt V c t (ix2 r k) = (V c main_arg12 : FVec Ideal S50257x1024 .f32) (ix2 (⟨4096 * t.val + r.val, h⟩ : Fin 50257) k) := by
  have hi := index_W t
  unfold Wt Pipeline.Window.fill
  rw [dif_pos (landed_W t r k h)]
  unfold iblk
  rw [View.read_apply]
  show V c main_arg12 _ = V c main_arg12 _
  refine congrArg (V c main_arg12) (funext fun a => Fin.ext ?_)
  match a with
  | ⟨0, _⟩ => show win1_1.index t (0 : Fin 2) * 4096 + 1 * r.val = 4096 * t.val + r.val; rw [hi.1]; omega
  | ⟨1, _⟩ => show win1_1.index t (1 : Fin 2) * 1024 + 1 * k.val = k.val; rw [hi.2]; omega

/-- A column of the bias tile inside the vocabulary is that entry of the bias. -/
theorem bt_apply (c : Dev nD) (t : Fin cfg1.N) (r : Fin 4096) (h : 4096 * t.val + r.val < 50257) :
    bt V c t (ix2 (0 : Fin 1) r) = (V c main_v15 : FVec Ideal S1x50257 .f32) (ix2 (0 : Fin 1) (⟨4096 * t.val + r.val, h⟩ : Fin 50257)) := by
  have hi := index_b t
  unfold bt Pipeline.Window.fill
  rw [dif_pos (landed_b t r h)]
  unfold iblk
  rw [View.read_apply]
  show V c main_v15 _ = V c main_v15 _
  refine congrArg (V c main_v15) (funext fun a => Fin.ext ?_)
  match a with
  | ⟨0, _⟩ => show win1_2.index t (0 : Fin 2) * 1 + 1 * 0 = 0; rw [hi.1]
  | ⟨1, _⟩ => show win1_2.index t (1 : Fin 2) * 4096 + 1 * r.val = 4096 * t.val + r.val; rw [hi.2]; omega

/-! ## The two one-by-one results: one write-back, at the last tile -/

/-- The one write-back of the running maximum's result writes the cell after the last tile. -/
theorem flushed_4 (c : Dev nD) (t : Fin cfg1.N) (hf : (cfg1.win 4).flush t = true) :
    (dat V c).flushed 4 t = ((cfg1.win 4).blk t).view.read (Elt Ideal) (cellMax V c 12) := by
  have hN : cfg1.N = 13 := N_1
  have h12 : t.val = 12 := by have := (flush1_4 t).mp hf; have := t.isLt; omega
  obtain rfl : t = t1_12 := Fin.ext h12
  show (cfg1.win 4).cut (grid1.coords t1_12) ((dat V c).after 4 t1_12) = _
  rw [after_4]
  have hz' : (fun a => win1_4.index t1_12 a * main_v16_1.ty.shape.size a) = fun _ => 0 :=
    funext fun a => by fin_cases a <;> decide
  exact (Memref.read_access_unit_zero (Elt Ideal) main_v16_1 hz' (fun a => by rw [congrFun hz' a]; simp) (cellMax V c 12)).symm

/-- So the running maximum's result array ends holding the cell after the last tile. -/
theorem final_4 (c : Dev nD) : (dat V c).arrAt 4 cfg1.N = cellMax V c 12 :=
  (dat V c).arrAt_eq_of_cover 4 (cellMax V c 12) (flushed_4 V c) fun i =>
    ⟨t1_12, (flush1_4 t1_12).mpr rfl, by
      show i ∈ ((View.whole main_v16_1).slice (win1_4.rect t1_12)).set
      rw [View.set_slice_whole, Rect.mem_set_unit]
      intro a
      have h0 : (i 0 : Nat) < 1 := (i 0).isLt
      have h1 : (i 1 : Nat) < 1 := (i 1).isLt
      match a with
      | ⟨0, _⟩ =>
        show win1_4.index t1_12 0 * win1_4.size 0 ≤ (i 0 : Nat)
          ∧ (i 0 : Nat) < win1_4.index t1_12 0 * win1_4.size 0 + win1_4.xsize (grid1.coords t1_12) 0
        rw [show win1_4.index t1_12 0 * win1_4.size 0 = 0 from by decide +kernel,
          show win1_4.xsize (grid1.coords t1_12) 0 = 1 from by decide +kernel]; omega
      | ⟨1, _⟩ =>
        show win1_4.index t1_12 1 * win1_4.size 1 ≤ (i 1 : Nat)
          ∧ (i 1 : Nat) < win1_4.index t1_12 1 * win1_4.size 1 + win1_4.xsize (grid1.coords t1_12) 1
        rw [show win1_4.index t1_12 1 * win1_4.size 1 = 0 from by decide +kernel,
          show win1_4.xsize (grid1.coords t1_12) 1 = 1 from by decide +kernel]; omega⟩

/-- The one write-back of the running sum's result writes the cell after the last tile. -/
theorem flushed_5 (c : Dev nD) (t : Fin cfg1.N) (hf : (cfg1.win 5).flush t = true) :
    (dat V c).flushed 5 t = ((cfg1.win 5).blk t).view.read (Elt Ideal) (cellSum V c 12) := by
  have hN : cfg1.N = 13 := N_1
  have h12 : t.val = 12 := by have := (flush1_5 t).mp hf; have := t.isLt; omega
  obtain rfl : t = t1_12 := Fin.ext h12
  show (cfg1.win 5).cut (grid1.coords t1_12) ((dat V c).after 5 t1_12) = _
  rw [after_5]
  have hz' : (fun a => win1_5.index t1_12 a * main_v16_2.ty.shape.size a) = fun _ => 0 :=
    funext fun a => by fin_cases a <;> decide
  exact (Memref.read_access_unit_zero (Elt Ideal) main_v16_2 hz' (fun a => by rw [congrFun hz' a]; simp) (cellSum V c 12)).symm

/-- So the running sum's result array ends holding the cell after the last tile. -/
theorem final_5 (c : Dev nD) : (dat V c).arrAt 5 cfg1.N = cellSum V c 12 :=
  (dat V c).arrAt_eq_of_cover 5 (cellSum V c 12) (flushed_5 V c) fun i =>
    ⟨t1_12, (flush1_5 t1_12).mpr rfl, by
      show i ∈ ((View.whole main_v16_2).slice (win1_5.rect t1_12)).set
      rw [View.set_slice_whole, Rect.mem_set_unit]
      intro a
      have h0 : (i 0 : Nat) < 1 := (i 0).isLt
      have h1 : (i 1 : Nat) < 1 := (i 1).isLt
      match a with
      | ⟨0, _⟩ =>
        show win1_5.index t1_12 0 * win1_5.size 0 ≤ (i 0 : Nat)
          ∧ (i 0 : Nat) < win1_5.index t1_12 0 * win1_5.size 0 + win1_5.xsize (grid1.coords t1_12) 0
        rw [show win1_5.index t1_12 0 * win1_5.size 0 = 0 from by decide +kernel,
          show win1_5.xsize (grid1.coords t1_12) 0 = 1 from by decide +kernel]; omega
      | ⟨1, _⟩ =>
        show win1_5.index t1_12 1 * win1_5.size 1 ≤ (i 1 : Nat)
          ∧ (i 1 : Nat) < win1_5.index t1_12 1 * win1_5.size 1 + win1_5.xsize (grid1.coords t1_12) 1
        rw [show win1_5.index t1_12 1 * win1_5.size 1 = 0 from by decide +kernel,
          show win1_5.xsize (grid1.coords t1_12) 1 = 1 from by decide +kernel]; omega⟩

/-! ## The logits array: every tile's write-back, the last one cut at the array's end -/

/-- The tile a vocabulary column falls in. -/
def tileOf (v : Fin 50257) : Fin cfg1.N :=
  ⟨v.val / 4096, by have := v.isLt; have hN : cfg1.N = 13 := N_1; omega⟩

/-- The column inside its tile. -/
def colOf (v : Fin 50257) : Fin 4096 := ⟨v.val % 4096, Nat.mod_lt _ (by decide)⟩

theorem tileOf_val (v : Fin 50257) : (tileOf v).val = v.val / 4096 := rfl
theorem colOf_val (v : Fin 50257) : (colOf v).val = v.val % 4096 := rfl

/-- The masked logits the body leaves at tile `t`. -/
def tileLogits (c : Dev nD) (t : Fin cfg1.N) : Vec Ideal S1x4096 .f32 :=
  k1_pay5 (F := Ideal) (cfg1.grid.coords t) (xrow V c t) (Wt V c t) (bt V c t)

theorem after_logits (c : Dev nD) (t : Fin cfg1.N) : (dat V c).after 3 t = tileLogits V c t := after_3 V c t

/-- The logits array as one function of its index: column `v` holds entry `v mod 4096` of tile `v / 4096`. -/
def logitsG (c : Dev nD) : FVec Ideal S1x50257 .f32 := fun i =>
  tileLogits V c (tileOf ⟨(i 1).val, idx2_lt1 i⟩) (ix2 (0 : Fin 1) (colOf ⟨(i 1).val, idx2_lt1 i⟩))

/-- At a column written `4096 t + r` it is entry `r` of tile `t`. -/
theorem logitsG_at (c : Dev nD) (t : Fin cfg1.N) (r : Fin 4096) (i : S1x50257.Idx)
    (hi : (i 1).val = 4096 * t.val + r.val) :
    logitsG V c i = tileLogits V c t (ix2 (0 : Fin 1) r) := by
  have ht : tileOf ⟨(i 1).val, idx2_lt1 i⟩ = t :=
    Fin.ext (by show (i 1).val / 4096 = t.val; have := r.isLt; omega)
  have hr : colOf ⟨(i 1).val, idx2_lt1 i⟩ = r :=
    Fin.ext (by show (i 1).val % 4096 = r.val; have := r.isLt; omega)
  unfold logitsG
  rw [ht, hr]

/-- What tile `t` writes back is its block of that function. -/
theorem flushed_3 (c : Dev nD) (t : Fin cfg1.N) :
    (dat V c).flushed 3 t = ((cfg1.win 3).blk t).view.read (Elt Ideal) (logitsG V c) := by
  show (cfg1.win 3).cut (grid1.coords t) ((dat V c).after 3 t) = _
  rw [after_logits]
  funext j
  have hx0 : (cfg1.win 3).xsize (grid1.coords t) 0 = 1 := (moved_cols_logits t 0).trans (if_pos rfl)
  have hx1 : (cfg1.win 3).xsize (grid1.coords t) 1 = min 4096 (50257 - 4096 * t.val) :=
    (moved_cols_logits t 1).trans (if_neg Nat.one_ne_zero)
  have hj0 : (j 0).val < 1 := lt_of_lt_of_eq (j 0).isLt hx0
  have hj1 : (j 1).val < min 4096 (50257 - 4096 * t.val) := lt_of_lt_of_eq (j 1).isLt hx1
  have hi := index_logits t
  rw [View.read_apply]
  show tileLogits V c t ((cfg1.win 3).xinj (grid1.coords t) j) = logitsG V c (((cfg1.win 3).blk t).view.emb j)
  rw [logitsG_at V c t ⟨(j 1).val, by omega⟩ _
    (by show win1_3.index t (1 : Fin 2) * 4096 + 1 * (j 1).val = 4096 * t.val + (j 1).val; rw [hi.2]; omega)]
  refine congrArg (tileLogits V c t) (funext fun a => Fin.ext ?_)
  match a with
  | ⟨0, _⟩ => show (j 0).val = 0; omega
  | ⟨1, _⟩ => rfl

/-- An index of the logits array is in tile `t`'s block iff each coordinate is in the block's range cut at the array's end. -/
theorem mem_blk_logits (t : Fin cfg1.N) (i : S1x50257.Idx) :
    i ∈ ((cfg1.win 3).blk t).view.set
      ↔ ∀ a : Fin 2, win1_3.index t a * S1x4096.size a ≤ (i a).val
          ∧ (i a).val < win1_3.index t a * S1x4096.size a + (cfg1.win 3).xsize (grid1.coords t) a := by
  show i ∈ ((View.whole main_v16_0).slice (win1_3.rect t)).set ↔ _
  rw [View.set_slice_whole, Rect.mem_set_unit]
  exact Iff.rfl

/-- Column `v` is covered by tile `v / 4096`. -/
theorem cover_logits (i : S1x50257.Idx) :
    ∃ t : Fin cfg1.N, (cfg1.win 3).flush t = true ∧ i ∈ ((cfg1.win 3).blk t).view.set := by
  have h0 : (i 0).val < 1 := (i 0).isLt
  have h1 : (i 1).val < 50257 := (i 1).isLt
  refine ⟨tileOf ⟨(i 1).val, h1⟩, flush1_3 _, ?_⟩
  rw [mem_blk_logits]
  have hi := index_logits (tileOf ⟨(i 1).val, h1⟩)
  have ht : (tileOf ⟨(i 1).val, h1⟩).val = (i 1).val / 4096 := rfl
  intro a
  rw [moved_cols_logits]
  match a with
  | ⟨0, _⟩ =>
    show win1_3.index _ (0 : Fin 2) * 1 ≤ (i 0).val ∧ (i 0).val < win1_3.index _ (0 : Fin 2) * 1 + (if (0 : ℕ) = 0 then 1 else _)
    rw [hi.1, if_pos rfl]; omega
  | ⟨1, _⟩ =>
    show win1_3.index _ (1 : Fin 2) * 4096 ≤ (i 1).val ∧ (i 1).val < win1_3.index _ (1 : Fin 2) * 4096 + (if (1 : ℕ) = 0 then _ else _)
    rw [hi.2, if_neg Nat.one_ne_zero, ht]; omega

/-- So the logits array ends holding that function. -/
theorem final_3 (c : Dev nD) : (dat V c).arrAt 3 cfg1.N = logitsG V c :=
  (dat V c).arrAt_eq_of_cover 3 (logitsG V c) (fun t _ => flushed_3 V c t) (cover_logits)

/-- The logits array at vocabulary column `v`: entry `v mod 4096` of what tile `v / 4096` left. -/
theorem logits_array_tile (c : Dev nD) (v : Fin 50257) :
    ((dat V c).arrAt 3 cfg1.N : FVec Ideal S1x50257 .f32) (ix2 (0 : Fin 1) v)
      = k1_pay5 (F := Ideal) (cfg1.grid.coords (tileOf v)) (xrow V c (tileOf v)) (Wt V c (tileOf v)) (bt V c (tileOf v))
          (ix2 (0 : Fin 1) (colOf v)) := by
  rw [final_3]
  exact logitsG_at V c (tileOf v) (colOf v) (ix2 (0 : Fin 1) v)
    (by show v.val = 4096 * (v.val / 4096) + v.val % 4096; exact (Nat.div_add_mod v.val 4096).symm)

/-! ## The three results as the specification's functions of the operand arrays -/

section Targets

variable (c : Dev nD)

/-- The vocabulary logits array after the launch: the specification's logits of the state row, the projection matrix
    and the bias as the launch finds them. -/
theorem logits_array (v : Fin 50257) :
    ((dat V c).arrAt 3 cfg1.N : FVec Ideal S1x50257 .f32) (ix2 (0 : Fin 1) v)
      = Cert.Spec.vlogit (fun k => (V c main_v14_0 : FVec Ideal S1x1024 .f32) (ix2 (0 : Fin 1) k))
          (fun v k => (V c main_arg12 : FVec Ideal S50257x1024 .f32) (ix2 v k))
          (fun v => (V c main_v15 : FVec Ideal S1x50257 .f32) (ix2 (0 : Fin 1) v)) v := by
  rw [logits_array_tile]
  have hv : 4096 * (tileOf v).val + (colOf v).val < 50257 := by
    rw [tileOf_val, colOf_val, Nat.div_add_mod]; exact v.isLt
  refine (masked_logits_spec (xrow V c (tileOf v)) (Wt V c) (bt V c)
    (fun v k => (V c main_arg12 : FVec Ideal S50257x1024 .f32) (ix2 v k))
    (fun v => (V c main_v15 : FVec Ideal S1x50257 .f32) (ix2 (0 : Fin 1) v))
    (fun t r k h => Wt_apply V c t r k h) (fun t r h => bt_apply V c t r h) (tileOf v) (colOf v)).trans ?_
  rw [dif_pos hv, xrow_eq]
  exact congrArg _ (Fin.ext (by show 4096 * (v.val / 4096) + v.val % 4096 = v.val; exact Nat.div_add_mod v.val 4096))

variable (hx : ∀ k, Cert.OnlineSoftmax.IsReal ((V c main_v14_0 : FVec Ideal S1x1024 .f32) (ix2 (0 : Fin 1) k)))
  (hW : ∀ v k, Cert.OnlineSoftmax.IsReal ((V c main_arg12 : FVec Ideal S50257x1024 .f32) (ix2 v k)))
  (hb : ∀ v, Cert.OnlineSoftmax.IsReal ((V c main_v15 : FVec Ideal S1x50257 .f32) (ix2 (0 : Fin 1) v)))
include hx hW hb

/-- The running maximum's result after the launch: the largest vocabulary logit. -/
theorem max_array :
    ((dat V c).arrAt 4 cfg1.N : FVec Ideal S1x1 .f32) (ix2 (0 : Fin 1) (0 : Fin 1))
      = Cert.Spec.vmax (fun k => (V c main_v14_0 : FVec Ideal S1x1024 .f32) (ix2 (0 : Fin 1) k))
          (fun v k => (V c main_arg12 : FVec Ideal S50257x1024 .f32) (ix2 v k))
          (fun v => (V c main_v15 : FVec Ideal S1x50257 .f32) (ix2 (0 : Fin 1) v)) := by
  rw [final_4]
  unfold cellMax
  rw [xrow_eq]
  exact cellM_last (V c main_v14_0) (Wt V c) (bt V c) _ _
    (fun t r k h => Wt_apply V c t r k h) (fun t r h => bt_apply V c t r h) hx hW hb

/-- The running sum's result after the launch: the softmax normaliser of the vocabulary logits. -/
theorem sum_array :
    ((dat V c).arrAt 5 cfg1.N : FVec Ideal S1x1 .f32) (ix2 (0 : Fin 1) (0 : Fin 1))
      = Cert.Spec.vsum (fun k => (V c main_v14_0 : FVec Ideal S1x1024 .f32) (ix2 (0 : Fin 1) k))
          (fun v k => (V c main_arg12 : FVec Ideal S50257x1024 .f32) (ix2 v k))
          (fun v => (V c main_v15 : FVec Ideal S1x50257 .f32) (ix2 (0 : Fin 1) v)) := by
  rw [final_5]
  unfold cellSum
  rw [xrow_eq]
  exact cellL_last (V c main_v14_0) (Wt V c) (bt V c) _ _
    (fun t r k h => Wt_apply V c t r k h) (fun t r h => bt_apply V c t r h) hx hW hb

end Targets

end Cert.KernelIdeal.VocabValue

end
-- ==== Proof.KI.KernelResults.lean ====
import proofs.«160432_j12232066859333_1_alg».proof.Proof.KI.KernelValue
import proofs.«160432_j12232066859333_1_alg».proof.Proof.KI.Tile.VocabArrays
import proofs.«160432_j12232066859333_1_alg».proof.Proof.KI.Run

/-!
# The program's three results, under the precondition alone

With what the two kernels leave in their result arrays pinned to what their write-backs leave, the second kernel's
three arrays hold the vocabulary logits of the state row it is entered with, their maximum and their softmax
normaliser; that state row is the specification's new hidden state, which the precondition makes finite. So the
returned log-probabilities are the specification's, and at the run's own contents of the result arrays the three
results of the program are the specification's functions of the launch memory: entry by entry, and as whole arrays.
-/

noncomputable section

namespace Cert.KernelIdeal.KernelValue

open Idealize.ShloMosaic Idealize.ShloMosaic.TcCoe Idealize.ShloMosaic.ValueIdx
open Cert.KernelIdeal Cert.KernelIdeal.Gen
open Cert.OnlineSoftmax (IsReal)
open scoped BigOperators

/-! ### The log-probabilities from the pinned result arrays -/

/-- The returned log-probabilities are the specification's, once the five result arrays of the two kernels are what
    the kernels' write-backs leave. -/
theorem logprob_result' (m : (ℓ : Loc nD τ sig) → Buf (Elt Ideal) ℓ) (c : Dev nD) (outs : Gen.Outs (F := Ideal))
    (h11 : ∀ c, outs 2 main_v14_0 c = (Step.dat (F := Ideal) (Step.E1 m) c).arrAt 11 cfg0.N)
    (h3 : ∀ c, outs 4 main_v16_0 c = (Vocab.datT m outs c).arrAt 3 cfg1.N)
    (h4 : ∀ c, outs 4 main_v16_1 c = (Vocab.datT m outs c).arrAt 4 cfg1.N)
    (h5 : ∀ c, outs 4 main_v16_2 c = (Vocab.datT m outs c).arrAt 5 cfg1.N)
    (hpre : Cert.Pre_KernelIdeal m) (v : Fin 50257) :
    (V5 m outs c main_v21 : FVec Ideal S1x50257 .f32) (ix2 (0 : Fin 1) v)
      = Cert.Spec.logprob (newHidden m c) (projW m c) (projB m c) v := by
  have hx : ∀ k, IsReal ((Vocab.E3 m outs c main_v14_0 : FVec Ideal S1x1024 .f32) (ix2 (0 : Fin 1) k)) := fun k => by
    show IsReal (vocabX m c outs k)
    rw [vocabX_eq m c outs h11]
    exact newHidden_real m c hpre k
  have hW : ∀ v k, IsReal ((Vocab.E3 m outs c main_arg12 : FVec Ideal S50257x1024 .f32) (ix2 v k)) := fun v k => by
    show IsReal (vocabW m c outs v k)
    rw [vocabW_eq m c outs]
    exact projW_real m c hpre v k
  have hb : ∀ v, IsReal ((Vocab.E3 m outs c main_v15 : FVec Ideal S1x50257 .f32) (ix2 (0 : Fin 1) v)) := fun v => by
    show IsReal (vocabB m c outs v)
    rw [vocabB_eq m c outs]
    exact projB_real m c hpre v
  have e3 : V4 m outs c main_v16_0 = (Vocab.datT m outs c).arrAt 3 cfg1.N := (Vocab.V4_logits m outs c).trans (h3 c)
  have e4 : V4 m outs c main_v16_1 = (Vocab.datT m outs c).arrAt 4 cfg1.N := (Vocab.V4_max m outs c).trans (h4 c)
  have e5 : V4 m outs c main_v16_2 = (Vocab.datT m outs c).arrAt 5 cfg1.N := (Vocab.V4_sum m outs c).trans (h5 c)
  refine logprob_result m c outs h11 (fun v => ?_) ?_ ?_ v
  · rw [e3]
    exact VocabValue.logits_array (Vocab.E3 m outs) c v
  · rw [e4]
    exact VocabValue.max_array (Vocab.E3 m outs) c hx hW hb
  · rw [e5]
    exact VocabValue.sum_array (Vocab.E3 m outs) c hx hW hb

/-! ### The three results at the run's own contents of the result arrays -/

/-- The returned attention weights. -/
theorem attn_final (m : (ℓ : Loc nD τ sig) → Buf (Elt Ideal) ℓ) (c : Dev nD) (j : Fin 18) :
    (V5 m (Whole.outs m) c main_v14_1 : FVec Ideal S1x18 .f32) (ix2 (0 : Fin 1) j)
      = Cert.Spec.attn (embedded m c) (hidden m c) (attnW m c) (attnB m c) j :=
  attn_result m c (Whole.outs m) (Whole.pin_weights m) j

/-- The returned hidden state. -/
theorem hidden_final (m : (ℓ : Loc nD τ sig) → Buf (Elt Ideal) ℓ) (c : Dev nD) (k : Fin 1024) :
    (V5 m (Whole.outs m) c main_v22 : FVec Ideal S1x1x1024 .f32) (ix3 (0 : Fin 1) (0 : Fin 1) k) = newHidden m c k :=
  hidden_result m c (Whole.outs m) (Whole.pin_hidden m) k

/-- The returned log-probabilities, under the precondition. -/
theorem logprob_final (m : (ℓ : Loc nD τ sig) → Buf (Elt Ideal) ℓ) (hpre : Cert.Pre_KernelIdeal m) (c : Dev nD)
    (v : Fin 50257) :
    (V5 m (Whole.outs m) c main_v21 : FVec Ideal S1x50257 .f32) (ix2 (0 : Fin 1) v)
      = Cert.Spec.logprob (newHidden m c) (projW m c) (projB m c) v :=
  logprob_result' m c (Whole.outs m) (Whole.pin_hidden m) (Whole.pin_logits m) (Whole.pin_max m) (Whole.pin_sum m)
    hpre v

/-! ### The same three as whole arrays -/

/-- The returned attention weights, as an array over `[1, 18]`. -/
theorem attn_final_array (m : (ℓ : Loc nD τ sig) → Buf (Elt Ideal) ℓ) (c : Dev nD) :
    (V5 m (Whole.outs m) c main_v14_1 : FVec Ideal S1x18 .f32)
      = fun i : S1x18.Idx => Cert.Spec.attn (embedded m c) (hidden m c) (attnW m c) (attnB m c) (i 1) := by
  funext i
  obtain ⟨r, j, rfl⟩ : ∃ (r : Fin 1) (j : Fin 18), i = ix2 r j := ⟨i 0, i 1, eq_ix2 i⟩
  obtain rfl : r = 0 := Subsingleton.elim _ _
  exact attn_final m c j

/-- The returned hidden state, as an array over `[1, 1, 1024]`. -/
theorem hidden_final_array (m : (ℓ : Loc nD τ sig) → Buf (Elt Ideal) ℓ) (c : Dev nD) :
    (V5 m (Whole.outs m) c main_v22 : FVec Ideal S1x1x1024 .f32)
      = fun i : S1x1x1024.Idx => newHidden m c (i 2) := by
  funext i
  obtain ⟨r, s, k, rfl⟩ : ∃ (r s : Fin 1) (k : Fin 1024), i = ix3 r s k := ⟨i 0, i 1, i 2, eq_ix3 i⟩
  obtain rfl : r = 0 := Subsingleton.elim _ _
  obtain rfl : s = 0 := Subsingleton.elim _ _
  exact hidden_final m c k

/-- The returned log-probabilities, as an array over `[1, 50257]`, under the precondition. -/
theorem logprob_final_array (m : (ℓ : Loc nD τ sig) → Buf (Elt Ideal) ℓ) (hpre : Cert.Pre_KernelIdeal m)
    (c : Dev nD) :
    (V5 m (Whole.outs m) c main_v21 : FVec Ideal S1x50257 .f32)
      = fun i : S1x50257.Idx => Cert.Spec.logprob (newHidden m c) (projW m c) (projB m c) (i 1) := by
  funext i
  obtain ⟨r, v, rfl⟩ : ∃ (r : Fin 1) (v : Fin 50257), i = ix2 r v := ⟨i 0, i 1, eq_ix2 i⟩
  obtain rfl : r = 0 := Subsingleton.elim _ _
  exact logprob_final m hpre c v

end Cert.KernelIdeal.KernelValue

end
-- ==== Proof.RefV.EmbeddedRow.lean ====
import proofs.«160432_j12232066859333_1_alg».proof.Proof.Ref.Stages
import proofs.«160432_j12232066859333_1_alg».proof.Proof.Spec
import proofs.«160432_j12232066859333_1_alg».proof.Proof.KI.Step.LibConcatColumns

/-!
# The reference's two input rows, and the two side by side

The reference takes one row out of the embedding table — the row the token id names, a negative id counting from the
end of the table, from column zero — and drops the leading unit axis of the previous hidden state. The embedded row is
kept as one named slice of the table; its second start index, spelled in the program as a choice between constants, is
the zero word. Joined along the columns, the two rows are the specification's side-by-side row of 2048.
-/

noncomputable section

namespace Cert.ReferenceIdeal.RefValue

open Cert.ReferenceIdeal Cert.ReferenceIdeal.Gen Cert.ReferenceIdeal.ReadP
open Idealize.ShloMosaic Idealize.ShloMosaic.ValueIdx
open scoped BigOperators

variable (a0 : IVec S1 32) (a1 : FVec Ideal S1x1x1024 .f32) (a3 : FVec Ideal S50257x1024 .f32)

/-- The row of the embedding table the token id selects, as the reference slices it out. -/
def embRow' : FVec Ideal S1x1024 .f32 := val_main_v7 (F := Ideal) a0 a3

/-- The reference's second start index — a choice between `0 + 1024` and `0` on the test `0 < 0` — is the zero word. -/
theorem second_start_eq_zero : val_main_v6 (F := Ideal) = constantI S_ 32 0#32 := by
  funext i
  rfl

/-- The embedded row as a slice whose second start index is spelled as the zero word. -/
theorem embRow'_eq_slice :
    embRow' a0 a3 = Host.dynamicSlice S1x1024 a3
      (fun k => ((![select (cmpi .slt (shapeCast S_ a0 shapeCasts_S1_S_) (constantI S_ 32 0#32))
            (addi (shapeCast S_ a0 shapeCasts_S1_S_) (constantI S_ 32 50257#32)) (shapeCast S_ a0 shapeCasts_S1_S_),
          constantI S_ 32 0#32] : Fin 2 → IVec S_ 32) k (Shape.Idx.first h_S_)).toInt)
      sliceFits_S50257x1024_S1x1024 := by
  unfold embRow' val_main_v7
  rw [second_start_eq_zero]
  rfl

/-- The embedded row, flattened and spread back into a row, reads the slice at the same column. -/
theorem embedded_row_apply (k : Fin 1024) :
    val_main_v9 (F := Ideal) a0 a3 (ix2 (0 : Fin 1) k) = embRow' a0 a3 (ix2 (0 : Fin 1) k) := by
  rw [val_main_v9_apply, val_main_v8_apply]
  show val_main_v7 (F := Ideal) a0 a3 _ = val_main_v7 (F := Ideal) a0 a3 _
  refine congrArg _ (funext fun a => Fin.ext ?_)
  match a with
  | ⟨0, _⟩ => rfl
  | ⟨1, _⟩ => exact Nat.mod_eq_of_lt k.isLt

/-- The previous hidden state with its leading unit axis dropped, at a column. -/
theorem hidden_row_apply (k : Fin 1024) :
    val_main_v10 (F := Ideal) a1 (ix2 (0 : Fin 1) k) = a1 (ix3 (0 : Fin 1) (0 : Fin 1) k) := by
  rw [val_main_v10_apply]
  refine congrArg a1 (funext fun a => Fin.ext ?_)
  match a with
  | ⟨0, _⟩ => rfl
  | ⟨1, _⟩ => rfl
  | ⟨2, _⟩ =>
    show (0 * 1024 + k.val) % 1024 = k.val
    have := k.isLt
    omega

/-- The embedded row and the hidden row joined along the columns: the specification's row of 2048. -/
theorem joined_row_apply (k : Fin 2048) :
    val_main_v11 (F := Ideal) a0 a1 a3 (ix2 (0 : Fin 1) k)
      = Cert.Spec.cat (fun k => embRow' a0 a3 (ix2 (0 : Fin 1) k)) (fun k => a1 (ix3 (0 : Fin 1) (0 : Fin 1) k)) k := by
  unfold val_main_v11
  refine (Cert.Lib.concat_columns_apply _ _ concatenates_S1x1024_S1x1024_S1x2048_d1 rfl (0 : Fin 1) k).trans ?_
  unfold Cert.Spec.cat
  by_cases hk : k.val < 1024
  · simp only [dif_pos hk]
    exact embedded_row_apply a0 a3 ⟨k.val, hk⟩
  · simp only [dif_neg hk]
    exact hidden_row_apply a1 _

end Cert.ReferenceIdeal.RefValue

end
-- ==== Proof.ArgsAgree.lean ====
import proofs.«160432_j12232066859333_1_alg».proof.Proof.KI.KernelResults
import proofs.«160432_j12232066859333_1_alg».proof.Defs
import proofs.«160432_j12232066859333_1_alg».proof.Proof.RefV.EmbeddedRow

/-!
# From memories that agree on the arguments, the two programs' specifications have the same arguments

The claim runs the idealized kernel program and the idealized reference from two memories that agree on the fourteen
argument arrays. Each side's results are the specification's functions of thirteen rows and matrices read off its own
memory: the embedded row (a slice of the embedding table at the row the token id names), the previous hidden state,
and the eleven weight arrays. Since the memories agree on the arguments, the thirteen functions are the same on both
sides, and so is the specification's new hidden state.
-/

noncomputable section

namespace Cert.Proof.ArgsAgree

open Idealize.ShloMosaic Idealize.ShloMosaic.ValueIdx
open Cert.KernelIdeal.KernelValue
open Cert.ReferenceIdeal.RefValue (embRow' embRow'_eq_slice)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories agree on the fourteen argument arrays of core `c`. -/
abbrev Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)

/-- The reference's argument 0 on core `c`. -/
abbrev ra0 : IVec Cert.ReferenceIdeal.S1 32 := m' ((c.tc : Thread Cert.ReferenceIdeal.nD Cert.ReferenceIdeal.τ).loc Cert.ReferenceIdeal.main_arg0)
/-- The reference's argument 1 on core `c`. -/
abbrev ra1 : FVec Ideal Cert.ReferenceIdeal.S1x1x1024 .f32 := m' ((c.tc : Thread Cert.ReferenceIdeal.nD Cert.ReferenceIdeal.τ).loc Cert.ReferenceIdeal.main_arg1)
/-- The reference's argument 2 on core `c`. -/
abbrev ra2 : FVec Ideal Cert.ReferenceIdeal.S18x1024 .f32 := m' ((c.tc : Thread Cert.ReferenceIdeal.nD Cert.ReferenceIdeal.τ).loc Cert.ReferenceIdeal.main_arg2)
/-- The reference's argument 3 on core `c`. -/
abbrev ra3 : FVec Ideal Cert.ReferenceIdeal.S50257x1024 .f32 := m' ((c.tc : Thread Cert.ReferenceIdeal.nD Cert.ReferenceIdeal.τ).loc Cert.ReferenceIdeal.main_arg3)
/-- The reference's argument 4 on core `c`. -/
abbrev ra4 : FVec Ideal Cert.ReferenceIdeal.S18x2048 .f32 := m' ((c.tc : Thread Cert.ReferenceIdeal.nD Cert.ReferenceIdeal.τ).loc Cert.ReferenceIdeal.main_arg4)
/-- The reference's argument 5 on core `c`. -/
abbrev ra5 : FVec Ideal Cert.ReferenceIdeal.S18 .f32 := m' ((c.tc : Thread Cert.ReferenceIdeal.nD Cert.ReferenceIdeal.τ).loc Cert.ReferenceIdeal.main_arg5)
/-- The reference's argument 6 on core `c`. -/
abbrev ra6 : FVec Ideal Cert.ReferenceIdeal.S1024x2048 .f32 := m' ((c.tc : Thread Cert.ReferenceIdeal.nD Cert.ReferenceIdeal.τ).loc Cert.ReferenceIdeal.main_arg6)
/-- The reference's argument 7 on core `c`. -/
abbrev ra7 : FVec Ideal Cert.ReferenceIdeal.S1024 .f32 := m' ((c.tc : Thread Cert.ReferenceIdeal.nD Cert.ReferenceIdeal.τ).loc Cert.ReferenceIdeal.main_arg7)
/-- The reference's argument 8 on core `c`. -/
abbrev ra8 : FVec Ideal Cert.ReferenceIdeal.S3072x1024 .f32 := m' ((c.tc : Thread Cert.ReferenceIdeal.nD Cert.ReferenceIdeal.τ).loc Cert.ReferenceIdeal.main_arg8)
/-- The reference's argument 9 on core `c`. -/
abbrev ra9 : FVec Ideal Cert.ReferenceIdeal.S3072x1024 .f32 := m' ((c.tc : Thread Cert.ReferenceIdeal.nD Cert.ReferenceIdeal.τ).loc Cert.ReferenceIdeal.main_arg9)
/-- The reference's argument 10 on core `c`. -/
abbrev ra10 : FVec Ideal Cert.ReferenceIdeal.S3072 .f32 := m' ((c.tc : Thread Cert.ReferenceIdeal.nD Cert.ReferenceIdeal.τ).loc Cert.ReferenceIdeal.main_arg10)
/-- The reference's argument 11 on core `c`. -/
abbrev ra11 : FVec Ideal Cert.ReferenceIdeal.S3072 .f32 := m' ((c.tc : Thread Cert.ReferenceIdeal.nD Cert.ReferenceIdeal.τ).loc Cert.ReferenceIdeal.main_arg11)
/-- The reference's argument 12 on core `c`. -/
abbrev ra12 : FVec Ideal Cert.ReferenceIdeal.S50257x1024 .f32 := m' ((c.tc : Thread Cert.ReferenceIdeal.nD Cert.ReferenceIdeal.τ).loc Cert.ReferenceIdeal.main_arg12)
/-- The reference's argument 13 on core `c`. -/
abbrev ra13 : FVec Ideal Cert.ReferenceIdeal.S50257 .f32 := m' ((c.tc : Thread Cert.ReferenceIdeal.nD Cert.ReferenceIdeal.τ).loc Cert.ReferenceIdeal.main_arg13)

section Agreements

variable (hag : Agree m m' c)
include hag

/-- The embedded rows agree: the same slice of the same table at the same token id. -/
theorem embedded_agree : (fun k : Fin 1024 => embRow' (ra0 m' c) (ra3 m' c) (ix2 (0 : Fin 1) k)) = embedded m c := by
  funext k
  show embRow' (ra0 m' c) (ra3 m' c) (ix2 (0 : Fin 1) k) = Cert.KernelIdeal.HostValue.embRow m c (ix2 (0 : Fin 1) k)
  rw [embRow'_eq_slice]
  unfold Cert.KernelIdeal.HostValue.embRow ra0 ra3
  rw [hag.1, hag.2.2.2.1]
  rfl

/-- The previous hidden states agree. -/
theorem hidden_agree : (fun k : Fin 1024 => ra1 m' c (ix3 (0 : Fin 1) (0 : Fin 1) k)) = hidden m c :=
  funext fun k => congrFun hag.2.1 (ix3 (0 : Fin 1) (0 : Fin 1) k)

/-- The encoder outputs agree. -/
theorem encoder_agree : (fun (j : Fin 18) (k : Fin 1024) => ra2 m' c (ix2 j k)) = encoder m c :=
  funext fun j => funext fun k => congrFun hag.2.2.1 (ix2 j k)

/-- The attention layer's matrices agree, -/
theorem attnW_agree : (fun (j : Fin 18) (k : Fin 2048) => ra4 m' c (ix2 j k)) = attnW m c :=
  funext fun j => funext fun k => congrFun hag.2.2.2.2.1 (ix2 j k)

/-- and its biases. -/
theorem attnB_agree : (fun j : Fin 18 => ra5 m' c (ix1 j)) = attnB m c :=
  funext fun j => congrFun hag.2.2.2.2.2.1 (ix1 j)

/-- The combining layer's matrices agree, -/
theorem combW_agree : (fun (r : Fin 1024) (k : Fin 2048) => ra6 m' c (ix2 r k)) = combW m c :=
  funext fun r => funext fun k => congrFun hag.2.2.2.2.2.2.1 (ix2 r k)

/-- and its biases. -/
theorem combB_agree : (fun r : Fin 1024 => ra7 m' c (ix1 r)) = combB m c :=
  funext fun r => congrFun hag.2.2.2.2.2.2.2.1 (ix1 r)

/-- The GRU's input-side matrices agree, -/
theorem gateWih_agree : (fun (g : Fin 3072) (k : Fin 1024) => ra8 m' c (ix2 g k)) = gateWih m c :=
  funext fun g => funext fun k => congrFun hag.2.2.2.2.2.2.2.2.1 (ix2 g k)

/-- its hidden-side matrices, -/
theorem gateWhh_agree : (fun (g : Fin 3072) (k : Fin 1024) => ra9 m' c (ix2 g k)) = gateWhh m c :=
  funext fun g => funext fun k => congrFun hag.2.2.2.2.2.2.2.2.2.1 (ix2 g k)

/-- its input-side biases, -/
theorem gateBih_agree : (fun g : Fin 3072 => ra10 m' c (ix1 g)) = gateBih m c :=
  funext fun g => congrFun hag.2.2.2.2.2.2.2.2.2.2.1 (ix1 g)

/-- and its hidden-side biases. -/
theorem gateBhh_agree : (fun g : Fin 3072 => ra11 m' c (ix1 g)) = gateBhh m c :=
  funext fun g => congrFun hag.2.2.2.2.2.2.2.2.2.2.2.1 (ix1 g)

/-- The vocabulary projection's matrices agree, -/
theorem projW_agree : (fun (v : Fin 50257) (k : Fin 1024) => ra12 m' c (ix2 v k)) = projW m c :=
  funext fun v => funext fun k => congrFun hag.2.2.2.2.2.2.2.2.2.2.2.2.1 (ix2 v k)

/-- and its biases. -/
theorem projB_agree : (fun v : Fin 50257 => ra13 m' c (ix1 v)) = projB m c :=
  funext fun v => congrFun hag.2.2.2.2.2.2.2.2.2.2.2.2.2 (ix1 v)

/-- So the specification's new hidden state of the reference's arguments is that of the kernel program's. -/
theorem newHidden_agree :
    Cert.Spec.hnew (fun k : Fin 1024 => embRow' (ra0 m' c) (ra3 m' c) (ix2 (0 : Fin 1) k))
        (fun k : Fin 1024 => ra1 m' c (ix3 (0 : Fin 1) (0 : Fin 1) k))
        (fun (j : Fin 18) (k : Fin 1024) => ra2 m' c (ix2 j k))
        (fun (j : Fin 18) (k : Fin 2048) => ra4 m' c (ix2 j k)) (fun j : Fin 18 => ra5 m' c (ix1 j))
        (fun (r : Fin 1024) (k : Fin 2048) => ra6 m' c (ix2 r k)) (fun r : Fin 1024 => ra7 m' c (ix1 r))
        (fun (g : Fin 3072) (k : Fin 1024) => ra8 m' c (ix2 g k))
        (fun (g : Fin 3072) (k : Fin 1024) => ra9 m' c (ix2 g k))
        (fun g : Fin 3072 => ra10 m' c (ix1 g)) (fun g : Fin 3072 => ra11 m' c (ix1 g))
      = newHidden m c := by
  rw [embedded_agree m m' c hag, hidden_agree m m' c hag, encoder_agree m m' c hag, attnW_agree m m' c hag,
    attnB_agree m m' c hag, combW_agree m m' c hag, combB_agree m m' c hag, gateWih_agree m m' c hag,
    gateWhh_agree m m' c hag, gateBih_agree m m' c hag, gateBhh_agree m m' c hag]

end Agreements

end Cert.Proof.ArgsAgree

end
-- ==== Proof.RefV.RowOfHost.lean ====
import proofs.«160432_j12232066859333_1_alg».proof.Proof.KI.Step.LibMaxReduce
import proofs.«160432_j12232066859333_1_alg».proof.Proof.KI.Step.LibConcatColumns
import Idealize.ShloMosaic.PureOps.Ideal.Laws
import Idealize.ShloMosaic.Lib.ValueIdx

/-!
# A row of extended reals under the host's operations

A `[1, n]` array reduced along its second axis into a `[1]` array by the host's reduction with a maximum body: started
from minus infinity it is the supremum of the row. The f32 words of minus infinity and of one denote `⊥` and `1`.
-/

noncomputable section

namespace Cert.RefRow

open Idealize.ShloMosaic Idealize.ShloMosaic.ValueIdx
open scoped BigOperators

/-- The f32 word of minus infinity denotes `⊥`. -/
theorem ofBits_neg_inf_f32 : Ideal.ofBits .f32 0xFF800000#32 = ⊥ := by simp [Ideal.ofBits, Ideal.ieee]

/-- The f32 word of one denotes `1`. -/
theorem ofBits_one_f32 : Ideal.ofBits .f32 0x3F800000#32 = 1 := by
  simp [Ideal.ofBits, Ideal.ieee, -EReal.coe_mul]; norm_num

/-- The index of the row over the reduced array's one cell with column `k` put back is `(0, k)`. -/
theorem row_lift {n : ℕ} (h : (⟨2, ![1, n]⟩ : Shape).Reduces [1] (⟨1, ![1]⟩ : Shape)) (k : Fin n) :
    h.lift (ix1 (0 : Fin 1)) k = ix2 (0 : Fin 1) k := by
  funext c
  match c with
  | ⟨0, _⟩ => exact Fin.ext rfl
  | ⟨1, _⟩ => exact Fin.ext rfl

/-- The host's reduction of a row with a maximum body, started from minus infinity, is the supremum of the row. -/
theorem hostRowMax_apply {n : ℕ} (x : FVec Ideal ⟨2, ![1, n]⟩ .f32) (init : FVec Ideal ⟨0, ![]⟩ .f32)
    (h' : (⟨2, ![1, n]⟩ : Shape).ReducesTo [1] (⟨1, ![1]⟩ : Shape))
    (h : (⟨2, ![1, n]⟩ : Shape).Reduces [1] (⟨1, ![1]⟩ : Shape))
    (hu : 0 < (⟨0, ![]⟩ : Shape).numel) (hinit : init (Shape.Idx.first hu) = ⊥) :
    Host.reduce FloatOps.maximumf x init h' hu (ix1 (0 : Fin 1))
      = Finset.univ.sup fun k : Fin n => x (ix2 (0 : Fin 1) k) := by
  rw [Host.reduce_eq_fold_single FloatOps.maximumf x init h' h hu, hinit]
  refine (Cert.Lib.fold_max_eq_max_sup _ ⊥ _).trans ?_
  rw [max_eq_right bot_le]
  exact congrArg (Finset.sup Finset.univ) (funext fun k => congrArg x (row_lift h k))

end Cert.RefRow

end
-- ==== Proof.RefV.Attention.lean ====
import proofs.«160432_j12232066859333_1_alg».proof.Proof.Ref.Stages
import proofs.«160432_j12232066859333_1_alg».proof.Proof.Spec
import proofs.«160432_j12232066859333_1_alg».proof.Proof.RefV.RowOfHost
import proofs.«160432_j12232066859333_1_alg».proof.Proof.RefV.EmbeddedRow

/-!
# The reference's attention weights are the specification's

The reference's row of 18 attention logits is the embedded row and the hidden row side by side against each row of the
attention matrix, plus the bias. Its softmax takes the maximum from minus infinity (and once more against minus
infinity) and the normaliser from zero; on the extended reals these are the supremum and the plain sum.
-/

noncomputable section

namespace Cert.ReferenceIdeal.RefValue

open Cert.ReferenceIdeal Cert.ReferenceIdeal.Gen Cert.ReferenceIdeal.ReadP
open Idealize.ShloMosaic Idealize.ShloMosaic.ValueIdx
open scoped BigOperators

variable (a0 : IVec S1 32) (a1 : FVec Ideal S1x1x1024 .f32) (a3 : FVec Ideal S50257x1024 .f32)
  (a4 : FVec Ideal S18x2048 .f32) (a5 : FVec Ideal S18 .f32)

/-- The embedded row as a function of the column. -/
abbrev eRow : Fin 1024 → EReal := fun k => embRow' a0 a3 (ix2 (0 : Fin 1) k)

/-- The previous hidden state as a function of the unit. -/
abbrev hRow : Fin 1024 → EReal := fun k => a1 (ix3 (0 : Fin 1) (0 : Fin 1) k)

/-- A matrix argument as a function of row and column. -/
abbrev mat {n k : ℕ} (a : FVec Ideal ⟨2, ![n, k]⟩ .f32) : Fin n → Fin k → EReal := fun i j => a (ix2 i j)

/-- A vector argument as a function of the position. -/
abbrev vec {n : ℕ} (a : FVec Ideal ⟨1, ![n]⟩ .f32) : Fin n → EReal := fun i => a (ix1 i)

/-- The reference's attention logit of encoder position `j`. -/
theorem logit_apply (j : Fin 18) :
    val_main_v15 (F := Ideal) a0 a1 a3 a4 a5 (ix2 (0 : Fin 1) j)
      = Cert.Spec.logit (eRow a0 a3) (hRow a1) (mat a4) (vec a5) j := by
  rw [val_main_v15_apply, val_main_v13_apply, val_main_v14_apply]
  unfold Cert.Spec.logit
  show (∑ k : Fin 2048, _) + _ = _
  refine congrArg₂ (· + ·) (Finset.sum_congr rfl fun k _ => ?_) ?_
  · have e1 : lidx_main_v13 (ix2 (0 : Fin 1) j) k = ix2 (0 : Fin 1) k :=
      funext fun a => Fin.ext (by match a with | ⟨0, _⟩ => rfl | ⟨1, _⟩ => rfl)
    have e2 : idx_main_v12 (ridx_main_v13 (ix2 (0 : Fin 1) j) k) = ix2 j k :=
      funext fun a => Fin.ext (by match a with | ⟨0, _⟩ => rfl | ⟨1, _⟩ => rfl)
    rw [val_main_v12_apply, e1, e2, joined_row_apply]
  · exact congrArg a5 (funext fun a => Fin.ext (by match a with | ⟨0, _⟩ => rfl))

/-- The reference's largest attention logit. -/
theorem amax_apply :
    val_main_v18 (F := Ideal) a0 a1 a3 a4 a5 (ix1 (0 : Fin 1))
      = Cert.Spec.amax (eRow a0 a3) (hRow a1) (mat a4) (vec a5) := by
  have hmax : val_main_v16 (F := Ideal) a0 a1 a3 a4 a5 (ix1 (0 : Fin 1))
      = Finset.univ.sup fun k : Fin 18 => val_main_v15 (F := Ideal) a0 a1 a3 a4 a5 (ix2 (0 : Fin 1) k) :=
    Cert.RefRow.hostRowMax_apply (n := 18) _ _ reducesTo_S1x18_S1_d1 (by decide) h_S_
      ((val_main_cst_apply _).trans Cert.RefRow.ofBits_neg_inf_f32)
  rw [val_main_v18_apply, val_main_v17_apply, val_main_cst_6_apply, hmax]
  show max (Ideal.ofBits .f32 0xFF800000#32) _ = _
  rw [Cert.RefRow.ofBits_neg_inf_f32, max_eq_right bot_le]
  unfold Cert.Spec.amax
  exact congrArg _ (funext fun j => logit_apply a0 a1 a3 a4 a5 j)

/-- The exponential of a logit against the largest. -/
theorem aexp_apply (j : Fin 18) :
    val_main_v22 (F := Ideal) a0 a1 a3 a4 a5 (ix2 (0 : Fin 1) j)
      = Cert.Spec.aexp (eRow a0 a3) (hRow a1) (mat a4) (vec a5) j := by
  have e : idx_main_v19 (idx_main_v20 (ix2 (0 : Fin 1) j)) = ix1 (0 : Fin 1) :=
    funext fun a => Fin.ext (by match a with | ⟨0, _⟩ => rfl)
  rw [val_main_v22_apply, val_main_v21_apply, val_main_v20_apply, val_main_v19_apply, e, amax_apply, logit_apply]
  rfl

/-- The softmax normaliser. -/
theorem asum_apply :
    val_main_v23 (F := Ideal) a0 a1 a3 a4 a5 (ix1 (0 : Fin 1))
      = ∑ j : Fin 18, Cert.Spec.aexp (eRow a0 a3) (hRow a1) (mat a4) (vec a5) j := by
  rw [val_main_v23_apply, val_main_cst_7_apply]
  show Ideal.ofBits .f32 0x00000000#32 + _ = _
  rw [Ideal.ofBits_zero_f32, zero_add]
  refine Finset.sum_congr rfl fun k _ => ?_
  have e : idx_main_v23 (ix1 (0 : Fin 1)) k = ix2 (0 : Fin 1) k :=
    funext fun a => Fin.ext (by match a with | ⟨0, _⟩ => rfl | ⟨1, _⟩ => rfl)
  rw [e, aexp_apply]

/-- The reference's attention weights (its result %26) are the specification's. -/
theorem attn_apply (j : Fin 18) :
    val_main_v26 (F := Ideal) a0 a1 a3 a4 a5 (ix2 (0 : Fin 1) j)
      = Cert.Spec.attn (eRow a0 a3) (hRow a1) (mat a4) (vec a5) j := by
  have e : idx_main_v24 (idx_main_v25 (ix2 (0 : Fin 1) j)) = ix1 (0 : Fin 1) :=
    funext fun a => Fin.ext (by match a with | ⟨0, _⟩ => rfl)
  rw [val_main_v26_apply, val_main_v25_apply, val_main_v24_apply, e, asum_apply, aexp_apply]
  rfl

end Cert.ReferenceIdeal.RefValue

end
-- ==== Proof.RefV.Preactivations.lean ====
import proofs.«160432_j12232066859333_1_alg».proof.Proof.Ref.Stages
import proofs.«160432_j12232066859333_1_alg».proof.Proof.Spec
import proofs.«160432_j12232066859333_1_alg».proof.Proof.RefV.RowOfHost
import proofs.«160432_j12232066859333_1_alg».proof.Proof.RefV.EmbeddedRow
import proofs.«160432_j12232066859333_1_alg».proof.Proof.RefV.Attention

/-!
# The reference's new hidden state is the specification's

The attended context is the attention weights against the encoder outputs; the combined input is the relu of the
embedded row and the context side by side against each row of the combining matrix, plus its bias; the two rows of
3072 gate pre-activations are the combined input and the hidden row against the gate matrices, plus their biases, cut
into three rows of 1024 (reset, update, new); the gates and the new state follow entry by entry. The reference spells
the logistic function as `1 / (1 + exp (-x))`, with each `1` a constant row.
-/

noncomputable section

namespace Cert.ReferenceIdeal.RefValue

open Cert.ReferenceIdeal Cert.ReferenceIdeal.Gen Cert.ReferenceIdeal.ReadP
open Idealize.ShloMosaic Idealize.ShloMosaic.ValueIdx
open scoped BigOperators

variable (a0 : IVec S1 32) (a1 : FVec Ideal S1x1x1024 .f32) (a2 : FVec Ideal S18x1024 .f32)
  (a3 : FVec Ideal S50257x1024 .f32) (a4 : FVec Ideal S18x2048 .f32) (a5 : FVec Ideal S18 .f32)
  (a6 : FVec Ideal S1024x2048 .f32) (a7 : FVec Ideal S1024 .f32) (a8 a9 : FVec Ideal S3072x1024 .f32)
  (a10 a11 : FVec Ideal S3072 .f32)

/-- The attended context. -/
theorem ctx_apply (k : Fin 1024) :
    val_main_v27 (F := Ideal) a0 a1 a2 a3 a4 a5 (ix2 (0 : Fin 1) k)
      = Cert.Spec.ctx (eRow a0 a3) (hRow a1) (mat a2) (mat a4) (vec a5) k := by
  rw [val_main_v27_apply]
  unfold Cert.Spec.ctx
  refine Finset.sum_congr rfl fun j _ => ?_
  have e1 : lidx_main_v27 (ix2 (0 : Fin 1) k) j = ix2 (0 : Fin 1) j :=
    funext fun a => Fin.ext (by match a with | ⟨0, _⟩ => rfl | ⟨1, _⟩ => rfl)
  have e2 : ridx_main_v27 (ix2 (0 : Fin 1) k) j = ix2 j k :=
    funext fun a => Fin.ext (by match a with | ⟨0, _⟩ => rfl | ⟨1, _⟩ => rfl)
  rw [e1, e2, attn_apply]

/-- The embedded row and the context joined along the columns. -/
theorem joined_ctx_apply (k : Fin 2048) :
    val_main_v28 (F := Ideal) a0 a1 a2 a3 a4 a5 (ix2 (0 : Fin 1) k)
      = Cert.Spec.cat (eRow a0 a3) (Cert.Spec.ctx (eRow a0 a3) (hRow a1) (mat a2) (mat a4) (vec a5)) k := by
  unfold val_main_v28
  refine (Cert.Lib.concat_columns_apply _ _ concatenates_S1x1024_S1x1024_S1x2048_d1 rfl (0 : Fin 1) k).trans ?_
  unfold Cert.Spec.cat
  by_cases hk : k.val < 1024
  · simp only [dif_pos hk]
    exact embedded_row_apply a0 a3 ⟨k.val, hk⟩
  · simp only [dif_neg hk]
    exact ctx_apply a0 a1 a2 a3 a4 a5 _

/-- The combined input, after the relu. -/
theorem comb_apply (r : Fin 1024) :
    val_main_v33 (F := Ideal) a0 a1 a2 a3 a4 a5 a6 a7 (ix2 (0 : Fin 1) r)
      = Cert.Spec.comb (eRow a0 a3) (hRow a1) (mat a2) (mat a4) (vec a5) (mat a6) (vec a7) r := by
  rw [val_main_v33_apply, val_main_v32_apply, val_main_v30_apply, val_main_v31_apply, val_main_call0_v0_apply,
    val_main_call0_cst_apply]
  unfold Cert.Spec.comb
  show max ((∑ k : Fin 2048, _) + _) (Ideal.ofBits .f32 0x00000000#32) = _
  rw [Ideal.ofBits_zero_f32]
  refine congrArg (max · 0) (congrArg₂ (· + ·) (Finset.sum_congr rfl fun k _ => ?_) ?_)
  · have e1 : lidx_main_v30 (ix2 (0 : Fin 1) r) k = ix2 (0 : Fin 1) k :=
      funext fun a => Fin.ext (by match a with | ⟨0, _⟩ => rfl | ⟨1, _⟩ => rfl)
    have e2 : idx_main_v29 (ridx_main_v30 (ix2 (0 : Fin 1) r) k) = ix2 r k :=
      funext fun a => Fin.ext (by match a with | ⟨0, _⟩ => rfl | ⟨1, _⟩ => rfl)
    rw [val_main_v29_apply, e1, e2, joined_ctx_apply]
  · exact congrArg a7 (funext fun a => Fin.ext (by match a with | ⟨0, _⟩ => rfl))

/-- The input-side gate pre-activations. -/
theorem gi_apply (g : Fin 3072) :
    val_main_v37 (F := Ideal) a0 a1 a2 a3 a4 a5 a6 a7 a8 a10 (ix2 (0 : Fin 1) g)
      = Cert.Spec.gi (eRow a0 a3) (hRow a1) (mat a2) (mat a4) (vec a5) (mat a6) (vec a7) (mat a8) (vec a10) g := by
  rw [val_main_v37_apply, val_main_v35_apply, val_main_v36_apply]
  unfold Cert.Spec.gi
  show (∑ k : Fin 1024, _) + _ = _
  refine congrArg₂ (· + ·) (Finset.sum_congr rfl fun k _ => ?_) ?_
  · have e1 : lidx_main_v35 (ix2 (0 : Fin 1) g) k = ix2 (0 : Fin 1) k :=
      funext fun a => Fin.ext (by match a with | ⟨0, _⟩ => rfl | ⟨1, _⟩ => rfl)
    have e2 : idx_main_v34 (ridx_main_v35 (ix2 (0 : Fin 1) g) k) = ix2 g k :=
      funext fun a => Fin.ext (by match a with | ⟨0, _⟩ => rfl | ⟨1, _⟩ => rfl)
    rw [val_main_v34_apply, e1, e2, comb_apply]
  · exact congrArg a10 (funext fun a => Fin.ext (by match a with | ⟨0, _⟩ => rfl))

/-- The hidden-side gate pre-activations. -/
theorem gh_apply (g : Fin 3072) :
    val_main_v41 (F := Ideal) a1 a9 a11 (ix2 (0 : Fin 1) g) = Cert.Spec.gh (hRow a1) (mat a9) (vec a11) g := by
  rw [val_main_v41_apply, val_main_v39_apply, val_main_v40_apply]
  unfold Cert.Spec.gh
  show (∑ k : Fin 1024, _) + _ = _
  refine congrArg₂ (· + ·) (Finset.sum_congr rfl fun k _ => ?_) ?_
  · have e1 : lidx_main_v39 (ix2 (0 : Fin 1) g) k = ix2 (0 : Fin 1) k :=
      funext fun a => Fin.ext (by match a with | ⟨0, _⟩ => rfl | ⟨1, _⟩ => rfl)
    have e2 : idx_main_v38 (ridx_main_v39 (ix2 (0 : Fin 1) g) k) = ix2 g k :=
      funext fun a => Fin.ext (by match a with | ⟨0, _⟩ => rfl | ⟨1, _⟩ => rfl)
    rw [val_main_v38_apply, e1, e2, hidden_row_apply]
  · exact congrArg a11 (funext fun a => Fin.ext (by match a with | ⟨0, _⟩ => rfl))

end Cert.ReferenceIdeal.RefValue

end
-- ==== Proof.RefV.HiddenState.lean ====
import proofs.«160432_j12232066859333_1_alg».proof.Proof.Ref.Stages
import proofs.«160432_j12232066859333_1_alg».proof.Proof.Spec
import proofs.«160432_j12232066859333_1_alg».proof.Proof.RefV.RowOfHost
import proofs.«160432_j12232066859333_1_alg».proof.Proof.RefV.EmbeddedRow
import proofs.«160432_j12232066859333_1_alg».proof.Proof.RefV.Attention
import proofs.«160432_j12232066859333_1_alg».proof.Proof.RefV.Preactivations

/-!
# The reference's gates and new hidden state are the specification's

Each row of 3072 pre-activations is cut into the reset, update and new rows of 1024: entry `k` of row `q` is entry
`1024 q + k`. The reset and update gates are `1 / (1 + exp (-(gi + gh)))`, the candidate is
`tanh (gi + r · gh)`, and the new state is `(1 - z) · n + z · h`; every `1` is the f32 word of one.
-/

noncomputable section

namespace Cert.ReferenceIdeal.RefValue

open Cert.ReferenceIdeal Cert.ReferenceIdeal.Gen Cert.ReferenceIdeal.ReadP
open Idealize.ShloMosaic Idealize.ShloMosaic.ValueIdx
open scoped BigOperators

variable (a0 : IVec S1 32) (a1 : FVec Ideal S1x1x1024 .f32) (a2 : FVec Ideal S18x1024 .f32)
  (a3 : FVec Ideal S50257x1024 .f32) (a4 : FVec Ideal S18x2048 .f32) (a5 : FVec Ideal S18 .f32)
  (a6 : FVec Ideal S1024x2048 .f32) (a7 : FVec Ideal S1024 .f32) (a8 a9 : FVec Ideal S3072x1024 .f32)
  (a10 a11 : FVec Ideal S3072 .f32)

/-- The reset row of the input-side pre-activations. -/
theorem gi_reset_apply (k : Fin 1024) :
    val_main_v42 (F := Ideal) a0 a1 a2 a3 a4 a5 a6 a7 a8 a10 (ix2 (0 : Fin 1) k) = Cert.Spec.gi (eRow a0 a3) (hRow a1) (mat a2) (mat a4) (vec a5) (mat a6) (vec a7) (mat a8) (vec a10) (Cert.Spec.gate 0 k) := by
  have e : idx_main_v42 (ix2 (0 : Fin 1) k) = ix2 (0 : Fin 1) (Cert.Spec.gate 0 k) :=
    funext fun a => Fin.ext (by
      match a with
      | ⟨0, _⟩ => rfl
      | ⟨1, _⟩ => show k.val = 1024 * 0 + k.val; omega)
  rw [val_main_v42_apply, e, gi_apply]

/-- The update row of the input-side pre-activations. -/
theorem gi_update_apply (k : Fin 1024) :
    val_main_v43 (F := Ideal) a0 a1 a2 a3 a4 a5 a6 a7 a8 a10 (ix2 (0 : Fin 1) k) = Cert.Spec.gi (eRow a0 a3) (hRow a1) (mat a2) (mat a4) (vec a5) (mat a6) (vec a7) (mat a8) (vec a10) (Cert.Spec.gate 1 k) := by
  have e : idx_main_v43 (ix2 (0 : Fin 1) k) = ix2 (0 : Fin 1) (Cert.Spec.gate 1 k) :=
    funext fun a => Fin.ext (by
      match a with
      | ⟨0, _⟩ => rfl
      | ⟨1, _⟩ => show 1024 + k.val = 1024 * 1 + k.val; omega)
  rw [val_main_v43_apply, e, gi_apply]

/-- The new row of the input-side pre-activations. -/
theorem gi_new_apply (k : Fin 1024) :
    val_main_v44 (F := Ideal) a0 a1 a2 a3 a4 a5 a6 a7 a8 a10 (ix2 (0 : Fin 1) k) = Cert.Spec.gi (eRow a0 a3) (hRow a1) (mat a2) (mat a4) (vec a5) (mat a6) (vec a7) (mat a8) (vec a10) (Cert.Spec.gate 2 k) := by
  have e : idx_main_v44 (ix2 (0 : Fin 1) k) = ix2 (0 : Fin 1) (Cert.Spec.gate 2 k) :=
    funext fun a => Fin.ext (by
      match a with
      | ⟨0, _⟩ => rfl
      | ⟨1, _⟩ => show 2048 + k.val = 1024 * 2 + k.val; omega)
  rw [val_main_v44_apply, e, gi_apply]

/-- The reset row of the hidden-side pre-activations. -/
theorem gh_reset_apply (k : Fin 1024) :
    val_main_v45 (F := Ideal) a1 a9 a11 (ix2 (0 : Fin 1) k) = Cert.Spec.gh (hRow a1) (mat a9) (vec a11) (Cert.Spec.gate 0 k) := by
  have e : idx_main_v45 (ix2 (0 : Fin 1) k) = ix2 (0 : Fin 1) (Cert.Spec.gate 0 k) :=
    funext fun a => Fin.ext (by
      match a with
      | ⟨0, _⟩ => rfl
      | ⟨1, _⟩ => show k.val = 1024 * 0 + k.val; omega)
  rw [val_main_v45_apply, e, gh_apply]

/-- The update row of the hidden-side pre-activations. -/
theorem gh_update_apply (k : Fin 1024) :
    val_main_v46 (F := Ideal) a1 a9 a11 (ix2 (0 : Fin 1) k) = Cert.Spec.gh (hRow a1) (mat a9) (vec a11) (Cert.Spec.gate 1 k) := by
  have e : idx_main_v46 (ix2 (0 : Fin 1) k) = ix2 (0 : Fin 1) (Cert.Spec.gate 1 k) :=
    funext fun a => Fin.ext (by
      match a with
      | ⟨0, _⟩ => rfl
      | ⟨1, _⟩ => show 1024 + k.val = 1024 * 1 + k.val; omega)
  rw [val_main_v46_apply, e, gh_apply]

/-- The new row of the hidden-side pre-activations. -/
theorem gh_new_apply (k : Fin 1024) :
    val_main_v47 (F := Ideal) a1 a9 a11 (ix2 (0 : Fin 1) k) = Cert.Spec.gh (hRow a1) (mat a9) (vec a11) (Cert.Spec.gate 2 k) := by
  have e : idx_main_v47 (ix2 (0 : Fin 1) k) = ix2 (0 : Fin 1) (Cert.Spec.gate 2 k) :=
    funext fun a => Fin.ext (by
      match a with
      | ⟨0, _⟩ => rfl
      | ⟨1, _⟩ => show 2048 + k.val = 1024 * 2 + k.val; omega)
  rw [val_main_v47_apply, e, gh_apply]

/-- The reset gate. -/
theorem rgate_apply (k : Fin 1024) :
    val_main_v54 (F := Ideal) a0 a1 a2 a3 a4 a5 a6 a7 a8 a9 a10 a11 (ix2 (0 : Fin 1) k) = Cert.Spec.rgate (eRow a0 a3) (hRow a1) (mat a2) (mat a4) (vec a5) (mat a6) (vec a7) (mat a8) (mat a9) (vec a10) (vec a11) k := by
  rw [val_main_v54_apply, val_main_v53_apply, val_main_cst_9_apply, val_main_v52_apply, val_main_v51_apply,
    val_main_cst_8_apply, val_main_v50_apply, val_main_v49_apply, val_main_v48_apply, gi_reset_apply, gh_reset_apply]
  show Ideal.div (Ideal.ofBits .f32 0x3F800000#32) (Ideal.ofBits .f32 0x3F800000#32 + Ideal.exp (-(_ + _))) = _
  rw [Cert.RefRow.ofBits_one_f32]
  rfl

/-- The update gate. -/
theorem zgate_apply (k : Fin 1024) :
    val_main_v61 (F := Ideal) a0 a1 a2 a3 a4 a5 a6 a7 a8 a9 a10 a11 (ix2 (0 : Fin 1) k) = Cert.Spec.zgate (eRow a0 a3) (hRow a1) (mat a2) (mat a4) (vec a5) (mat a6) (vec a7) (mat a8) (mat a9) (vec a10) (vec a11) k := by
  rw [val_main_v61_apply, val_main_v60_apply, val_main_cst_11_apply, val_main_v59_apply, val_main_v58_apply,
    val_main_cst_10_apply, val_main_v57_apply, val_main_v56_apply, val_main_v55_apply, gi_update_apply, gh_update_apply]
  show Ideal.div (Ideal.ofBits .f32 0x3F800000#32) (Ideal.ofBits .f32 0x3F800000#32 + Ideal.exp (-(_ + _))) = _
  rw [Cert.RefRow.ofBits_one_f32]
  rfl

/-- The candidate state. -/
theorem ngate_apply (k : Fin 1024) :
    val_main_v64 (F := Ideal) a0 a1 a2 a3 a4 a5 a6 a7 a8 a9 a10 a11 (ix2 (0 : Fin 1) k) = Cert.Spec.ngate (eRow a0 a3) (hRow a1) (mat a2) (mat a4) (vec a5) (mat a6) (vec a7) (mat a8) (mat a9) (vec a10) (vec a11) k := by
  rw [val_main_v64_apply, val_main_v63_apply, val_main_v62_apply, gi_new_apply, rgate_apply, gh_new_apply]
  rfl

/-- The new hidden state as a row. -/
theorem hnew_row_apply (k : Fin 1024) :
    val_main_v69 (F := Ideal) a0 a1 a2 a3 a4 a5 a6 a7 a8 a9 a10 a11 (ix2 (0 : Fin 1) k) = Cert.Spec.hnew (eRow a0 a3) (hRow a1) (mat a2) (mat a4) (vec a5) (mat a6) (vec a7) (mat a8) (mat a9) (vec a10) (vec a11) k := by
  rw [val_main_v69_apply, val_main_v67_apply, val_main_v66_apply, val_main_v65_apply, val_main_cst_12_apply,
    val_main_v68_apply, zgate_apply, ngate_apply, hidden_row_apply]
  show (Ideal.ofBits .f32 0x3F800000#32 - _) * _ + _ * _ = _
  rw [Cert.RefRow.ofBits_one_f32]
  rfl

/-- The reference's new hidden state (its result %75) is the specification's. -/
theorem hnew_apply (k : Fin 1024) :
    val_main_v75 (F := Ideal) a0 a1 a2 a3 a4 a5 a6 a7 a8 a9 a10 a11 (ix3 (0 : Fin 1) (0 : Fin 1) k) = Cert.Spec.hnew (eRow a0 a3) (hRow a1) (mat a2) (mat a4) (vec a5) (mat a6) (vec a7) (mat a8) (mat a9) (vec a10) (vec a11) k := by
  have e : idx_main_v75 (ix3 (0 : Fin 1) (0 : Fin 1) k) = ix2 (0 : Fin 1) k :=
    funext fun a => Fin.ext (by match a with | ⟨0, _⟩ => rfl | ⟨1, _⟩ => rfl)
  rw [val_main_v75_apply, e, hnew_row_apply]

end Cert.ReferenceIdeal.RefValue

end
-- ==== Proof.RefV.LogProb.lean ====
import proofs.«160432_j12232066859333_1_alg».proof.Proof.Ref.Stages
import proofs.«160432_j12232066859333_1_alg».proof.Proof.Spec
import proofs.«160432_j12232066859333_1_alg».proof.Proof.RefV.RowOfHost

/-!
# The reference's log-probabilities are the specification's, from its own new hidden state

The reference's row of 50257 vocabulary logits is its new hidden state against each row of the projection matrix
(transposed, then contracted), plus the bias. Its log-softmax takes the maximum of the row from minus infinity (and
once more against minus infinity), subtracts it, sums the exponentials from zero, and subtracts the logarithm of the
sum; on the extended reals these are the supremum, the plain sum and the two differences.
-/

noncomputable section

namespace Cert.ReferenceIdeal.RefValue

open Cert.ReferenceIdeal Cert.ReferenceIdeal.Gen Cert.ReferenceIdeal.ReadP
open Idealize.ShloMosaic Idealize.ShloMosaic.ValueIdx
open scoped BigOperators

variable (a0 : IVec S1 32) (a1 : FVec Ideal S1x1x1024 .f32) (a2 : FVec Ideal S18x1024 .f32) (a3 : FVec Ideal S50257x1024 .f32)
  (a4 : FVec Ideal S18x2048 .f32) (a5 : FVec Ideal S18 .f32) (a6 : FVec Ideal S1024x2048 .f32) (a7 : FVec Ideal S1024 .f32)
  (a8 a9 : FVec Ideal S3072x1024 .f32) (a10 a11 : FVec Ideal S3072 .f32)
  (a12 : FVec Ideal S50257x1024 .f32) (a13 : FVec Ideal S50257 .f32)

/-- The reference's new hidden state as a function of the unit. -/
abbrev logprob_state : Fin 1024 → EReal := fun k => val_main_v69 (F := Ideal) a0 a1 a2 a3 a4 a5 a6 a7 a8 a9 a10 a11 (ix2 (0 : Fin 1) k)

/-- The projection matrix as a function of token and unit. -/
abbrev logprob_W : Fin 50257 → Fin 1024 → EReal := fun v k => a12 (ix2 v k)

/-- The projection bias as a function of the token. -/
abbrev logprob_b : Fin 50257 → EReal := fun v => a13 (ix1 v)

/-- The reference's vocabulary logit of token `v`. -/
theorem logprob_vlogit_apply (v : Fin 50257) :
    val_main_v73 (F := Ideal) a0 a1 a2 a3 a4 a5 a6 a7 a8 a9 a10 a11 a12 a13 (ix2 (0 : Fin 1) v)
      = Cert.Spec.vlogit (logprob_state a0 a1 a2 a3 a4 a5 a6 a7 a8 a9 a10 a11) (logprob_W a12) (logprob_b a13) v := by
  rw [val_main_v73_apply, val_main_v71_apply, val_main_v72_apply]
  unfold Cert.Spec.vlogit
  show (∑ k : Fin 1024, _) + _ = _
  refine congrArg₂ (· + ·) (Finset.sum_congr rfl fun k _ => ?_) ?_
  · have e1 : lidx_main_v71 (ix2 (0 : Fin 1) v) k = ix2 (0 : Fin 1) k :=
      funext fun a => Fin.ext (by match a with | ⟨0, _⟩ => rfl | ⟨1, _⟩ => rfl)
    have e2 : idx_main_v70 (ridx_main_v71 (ix2 (0 : Fin 1) v) k) = ix2 v k :=
      funext fun a => Fin.ext (by match a with | ⟨0, _⟩ => rfl | ⟨1, _⟩ => rfl)
    rw [val_main_v70_apply, e1, e2]
  · exact congrArg a13 (funext fun a => Fin.ext (by match a with | ⟨0, _⟩ => rfl))

/-- The reference's largest vocabulary logit. -/
theorem logprob_vmax_apply :
    val_main_call1_v2 (F := Ideal) a0 a1 a2 a3 a4 a5 a6 a7 a8 a9 a10 a11 a12 a13 (ix1 (0 : Fin 1))
      = Cert.Spec.vmax (logprob_state a0 a1 a2 a3 a4 a5 a6 a7 a8 a9 a10 a11) (logprob_W a12) (logprob_b a13) := by
  have hmax : val_main_call1_v0 (F := Ideal) a0 a1 a2 a3 a4 a5 a6 a7 a8 a9 a10 a11 a12 a13 (ix1 (0 : Fin 1))
      = Finset.univ.sup fun k : Fin 50257 => val_main_v73 (F := Ideal) a0 a1 a2 a3 a4 a5 a6 a7 a8 a9 a10 a11 a12 a13 (ix2 (0 : Fin 1) k) :=
    Cert.RefRow.hostRowMax_apply (n := 50257) _ _ reducesTo_S1x50257_S1_d1 (by decide) h_S_
      ((val_main_call1_cst_apply _).trans Cert.RefRow.ofBits_neg_inf_f32)
  rw [val_main_call1_v2_apply, val_main_call1_v1_apply, val_main_call1_cst_0_apply, hmax]
  show max (Ideal.ofBits .f32 0xFF800000#32) _ = _
  rw [Cert.RefRow.ofBits_neg_inf_f32, max_eq_right bot_le]
  unfold Cert.Spec.vmax
  exact congrArg _ (funext fun v => logprob_vlogit_apply a0 a1 a2 a3 a4 a5 a6 a7 a8 a9 a10 a11 a12 a13 v)

/-- The exponential of a vocabulary logit against the largest. -/
theorem logprob_vexp_apply (v : Fin 50257) :
    val_main_call1_v6 (F := Ideal) a0 a1 a2 a3 a4 a5 a6 a7 a8 a9 a10 a11 a12 a13 (ix2 (0 : Fin 1) v)
      = Ideal.exp (Cert.Spec.vlogit (logprob_state a0 a1 a2 a3 a4 a5 a6 a7 a8 a9 a10 a11) (logprob_W a12) (logprob_b a13) v
          - Cert.Spec.vmax (logprob_state a0 a1 a2 a3 a4 a5 a6 a7 a8 a9 a10 a11) (logprob_W a12) (logprob_b a13)) := by
  have e : idx_main_call1_v3 (idx_main_call1_v4 (ix2 (0 : Fin 1) v)) = ix1 (0 : Fin 1) :=
    funext fun a => Fin.ext (by match a with | ⟨0, _⟩ => rfl)
  rw [val_main_call1_v6_apply, val_main_call1_v5_apply, val_main_call1_v4_apply, val_main_call1_v3_apply, e,
    logprob_vmax_apply, logprob_vlogit_apply]
  rfl

/-- The softmax normaliser of the vocabulary logits. -/
theorem logprob_vsum_apply :
    val_main_call1_v7 (F := Ideal) a0 a1 a2 a3 a4 a5 a6 a7 a8 a9 a10 a11 a12 a13 (ix1 (0 : Fin 1))
      = Cert.Spec.vsum (logprob_state a0 a1 a2 a3 a4 a5 a6 a7 a8 a9 a10 a11) (logprob_W a12) (logprob_b a13) := by
  rw [val_main_call1_v7_apply, val_main_call1_cst_1_apply]
  show Ideal.ofBits .f32 0x00000000#32 + _ = _
  rw [Ideal.ofBits_zero_f32, zero_add]
  unfold Cert.Spec.vsum
  refine Finset.sum_congr rfl fun k _ => ?_
  have e : idx_main_call1_v7 (ix1 (0 : Fin 1)) k = ix2 (0 : Fin 1) k :=
    funext fun a => Fin.ext (by match a with | ⟨0, _⟩ => rfl | ⟨1, _⟩ => rfl)
  rw [e, logprob_vexp_apply]

/-- The reference's log-probabilities (its result %74) are the specification's, from the reference's own new
    hidden state. -/
theorem stage74_eq_logprob (v : Fin 50257) :
    val_main_v74 (F := Ideal) a0 a1 a2 a3 a4 a5 a6 a7 a8 a9 a10 a11 a12 a13 (ix2 (0 : Fin 1) v)
      = Cert.Spec.logprob (logprob_state a0 a1 a2 a3 a4 a5 a6 a7 a8 a9 a10 a11) (logprob_W a12) (logprob_b a13) v := by
  have e1 : idx_main_call1_v8 (idx_main_call1_v10 (ix2 (0 : Fin 1) v)) = ix1 (0 : Fin 1) :=
    funext fun a => Fin.ext (by match a with | ⟨0, _⟩ => rfl)
  have e2 : idx_main_call1_v3 (idx_main_call1_v4 (ix2 (0 : Fin 1) v)) = ix1 (0 : Fin 1) :=
    funext fun a => Fin.ext (by match a with | ⟨0, _⟩ => rfl)
  rw [val_main_v74_apply, val_main_call1_v5_apply, val_main_call1_v10_apply, val_main_call1_v9_apply,
    val_main_call1_v8_apply, e1, logprob_vsum_apply, val_main_call1_v4_apply, val_main_call1_v3_apply, e2,
    logprob_vmax_apply, logprob_vlogit_apply]
  unfold Cert.Spec.logprob
  generalize Cert.Spec.vlogit (logprob_state a0 a1 a2 a3 a4 a5 a6 a7 a8 a9 a10 a11) (logprob_W a12) (logprob_b a13) v = A
  generalize Cert.Spec.vmax (logprob_state a0 a1 a2 a3 a4 a5 a6 a7 a8 a9 a10 a11) (logprob_W a12) (logprob_b a13) = B
  generalize Cert.Spec.vsum (logprob_state a0 a1 a2 a3 a4 a5 a6 a7 a8 a9 a10 a11) (logprob_W a12) (logprob_b a13) = C
  rfl

end Cert.ReferenceIdeal.RefValue

end
-- ==== Proof.RefV.Results.lean ====
import proofs.«160432_j12232066859333_1_alg».proof.Proof.Ref.Stages
import proofs.«160432_j12232066859333_1_alg».proof.Proof.Spec
import proofs.«160432_j12232066859333_1_alg».proof.Proof.RefV.Attention
import proofs.«160432_j12232066859333_1_alg».proof.Proof.RefV.HiddenState
import proofs.«160432_j12232066859333_1_alg».proof.Proof.RefV.LogProb

/-!
# The reference's three results as the specification's functions of its arguments

With the embedded row `e`, the previous hidden state `h` and the twelve weight arrays read entry by entry, the
reference's attention weights are the specification's softmax weights, its new hidden state is the specification's
GRU step, and its log-probabilities are the specification's log-softmax of the projection of that new state.
-/

noncomputable section

namespace Cert.ReferenceIdeal.RefValue

open Cert.ReferenceIdeal Cert.ReferenceIdeal.Gen Cert.ReferenceIdeal.ReadP
open Idealize.ShloMosaic Idealize.ShloMosaic.ValueIdx
open scoped BigOperators

variable (a0 : IVec S1 32) (a1 : FVec Ideal S1x1x1024 .f32) (a2 : FVec Ideal S18x1024 .f32)
  (a3 : FVec Ideal S50257x1024 .f32) (a4 : FVec Ideal S18x2048 .f32) (a5 : FVec Ideal S18 .f32)
  (a6 : FVec Ideal S1024x2048 .f32) (a7 : FVec Ideal S1024 .f32) (a8 a9 : FVec Ideal S3072x1024 .f32)
  (a10 a11 : FVec Ideal S3072 .f32) (a12 : FVec Ideal S50257x1024 .f32) (a13 : FVec Ideal S50257 .f32)

/-- The specification's new hidden state of the reference's arguments. -/
abbrev hNew : Fin 1024 → EReal :=
  Cert.Spec.hnew (eRow a0 a3) (hRow a1) (mat a2) (mat a4) (vec a5) (mat a6) (vec a7) (mat a8) (mat a9) (vec a10) (vec a11)

/-- The attention weights: the reference's result %26. -/
theorem stage26_eq_attn (j : Fin 18) :
    val_main_v26 (F := Ideal) a0 a1 a3 a4 a5 (ix2 (0 : Fin 1) j)
      = Cert.Spec.attn (eRow a0 a3) (hRow a1) (mat a4) (vec a5) j :=
  attn_apply a0 a1 a3 a4 a5 j

/-- The new hidden state: the reference's result %75. -/
theorem stage75_eq_hnew (k : Fin 1024) :
    val_main_v75 (F := Ideal) a0 a1 a2 a3 a4 a5 a6 a7 a8 a9 a10 a11 (ix3 (0 : Fin 1) (0 : Fin 1) k) = hNew a0 a1 a2 a3 a4 a5 a6 a7 a8 a9 a10 a11 k :=
  hnew_apply a0 a1 a2 a3 a4 a5 a6 a7 a8 a9 a10 a11 k

/-- The log-probabilities: the reference's result %74. -/
theorem stage74_eq_logprob_of_args (v : Fin 50257) :
    val_main_v74 (F := Ideal) a0 a1 a2 a3 a4 a5 a6 a7 a8 a9 a10 a11 a12 a13 (ix2 (0 : Fin 1) v)
      = Cert.Spec.logprob (hNew a0 a1 a2 a3 a4 a5 a6 a7 a8 a9 a10 a11) (mat a12) (vec a13) v := by
  have hs : logprob_state a0 a1 a2 a3 a4 a5 a6 a7 a8 a9 a10 a11 = hNew a0 a1 a2 a3 a4 a5 a6 a7 a8 a9 a10 a11 := funext fun k => hnew_row_apply a0 a1 a2 a3 a4 a5 a6 a7 a8 a9 a10 a11 k
  exact (stage74_eq_logprob a0 a1 a2 a3 a4 a5 a6 a7 a8 a9 a10 a11 a12 a13 v).trans
    (congrArg (fun s => Cert.Spec.logprob s (mat a12) (vec a13) v) hs)

end Cert.ReferenceIdeal.RefValue

end
-- ==== Proof.ResultsAgree.lean ====
import proofs.«160432_j12232066859333_1_alg».proof.Proof.ArgsAgree
import proofs.«160432_j12232066859333_1_alg».proof.Proof.RefV.Results

/-!
# From memories that agree on the arguments, the two programs return the same three arrays

The reference's three results are the specification's attention weights, new hidden state and log-probabilities of
the thirteen functions read off its memory; the idealized kernel program's three results, at what its run leaves,
are the same specification's functions of the thirteen read off its own memory. The two memories agree on the
arguments, so the thirteen functions coincide and the three result arrays are equal, entry by entry and hence as
arrays: the attention weights and the new hidden state always, the log-probabilities under the precondition.
-/

noncomputable section

namespace Cert.Proof.ResultsAgree

open Idealize.ShloMosaic Idealize.ShloMosaic.TcCoe Idealize.ShloMosaic.ValueIdx
open Cert.KernelIdeal.KernelValue
open Cert.ReferenceIdeal.RefValue Cert.ReferenceIdeal.ReadP
open Cert.Proof.ArgsAgree (Agree ra0 ra1 ra2 ra3 ra4 ra5 ra6 ra7 ra8 ra9 ra10 ra11 ra12 ra13)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (hag : Agree m m' c)

include hag

/-- The specification's new hidden state of the reference's arguments, in the reference side's own vocabulary. -/
theorem hNew_agree : hNew (ra0 m' c) (ra1 m' c) (ra2 m' c) (ra3 m' c) (ra4 m' c) (ra5 m' c) (ra6 m' c) (ra7 m' c) (ra8 m' c) (ra9 m' c) (ra10 m' c) (ra11 m' c) = newHidden m c :=
  ArgsAgree.newHidden_agree m m' c hag

/-- The attention weights the two programs return are the same array. -/
theorem attn_agree :
    (val_main_v26 (F := Ideal) (ra0 m' c) (ra1 m' c) (ra3 m' c) (ra4 m' c) (ra5 m' c) : FVec Ideal Cert.KernelIdeal.S1x18 .f32)
      = (Cert.KernelIdeal.Gen.V5 m (Cert.KernelIdeal.Whole.outs m) c Cert.KernelIdeal.main_v14_1
          : FVec Ideal Cert.KernelIdeal.S1x18 .f32) := by
  refine Eq.trans ?_ (attn_final_array m c).symm
  funext i
  obtain ⟨r, j, rfl⟩ : ∃ (r : Fin 1) (j : Fin 18), i = ix2 r j := ⟨i 0, i 1, eq_ix2 i⟩
  obtain rfl : r = 0 := Subsingleton.elim _ _
  refine (stage26_eq_attn (ra0 m' c) (ra1 m' c) (ra3 m' c) (ra4 m' c) (ra5 m' c) j).trans ?_
  show Cert.Spec.attn (fun k : Fin 1024 => embRow' (ra0 m' c) (ra3 m' c) (ix2 (0 : Fin 1) k))
      (fun k : Fin 1024 => ra1 m' c (ix3 (0 : Fin 1) (0 : Fin 1) k))
      (fun (j : Fin 18) (k : Fin 2048) => ra4 m' c (ix2 j k)) (fun j : Fin 18 => ra5 m' c (ix1 j)) j = _
  rw [ArgsAgree.embedded_agree m m' c hag, ArgsAgree.hidden_agree m m' c hag, ArgsAgree.attnW_agree m m' c hag,
    ArgsAgree.attnB_agree m m' c hag]

/-- The hidden states the two programs return are the same array. -/
theorem hidden_agree :
    (val_main_v75 (F := Ideal) (ra0 m' c) (ra1 m' c) (ra2 m' c) (ra3 m' c) (ra4 m' c) (ra5 m' c) (ra6 m' c) (ra7 m' c) (ra8 m' c) (ra9 m' c) (ra10 m' c) (ra11 m' c)
        : FVec Ideal Cert.KernelIdeal.S1x1x1024 .f32)
      = (Cert.KernelIdeal.Gen.V5 m (Cert.KernelIdeal.Whole.outs m) c Cert.KernelIdeal.main_v22
          : FVec Ideal Cert.KernelIdeal.S1x1x1024 .f32) := by
  refine Eq.trans ?_ (hidden_final_array m c).symm
  funext i
  obtain ⟨r, s, k, rfl⟩ : ∃ (r s : Fin 1) (k : Fin 1024), i = ix3 r s k := ⟨i 0, i 1, i 2, eq_ix3 i⟩
  obtain rfl : r = 0 := Subsingleton.elim _ _
  obtain rfl : s = 0 := Subsingleton.elim _ _
  refine (stage75_eq_hnew (ra0 m' c) (ra1 m' c) (ra2 m' c) (ra3 m' c) (ra4 m' c) (ra5 m' c) (ra6 m' c) (ra7 m' c) (ra8 m' c) (ra9 m' c) (ra10 m' c) (ra11 m' c) k).trans ?_
  exact congrFun (hNew_agree m m' c hag) k

/-- Under the precondition the log-probabilities the two programs return are the same array. -/
theorem logprob_agree (hpre : Cert.Pre_KernelIdeal m) :
    (val_main_v74 (F := Ideal) (ra0 m' c) (ra1 m' c) (ra2 m' c) (ra3 m' c) (ra4 m' c) (ra5 m' c) (ra6 m' c) (ra7 m' c) (ra8 m' c) (ra9 m' c) (ra10 m' c) (ra11 m' c) (ra12 m' c) (ra13 m' c)
        : FVec Ideal Cert.KernelIdeal.S1x50257 .f32)
      = (Cert.KernelIdeal.Gen.V5 m (Cert.KernelIdeal.Whole.outs m) c Cert.KernelIdeal.main_v21
          : FVec Ideal Cert.KernelIdeal.S1x50257 .f32) := by
  refine Eq.trans ?_ (logprob_final_array m hpre c).symm
  funext i
  obtain ⟨r, v, rfl⟩ : ∃ (r : Fin 1) (v : Fin 50257), i = ix2 r v := ⟨i 0, i 1, eq_ix2 i⟩
  obtain rfl : r = 0 := Subsingleton.elim _ _
  refine (stage74_eq_logprob_of_args (ra0 m' c) (ra1 m' c) (ra2 m' c) (ra3 m' c) (ra4 m' c) (ra5 m' c) (ra6 m' c) (ra7 m' c) (ra8 m' c) (ra9 m' c) (ra10 m' c) (ra11 m' c) (ra12 m' c) (ra13 m' c) v).trans ?_
  show Cert.Spec.logprob (hNew (ra0 m' c) (ra1 m' c) (ra2 m' c) (ra3 m' c) (ra4 m' c) (ra5 m' c) (ra6 m' c) (ra7 m' c) (ra8 m' c) (ra9 m' c) (ra10 m' c) (ra11 m' c))
      (fun (v : Fin 50257) (k : Fin 1024) => ra12 m' c (ix2 v k)) (fun v : Fin 50257 => ra13 m' c (ix1 v)) v = _
  rw [hNew_agree m m' c hag, ArgsAgree.projW_agree m m' c hag, ArgsAgree.projB_agree m m' c hag]

end Cert.Proof.ResultsAgree

end
-- ==== Proof.ValueClaims.lean ====
import proofs.«160432_j12232066859333_1_alg».proof.Defs
import proofs.«160432_j12232066859333_1_alg».proof.Proof.Gen.Pre_finite_inputs
import proofs.«160432_j12232066859333_1_alg».proof.Proof.Gen.ReferenceIdeal
import proofs.«160432_j12232066859333_1_alg».proof.Proof.KI.Run
import proofs.«160432_j12232066859333_1_alg».proof.Proof.Ref.Run
import proofs.«160432_j12232066859333_1_alg».proof.Proof.ResultsAgree

/-!
The two idealized programs end with equal results.

The kernel program's three results are what its run leaves in the log-probabilities', the new hidden state's and
the attention weights' buffers: the last valuation there. Index by index these are the specification's
log-probabilities, new hidden state and attention weights of the launch memory's argument arrays; the reference's
three results are the same functions of ITS argument arrays, which agree with the kernel program's by hypothesis.
-/

noncomputable section

namespace Cert.Proof.ValueClaims

open Cert.KernelIdeal Cert.KernelIdeal.Gen
open Idealize.ShloMosaic Idealize.ShloMosaic.TcCoe Idealize.SL.Sem

/-- The kernel program's half: it runs, its three results are the last valuation at their buffers, its arguments
    are unchanged. -/
theorem kernel_half (m : (ℓ : Loc nD τ sig) → Buf (Elt Ideal) ℓ) (g : Dev nD → PrngReg) :
    θ_run (Cert.KernelIdeal.defs (F := Ideal)) (onTc (τ := τ) (main (F := Ideal))) ⟨m, fun _ => 0, g⟩ (fun r => ∀ c : Dev nD,
      r.2.mem ((c.tc : Thread nD τ).loc main_v21) = Gen.V5 m (Whole.outs m) c main_v21
      ∧ r.2.mem ((c.tc : Thread nD τ).loc main_v22) = Gen.V5 m (Whole.outs m) c main_v22
      ∧ r.2.mem ((c.tc : Thread nD τ).loc main_v14_1) = Gen.V5 m (Whole.outs m) c main_v14_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run Cert.KernelIdeal.defs _ _).mono (fun r h c =>
    ⟨h c (Proc.devRef .tc main_v21) (Finset.mem_filter.mpr ⟨StableHlo.devRef_mem_tcRefs main_v21, by decide⟩),
      h c (Proc.devRef .tc main_v22) (Finset.mem_filter.mpr ⟨StableHlo.devRef_mem_tcRefs main_v22, by decide⟩),
      h c (Proc.devRef .tc main_v14_1) (Finset.mem_filter.mpr ⟨StableHlo.devRef_mem_tcRefs main_v14_1, by decide⟩),
      (h c (Proc.devRef .tc main_arg0) (Finset.mem_filter.mpr ⟨StableHlo.devRef_mem_tcRefs main_arg0, by decide⟩)).trans (Gen.V5_main_arg0 m (Whole.outs m) c),
      (h c (Proc.devRef .tc main_arg1) (Finset.mem_filter.mpr ⟨StableHlo.devRef_mem_tcRefs main_arg1, by decide⟩)).trans (Gen.V5_main_arg1 m (Whole.outs m) c),
      (h c (Proc.devRef .tc main_arg2) (Finset.mem_filter.mpr ⟨StableHlo.devRef_mem_tcRefs main_arg2, by decide⟩)).trans (Gen.V5_main_arg2 m (Whole.outs m) c),
      (h c (Proc.devRef .tc main_arg3) (Finset.mem_filter.mpr ⟨StableHlo.devRef_mem_tcRefs main_arg3, by decide⟩)).trans (Gen.V5_main_arg3 m (Whole.outs m) c),
      (h c (Proc.devRef .tc main_arg4) (Finset.mem_filter.mpr ⟨StableHlo.devRef_mem_tcRefs main_arg4, by decide⟩)).trans (Gen.V5_main_arg4 m (Whole.outs m) c),
      (h c (Proc.devRef .tc main_arg5) (Finset.mem_filter.mpr ⟨StableHlo.devRef_mem_tcRefs main_arg5, by decide⟩)).trans (Gen.V5_main_arg5 m (Whole.outs m) c),
      (h c (Proc.devRef .tc main_arg6) (Finset.mem_filter.mpr ⟨StableHlo.devRef_mem_tcRefs main_arg6, by decide⟩)).trans (Gen.V5_main_arg6 m (Whole.outs m) c),
      (h c (Proc.devRef .tc main_arg7) (Finset.mem_filter.mpr ⟨StableHlo.devRef_mem_tcRefs main_arg7, by decide⟩)).trans (Gen.V5_main_arg7 m (Whole.outs m) c),
      (h c (Proc.devRef .tc main_arg8) (Finset.mem_filter.mpr ⟨StableHlo.devRef_mem_tcRefs main_arg8, by decide⟩)).trans (Gen.V5_main_arg8 m (Whole.outs m) c),
      (h c (Proc.devRef .tc main_arg9) (Finset.mem_filter.mpr ⟨StableHlo.devRef_mem_tcRefs main_arg9, by decide⟩)).trans (Gen.V5_main_arg9 m (Whole.outs m) c),
      (h c (Proc.devRef .tc main_arg10) (Finset.mem_filter.mpr ⟨StableHlo.devRef_mem_tcRefs main_arg10, by decide⟩)).trans (Gen.V5_main_arg10 m (Whole.outs m) c),
      (h c (Proc.devRef .tc main_arg11) (Finset.mem_filter.mpr ⟨StableHlo.devRef_mem_tcRefs main_arg11, by decide⟩)).trans (Gen.V5_main_arg11 m (Whole.outs m) c),
      (h c (Proc.devRef .tc main_arg12) (Finset.mem_filter.mpr ⟨StableHlo.devRef_mem_tcRefs main_arg12, by decide⟩)).trans (Gen.V5_main_arg12 m (Whole.outs m) c),
      (h c (Proc.devRef .tc main_arg13) (Finset.mem_filter.mpr ⟨StableHlo.devRef_mem_tcRefs main_arg13, by decide⟩)).trans (Gen.V5_main_arg13 m (Whole.outs m) c)⟩) (Cert.KernelIdeal.Whole.run m g)

/-- From memories agreeing on the arguments, finite on every float input, the idealized kernel program and the
    idealized reference both run and end with equal log-probabilities, new hidden state and attention weights:
    the kernel program's results are the last valuation at their buffers; the reference's are its result stages of its
    own arguments; the two are the same functions of arguments that agree. -/
theorem algebraic : Cert.algebraic_KernelIdeal_ReferenceIdeal := by
  intro m g m' g' hpre hagree
  refine ⟨fun c => Gen.V5 m (Whole.outs m) c main_v21, fun c => Gen.V5 m (Whole.outs m) c main_v22,
    fun c => Gen.V5 m (Whole.outs m) c main_v14_1, kernel_half m g, ?_⟩
  refine (θ_run Cert.ReferenceIdeal.defs _ _).mono (fun r h c => ?_) (Cert.ReferenceIdeal.RefRun.run (F := Ideal) m' g')
  obtain ⟨⟨h74, h75, h26⟩, hargs⟩ := h c
  exact ⟨h74.trans (Cert.Proof.ResultsAgree.logprob_agree m m' c (hagree c) hpre),
    h75.trans (Cert.Proof.ResultsAgree.hidden_agree m m' c (hagree c)),
    h26.trans (Cert.Proof.ResultsAgree.attn_agree m m' c (hagree c)), hargs⟩

end Cert.Proof.ValueClaims

end
-- ==== Proof.Ref.Frame.lean ====
import proofs.«160432_j12232066859333_1_alg».proof.Defs
import proofs.«160432_j12232066859333_1_alg».proof.Proof.Gen.Pre_finite_inputs
import proofs.«160432_j12232066859333_1_alg».proof.Proof.Ref.Run

/-!
# The reference's frame

The reference runs to its end without a fault and writes no argument: its run at the ideal instance, with what it
says of the three results dropped. The precondition is not used — a host program of total operations runs from any
memory.
-/

noncomputable section

open Idealize.ShloMosaic Idealize.SL.Sem

namespace Cert.Proof.Ref

/-- The reference's frame: the run with the results dropped. -/
theorem frame_ri : Cert.frame_ReferenceIdeal :=
  fun m ρ _ => (θ_run Cert.ReferenceIdeal.defs _ _).mono (fun _ h c => (h c).2)
    (Cert.ReferenceIdeal.RefRun.run (F := Ideal) m ρ)

end Cert.Proof.Ref

end
-- ==== Proof.lean ====
/-
  One decoder step of an attention RNN: an embedding row, additive attention over eighteen encoder positions,
  a combining layer with relu, one GRU step, a projection to 50257 vocabulary logits and a log-softmax.

  The kernel computes the recurrent step in one launch (every operand a single block) and the projection in a
  second launch over thirteen tiles of 4096 vocabulary columns, the last tile reaching 2991 columns past the
  vocabulary. A column past the vocabulary is filled with minus infinity before the tile's maximum and its sum of
  exponentials are taken, so it is neutral for the running maximum and adds `exp ⊥ = 0` to the running sum; the
  running sum is rescaled by `exp (old maximum - new maximum)` at every tile, and the log-probabilities are the
  logits minus the last running maximum minus the logarithm of the last running sum. Over finite inputs every
  tile holds a real logit, every running maximum is a real, the rescalings telescope, and the last running maximum
  and sum are the maximum and the softmax normaliser of the 50257 logits: the reference's log-softmax
  (Proof/LibMaskedOnlineSoftmax.lean states and proves that identity on the extended reals).

  The word-level kernel's frame is run over relational proof data (Proof/KF/); the idealized kernel program has one
  exact run at the extended reals (Proof/KI/Run.lean), from which its frame and its three results are read; the
  reference's run is over its operations' stages (Proof/Ref/), read at an index in Proof/RefV/; both programs'
  results are the specification's functions (Proof/Spec.lean) of arguments that agree (Proof/ValueClaims.lean).
-/
import proofs.«160432_j12232066859333_1_alg».proof.Defs
import proofs.«160432_j12232066859333_1_alg».proof.Proof.Gen.Kernel
import proofs.«160432_j12232066859333_1_alg».proof.Proof.Gen.KernelIdeal
import proofs.«160432_j12232066859333_1_alg».proof.Proof.Gen.ReferenceIdeal
import proofs.«160432_j12232066859333_1_alg».proof.Proof.Gen.Pre_finite_inputs
import proofs.«160432_j12232066859333_1_alg».proof.Proof.RefClaims
import proofs.«160432_j12232066859333_1_alg».proof.Proof.LibMaskedOnlineSoftmax
import proofs.«160432_j12232066859333_1_alg».proof.Proof.KI.Claims
import proofs.«160432_j12232066859333_1_alg».proof.Proof.KF.Frame
import proofs.«160432_j12232066859333_1_alg».proof.Proof.ValueClaims
import proofs.«160432_j12232066859333_1_alg».proof.Proof.Ref.Frame
import Idealize.ShloMosaic.Adequacy
import Idealize.ShloMosaic.Init

noncomputable section

namespace Cert.Proof

open Idealize.ShloMosaic Idealize.SL.Sem

/-- The word-level kernel program runs to the end, faults nowhere and leaves its fourteen argument arrays as
    launched: its frame needs no contents, so both launches are run over relational proof data. -/
theorem frame_k : Cert.frame_Kernel := fun m ρ _ => Cert.Kernel.Hand.frame (F := Bits) m ρ

theorem claim : Cert.Claim :=
  ⟨Cert.Kernel.Gen.facts, Cert.KernelIdeal.Gen.facts, Cert.ReferenceIdeal.Gen.facts, Cert.Pre_finite_inputs.Gen.facts,
    frame_k, KernelIdealClaims.frame_ki, Cert.Proof.Ref.frame_ri, RefClaims.preserves, ValueClaims.algebraic⟩

end Cert.Proof

end
